-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part5 {F : FTy → Type} [FloatOps F] (main_arg19 : FVec F S32 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  main_v93

def fn_part4 {F : FTy → Type} [FloatOps F] (main_arg15 : FVec F S32 .f32) (main_arg16 : FVec F S32 .f32) (main_arg17 : FVec F S32 .f32) (main_arg18 : FVec F S32x32 .f32) (main_arg19 : FVec F S32 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32x32 .f32) (main_arg19 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32x32 .f32) (main_arg19 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32x32 .f32) (main_arg19 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32x32 .f32) (main_arg19 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S5000 : Shape := ⟨1, ![5000]⟩
abbrev S5000x1 : Shape := ⟨2, ![5000, 1]⟩
abbrev S1x128 : Shape := ⟨2, ![1, 128]⟩
abbrev S1600000x128 : Shape := ⟨2, ![1600000, 128]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 186
  | .vmem => 58
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x32, .f32⟩
  | 15 => ⟨S32, .f32⟩
  | 16 => ⟨S32, .f32⟩
  | 17 => ⟨S32, .f32⟩
  | 18 => ⟨S32x32, .f32⟩
  | 19 => ⟨S32, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S100000, .f32⟩
  | 35 => ⟨S_, .f32⟩
  | 36 => ⟨S64, .f32⟩
  | 37 => ⟨S1x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x1, .f32⟩
  | 68 => ⟨S1600000x64, .f32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x1, .f32⟩
  | 75 => ⟨S100000x64, .f32⟩
  | 76 => ⟨S100000x64, .f32⟩
  | 77 => ⟨S100000x64, .f32⟩
  | 78 => ⟨S1x64, .f32⟩
  | 79 => ⟨S1x64, .f32⟩
  | 80 => ⟨S1x64, .f32⟩
  | 81 => ⟨S100000x64, .f32⟩
  | 82 => ⟨S_, .f32⟩
  | 83 => ⟨S128, .f32⟩
  | 84 => ⟨S1x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x1, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S100000x128, .f32⟩
  | 1 => ⟨S_, .f32⟩
  | 2 => ⟨S64, .f32⟩
  | 3 => ⟨S1x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x1, .f32⟩
  | 34 => ⟨S1600000x64, .f32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x1, .f32⟩
  | 41 => ⟨S100000x64, .f32⟩
  | 42 => ⟨S100000x64, .f32⟩
  | 43 => ⟨S100000x64, .f32⟩
  | 44 => ⟨S1x64, .f32⟩
  | 45 => ⟨S1x64, .f32⟩
  | 46 => ⟨S1x64, .f32⟩
  | 47 => ⟨S100000x64, .f32⟩
  | 48 => ⟨S1x32, .f32⟩
  | 49 => ⟨S100000x32, .f32⟩
  | 50 => ⟨S_, .f32⟩
  | 51 => ⟨S32, .f32⟩
  | 52 => ⟨S1x32, .f32⟩
  | 53 => ⟨S1x32, .f32⟩
  | 54 => ⟨S1x32, .f32⟩
  | 55 => ⟨S100000x32, .f32⟩
  | 56 => ⟨S1x32, .f32⟩
  | 57 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x32, .f32⟩
  | .local _ .vmem, ⟨42, _⟩ => ⟨S1x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S1x32, .f32⟩
  | .local _ .vmem, ⟨48, _⟩ => ⟨S1x32, .f32⟩
  | .local _ .vmem, ⟨49, _⟩ => ⟨S1x32, .f32⟩
  | .local _ .vmem, ⟨50, _⟩ => ⟨S5000x32, .f32⟩
  | .local _ .vmem, ⟨51, _⟩ => ⟨S5000x32, .f32⟩
  | .local _ .vmem, ⟨52, _⟩ => ⟨S5000x32, .f32⟩
  | .local _ .vmem, ⟨53, _⟩ => ⟨S5000x32, .f32⟩
  | .local _ .vmem, ⟨54, _⟩ => ⟨S32x32, .f32⟩
  | .local _ .vmem, ⟨55, _⟩ => ⟨S1x32, .f32⟩
  | .local _ .vmem, ⟨56, _⟩ => ⟨S5000x32, .f32⟩
  | .local _ .vmem, ⟨57, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_18 : Ref sig .tc := ⟨.hbm, 133, rfl⟩
abbrev main_v93 : Ref sig .tc := ⟨.hbm, 134, rfl⟩
abbrev main_v94 : Ref sig .tc := ⟨.hbm, 135, rfl⟩
abbrev main_c_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_20 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_22 : Ref sig .tc := ⟨.hbm, 152, rfl⟩
abbrev main_v108 : Ref sig .tc := ⟨.hbm, 153, rfl⟩
abbrev main_v109 : Ref sig .tc := ⟨.hbm, 154, rfl⟩
abbrev main_c_23 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_24 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_25 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg4_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg4_0 : Ref sig .tc := ⟨.vmem, 50, rfl⟩
abbrev cc7_stg4_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem4_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem4_0 : DmaSem sig := 50
abbrev cc7_sem4_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem3_1 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S64 : S_.BroadcastsInDim S64 (![] : Fin 0 → Fin S64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  bcast_S_S128 : S_.BroadcastsInDim S128 (![] : Fin 0 → Fin S128.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  reduces_S5000x128_S5000 : S5000x128.Reduces [1] S5000
  broadcasts_S5000x1_S5000x128 : S5000x1.Broadcasts S5000x128
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S32 : S_.BroadcastsInDim S32 (![] : Fin 0 → Fin S32.rank)
  shapeCasts_S5000x32_S5000x32 : S5000x32.ShapeCasts S5000x32
  reduces_S5000x32_S5000 : S5000x32.Reduces [1] S5000
  broadcasts_S5000x1_S5000x32 : S5000x1.Broadcasts S5000x32
  inb_S32x32_S32x32_0_0 : ∀ a, (![0, 0] : Fin 2 → Nat) a + S32x32.size a ≤ S32x32.size a
  h_S32x32 : 0 < S32x32.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x32.size a ≤ S100000x32.size a
  hwx6_3 : ∀ i : grid6.Coords, EltTy.bits .f32 = 32 ∨ (Rect.block (s := S100000x32) S5000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x32.size a ≤ S100000x32.size a
  hwx7_4 : ∀ i : grid7.Coords, EltTy.bits .f32 = 32 ∨ (Rect.block (s := S100000x32) S5000x32.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x32.size a ≤ S100000x32.size a
  hwx8_3 : ∀ i : grid8.Coords, EltTy.bits .f32 = 32 ∨ (Rect.block (s := S100000x32) S5000x32.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v124) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v128) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S5000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v130) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v132) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v134) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S5000x32.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v135) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v136) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v137) S5000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1600000x128 : Shape := ⟨2, ![1600000, 128]⟩
abbrev S1x128 : Shape := ⟨2, ![1, 128]⟩
abbrev S100000x32 : Shape := ⟨2, ![100000, 32]⟩
abbrev S1x32 : Shape := ⟨2, ![1, 32]⟩

abbrev nBuf : Space → Nat
  | .hbm => 370
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x32, .f32⟩
  | 15 => ⟨S32, .f32⟩
  | 16 => ⟨S32, .f32⟩
  | 17 => ⟨S32, .f32⟩
  | 18 => ⟨S32x32, .f32⟩
  | 19 => ⟨S32, .f32⟩
  | 20 => ⟨S1x1600000, .i32⟩
  | 21 => ⟨S1600000, .i32⟩
  | 22 => ⟨S1x1600000, .i32⟩
  | 23 => ⟨S1600000, .i32⟩
  | 24 => ⟨S100000x64, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S100000, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x64, .f32⟩
  | 85 => ⟨S100000x64, .f32⟩
  | 86 => ⟨S100000x64, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x64, .f32⟩
  | 94 => ⟨S100000x64, .f32⟩
  | 95 => ⟨S_, .f32⟩
  | 96 => ⟨S100000x1, .f32⟩
  | 97 => ⟨S100000x1, .f32⟩
  | 98 => ⟨S100000x1, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .i1⟩
  | 110 => ⟨S_, .f32⟩
  | 111 => ⟨S100000x64, .f32⟩
  | 112 => ⟨S100000x64, .i1⟩
  | 113 => ⟨S_, .f32⟩
  | 114 => ⟨S_, .f32⟩
  | 115 => ⟨S100000x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S100000x128, .f32⟩
  | 123 => ⟨S_, .f32⟩
  | 124 => ⟨S1600000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1600000x1, .f32⟩
  | 34 => ⟨S1600000x128, .f32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .f32⟩
  | 66 => ⟨S100000x1, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .i1⟩
  | 80 => ⟨S_, .f32⟩
  | 81 => ⟨S100000x128, .f32⟩
  | 82 => ⟨S100000x128, .i1⟩
  | 83 => ⟨S_, .f32⟩
  | 84 => ⟨S_, .f32⟩
  | 85 => ⟨S100000x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S100000x64, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_2 (i : Nat) : BufTy := match i % 128 with
  | 0 => ⟨S1600000, .i32⟩
  | 1 => ⟨S1600000x1, .i32⟩
  | 2 => ⟨S1600000x64, .f32⟩
  | 3 => ⟨S1600000x1, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S100000x64, .f32⟩
  | 27 => ⟨S_, .f32⟩
  | 28 => ⟨S100000, .f32⟩
  | 29 => ⟨S100000x1, .f32⟩
  | 30 => ⟨S_, .f32⟩
  | 31 => ⟨S100000x1, .f32⟩
  | 32 => ⟨S100000x1, .f32⟩
  | 33 => ⟨S100000x64, .f32⟩
  | 34 => ⟨S100000x64, .f32⟩
  | 35 => ⟨S_, .f32⟩
  | 36 => ⟨S100000x1, .f32⟩
  | 37 => ⟨S100000x1, .f32⟩
  | 38 => ⟨S100000x1, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .i1⟩
  | 50 => ⟨S_, .f32⟩
  | 51 => ⟨S100000x64, .f32⟩
  | 52 => ⟨S100000x64, .i1⟩
  | 53 => ⟨S_, .f32⟩
  | 54 => ⟨S_, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000, .f32⟩
  | 68 => ⟨S100000x1, .f32⟩
  | 69 => ⟨S_, .f32⟩
  | 70 => ⟨S100000x1, .f32⟩
  | 71 => ⟨S100000x1, .f32⟩
  | 72 => ⟨S100000x32, .f32⟩
  | 73 => ⟨S100000x32, .f32⟩
  | 74 => ⟨S100000x32, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x32, .f32⟩
  | 82 => ⟨S100000x32, .f32⟩
  | 83 => ⟨S_, .f32⟩
  | 84 => ⟨S100000x1, .f32⟩
  | 85 => ⟨S100000x1, .f32⟩
  | 86 => ⟨S100000x1, .f32⟩
  | 87 => ⟨S100000x32, .f32⟩
  | 88 => ⟨S100000x32, .f32⟩
  | 89 => ⟨S1x32, .f32⟩
  | 90 => ⟨S100000x32, .f32⟩
  | 91 => ⟨S100000x32, .f32⟩
  | 92 => ⟨S1x32, .f32⟩
  | 93 => ⟨S100000x32, .f32⟩
  | 94 => ⟨S100000x32, .f32⟩
  | 95 => ⟨S_, .f32⟩
  | 96 => ⟨S100000x32, .f32⟩
  | 97 => ⟨S100000x32, .i1⟩
  | 98 => ⟨S_, .f32⟩
  | 99 => ⟨S100000x32, .f32⟩
  | 100 => ⟨S100000x32, .i1⟩
  | 101 => ⟨S_, .f32⟩
  | 102 => ⟨S_, .f32⟩
  | 103 => ⟨S100000x32, .f32⟩
  | 104 => ⟨S100000x32, .f32⟩
  | 105 => ⟨S100000x32, .f32⟩
  | 106 => ⟨S_, .f32⟩
  | 107 => ⟨S100000x32, .f32⟩
  | 108 => ⟨S100000x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call0_cst : Ref sig .tc := ⟨.hbm, 107, rfl⟩
abbrev main_call0_v0 : Ref sig .tc := ⟨.hbm, 108, rfl⟩
abbrev main_call0_v1 : Ref sig .tc := ⟨.hbm, 109, rfl⟩
abbrev main_call0_cst_0 : Ref sig .tc := ⟨.hbm, 110, rfl⟩
abbrev main_call0_v2 : Ref sig .tc := ⟨.hbm, 111, rfl⟩
abbrev main_call0_v3 : Ref sig .tc := ⟨.hbm, 112, rfl⟩
abbrev main_call0_cst_1 : Ref sig .tc := ⟨.hbm, 113, rfl⟩
abbrev main_call0_call0_v0 : Ref sig .tc := ⟨.hbm, 114, rfl⟩
abbrev main_call0_call0_v1 : Ref sig .tc := ⟨.hbm, 115, rfl⟩
abbrev main_call0_v4 : Ref sig .tc := ⟨.hbm, 116, rfl⟩
abbrev main_call0_v5 : Ref sig .tc := ⟨.hbm, 117, rfl⟩
abbrev main_call0_cst_2 : Ref sig .tc := ⟨.hbm, 118, rfl⟩
abbrev main_call0_v6 : Ref sig .tc := ⟨.hbm, 119, rfl⟩
abbrev main_call0_v7 : Ref sig .tc := ⟨.hbm, 120, rfl⟩
abbrev main_v72 : Ref sig .tc := ⟨.hbm, 121, rfl⟩
abbrev main_v73 : Ref sig .tc := ⟨.hbm, 122, rfl⟩
abbrev main_cst_13 : Ref sig .tc := ⟨.hbm, 123, rfl⟩
abbrev main_v74 : Ref sig .tc := ⟨.hbm, 124, rfl⟩
abbrev main_cst_14 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_15 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_16 : Ref sig .tc := ⟨.hbm, 133, rfl⟩
abbrev main_v81 : Ref sig .tc := ⟨.hbm, 134, rfl⟩
abbrev main_v82 : Ref sig .tc := ⟨.hbm, 135, rfl⟩
abbrev main_c_17 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_18 : Ref sig .tc := ⟨.hbm, 142, rfl⟩
abbrev main_v88 : Ref sig .tc := ⟨.hbm, 143, rfl⟩
abbrev main_v89 : Ref sig .tc := ⟨.hbm, 144, rfl⟩
abbrev main_c_19 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_20 : Ref sig .tc := ⟨.hbm, 152, rfl⟩
abbrev main_v96 : Ref sig .tc := ⟨.hbm, 153, rfl⟩
abbrev main_v97 : Ref sig .tc := ⟨.hbm, 154, rfl⟩
abbrev main_c_21 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_22 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_23 : Ref sig .tc := ⟨.hbm, 176, rfl⟩
abbrev main_v117 : Ref sig .tc := ⟨.hbm, 177, rfl⟩
abbrev main_v118 : Ref sig .tc := ⟨.hbm, 178, rfl⟩
abbrev main_cst_24 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_25 : Ref sig .tc := ⟨.hbm, 185, rfl⟩
abbrev main_v124 : Ref sig .tc := ⟨.hbm, 186, rfl⟩
abbrev main_v125 : Ref sig .tc := ⟨.hbm, 187, rfl⟩
abbrev main_cst_26 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_27 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_call1_cst : Ref sig .tc := ⟨.hbm, 205, rfl⟩
abbrev main_call1_v0 : Ref sig .tc := ⟨.hbm, 206, rfl⟩
abbrev main_call1_v1 : Ref sig .tc := ⟨.hbm, 207, rfl⟩
abbrev main_call1_cst_0 : Ref sig .tc := ⟨.hbm, 208, rfl⟩
abbrev main_call1_v2 : Ref sig .tc := ⟨.hbm, 209, rfl⟩
abbrev main_call1_v3 : Ref sig .tc := ⟨.hbm, 210, rfl⟩
abbrev main_call1_cst_1 : Ref sig .tc := ⟨.hbm, 211, rfl⟩
abbrev main_call1_call0_v0 : Ref sig .tc := ⟨.hbm, 212, rfl⟩
abbrev main_call1_call0_v1 : Ref sig .tc := ⟨.hbm, 213, rfl⟩
abbrev main_call1_v4 : Ref sig .tc := ⟨.hbm, 214, rfl⟩
abbrev main_call1_v5 : Ref sig .tc := ⟨.hbm, 215, rfl⟩
abbrev main_call1_cst_2 : Ref sig .tc := ⟨.hbm, 216, rfl⟩
abbrev main_call1_v6 : Ref sig .tc := ⟨.hbm, 217, rfl⟩
abbrev main_call1_v7 : Ref sig .tc := ⟨.hbm, 218, rfl⟩
abbrev main_v141 : Ref sig .tc := ⟨.hbm, 219, rfl⟩
abbrev main_v142 : Ref sig .tc := ⟨.hbm, 220, rfl⟩
abbrev main_cst_28 : Ref sig .tc := ⟨.hbm, 221, rfl⟩
abbrev main_v143 : Ref sig .tc := ⟨.hbm, 222, rfl⟩
abbrev main_cst_29 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_cst_30 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_c_31 : Ref sig .tc := ⟨.hbm, 231, rfl⟩
abbrev main_v150 : Ref sig .tc := ⟨.hbm, 232, rfl⟩
abbrev main_v151 : Ref sig .tc := ⟨.hbm, 233, rfl⟩
abbrev main_c_32 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_c_33 : Ref sig .tc := ⟨.hbm, 240, rfl⟩
abbrev main_v157 : Ref sig .tc := ⟨.hbm, 241, rfl⟩
abbrev main_v158 : Ref sig .tc := ⟨.hbm, 242, rfl⟩
abbrev main_c_34 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_c_35 : Ref sig .tc := ⟨.hbm, 250, rfl⟩
abbrev main_v165 : Ref sig .tc := ⟨.hbm, 251, rfl⟩
abbrev main_v166 : Ref sig .tc := ⟨.hbm, 252, rfl⟩
abbrev main_c_36 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_cst_37 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_cst_38 : Ref sig .tc := ⟨.hbm, 274, rfl⟩
abbrev main_v186 : Ref sig .tc := ⟨.hbm, 275, rfl⟩
abbrev main_v187 : Ref sig .tc := ⟨.hbm, 276, rfl⟩
abbrev main_cst_39 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_cst_40 : Ref sig .tc := ⟨.hbm, 283, rfl⟩
abbrev main_v193 : Ref sig .tc := ⟨.hbm, 284, rfl⟩
abbrev main_v194 : Ref sig .tc := ⟨.hbm, 285, rfl⟩
abbrev main_cst_41 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_cst_42 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_call2_cst : Ref sig .tc := ⟨.hbm, 303, rfl⟩
abbrev main_call2_v0 : Ref sig .tc := ⟨.hbm, 304, rfl⟩
abbrev main_call2_v1 : Ref sig .tc := ⟨.hbm, 305, rfl⟩
abbrev main_call2_cst_0 : Ref sig .tc := ⟨.hbm, 306, rfl⟩
abbrev main_call2_v2 : Ref sig .tc := ⟨.hbm, 307, rfl⟩
abbrev main_call2_v3 : Ref sig .tc := ⟨.hbm, 308, rfl⟩
abbrev main_call2_cst_1 : Ref sig .tc := ⟨.hbm, 309, rfl⟩
abbrev main_call2_call0_v0 : Ref sig .tc := ⟨.hbm, 310, rfl⟩
abbrev main_call2_call0_v1 : Ref sig .tc := ⟨.hbm, 311, rfl⟩
abbrev main_call2_v4 : Ref sig .tc := ⟨.hbm, 312, rfl⟩
abbrev main_call2_v5 : Ref sig .tc := ⟨.hbm, 313, rfl⟩
abbrev main_call2_cst_2 : Ref sig .tc := ⟨.hbm, 314, rfl⟩
abbrev main_call2_v6 : Ref sig .tc := ⟨.hbm, 315, rfl⟩
abbrev main_call2_v7 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_cst_43 : Ref sig .tc := ⟨.hbm, 322, rfl⟩
abbrev main_v215 : Ref sig .tc := ⟨.hbm, 323, rfl⟩
abbrev main_v216 : Ref sig .tc := ⟨.hbm, 324, rfl⟩
abbrev main_cst_44 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_cst_45 : Ref sig .tc := ⟨.hbm, 331, rfl⟩
abbrev main_v222 : Ref sig .tc := ⟨.hbm, 332, rfl⟩
abbrev main_v223 : Ref sig .tc := ⟨.hbm, 333, rfl⟩
abbrev main_cst_46 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_cst_47 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_call3_cst : Ref sig .tc := ⟨.hbm, 351, rfl⟩
abbrev main_call3_v0 : Ref sig .tc := ⟨.hbm, 352, rfl⟩
abbrev main_call3_v1 : Ref sig .tc := ⟨.hbm, 353, rfl⟩
abbrev main_call3_cst_0 : Ref sig .tc := ⟨.hbm, 354, rfl⟩
abbrev main_call3_v2 : Ref sig .tc := ⟨.hbm, 355, rfl⟩
abbrev main_call3_v3 : Ref sig .tc := ⟨.hbm, 356, rfl⟩
abbrev main_call3_cst_1 : Ref sig .tc := ⟨.hbm, 357, rfl⟩
abbrev main_call3_call0_v0 : Ref sig .tc := ⟨.hbm, 358, rfl⟩
abbrev main_call3_call0_v1 : Ref sig .tc := ⟨.hbm, 359, rfl⟩
abbrev main_call3_v4 : Ref sig .tc := ⟨.hbm, 360, rfl⟩
abbrev main_call3_v5 : Ref sig .tc := ⟨.hbm, 361, rfl⟩
abbrev main_call3_cst_2 : Ref sig .tc := ⟨.hbm, 362, rfl⟩
abbrev main_call3_v6 : Ref sig .tc := ⟨.hbm, 363, rfl⟩
abbrev main_call3_v7 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KRun.lean ====
/- The run of the idealized kernel program with its result named: every weakly fair execution from a
   zero-counter state terminates without a fault, the result buffer holds the contents the fold of
   boundary contents assigns it at the last boundary, and every argument is unchanged. -/
import proofs.«155585_j22110491640565_1_alg».proof.Proof.Gen.KernelIdeal.Frame

set_option maxRecDepth 16384

noncomputable section

namespace Cert.KernelIdeal.KVal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run with the result named: at the compiled mesh, from any memory with zero counters, every weakly fair
    execution of @main on the TensorCores terminates, nothing faulting; in every final state the result buffer holds
    the last boundary's contents `Gen.W18` at it, and every argument array is as launched. The final thread state
    holds every unscoped buffer at `Gen.W18`; the result buffer is one of them. -/
theorem run_named : θ_run defs (onTc (τ := τ) (main (F := F))) ⟨m, fun _ => 0, ρ⟩ (fun r => ∀ c : Dev nD,
      r.2.mem ((c.tc : Thread nD τ).loc main_v137) = Gen.W18 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v137 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c)⟩)

end Cert.KernelIdeal.KVal

end
-- ==== Proof.KStages.lean ====
/- The host operations of the kernel program between its regions, as functions of arrays: each definition is
   the composition of the program's host operations, in the program's own spelling, that computes one buffer
   from the buffers it depends on. The edge list gives the source and destination nodes; the in-degrees give
   each node's weight; each aggregation gathers rows along the edges, weighs them, scatter-adds them over the
   destination nodes and adds the self loop. -/
import proofs.«155585_j22110491640565_1_alg».proof.Proof.Gen.KernelIdeal

noncomputable section

namespace Cert.KernelIdeal.KVal

open Cert.KernelIdeal.Gen Idealize.ShloMosaic Idealize.ShloMosaic.TcCoe

variable {F : FTy → Type} [FloatOps F]

/-- The edges' source nodes: row 0 of the [2, E] edge array, as a vector of E node indices. -/
def srcOf (a1 : (⟨S2x1600000, .i32⟩ : BufTy).Contents (Elt F)) : (⟨S1600000, .i32⟩ : BufTy).Contents (Elt F) :=
  shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) a1) shapeCasts_S1x1600000_S1600000

/-- The edges' destination nodes: row 1 of the edge array. -/
def dstOf (a1 : (⟨S2x1600000, .i32⟩ : BufTy).Contents (Elt F)) : (⟨S1600000, .i32⟩ : BufTy).Contents (Elt F) :=
  shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) a1) shapeCasts_S1x1600000_S1600000

/-- Each node's degree weight: ones scatter-added over the destination nodes onto zeros (the in-degree), plus one (the self loop), then the reciprocal square root. -/
def dinvOf (dst : (⟨S1600000, .i32⟩ : BufTy).Contents (Elt F)) : (⟨S100000, .f32⟩ : BufTy).Contents (Elt F) :=
  (Host.rsqrt : (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) dst) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))

/-- An index vector as a column, its negative entries wrapped around by the node count (an index i < 0 becomes i + 100000). -/
def wrapIdx (i : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) i ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) i ((broadcastInDim S1600000 ![] bcast_S_S1600000 : (⟨S_, .i32⟩ : BufTy).Contents (Elt F) → (⟨S1600000, .i32⟩ : BufTy).Contents (Elt F)) (constantI S_ 32 100000#32))) i)

/-- The graph aggregation of a [N, 64] feature array xw: each edge gathers its source node's row and weighs it by the product of its two end nodes' degree weights; the weighted rows are scatter-added over the destination nodes onto zeros; then each node's own row, weighted by its degree weight squared (the self loop), is added. -/
def agg64 (src : (⟨S1600000, .i32⟩ : BufTy).Contents (Elt F)) (dst : (⟨S1600000, .i32⟩ : BufTy).Contents (Elt F)) (dinv : (⟨S100000, .f32⟩ : BufTy).Contents (Elt F)) (xw : (⟨S100000x64, .f32⟩ : BufTy).Contents (Elt F)) : (⟨S100000x64, .f32⟩ : BufTy).Contents (Elt F) :=
  (addf : (⟨S100000x64, .f32⟩ : BufTy).Contents (Elt F) → (⟨S100000x64, .f32⟩ : BufTy).Contents (Elt F) → (⟨S100000x64, .f32⟩ : BufTy).Contents (Elt F)) (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) dst) ((mulf : (⟨S1600000x64, .f32⟩ : BufTy).Contents (Elt F) → (⟨S1600000x64, .f32⟩ : BufTy).Contents (Elt F) → (⟨S1600000x64, .f32⟩ : BufTy).Contents (Elt F)) (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) xw (wrapIdx src)) ((broadcastInDim S1600000x64 ![0, 1] bcast_S1600000x1_S1600000x64_0_1 : (⟨S1600000x1, .f32⟩ : BufTy).Contents (Elt F) → (⟨S1600000x64, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) dinv (wrapIdx src)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) dinv (wrapIdx dst))))))) ((mulf : (⟨S100000x64, .f32⟩ : BufTy).Contents (Elt F) → (⟨S100000x64, .f32⟩ : BufTy).Contents (Elt F) → (⟨S100000x64, .f32⟩ : BufTy).Contents (Elt F)) xw ((broadcastInDim S100000x64 ![0, 1] bcast_S100000x1_S100000x64_0_1 : (⟨S100000x1, .f32⟩ : BufTy).Contents (Elt F) → (⟨S100000x64, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) dinv dinv))))

/-- The graph aggregation of a [N, 128] feature array xw: each edge gathers its source node's row and weighs it by the product of its two end nodes' degree weights; the weighted rows are scatter-added over the destination nodes onto zeros; then each node's own row, weighted by its degree weight squared (the self loop), is added. -/
def agg128 (src : (⟨S1600000, .i32⟩ : BufTy).Contents (Elt F)) (dst : (⟨S1600000, .i32⟩ : BufTy).Contents (Elt F)) (dinv : (⟨S100000, .f32⟩ : BufTy).Contents (Elt F)) (xw : (⟨S100000x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) dst) ((mulf : (⟨S1600000x128, .f32⟩ : BufTy).Contents (Elt F) → (⟨S1600000x128, .f32⟩ : BufTy).Contents (Elt F) → (⟨S1600000x128, .f32⟩ : BufTy).Contents (Elt F)) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) xw (wrapIdx src)) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) dinv (wrapIdx src)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) dinv (wrapIdx dst))))))) ((mulf : (⟨S100000x128, .f32⟩ : BufTy).Contents (Elt F) → (⟨S100000x128, .f32⟩ : BufTy).Contents (Elt F) → (⟨S100000x128, .f32⟩ : BufTy).Contents (Elt F)) xw ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) dinv dinv))))

end Cert.KernelIdeal.KVal

end
-- ==== Proof.KChainKeep.lean ====
/- What each stretch of host operations leaves alone: a buffer none of its operations writes holds after the
   stretch what it held before. Per stretch: the list of the buffers its operations write, and the lemma. -/
import proofs.«155585_j22110491640565_1_alg».proof.Proof.Gen.KernelIdeal.Frame
import Idealize.ShloMosaic.Lib.StableHlo.Run

set_option maxRecDepth 16384

noncomputable section

namespace Cert.KernelIdeal.KVal

open Cert.KernelIdeal.Gen Idealize.ShloMosaic Idealize.ShloMosaic.TcCoe Idealize.SL.Sem

variable {F : FTy → Type} [FloatOps F]

/-- The buffers stretch 0's operations write. -/
abbrev hostW0 : List (Ref sig .tc) := [main_v0, main_v1, main_v2, main_v3, main_cst, main_v4, main_cst_0, main_v5, main_v6, main_v7, main_cst_1, main_v8, main_v9, main_v10, main_v11, main_cst_2, main_v12, main_v13]
theorem host0_writes : (hostOps0 : List (HloOp τ sig (Elt F))).Forall fun op => op.writes ⊆ (hostW0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write holds after it what it held before. -/
theorem host0_keeps (X : Valuation τ sig (Elt F)) (r : Ref sig .tc) (h : r ∉ hostW0) :
    StableHlo.after hostOps0 X (Proc.devRef .tc r) = X (Proc.devRef .tc r) :=
  StableHlo.after_of_writes_sub hostOps0 X host0_writes h

/-- The buffers stretch 1's operations write. -/
abbrev hostW1 : List (Ref sig .tc) := [main_c, main_v15, main_v16, main_c_3, main_v17, main_v18, main_v19, main_v20, main_v21, main_c_4, main_v22, main_v23, main_c_5, main_v24, main_v25, main_v26, main_v27, main_v28, main_v29, main_c_6, main_v30, main_v31, main_c_7, main_v32, main_v33, main_v34, main_v35, main_v36, main_v37, main_v38, main_v39, main_cst_8, main_v40, main_v41, main_v42, main_v43, main_v44, main_v45, main_v46, main_v47, main_v48, main_v49]
theorem host1_writes : (hostOps1 : List (HloOp τ sig (Elt F))).Forall fun op => op.writes ⊆ (hostW1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write holds after it what it held before. -/
theorem host1_keeps (X : Valuation τ sig (Elt F)) (r : Ref sig .tc) (h : r ∉ hostW1) :
    StableHlo.after hostOps1 X (Proc.devRef .tc r) = X (Proc.devRef .tc r) :=
  StableHlo.after_of_writes_sub hostOps1 X host1_writes h

/-- The buffers stretch 2's operations write. -/
abbrev hostW2 : List (Ref sig .tc) := [main_cst_9, main_v51, main_v52]
theorem host2_writes : (hostOps2 : List (HloOp τ sig (Elt F))).Forall fun op => op.writes ⊆ (hostW2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write holds after it what it held before. -/
theorem host2_keeps (X : Valuation τ sig (Elt F)) (r : Ref sig .tc) (h : r ∉ hostW2) :
    StableHlo.after hostOps2 X (Proc.devRef .tc r) = X (Proc.devRef .tc r) :=
  StableHlo.after_of_writes_sub hostOps2 X host2_writes h

/-- The buffers stretch 3's operations write. -/
abbrev hostW3 : List (Ref sig .tc) := [main_c_10, main_v54, main_v55, main_c_11, main_v56, main_v57, main_v58, main_v59, main_v60, main_c_12, main_v61, main_v62, main_c_13, main_v63, main_v64, main_v65, main_v66, main_v67, main_v68, main_c_14, main_v69, main_v70, main_c_15, main_v71, main_v72, main_v73, main_v74, main_v75, main_v76, main_v77, main_v78, main_cst_16, main_v79, main_v80, main_v81, main_v82, main_v83, main_v84, main_v85, main_v86, main_v87, main_v88]
theorem host3_writes : (hostOps3 : List (HloOp τ sig (Elt F))).Forall fun op => op.writes ⊆ (hostW3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write holds after it what it held before. -/
theorem host3_keeps (X : Valuation τ sig (Elt F)) (r : Ref sig .tc) (h : r ∉ hostW3) :
    StableHlo.after hostOps3 X (Proc.devRef .tc r) = X (Proc.devRef .tc r) :=
  StableHlo.after_of_writes_sub hostOps3 X host3_writes h

/-- The buffers stretch 4's operations write. -/
abbrev hostW4 : List (Ref sig .tc) := [main_cst_17, main_v90, main_v91]
theorem host4_writes : (hostOps4 : List (HloOp τ sig (Elt F))).Forall fun op => op.writes ⊆ (hostW4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 4 does not write holds after it what it held before. -/
theorem host4_keeps (X : Valuation τ sig (Elt F)) (r : Ref sig .tc) (h : r ∉ hostW4) :
    StableHlo.after hostOps4 X (Proc.devRef .tc r) = X (Proc.devRef .tc r) :=
  StableHlo.after_of_writes_sub hostOps4 X host4_writes h

/-- The buffers stretch 5's operations write. -/
abbrev hostW5 : List (Ref sig .tc) := [main_c_18, main_v93, main_v94, main_c_19, main_v95, main_v96, main_v97, main_v98, main_v99, main_c_20, main_v100, main_v101, main_c_21, main_v102, main_v103, main_v104, main_v105, main_v106, main_v107, main_c_22, main_v108, main_v109, main_c_23, main_v110, main_v111, main_v112, main_v113, main_v114, main_v115, main_v116, main_v117, main_cst_24, main_v118, main_v119, main_v120, main_v121, main_v122, main_v123, main_v124, main_v125, main_v126, main_v127]
theorem host5_writes : (hostOps5 : List (HloOp τ sig (Elt F))).Forall fun op => op.writes ⊆ (hostW5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 5 does not write holds after it what it held before. -/
theorem host5_keeps (X : Valuation τ sig (Elt F)) (r : Ref sig .tc) (h : r ∉ hostW5) :
    StableHlo.after hostOps5 X (Proc.devRef .tc r) = X (Proc.devRef .tc r) :=
  StableHlo.after_of_writes_sub hostOps5 X host5_writes h

/-- The buffers stretch 6's operations write. -/
abbrev hostW6 : List (Ref sig .tc) := [main_v129]
theorem host6_writes : (hostOps6 : List (HloOp τ sig (Elt F))).Forall fun op => op.writes ⊆ (hostW6.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 6 does not write holds after it what it held before. -/
theorem host6_keeps (X : Valuation τ sig (Elt F)) (r : Ref sig .tc) (h : r ∉ hostW6) :
    StableHlo.after hostOps6 X (Proc.devRef .tc r) = X (Proc.devRef .tc r) :=
  StableHlo.after_of_writes_sub hostOps6 X host6_writes h

/-- The buffers stretch 7's operations write. -/
abbrev hostW7 : List (Ref sig .tc) := [main_cst_25, main_v131, main_v132, main_v133, main_v134]
theorem host7_writes : (hostOps7 : List (HloOp τ sig (Elt F))).Forall fun op => op.writes ⊆ (hostW7.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 7 does not write holds after it what it held before. -/
theorem host7_keeps (X : Valuation τ sig (Elt F)) (r : Ref sig .tc) (h : r ∉ hostW7) :
    StableHlo.after hostOps7 X (Proc.devRef .tc r) = X (Proc.devRef .tc r) :=
  StableHlo.after_of_writes_sub hostOps7 X host7_writes h

/-- The buffers stretch 8's operations write. -/
abbrev hostW8 : List (Ref sig .tc) := [main_v136]
theorem host8_writes : (hostOps8 : List (HloOp τ sig (Elt F))).Forall fun op => op.writes ⊆ (hostW8.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 8 does not write holds after it what it held before. -/
theorem host8_keeps (X : Valuation τ sig (Elt F)) (r : Ref sig .tc) (h : r ∉ hostW8) :
    StableHlo.after hostOps8 X (Proc.devRef .tc r) = X (Proc.devRef .tc r) :=
  StableHlo.after_of_writes_sub hostOps8 X host8_writes h

end Cert.KernelIdeal.KVal

end
-- ==== Proof.KChainHost.lean ====
/- What each stretch of host operations computes: each buffer the regions read that a host stretch writes,
   after the stretch, as the composition of the stretch's operations applied to the buffers the stretch
   started from. At any starting contents `X`. An aggregation reads the squared degree weights from their own
   buffer; it is the aggregation function of the degree weights when that buffer holds their square (`h`). -/
import proofs.«155585_j22110491640565_1_alg».proof.Proof.Gen.KernelIdeal.Frame
import proofs.«155585_j22110491640565_1_alg».proof.Proof.KStages
import Idealize.ShloMosaic.Lib.StableHlo.Run

set_option maxRecDepth 16384

noncomputable section

namespace Cert.KernelIdeal.KVal

open Cert.KernelIdeal.Gen Idealize.ShloMosaic Idealize.ShloMosaic.TcCoe Idealize.SL.Sem Idealize.ShloMosaic.StableHlo

variable {F : FTy → Type} [FloatOps F]

theorem host0_v1 (X : Valuation τ sig (Elt F)) :
    StableHlo.after hostOps0 X (Proc.devRef .tc main_v1) = srcOf (X (Proc.devRef .tc main_arg1)) := by
  after_results
  rfl

theorem host0_v3 (X : Valuation τ sig (Elt F)) :
    StableHlo.after hostOps0 X (Proc.devRef .tc main_v3) = dstOf (X (Proc.devRef .tc main_arg1)) := by
  after_results
  rfl

theorem host0_v10 (X : Valuation τ sig (Elt F)) :
    StableHlo.after hostOps0 X (Proc.devRef .tc main_v10) = dinvOf (dstOf (X (Proc.devRef .tc main_arg1))) := by
  after_results
  rfl

theorem host0_v11 (X : Valuation τ sig (Elt F)) :
    StableHlo.after hostOps0 X (Proc.devRef .tc main_v11) = (mulf : (⟨S100000, .f32⟩ : BufTy).Contents (Elt F) → (⟨S100000, .f32⟩ : BufTy).Contents (Elt F) → (⟨S100000, .f32⟩ : BufTy).Contents (Elt F)) (dinvOf (dstOf (X (Proc.devRef .tc main_arg1)))) (dinvOf (dstOf (X (Proc.devRef .tc main_arg1)))) := by
  after_results
  rfl

theorem host0_v13 (X : Valuation τ sig (Elt F)) :
    StableHlo.after hostOps0 X (Proc.devRef .tc main_v13) = shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64 := by
  after_results
  rfl

theorem host1_v46 (X : Valuation τ sig (Elt F))
    (h : X (Proc.devRef .tc main_v11) = (mulf : (⟨S100000, .f32⟩ : BufTy).Contents (Elt F) → (⟨S100000, .f32⟩ : BufTy).Contents (Elt F) → (⟨S100000, .f32⟩ : BufTy).Contents (Elt F)) (X (Proc.devRef .tc main_v10)) (X (Proc.devRef .tc main_v10))) :
    StableHlo.after hostOps1 X (Proc.devRef .tc main_v46) = agg64 (X (Proc.devRef .tc main_v1)) (X (Proc.devRef .tc main_v3)) (X (Proc.devRef .tc main_v10)) (X (Proc.devRef .tc main_v14)) := by
  after_results_simp
  rw [h]
  rfl

theorem host1_v47 (X : Valuation τ sig (Elt F)) :
    StableHlo.after hostOps1 X (Proc.devRef .tc main_v47) = shapeCast S1x64 ((X (Proc.devRef .tc main_arg3))) shapeCasts_S64_S1x64 := by
  after_results_simp
  rfl

theorem host1_v48 (X : Valuation τ sig (Elt F)) :
    StableHlo.after hostOps1 X (Proc.devRef .tc main_v48) = shapeCast S1x64 ((X (Proc.devRef .tc main_arg4))) shapeCasts_S64_S1x64 := by
  after_results_simp
  rfl

theorem host1_v49 (X : Valuation τ sig (Elt F)) :
    StableHlo.after hostOps1 X (Proc.devRef .tc main_v49) = shapeCast S1x64 ((X (Proc.devRef .tc main_arg5))) shapeCasts_S64_S1x64 := by
  after_results_simp
  rfl

theorem host2_v52 (X : Valuation τ sig (Elt F)) :
    StableHlo.after hostOps2 X (Proc.devRef .tc main_v52) = shapeCast S1x128 ((broadcastInDim S128 ![] bcast_S_S128 : (⟨S_, .f32⟩ : BufTy).Contents (Elt F) → (⟨S128, .f32⟩ : BufTy).Contents (Elt F)) (constant S_ .f32 0x00000000#32)) shapeCasts_S128_S1x128 := by
  after_results
  rfl

theorem host3_v85 (X : Valuation τ sig (Elt F))
    (h : X (Proc.devRef .tc main_v11) = (mulf : (⟨S100000, .f32⟩ : BufTy).Contents (Elt F) → (⟨S100000, .f32⟩ : BufTy).Contents (Elt F) → (⟨S100000, .f32⟩ : BufTy).Contents (Elt F)) (X (Proc.devRef .tc main_v10)) (X (Proc.devRef .tc main_v10))) :
    StableHlo.after hostOps3 X (Proc.devRef .tc main_v85) = agg128 (X (Proc.devRef .tc main_v1)) (X (Proc.devRef .tc main_v3)) (X (Proc.devRef .tc main_v10)) (X (Proc.devRef .tc main_v53)) := by
  after_results_simp
  rw [h]
  rfl

theorem host3_v86 (X : Valuation τ sig (Elt F)) :
    StableHlo.after hostOps3 X (Proc.devRef .tc main_v86) = shapeCast S1x128 ((X (Proc.devRef .tc main_arg7))) shapeCasts_S128_S1x128 := by
  after_results_simp
  rfl

theorem host3_v87 (X : Valuation τ sig (Elt F)) :
    StableHlo.after hostOps3 X (Proc.devRef .tc main_v87) = shapeCast S1x128 ((X (Proc.devRef .tc main_arg8))) shapeCasts_S128_S1x128 := by
  after_results_simp
  rfl

theorem host3_v88 (X : Valuation τ sig (Elt F)) :
    StableHlo.after hostOps3 X (Proc.devRef .tc main_v88) = shapeCast S1x128 ((X (Proc.devRef .tc main_arg9))) shapeCasts_S128_S1x128 := by
  after_results_simp
  rfl

theorem host4_v91 (X : Valuation τ sig (Elt F)) :
    StableHlo.after hostOps4 X (Proc.devRef .tc main_v91) = shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64 := by
  after_results
  rfl

theorem host5_v124 (X : Valuation τ sig (Elt F))
    (h : X (Proc.devRef .tc main_v11) = (mulf : (⟨S100000, .f32⟩ : BufTy).Contents (Elt F) → (⟨S100000, .f32⟩ : BufTy).Contents (Elt F) → (⟨S100000, .f32⟩ : BufTy).Contents (Elt F)) (X (Proc.devRef .tc main_v10)) (X (Proc.devRef .tc main_v10))) :
    StableHlo.after hostOps5 X (Proc.devRef .tc main_v124) = agg64 (X (Proc.devRef .tc main_v1)) (X (Proc.devRef .tc main_v3)) (X (Proc.devRef .tc main_v10)) (X (Proc.devRef .tc main_v92)) := by
  after_results_simp
  rw [h]
  rfl

theorem host5_v125 (X : Valuation τ sig (Elt F)) :
    StableHlo.after hostOps5 X (Proc.devRef .tc main_v125) = shapeCast S1x64 ((X (Proc.devRef .tc main_arg11))) shapeCasts_S64_S1x64 := by
  after_results_simp
  rfl

theorem host5_v126 (X : Valuation τ sig (Elt F)) :
    StableHlo.after hostOps5 X (Proc.devRef .tc main_v126) = shapeCast S1x64 ((X (Proc.devRef .tc main_arg12))) shapeCasts_S64_S1x64 := by
  after_results_simp
  rfl

theorem host5_v127 (X : Valuation τ sig (Elt F)) :
    StableHlo.after hostOps5 X (Proc.devRef .tc main_v127) = shapeCast S1x64 ((X (Proc.devRef .tc main_arg13))) shapeCasts_S64_S1x64 := by
  after_results_simp
  rfl

theorem host6_v129 (X : Valuation τ sig (Elt F)) :
    StableHlo.after hostOps6 X (Proc.devRef .tc main_v129) = shapeCast S1x32 ((X (Proc.devRef .tc main_arg15))) shapeCasts_S32_S1x32 := by
  after_results
  rfl

theorem host7_v132 (X : Valuation τ sig (Elt F)) :
    StableHlo.after hostOps7 X (Proc.devRef .tc main_v132) = shapeCast S1x32 ((broadcastInDim S32 ![] bcast_S_S32 : (⟨S_, .f32⟩ : BufTy).Contents (Elt F) → (⟨S32, .f32⟩ : BufTy).Contents (Elt F)) (constant S_ .f32 0x00000000#32)) shapeCasts_S32_S1x32 := by
  after_results
  rfl

theorem host7_v133 (X : Valuation τ sig (Elt F)) :
    StableHlo.after hostOps7 X (Proc.devRef .tc main_v133) = shapeCast S1x32 ((X (Proc.devRef .tc main_arg16))) shapeCasts_S32_S1x32 := by
  after_results
  rfl

theorem host7_v134 (X : Valuation τ sig (Elt F)) :
    StableHlo.after hostOps7 X (Proc.devRef .tc main_v134) = shapeCast S1x32 ((X (Proc.devRef .tc main_arg17))) shapeCasts_S32_S1x32 := by
  after_results
  rfl

theorem host8_v136 (X : Valuation τ sig (Elt F)) :
    StableHlo.after hostOps8 X (Proc.devRef .tc main_v136) = shapeCast S1x32 ((X (Proc.devRef .tc main_arg19))) shapeCasts_S32_S1x32 := by
  after_results
  rfl

end Cert.KernelIdeal.KVal

end
-- ==== Proof.KChain.lean ====
/- The buffer contents at the boundaries between the program's regions and host stretches, read back: every
   array a region reads, at the region's entry, as the launch memory's arrays, the host stages of them, and the
   arrays the earlier regions leave. Each step reads ONE buffer across ONE region or stretch: a region leaves a
   buffer that is none of its arrays alone, a stretch one it does not write; a stretch's result is its stage of
   what it started from; a region's output array is what its write-backs leave. -/
import proofs.«155585_j22110491640565_1_alg».proof.Proof.Gen.KernelIdeal.Frame
import proofs.«155585_j22110491640565_1_alg».proof.Proof.KStages
import proofs.«155585_j22110491640565_1_alg».proof.Proof.KChainKeep
import proofs.«155585_j22110491640565_1_alg».proof.Proof.KChainHost

set_option maxRecDepth 16384

noncomputable section

namespace Cert.KernelIdeal.KVal

open Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The graph buffers: the edges' end nodes and the nodes' degree weights, computed once before region 0 -/

theorem W1_v1 (c : Dev nD) : Gen.W1 m ρ c (Proc.devRef .tc main_v1) = srcOf (m ((c : Thread nD τ).loc main_arg1)) :=
  host0_v1 (Gen.W0 m ρ c)
theorem W1_v3 (c : Dev nD) : Gen.W1 m ρ c (Proc.devRef .tc main_v3) = dstOf (m ((c : Thread nD τ).loc main_arg1)) :=
  host0_v3 (Gen.W0 m ρ c)
theorem W1_v10 (c : Dev nD) : Gen.W1 m ρ c (Proc.devRef .tc main_v10) = dinvOf (dstOf (m ((c : Thread nD τ).loc main_arg1))) :=
  host0_v10 (Gen.W0 m ρ c)
theorem W1_v11 (c : Dev nD) : Gen.W1 m ρ c (Proc.devRef .tc main_v11) = (mulf : (⟨S100000, .f32⟩ : BufTy).Contents (Elt F) → (⟨S100000, .f32⟩ : BufTy).Contents (Elt F) → (⟨S100000, .f32⟩ : BufTy).Contents (Elt F)) (dinvOf (dstOf (m ((c : Thread nD τ).loc main_arg1)))) (dinvOf (dstOf (m ((c : Thread nD τ).loc main_arg1)))) :=
  host0_v11 (Gen.W0 m ρ c)
theorem W2_v1 (c : Dev nD) : Gen.W2 m ρ c (Proc.devRef .tc main_v1) = srcOf (m ((c : Thread nD τ).loc main_arg1)) :=
  (Gen.W2_of_ne m ρ c main_v1 (by decide)).trans <| W1_v1 m ρ c
theorem W2_v3 (c : Dev nD) : Gen.W2 m ρ c (Proc.devRef .tc main_v3) = dstOf (m ((c : Thread nD τ).loc main_arg1)) :=
  (Gen.W2_of_ne m ρ c main_v3 (by decide)).trans <| W1_v3 m ρ c
theorem W2_v10 (c : Dev nD) : Gen.W2 m ρ c (Proc.devRef .tc main_v10) = dinvOf (dstOf (m ((c : Thread nD τ).loc main_arg1))) :=
  (Gen.W2_of_ne m ρ c main_v10 (by decide)).trans <| W1_v10 m ρ c
theorem W2_v11 (c : Dev nD) : Gen.W2 m ρ c (Proc.devRef .tc main_v11) = (mulf : (⟨S100000, .f32⟩ : BufTy).Contents (Elt F) → (⟨S100000, .f32⟩ : BufTy).Contents (Elt F) → (⟨S100000, .f32⟩ : BufTy).Contents (Elt F)) (dinvOf (dstOf (m ((c : Thread nD τ).loc main_arg1)))) (dinvOf (dstOf (m ((c : Thread nD τ).loc main_arg1)))) :=
  (Gen.W2_of_ne m ρ c main_v11 (by decide)).trans <| W1_v11 m ρ c
theorem W6_v1 (c : Dev nD) : Gen.W6 m ρ c (Proc.devRef .tc main_v1) = srcOf (m ((c : Thread nD τ).loc main_arg1)) :=
  (Gen.W6_of_ne m ρ c main_v1 (by decide)).trans <| (host2_keeps (Gen.W4 m ρ c) main_v1 (by decide)).trans <| (Gen.W4_of_ne m ρ c main_v1 (by decide)).trans <| (host1_keeps (Gen.W2 m ρ c) main_v1 (by decide)).trans <| (Gen.W2_of_ne m ρ c main_v1 (by decide)).trans <| W1_v1 m ρ c
theorem W6_v3 (c : Dev nD) : Gen.W6 m ρ c (Proc.devRef .tc main_v3) = dstOf (m ((c : Thread nD τ).loc main_arg1)) :=
  (Gen.W6_of_ne m ρ c main_v3 (by decide)).trans <| (host2_keeps (Gen.W4 m ρ c) main_v3 (by decide)).trans <| (Gen.W4_of_ne m ρ c main_v3 (by decide)).trans <| (host1_keeps (Gen.W2 m ρ c) main_v3 (by decide)).trans <| (Gen.W2_of_ne m ρ c main_v3 (by decide)).trans <| W1_v3 m ρ c
theorem W6_v10 (c : Dev nD) : Gen.W6 m ρ c (Proc.devRef .tc main_v10) = dinvOf (dstOf (m ((c : Thread nD τ).loc main_arg1))) :=
  (Gen.W6_of_ne m ρ c main_v10 (by decide)).trans <| (host2_keeps (Gen.W4 m ρ c) main_v10 (by decide)).trans <| (Gen.W4_of_ne m ρ c main_v10 (by decide)).trans <| (host1_keeps (Gen.W2 m ρ c) main_v10 (by decide)).trans <| (Gen.W2_of_ne m ρ c main_v10 (by decide)).trans <| W1_v10 m ρ c
theorem W6_v11 (c : Dev nD) : Gen.W6 m ρ c (Proc.devRef .tc main_v11) = (mulf : (⟨S100000, .f32⟩ : BufTy).Contents (Elt F) → (⟨S100000, .f32⟩ : BufTy).Contents (Elt F) → (⟨S100000, .f32⟩ : BufTy).Contents (Elt F)) (dinvOf (dstOf (m ((c : Thread nD τ).loc main_arg1)))) (dinvOf (dstOf (m ((c : Thread nD τ).loc main_arg1)))) :=
  (Gen.W6_of_ne m ρ c main_v11 (by decide)).trans <| (host2_keeps (Gen.W4 m ρ c) main_v11 (by decide)).trans <| (Gen.W4_of_ne m ρ c main_v11 (by decide)).trans <| (host1_keeps (Gen.W2 m ρ c) main_v11 (by decide)).trans <| (Gen.W2_of_ne m ρ c main_v11 (by decide)).trans <| W1_v11 m ρ c
theorem W10_v1 (c : Dev nD) : Gen.W10 m ρ c (Proc.devRef .tc main_v1) = srcOf (m ((c : Thread nD τ).loc main_arg1)) :=
  (Gen.W10_of_ne m ρ c main_v1 (by decide)).trans <| (host4_keeps (Gen.W8 m ρ c) main_v1 (by decide)).trans <| (Gen.W8_of_ne m ρ c main_v1 (by decide)).trans <| (host3_keeps (Gen.W6 m ρ c) main_v1 (by decide)).trans <| (Gen.W6_of_ne m ρ c main_v1 (by decide)).trans <| (host2_keeps (Gen.W4 m ρ c) main_v1 (by decide)).trans <| (Gen.W4_of_ne m ρ c main_v1 (by decide)).trans <| (host1_keeps (Gen.W2 m ρ c) main_v1 (by decide)).trans <| (Gen.W2_of_ne m ρ c main_v1 (by decide)).trans <| W1_v1 m ρ c
theorem W10_v3 (c : Dev nD) : Gen.W10 m ρ c (Proc.devRef .tc main_v3) = dstOf (m ((c : Thread nD τ).loc main_arg1)) :=
  (Gen.W10_of_ne m ρ c main_v3 (by decide)).trans <| (host4_keeps (Gen.W8 m ρ c) main_v3 (by decide)).trans <| (Gen.W8_of_ne m ρ c main_v3 (by decide)).trans <| (host3_keeps (Gen.W6 m ρ c) main_v3 (by decide)).trans <| (Gen.W6_of_ne m ρ c main_v3 (by decide)).trans <| (host2_keeps (Gen.W4 m ρ c) main_v3 (by decide)).trans <| (Gen.W4_of_ne m ρ c main_v3 (by decide)).trans <| (host1_keeps (Gen.W2 m ρ c) main_v3 (by decide)).trans <| (Gen.W2_of_ne m ρ c main_v3 (by decide)).trans <| W1_v3 m ρ c
theorem W10_v10 (c : Dev nD) : Gen.W10 m ρ c (Proc.devRef .tc main_v10) = dinvOf (dstOf (m ((c : Thread nD τ).loc main_arg1))) :=
  (Gen.W10_of_ne m ρ c main_v10 (by decide)).trans <| (host4_keeps (Gen.W8 m ρ c) main_v10 (by decide)).trans <| (Gen.W8_of_ne m ρ c main_v10 (by decide)).trans <| (host3_keeps (Gen.W6 m ρ c) main_v10 (by decide)).trans <| (Gen.W6_of_ne m ρ c main_v10 (by decide)).trans <| (host2_keeps (Gen.W4 m ρ c) main_v10 (by decide)).trans <| (Gen.W4_of_ne m ρ c main_v10 (by decide)).trans <| (host1_keeps (Gen.W2 m ρ c) main_v10 (by decide)).trans <| (Gen.W2_of_ne m ρ c main_v10 (by decide)).trans <| W1_v10 m ρ c
theorem W10_v11 (c : Dev nD) : Gen.W10 m ρ c (Proc.devRef .tc main_v11) = (mulf : (⟨S100000, .f32⟩ : BufTy).Contents (Elt F) → (⟨S100000, .f32⟩ : BufTy).Contents (Elt F) → (⟨S100000, .f32⟩ : BufTy).Contents (Elt F)) (dinvOf (dstOf (m ((c : Thread nD τ).loc main_arg1)))) (dinvOf (dstOf (m ((c : Thread nD τ).loc main_arg1)))) :=
  (Gen.W10_of_ne m ρ c main_v11 (by decide)).trans <| (host4_keeps (Gen.W8 m ρ c) main_v11 (by decide)).trans <| (Gen.W8_of_ne m ρ c main_v11 (by decide)).trans <| (host3_keeps (Gen.W6 m ρ c) main_v11 (by decide)).trans <| (Gen.W6_of_ne m ρ c main_v11 (by decide)).trans <| (host2_keeps (Gen.W4 m ρ c) main_v11 (by decide)).trans <| (Gen.W4_of_ne m ρ c main_v11 (by decide)).trans <| (host1_keeps (Gen.W2 m ρ c) main_v11 (by decide)).trans <| (Gen.W2_of_ne m ρ c main_v11 (by decide)).trans <| W1_v11 m ρ c

/-! ## The argument arrays at the boundaries where a stretch or a region reads them: as launched -/

theorem W0_arg1 (c : Dev nD) : Gen.W0 m ρ c (Proc.devRef .tc main_arg1) = (m ((c : Thread nD τ).loc main_arg1)) :=
  rfl
theorem W0_arg0 (c : Dev nD) : Gen.W0 m ρ c (Proc.devRef .tc main_arg0) = (m ((c : Thread nD τ).loc main_arg0)) :=
  rfl
theorem W0_arg2 (c : Dev nD) : Gen.W0 m ρ c (Proc.devRef .tc main_arg2) = (m ((c : Thread nD τ).loc main_arg2)) :=
  rfl
theorem W2_arg3 (c : Dev nD) : Gen.W2 m ρ c (Proc.devRef .tc main_arg3) = (m ((c : Thread nD τ).loc main_arg3)) :=
  (Gen.W2_of_ne m ρ c main_arg3 (by decide)).trans <| (host0_keeps (Gen.W0 m ρ c) main_arg3 (by decide)).trans <| rfl
theorem W2_arg4 (c : Dev nD) : Gen.W2 m ρ c (Proc.devRef .tc main_arg4) = (m ((c : Thread nD τ).loc main_arg4)) :=
  (Gen.W2_of_ne m ρ c main_arg4 (by decide)).trans <| (host0_keeps (Gen.W0 m ρ c) main_arg4 (by decide)).trans <| rfl
theorem W2_arg5 (c : Dev nD) : Gen.W2 m ρ c (Proc.devRef .tc main_arg5) = (m ((c : Thread nD τ).loc main_arg5)) :=
  (Gen.W2_of_ne m ρ c main_arg5 (by decide)).trans <| (host0_keeps (Gen.W0 m ρ c) main_arg5 (by decide)).trans <| rfl
theorem W4_arg6 (c : Dev nD) : Gen.W4 m ρ c (Proc.devRef .tc main_arg6) = (m ((c : Thread nD τ).loc main_arg6)) :=
  (Gen.W4_of_ne m ρ c main_arg6 (by decide)).trans <| (host1_keeps (Gen.W2 m ρ c) main_arg6 (by decide)).trans <| (Gen.W2_of_ne m ρ c main_arg6 (by decide)).trans <| (host0_keeps (Gen.W0 m ρ c) main_arg6 (by decide)).trans <| rfl
theorem W6_arg7 (c : Dev nD) : Gen.W6 m ρ c (Proc.devRef .tc main_arg7) = (m ((c : Thread nD τ).loc main_arg7)) :=
  (Gen.W6_of_ne m ρ c main_arg7 (by decide)).trans <| (host2_keeps (Gen.W4 m ρ c) main_arg7 (by decide)).trans <| (Gen.W4_of_ne m ρ c main_arg7 (by decide)).trans <| (host1_keeps (Gen.W2 m ρ c) main_arg7 (by decide)).trans <| (Gen.W2_of_ne m ρ c main_arg7 (by decide)).trans <| (host0_keeps (Gen.W0 m ρ c) main_arg7 (by decide)).trans <| rfl
theorem W6_arg8 (c : Dev nD) : Gen.W6 m ρ c (Proc.devRef .tc main_arg8) = (m ((c : Thread nD τ).loc main_arg8)) :=
  (Gen.W6_of_ne m ρ c main_arg8 (by decide)).trans <| (host2_keeps (Gen.W4 m ρ c) main_arg8 (by decide)).trans <| (Gen.W4_of_ne m ρ c main_arg8 (by decide)).trans <| (host1_keeps (Gen.W2 m ρ c) main_arg8 (by decide)).trans <| (Gen.W2_of_ne m ρ c main_arg8 (by decide)).trans <| (host0_keeps (Gen.W0 m ρ c) main_arg8 (by decide)).trans <| rfl
theorem W6_arg9 (c : Dev nD) : Gen.W6 m ρ c (Proc.devRef .tc main_arg9) = (m ((c : Thread nD τ).loc main_arg9)) :=
  (Gen.W6_of_ne m ρ c main_arg9 (by decide)).trans <| (host2_keeps (Gen.W4 m ρ c) main_arg9 (by decide)).trans <| (Gen.W4_of_ne m ρ c main_arg9 (by decide)).trans <| (host1_keeps (Gen.W2 m ρ c) main_arg9 (by decide)).trans <| (Gen.W2_of_ne m ρ c main_arg9 (by decide)).trans <| (host0_keeps (Gen.W0 m ρ c) main_arg9 (by decide)).trans <| rfl
theorem W8_arg10 (c : Dev nD) : Gen.W8 m ρ c (Proc.devRef .tc main_arg10) = (m ((c : Thread nD τ).loc main_arg10)) :=
  (Gen.W8_of_ne m ρ c main_arg10 (by decide)).trans <| (host3_keeps (Gen.W6 m ρ c) main_arg10 (by decide)).trans <| (Gen.W6_of_ne m ρ c main_arg10 (by decide)).trans <| (host2_keeps (Gen.W4 m ρ c) main_arg10 (by decide)).trans <| (Gen.W4_of_ne m ρ c main_arg10 (by decide)).trans <| (host1_keeps (Gen.W2 m ρ c) main_arg10 (by decide)).trans <| (Gen.W2_of_ne m ρ c main_arg10 (by decide)).trans <| (host0_keeps (Gen.W0 m ρ c) main_arg10 (by decide)).trans <| rfl
theorem W10_arg11 (c : Dev nD) : Gen.W10 m ρ c (Proc.devRef .tc main_arg11) = (m ((c : Thread nD τ).loc main_arg11)) :=
  (Gen.W10_of_ne m ρ c main_arg11 (by decide)).trans <| (host4_keeps (Gen.W8 m ρ c) main_arg11 (by decide)).trans <| (Gen.W8_of_ne m ρ c main_arg11 (by decide)).trans <| (host3_keeps (Gen.W6 m ρ c) main_arg11 (by decide)).trans <| (Gen.W6_of_ne m ρ c main_arg11 (by decide)).trans <| (host2_keeps (Gen.W4 m ρ c) main_arg11 (by decide)).trans <| (Gen.W4_of_ne m ρ c main_arg11 (by decide)).trans <| (host1_keeps (Gen.W2 m ρ c) main_arg11 (by decide)).trans <| (Gen.W2_of_ne m ρ c main_arg11 (by decide)).trans <| (host0_keeps (Gen.W0 m ρ c) main_arg11 (by decide)).trans <| rfl
theorem W10_arg12 (c : Dev nD) : Gen.W10 m ρ c (Proc.devRef .tc main_arg12) = (m ((c : Thread nD τ).loc main_arg12)) :=
  (Gen.W10_of_ne m ρ c main_arg12 (by decide)).trans <| (host4_keeps (Gen.W8 m ρ c) main_arg12 (by decide)).trans <| (Gen.W8_of_ne m ρ c main_arg12 (by decide)).trans <| (host3_keeps (Gen.W6 m ρ c) main_arg12 (by decide)).trans <| (Gen.W6_of_ne m ρ c main_arg12 (by decide)).trans <| (host2_keeps (Gen.W4 m ρ c) main_arg12 (by decide)).trans <| (Gen.W4_of_ne m ρ c main_arg12 (by decide)).trans <| (host1_keeps (Gen.W2 m ρ c) main_arg12 (by decide)).trans <| (Gen.W2_of_ne m ρ c main_arg12 (by decide)).trans <| (host0_keeps (Gen.W0 m ρ c) main_arg12 (by decide)).trans <| rfl
theorem W10_arg13 (c : Dev nD) : Gen.W10 m ρ c (Proc.devRef .tc main_arg13) = (m ((c : Thread nD τ).loc main_arg13)) :=
  (Gen.W10_of_ne m ρ c main_arg13 (by decide)).trans <| (host4_keeps (Gen.W8 m ρ c) main_arg13 (by decide)).trans <| (Gen.W8_of_ne m ρ c main_arg13 (by decide)).trans <| (host3_keeps (Gen.W6 m ρ c) main_arg13 (by decide)).trans <| (Gen.W6_of_ne m ρ c main_arg13 (by decide)).trans <| (host2_keeps (Gen.W4 m ρ c) main_arg13 (by decide)).trans <| (Gen.W4_of_ne m ρ c main_arg13 (by decide)).trans <| (host1_keeps (Gen.W2 m ρ c) main_arg13 (by decide)).trans <| (Gen.W2_of_ne m ρ c main_arg13 (by decide)).trans <| (host0_keeps (Gen.W0 m ρ c) main_arg13 (by decide)).trans <| rfl
theorem W12_arg14 (c : Dev nD) : Gen.W12 m ρ c (Proc.devRef .tc main_arg14) = (m ((c : Thread nD τ).loc main_arg14)) :=
  (Gen.W12_of_ne m ρ c main_arg14 (by decide)).trans <| (host5_keeps (Gen.W10 m ρ c) main_arg14 (by decide)).trans <| (Gen.W10_of_ne m ρ c main_arg14 (by decide)).trans <| (host4_keeps (Gen.W8 m ρ c) main_arg14 (by decide)).trans <| (Gen.W8_of_ne m ρ c main_arg14 (by decide)).trans <| (host3_keeps (Gen.W6 m ρ c) main_arg14 (by decide)).trans <| (Gen.W6_of_ne m ρ c main_arg14 (by decide)).trans <| (host2_keeps (Gen.W4 m ρ c) main_arg14 (by decide)).trans <| (Gen.W4_of_ne m ρ c main_arg14 (by decide)).trans <| (host1_keeps (Gen.W2 m ρ c) main_arg14 (by decide)).trans <| (Gen.W2_of_ne m ρ c main_arg14 (by decide)).trans <| (host0_keeps (Gen.W0 m ρ c) main_arg14 (by decide)).trans <| rfl
theorem W12_arg15 (c : Dev nD) : Gen.W12 m ρ c (Proc.devRef .tc main_arg15) = (m ((c : Thread nD τ).loc main_arg15)) :=
  (Gen.W12_of_ne m ρ c main_arg15 (by decide)).trans <| (host5_keeps (Gen.W10 m ρ c) main_arg15 (by decide)).trans <| (Gen.W10_of_ne m ρ c main_arg15 (by decide)).trans <| (host4_keeps (Gen.W8 m ρ c) main_arg15 (by decide)).trans <| (Gen.W8_of_ne m ρ c main_arg15 (by decide)).trans <| (host3_keeps (Gen.W6 m ρ c) main_arg15 (by decide)).trans <| (Gen.W6_of_ne m ρ c main_arg15 (by decide)).trans <| (host2_keeps (Gen.W4 m ρ c) main_arg15 (by decide)).trans <| (Gen.W4_of_ne m ρ c main_arg15 (by decide)).trans <| (host1_keeps (Gen.W2 m ρ c) main_arg15 (by decide)).trans <| (Gen.W2_of_ne m ρ c main_arg15 (by decide)).trans <| (host0_keeps (Gen.W0 m ρ c) main_arg15 (by decide)).trans <| rfl
theorem W14_arg16 (c : Dev nD) : Gen.W14 m ρ c (Proc.devRef .tc main_arg16) = (m ((c : Thread nD τ).loc main_arg16)) :=
  (Gen.W14_of_ne m ρ c main_arg16 (by decide)).trans <| (host6_keeps (Gen.W12 m ρ c) main_arg16 (by decide)).trans <| (Gen.W12_of_ne m ρ c main_arg16 (by decide)).trans <| (host5_keeps (Gen.W10 m ρ c) main_arg16 (by decide)).trans <| (Gen.W10_of_ne m ρ c main_arg16 (by decide)).trans <| (host4_keeps (Gen.W8 m ρ c) main_arg16 (by decide)).trans <| (Gen.W8_of_ne m ρ c main_arg16 (by decide)).trans <| (host3_keeps (Gen.W6 m ρ c) main_arg16 (by decide)).trans <| (Gen.W6_of_ne m ρ c main_arg16 (by decide)).trans <| (host2_keeps (Gen.W4 m ρ c) main_arg16 (by decide)).trans <| (Gen.W4_of_ne m ρ c main_arg16 (by decide)).trans <| (host1_keeps (Gen.W2 m ρ c) main_arg16 (by decide)).trans <| (Gen.W2_of_ne m ρ c main_arg16 (by decide)).trans <| (host0_keeps (Gen.W0 m ρ c) main_arg16 (by decide)).trans <| rfl
theorem W14_arg17 (c : Dev nD) : Gen.W14 m ρ c (Proc.devRef .tc main_arg17) = (m ((c : Thread nD τ).loc main_arg17)) :=
  (Gen.W14_of_ne m ρ c main_arg17 (by decide)).trans <| (host6_keeps (Gen.W12 m ρ c) main_arg17 (by decide)).trans <| (Gen.W12_of_ne m ρ c main_arg17 (by decide)).trans <| (host5_keeps (Gen.W10 m ρ c) main_arg17 (by decide)).trans <| (Gen.W10_of_ne m ρ c main_arg17 (by decide)).trans <| (host4_keeps (Gen.W8 m ρ c) main_arg17 (by decide)).trans <| (Gen.W8_of_ne m ρ c main_arg17 (by decide)).trans <| (host3_keeps (Gen.W6 m ρ c) main_arg17 (by decide)).trans <| (Gen.W6_of_ne m ρ c main_arg17 (by decide)).trans <| (host2_keeps (Gen.W4 m ρ c) main_arg17 (by decide)).trans <| (Gen.W4_of_ne m ρ c main_arg17 (by decide)).trans <| (host1_keeps (Gen.W2 m ρ c) main_arg17 (by decide)).trans <| (Gen.W2_of_ne m ρ c main_arg17 (by decide)).trans <| (host0_keeps (Gen.W0 m ρ c) main_arg17 (by decide)).trans <| rfl
theorem W16_arg18 (c : Dev nD) : Gen.W16 m ρ c (Proc.devRef .tc main_arg18) = (m ((c : Thread nD τ).loc main_arg18)) :=
  (Gen.W16_of_ne m ρ c main_arg18 (by decide)).trans <| (host7_keeps (Gen.W14 m ρ c) main_arg18 (by decide)).trans <| (Gen.W14_of_ne m ρ c main_arg18 (by decide)).trans <| (host6_keeps (Gen.W12 m ρ c) main_arg18 (by decide)).trans <| (Gen.W12_of_ne m ρ c main_arg18 (by decide)).trans <| (host5_keeps (Gen.W10 m ρ c) main_arg18 (by decide)).trans <| (Gen.W10_of_ne m ρ c main_arg18 (by decide)).trans <| (host4_keeps (Gen.W8 m ρ c) main_arg18 (by decide)).trans <| (Gen.W8_of_ne m ρ c main_arg18 (by decide)).trans <| (host3_keeps (Gen.W6 m ρ c) main_arg18 (by decide)).trans <| (Gen.W6_of_ne m ρ c main_arg18 (by decide)).trans <| (host2_keeps (Gen.W4 m ρ c) main_arg18 (by decide)).trans <| (Gen.W4_of_ne m ρ c main_arg18 (by decide)).trans <| (host1_keeps (Gen.W2 m ρ c) main_arg18 (by decide)).trans <| (Gen.W2_of_ne m ρ c main_arg18 (by decide)).trans <| (host0_keeps (Gen.W0 m ρ c) main_arg18 (by decide)).trans <| rfl
theorem W16_arg19 (c : Dev nD) : Gen.W16 m ρ c (Proc.devRef .tc main_arg19) = (m ((c : Thread nD τ).loc main_arg19)) :=
  (Gen.W16_of_ne m ρ c main_arg19 (by decide)).trans <| (host7_keeps (Gen.W14 m ρ c) main_arg19 (by decide)).trans <| (Gen.W14_of_ne m ρ c main_arg19 (by decide)).trans <| (host6_keeps (Gen.W12 m ρ c) main_arg19 (by decide)).trans <| (Gen.W12_of_ne m ρ c main_arg19 (by decide)).trans <| (host5_keeps (Gen.W10 m ρ c) main_arg19 (by decide)).trans <| (Gen.W10_of_ne m ρ c main_arg19 (by decide)).trans <| (host4_keeps (Gen.W8 m ρ c) main_arg19 (by decide)).trans <| (Gen.W8_of_ne m ρ c main_arg19 (by decide)).trans <| (host3_keeps (Gen.W6 m ρ c) main_arg19 (by decide)).trans <| (Gen.W6_of_ne m ρ c main_arg19 (by decide)).trans <| (host2_keeps (Gen.W4 m ρ c) main_arg19 (by decide)).trans <| (Gen.W4_of_ne m ρ c main_arg19 (by decide)).trans <| (host1_keeps (Gen.W2 m ρ c) main_arg19 (by decide)).trans <| (Gen.W2_of_ne m ρ c main_arg19 (by decide)).trans <| (host0_keeps (Gen.W0 m ρ c) main_arg19 (by decide)).trans <| rfl

/-! ## Each region's output array after the region: what its write-backs leave -/

theorem W2_v14 (c : Dev nD) : Gen.W2 m ρ c (Proc.devRef .tc main_v14) = (Gen.dat0 (Gen.V1 m ρ) c).arrAt 3 cfg0.N :=
  Gen.W2_arr m ρ c 3
theorem W4_v50 (c : Dev nD) : Gen.W4 m ρ c (Proc.devRef .tc main_v50) = (Gen.dat1 (Gen.V3 m ρ) c).arrAt 4 cfg1.N :=
  Gen.W4_arr m ρ c 4
theorem W6_v53 (c : Dev nD) : Gen.W6 m ρ c (Proc.devRef .tc main_v53) = (Gen.dat2 (Gen.V5 m ρ) c).arrAt 3 cfg2.N :=
  Gen.W6_arr m ρ c 3
theorem W8_v89 (c : Dev nD) : Gen.W8 m ρ c (Proc.devRef .tc main_v89) = (Gen.dat3 (Gen.V7 m ρ) c).arrAt 4 cfg3.N :=
  Gen.W8_arr m ρ c 4
theorem W10_v92 (c : Dev nD) : Gen.W10 m ρ c (Proc.devRef .tc main_v92) = (Gen.dat4 (Gen.V9 m ρ) c).arrAt 3 cfg4.N :=
  Gen.W10_arr m ρ c 3
theorem W12_v128 (c : Dev nD) : Gen.W12 m ρ c (Proc.devRef .tc main_v128) = (Gen.dat5 (Gen.V11 m ρ) c).arrAt 4 cfg5.N :=
  Gen.W12_arr m ρ c 4
theorem W14_v130 (c : Dev nD) : Gen.W14 m ρ c (Proc.devRef .tc main_v130) = (Gen.dat6 (Gen.V13 m ρ) c).arrAt 3 cfg6.N :=
  Gen.W14_arr m ρ c 3
theorem W16_v135 (c : Dev nD) : Gen.W16 m ρ c (Proc.devRef .tc main_v135) = (Gen.dat7 (Gen.V15 m ρ) c).arrAt 4 cfg7.N :=
  Gen.W16_arr m ρ c 4
theorem W18_v137 (c : Dev nD) : Gen.W18 m ρ c (Proc.devRef .tc main_v137) = (Gen.dat8 (Gen.V17 m ρ) c).arrAt 3 cfg8.N :=
  Gen.W18_arr m ρ c 3

/-! ## Each region's input arrays at its entry -/

theorem V1_arg0 (c : Dev nD) : Gen.V1 m ρ c main_arg0 = (m ((c : Thread nD τ).loc main_arg0)) :=
  (host0_keeps (Gen.W0 m ρ c) main_arg0 (by decide)).trans (W0_arg0 m ρ c)
/-- The same, the array named as region 0's window 0. -/
theorem reg0_in0 (c : Dev nD) : Gen.V1 m ρ c (Pipeline.arrRef spec0 0) = (m ((c : Thread nD τ).loc main_arg0)) :=
  V1_arg0 m ρ c
theorem V1_arg2 (c : Dev nD) : Gen.V1 m ρ c main_arg2 = (m ((c : Thread nD τ).loc main_arg2)) :=
  (host0_keeps (Gen.W0 m ρ c) main_arg2 (by decide)).trans (W0_arg2 m ρ c)
/-- The same, the array named as region 0's window 1. -/
theorem reg0_in1 (c : Dev nD) : Gen.V1 m ρ c (Pipeline.arrRef spec0 1) = (m ((c : Thread nD τ).loc main_arg2)) :=
  V1_arg2 m ρ c
theorem V1_v13 (c : Dev nD) : Gen.V1 m ρ c main_v13 = shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64 :=
  host0_v13 (Gen.W0 m ρ c)
/-- The same, the array named as region 0's window 2. -/
theorem reg0_in2 (c : Dev nD) : Gen.V1 m ρ c (Pipeline.arrRef spec0 2) = shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64 :=
  V1_v13 m ρ c
theorem V3_v46 (c : Dev nD) : Gen.V3 m ρ c main_v46 = agg64 (srcOf (m ((c : Thread nD τ).loc main_arg1))) (dstOf (m ((c : Thread nD τ).loc main_arg1))) (dinvOf (dstOf (m ((c : Thread nD τ).loc main_arg1)))) ((Gen.dat0 (Gen.V1 m ρ) c).arrAt 3 cfg0.N) :=
  by
  show StableHlo.after hostOps1 (Gen.W2 m ρ c) (Proc.devRef .tc main_v46) = _
  rw [host1_v46 (Gen.W2 m ρ c) ((W2_v11 m ρ c).trans (by rw [W2_v10 m ρ c])),
    W2_v1 m ρ c, W2_v3 m ρ c, W2_v10 m ρ c, W2_v14 m ρ c]
/-- The same, the array named as region 1's window 0. -/
theorem reg1_in0 (c : Dev nD) : Gen.V3 m ρ c (Pipeline.arrRef spec1 0) = agg64 (srcOf (m ((c : Thread nD τ).loc main_arg1))) (dstOf (m ((c : Thread nD τ).loc main_arg1))) (dinvOf (dstOf (m ((c : Thread nD τ).loc main_arg1)))) ((Gen.dat0 (Gen.V1 m ρ) c).arrAt 3 cfg0.N) :=
  V3_v46 m ρ c
theorem V3_v47 (c : Dev nD) : Gen.V3 m ρ c main_v47 = shapeCast S1x64 ((m ((c : Thread nD τ).loc main_arg3))) shapeCasts_S64_S1x64 :=
  by
  show StableHlo.after hostOps1 (Gen.W2 m ρ c) (Proc.devRef .tc main_v47) = _
  rw [host1_v47 (Gen.W2 m ρ c), W2_arg3 m ρ c]
/-- The same, the array named as region 1's window 1. -/
theorem reg1_in1 (c : Dev nD) : Gen.V3 m ρ c (Pipeline.arrRef spec1 1) = shapeCast S1x64 ((m ((c : Thread nD τ).loc main_arg3))) shapeCasts_S64_S1x64 :=
  V3_v47 m ρ c
theorem V3_v48 (c : Dev nD) : Gen.V3 m ρ c main_v48 = shapeCast S1x64 ((m ((c : Thread nD τ).loc main_arg4))) shapeCasts_S64_S1x64 :=
  by
  show StableHlo.after hostOps1 (Gen.W2 m ρ c) (Proc.devRef .tc main_v48) = _
  rw [host1_v48 (Gen.W2 m ρ c), W2_arg4 m ρ c]
/-- The same, the array named as region 1's window 2. -/
theorem reg1_in2 (c : Dev nD) : Gen.V3 m ρ c (Pipeline.arrRef spec1 2) = shapeCast S1x64 ((m ((c : Thread nD τ).loc main_arg4))) shapeCasts_S64_S1x64 :=
  V3_v48 m ρ c
theorem V3_v49 (c : Dev nD) : Gen.V3 m ρ c main_v49 = shapeCast S1x64 ((m ((c : Thread nD τ).loc main_arg5))) shapeCasts_S64_S1x64 :=
  by
  show StableHlo.after hostOps1 (Gen.W2 m ρ c) (Proc.devRef .tc main_v49) = _
  rw [host1_v49 (Gen.W2 m ρ c), W2_arg5 m ρ c]
/-- The same, the array named as region 1's window 3. -/
theorem reg1_in3 (c : Dev nD) : Gen.V3 m ρ c (Pipeline.arrRef spec1 3) = shapeCast S1x64 ((m ((c : Thread nD τ).loc main_arg5))) shapeCasts_S64_S1x64 :=
  V3_v49 m ρ c
theorem V5_v50 (c : Dev nD) : Gen.V5 m ρ c main_v50 = (Gen.dat1 (Gen.V3 m ρ) c).arrAt 4 cfg1.N :=
  (host2_keeps (Gen.W4 m ρ c) main_v50 (by decide)).trans (W4_v50 m ρ c)
/-- The same, the array named as region 2's window 0. -/
theorem reg2_in0 (c : Dev nD) : Gen.V5 m ρ c (Pipeline.arrRef spec2 0) = (Gen.dat1 (Gen.V3 m ρ) c).arrAt 4 cfg1.N :=
  V5_v50 m ρ c
theorem V5_arg6 (c : Dev nD) : Gen.V5 m ρ c main_arg6 = (m ((c : Thread nD τ).loc main_arg6)) :=
  (host2_keeps (Gen.W4 m ρ c) main_arg6 (by decide)).trans (W4_arg6 m ρ c)
/-- The same, the array named as region 2's window 1. -/
theorem reg2_in1 (c : Dev nD) : Gen.V5 m ρ c (Pipeline.arrRef spec2 1) = (m ((c : Thread nD τ).loc main_arg6)) :=
  V5_arg6 m ρ c
theorem V5_v52 (c : Dev nD) : Gen.V5 m ρ c main_v52 = shapeCast S1x128 ((broadcastInDim S128 ![] bcast_S_S128 : (⟨S_, .f32⟩ : BufTy).Contents (Elt F) → (⟨S128, .f32⟩ : BufTy).Contents (Elt F)) (constant S_ .f32 0x00000000#32)) shapeCasts_S128_S1x128 :=
  host2_v52 (Gen.W4 m ρ c)
/-- The same, the array named as region 2's window 2. -/
theorem reg2_in2 (c : Dev nD) : Gen.V5 m ρ c (Pipeline.arrRef spec2 2) = shapeCast S1x128 ((broadcastInDim S128 ![] bcast_S_S128 : (⟨S_, .f32⟩ : BufTy).Contents (Elt F) → (⟨S128, .f32⟩ : BufTy).Contents (Elt F)) (constant S_ .f32 0x00000000#32)) shapeCasts_S128_S1x128 :=
  V5_v52 m ρ c
theorem V7_v85 (c : Dev nD) : Gen.V7 m ρ c main_v85 = agg128 (srcOf (m ((c : Thread nD τ).loc main_arg1))) (dstOf (m ((c : Thread nD τ).loc main_arg1))) (dinvOf (dstOf (m ((c : Thread nD τ).loc main_arg1)))) ((Gen.dat2 (Gen.V5 m ρ) c).arrAt 3 cfg2.N) :=
  by
  show StableHlo.after hostOps3 (Gen.W6 m ρ c) (Proc.devRef .tc main_v85) = _
  rw [host3_v85 (Gen.W6 m ρ c) ((W6_v11 m ρ c).trans (by rw [W6_v10 m ρ c])),
    W6_v1 m ρ c, W6_v3 m ρ c, W6_v10 m ρ c, W6_v53 m ρ c]
/-- The same, the array named as region 3's window 0. -/
theorem reg3_in0 (c : Dev nD) : Gen.V7 m ρ c (Pipeline.arrRef spec3 0) = agg128 (srcOf (m ((c : Thread nD τ).loc main_arg1))) (dstOf (m ((c : Thread nD τ).loc main_arg1))) (dinvOf (dstOf (m ((c : Thread nD τ).loc main_arg1)))) ((Gen.dat2 (Gen.V5 m ρ) c).arrAt 3 cfg2.N) :=
  V7_v85 m ρ c
theorem V7_v86 (c : Dev nD) : Gen.V7 m ρ c main_v86 = shapeCast S1x128 ((m ((c : Thread nD τ).loc main_arg7))) shapeCasts_S128_S1x128 :=
  by
  show StableHlo.after hostOps3 (Gen.W6 m ρ c) (Proc.devRef .tc main_v86) = _
  rw [host3_v86 (Gen.W6 m ρ c), W6_arg7 m ρ c]
/-- The same, the array named as region 3's window 1. -/
theorem reg3_in1 (c : Dev nD) : Gen.V7 m ρ c (Pipeline.arrRef spec3 1) = shapeCast S1x128 ((m ((c : Thread nD τ).loc main_arg7))) shapeCasts_S128_S1x128 :=
  V7_v86 m ρ c
theorem V7_v87 (c : Dev nD) : Gen.V7 m ρ c main_v87 = shapeCast S1x128 ((m ((c : Thread nD τ).loc main_arg8))) shapeCasts_S128_S1x128 :=
  by
  show StableHlo.after hostOps3 (Gen.W6 m ρ c) (Proc.devRef .tc main_v87) = _
  rw [host3_v87 (Gen.W6 m ρ c), W6_arg8 m ρ c]
/-- The same, the array named as region 3's window 2. -/
theorem reg3_in2 (c : Dev nD) : Gen.V7 m ρ c (Pipeline.arrRef spec3 2) = shapeCast S1x128 ((m ((c : Thread nD τ).loc main_arg8))) shapeCasts_S128_S1x128 :=
  V7_v87 m ρ c
theorem V7_v88 (c : Dev nD) : Gen.V7 m ρ c main_v88 = shapeCast S1x128 ((m ((c : Thread nD τ).loc main_arg9))) shapeCasts_S128_S1x128 :=
  by
  show StableHlo.after hostOps3 (Gen.W6 m ρ c) (Proc.devRef .tc main_v88) = _
  rw [host3_v88 (Gen.W6 m ρ c), W6_arg9 m ρ c]
/-- The same, the array named as region 3's window 3. -/
theorem reg3_in3 (c : Dev nD) : Gen.V7 m ρ c (Pipeline.arrRef spec3 3) = shapeCast S1x128 ((m ((c : Thread nD τ).loc main_arg9))) shapeCasts_S128_S1x128 :=
  V7_v88 m ρ c
theorem V9_v89 (c : Dev nD) : Gen.V9 m ρ c main_v89 = (Gen.dat3 (Gen.V7 m ρ) c).arrAt 4 cfg3.N :=
  (host4_keeps (Gen.W8 m ρ c) main_v89 (by decide)).trans (W8_v89 m ρ c)
/-- The same, the array named as region 4's window 0. -/
theorem reg4_in0 (c : Dev nD) : Gen.V9 m ρ c (Pipeline.arrRef spec4 0) = (Gen.dat3 (Gen.V7 m ρ) c).arrAt 4 cfg3.N :=
  V9_v89 m ρ c
theorem V9_arg10 (c : Dev nD) : Gen.V9 m ρ c main_arg10 = (m ((c : Thread nD τ).loc main_arg10)) :=
  (host4_keeps (Gen.W8 m ρ c) main_arg10 (by decide)).trans (W8_arg10 m ρ c)
/-- The same, the array named as region 4's window 1. -/
theorem reg4_in1 (c : Dev nD) : Gen.V9 m ρ c (Pipeline.arrRef spec4 1) = (m ((c : Thread nD τ).loc main_arg10)) :=
  V9_arg10 m ρ c
theorem V9_v91 (c : Dev nD) : Gen.V9 m ρ c main_v91 = shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64 :=
  host4_v91 (Gen.W8 m ρ c)
/-- The same, the array named as region 4's window 2. -/
theorem reg4_in2 (c : Dev nD) : Gen.V9 m ρ c (Pipeline.arrRef spec4 2) = shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64 :=
  V9_v91 m ρ c
theorem V11_v124 (c : Dev nD) : Gen.V11 m ρ c main_v124 = agg64 (srcOf (m ((c : Thread nD τ).loc main_arg1))) (dstOf (m ((c : Thread nD τ).loc main_arg1))) (dinvOf (dstOf (m ((c : Thread nD τ).loc main_arg1)))) ((Gen.dat4 (Gen.V9 m ρ) c).arrAt 3 cfg4.N) :=
  by
  show StableHlo.after hostOps5 (Gen.W10 m ρ c) (Proc.devRef .tc main_v124) = _
  rw [host5_v124 (Gen.W10 m ρ c) ((W10_v11 m ρ c).trans (by rw [W10_v10 m ρ c])),
    W10_v1 m ρ c, W10_v3 m ρ c, W10_v10 m ρ c, W10_v92 m ρ c]
/-- The same, the array named as region 5's window 0. -/
theorem reg5_in0 (c : Dev nD) : Gen.V11 m ρ c (Pipeline.arrRef spec5 0) = agg64 (srcOf (m ((c : Thread nD τ).loc main_arg1))) (dstOf (m ((c : Thread nD τ).loc main_arg1))) (dinvOf (dstOf (m ((c : Thread nD τ).loc main_arg1)))) ((Gen.dat4 (Gen.V9 m ρ) c).arrAt 3 cfg4.N) :=
  V11_v124 m ρ c
theorem V11_v125 (c : Dev nD) : Gen.V11 m ρ c main_v125 = shapeCast S1x64 ((m ((c : Thread nD τ).loc main_arg11))) shapeCasts_S64_S1x64 :=
  by
  show StableHlo.after hostOps5 (Gen.W10 m ρ c) (Proc.devRef .tc main_v125) = _
  rw [host5_v125 (Gen.W10 m ρ c), W10_arg11 m ρ c]
/-- The same, the array named as region 5's window 1. -/
theorem reg5_in1 (c : Dev nD) : Gen.V11 m ρ c (Pipeline.arrRef spec5 1) = shapeCast S1x64 ((m ((c : Thread nD τ).loc main_arg11))) shapeCasts_S64_S1x64 :=
  V11_v125 m ρ c
theorem V11_v126 (c : Dev nD) : Gen.V11 m ρ c main_v126 = shapeCast S1x64 ((m ((c : Thread nD τ).loc main_arg12))) shapeCasts_S64_S1x64 :=
  by
  show StableHlo.after hostOps5 (Gen.W10 m ρ c) (Proc.devRef .tc main_v126) = _
  rw [host5_v126 (Gen.W10 m ρ c), W10_arg12 m ρ c]
/-- The same, the array named as region 5's window 2. -/
theorem reg5_in2 (c : Dev nD) : Gen.V11 m ρ c (Pipeline.arrRef spec5 2) = shapeCast S1x64 ((m ((c : Thread nD τ).loc main_arg12))) shapeCasts_S64_S1x64 :=
  V11_v126 m ρ c
theorem V11_v127 (c : Dev nD) : Gen.V11 m ρ c main_v127 = shapeCast S1x64 ((m ((c : Thread nD τ).loc main_arg13))) shapeCasts_S64_S1x64 :=
  by
  show StableHlo.after hostOps5 (Gen.W10 m ρ c) (Proc.devRef .tc main_v127) = _
  rw [host5_v127 (Gen.W10 m ρ c), W10_arg13 m ρ c]
/-- The same, the array named as region 5's window 3. -/
theorem reg5_in3 (c : Dev nD) : Gen.V11 m ρ c (Pipeline.arrRef spec5 3) = shapeCast S1x64 ((m ((c : Thread nD τ).loc main_arg13))) shapeCasts_S64_S1x64 :=
  V11_v127 m ρ c
theorem V13_v128 (c : Dev nD) : Gen.V13 m ρ c main_v128 = (Gen.dat5 (Gen.V11 m ρ) c).arrAt 4 cfg5.N :=
  (host6_keeps (Gen.W12 m ρ c) main_v128 (by decide)).trans (W12_v128 m ρ c)
/-- The same, the array named as region 6's window 0. -/
theorem reg6_in0 (c : Dev nD) : Gen.V13 m ρ c (Pipeline.arrRef spec6 0) = (Gen.dat5 (Gen.V11 m ρ) c).arrAt 4 cfg5.N :=
  V13_v128 m ρ c
theorem V13_arg14 (c : Dev nD) : Gen.V13 m ρ c main_arg14 = (m ((c : Thread nD τ).loc main_arg14)) :=
  (host6_keeps (Gen.W12 m ρ c) main_arg14 (by decide)).trans (W12_arg14 m ρ c)
/-- The same, the array named as region 6's window 1. -/
theorem reg6_in1 (c : Dev nD) : Gen.V13 m ρ c (Pipeline.arrRef spec6 1) = (m ((c : Thread nD τ).loc main_arg14)) :=
  V13_arg14 m ρ c
theorem V13_v129 (c : Dev nD) : Gen.V13 m ρ c main_v129 = shapeCast S1x32 ((m ((c : Thread nD τ).loc main_arg15))) shapeCasts_S32_S1x32 :=
  by
  show StableHlo.after hostOps6 (Gen.W12 m ρ c) (Proc.devRef .tc main_v129) = _
  rw [host6_v129 (Gen.W12 m ρ c), W12_arg15 m ρ c]
/-- The same, the array named as region 6's window 2. -/
theorem reg6_in2 (c : Dev nD) : Gen.V13 m ρ c (Pipeline.arrRef spec6 2) = shapeCast S1x32 ((m ((c : Thread nD τ).loc main_arg15))) shapeCasts_S32_S1x32 :=
  V13_v129 m ρ c
theorem V15_v130 (c : Dev nD) : Gen.V15 m ρ c main_v130 = (Gen.dat6 (Gen.V13 m ρ) c).arrAt 3 cfg6.N :=
  (host7_keeps (Gen.W14 m ρ c) main_v130 (by decide)).trans (W14_v130 m ρ c)
/-- The same, the array named as region 7's window 0. -/
theorem reg7_in0 (c : Dev nD) : Gen.V15 m ρ c (Pipeline.arrRef spec7 0) = (Gen.dat6 (Gen.V13 m ρ) c).arrAt 3 cfg6.N :=
  V15_v130 m ρ c
theorem V15_v132 (c : Dev nD) : Gen.V15 m ρ c main_v132 = shapeCast S1x32 ((broadcastInDim S32 ![] bcast_S_S32 : (⟨S_, .f32⟩ : BufTy).Contents (Elt F) → (⟨S32, .f32⟩ : BufTy).Contents (Elt F)) (constant S_ .f32 0x00000000#32)) shapeCasts_S32_S1x32 :=
  host7_v132 (Gen.W14 m ρ c)
/-- The same, the array named as region 7's window 1. -/
theorem reg7_in1 (c : Dev nD) : Gen.V15 m ρ c (Pipeline.arrRef spec7 1) = shapeCast S1x32 ((broadcastInDim S32 ![] bcast_S_S32 : (⟨S_, .f32⟩ : BufTy).Contents (Elt F) → (⟨S32, .f32⟩ : BufTy).Contents (Elt F)) (constant S_ .f32 0x00000000#32)) shapeCasts_S32_S1x32 :=
  V15_v132 m ρ c
theorem V15_v133 (c : Dev nD) : Gen.V15 m ρ c main_v133 = shapeCast S1x32 ((m ((c : Thread nD τ).loc main_arg16))) shapeCasts_S32_S1x32 :=
  by
  show StableHlo.after hostOps7 (Gen.W14 m ρ c) (Proc.devRef .tc main_v133) = _
  rw [host7_v133 (Gen.W14 m ρ c), W14_arg16 m ρ c]
/-- The same, the array named as region 7's window 2. -/
theorem reg7_in2 (c : Dev nD) : Gen.V15 m ρ c (Pipeline.arrRef spec7 2) = shapeCast S1x32 ((m ((c : Thread nD τ).loc main_arg16))) shapeCasts_S32_S1x32 :=
  V15_v133 m ρ c
theorem V15_v134 (c : Dev nD) : Gen.V15 m ρ c main_v134 = shapeCast S1x32 ((m ((c : Thread nD τ).loc main_arg17))) shapeCasts_S32_S1x32 :=
  by
  show StableHlo.after hostOps7 (Gen.W14 m ρ c) (Proc.devRef .tc main_v134) = _
  rw [host7_v134 (Gen.W14 m ρ c), W14_arg17 m ρ c]
/-- The same, the array named as region 7's window 3. -/
theorem reg7_in3 (c : Dev nD) : Gen.V15 m ρ c (Pipeline.arrRef spec7 3) = shapeCast S1x32 ((m ((c : Thread nD τ).loc main_arg17))) shapeCasts_S32_S1x32 :=
  V15_v134 m ρ c
theorem V17_v135 (c : Dev nD) : Gen.V17 m ρ c main_v135 = (Gen.dat7 (Gen.V15 m ρ) c).arrAt 4 cfg7.N :=
  (host8_keeps (Gen.W16 m ρ c) main_v135 (by decide)).trans (W16_v135 m ρ c)
/-- The same, the array named as region 8's window 0. -/
theorem reg8_in0 (c : Dev nD) : Gen.V17 m ρ c (Pipeline.arrRef spec8 0) = (Gen.dat7 (Gen.V15 m ρ) c).arrAt 4 cfg7.N :=
  V17_v135 m ρ c
theorem V17_arg18 (c : Dev nD) : Gen.V17 m ρ c main_arg18 = (m ((c : Thread nD τ).loc main_arg18)) :=
  (host8_keeps (Gen.W16 m ρ c) main_arg18 (by decide)).trans (W16_arg18 m ρ c)
/-- The same, the array named as region 8's window 1. -/
theorem reg8_in1 (c : Dev nD) : Gen.V17 m ρ c (Pipeline.arrRef spec8 1) = (m ((c : Thread nD τ).loc main_arg18)) :=
  V17_arg18 m ρ c
theorem V17_v136 (c : Dev nD) : Gen.V17 m ρ c main_v136 = shapeCast S1x32 ((m ((c : Thread nD τ).loc main_arg19))) shapeCasts_S32_S1x32 :=
  by
  show StableHlo.after hostOps8 (Gen.W16 m ρ c) (Proc.devRef .tc main_v136) = _
  rw [host8_v136 (Gen.W16 m ρ c), W16_arg19 m ρ c]
/-- The same, the array named as region 8's window 2. -/
theorem reg8_in2 (c : Dev nD) : Gen.V17 m ρ c (Pipeline.arrRef spec8 2) = shapeCast S1x32 ((m ((c : Thread nD τ).loc main_arg19))) shapeCasts_S32_S1x32 :=
  V17_v136 m ρ c

end Cert.KernelIdeal.KVal

end
-- ==== Proof.Spec.lean ====
/-
  The two row-wise functions this graph network is made of, as functions of whole arrays over the extended
  reals, index by index.

  * `linG x w b` — a dense layer: entry (r, q) is the sum over k of x(r, k) · w(k, q), plus the bias row's
    entry q. A sum of products in the extended reals: no order of summation is left in it.
  * `lnEluG h b g be` — bias, LayerNorm over the feature axis, then ELU: with z = h(r, ·) + b, mean = (Σ z)/C,
    var = (Σ (z − mean)²)/C, hn = (z_q − mean) · rsqrt(var + ε) · g_q + be_q, the entry is hn where hn > 0
    and exp(hn) − 1 elsewhere. The divisor C, ε, 0 and 1 are the binary32 words both programs carry.
-/
import Idealize.ShloMosaic.PureOps.Ideal
import Idealize.ShloMosaic.Lib.ValueIdx

noncomputable section

namespace Cert.GcnSpec

open Idealize.ShloMosaic Idealize.ShloMosaic.ValueIdx

/-- A dense layer at (r, q): Σ_k x(r,k) · w(k,q) + b(0,q). -/
def linG {N K C : Nat} (x : (⟨2, ![N, K]⟩ : Shape).Idx → EReal) (w : (⟨2, ![K, C]⟩ : Shape).Idx → EReal)
    (b : (⟨2, ![1, C]⟩ : Shape).Idx → EReal) : (⟨2, ![N, C]⟩ : Shape).Idx → EReal :=
  fun i => (∑ k : Fin K, x (ix2 (i 0) k) * w (ix2 k (i 1))) + b (ix2 (0 : Fin 1) (i 1))

/-- One row's normalised and activated entry q, from the row z (bias already added), the divisor `cnt` (the
    feature count as a float word), the scale row g and the shift row be. -/
def lnEluRow {C : Nat} (cnt : EReal) (z g be : Fin C → EReal) (q : Fin C) : EReal :=
  let mean := Ideal.div (∑ k : Fin C, z k) cnt
  let var := Ideal.div (∑ k : Fin C, (z k - mean) * (z k - mean)) cnt
  let hn := (z q - mean) * Ideal.rsqrt (var + Ideal.ofBits .f32 0x3727C5AC#32) * g q + be q
  Scalar.select (Ideal.cmp .ogt hn (Ideal.ofBits .f32 0x00000000#32)) hn (Ideal.exp hn - Ideal.ofBits .f32 0x3F800000#32)

/-- Bias, LayerNorm over the feature axis and ELU, at (r, q). -/
def lnEluG {N C : Nat} (cnt : EReal) (h : (⟨2, ![N, C]⟩ : Shape).Idx → EReal) (b g be : (⟨2, ![1, C]⟩ : Shape).Idx → EReal) :
    (⟨2, ![N, C]⟩ : Shape).Idx → EReal :=
  fun i => lnEluRow cnt (fun k => h (ix2 (i 0) k) + b (ix2 (0 : Fin 1) k)) (fun k => g (ix2 (0 : Fin 1) k))
    (fun k => be (ix2 (0 : Fin 1) k)) (i 1)

end Cert.GcnSpec

end
-- ==== Proof.KCover0.lean ====
/- Region 0 of the program (rows times a matrix plus a bias row; 20 grid points of 5000 rows each):
   its blocks as parts of its arrays, and its output array after the region as one whole-array function.
   At a parameter `V`, the buffer contents when the region is entered. The rows windows (input window 0 and
   the output window 3) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 0's index maps at its 20 grid points: the rows windows at block (t, 0), the whole-array windows at block (0, 0). -/
theorem blockIndex0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Every one of the 20 row blocks of the output array is some point's. -/
theorem blockOnto0 : ∀ q : Fin 20, ∃ t : Fin cfg0.N, win0_3.index t = ![q.val, 0] :=
  (by decide +kernel : ∀ q : Fin 20, ∃ t : Fin grid0.N, win0_3.index t = ![q.val, 0])

/-- Input window 0's block at point `t` is rows 5000 t … 5000 t + 4999 of its array: the element at block
    coordinates `y` is the array's at any index `k` with those coordinates. -/
theorem iblk0_0_apply (c : Dev nD) (t : Fin cfg0.N) (y : S5000x128.Idx) (k : S100000x128.Idx)
    (hk0 : (k 0).val = 5000 * t.val + (y 0).val) (hk1 : (k 1).val = (y 1).val) :
    (Gen.iblk0 V c 0 t : Vec F S5000x128 .f32) y = (V c (Pipeline.arrRef spec0 0) : S100000x128.Idx → Elt F .f32) k := by
  obtain ⟨e0, e1, -, -, -, -, -, -⟩ := blockIndex0 t
  unfold Gen.iblk0
  rw [View.read_apply]
  refine congrArg (V c (Pipeline.arrRef spec0 0) : S100000x128.Idx → Elt F .f32) ?_
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- Input window 1's block at every point is its whole array. -/
theorem iblk0_1_eq (c : Dev nD) (t : Fin cfg0.N) :
    (Gen.iblk0 V c 1 t : Vec F S128x64 .f32) = (V c (Pipeline.arrRef spec0 1) : S128x64.Idx → Elt F .f32) := by
  obtain ⟨-, -, e0, e1, -, -, -, -⟩ := blockIndex0 t
  funext y
  unfold Gen.iblk0
  rw [View.read_apply]
  refine congrArg (V c (Pipeline.arrRef spec0 1) : S128x64.Idx → Elt F .f32) ?_
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Input window 2's block at every point is its whole array. -/
theorem iblk0_2_eq (c : Dev nD) (t : Fin cfg0.N) :
    (Gen.iblk0 V c 2 t : Vec F S1x64 .f32) = (V c (Pipeline.arrRef spec0 2) : S1x64.Idx → Elt F .f32) := by
  obtain ⟨-, -, -, -, e0, e1, -, -⟩ := blockIndex0 t
  funext y
  unfold Gen.iblk0
  rw [View.read_apply]
  refine congrArg (V c (Pipeline.arrRef spec0 2) : S1x64.Idx → Elt F .f32) ?_
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The output block at point `t` sits at rows 5000 t … 5000 t + 4999 of the output array, all columns. -/
theorem oblk0_emb_val (t : Fin cfg0.N) (y : S5000x64.Idx) :
    ((((cfg0.win 3).blk t).view.emb y : S100000x64.Idx) 0).val = 5000 * t.val + (y 0).val
    ∧ ((((cfg0.win 3).blk t).view.emb y : S100000x64.Idx) 1).val = (y 1).val := by
  obtain ⟨-, -, -, -, -, -, e0, e1⟩ := blockIndex0 t
  constructor
  · show win0_3.index t (0 : Fin 2) * 5000 + 1 * (y 0).val = _; rw [e0]; omega
  · show win0_3.index t (1 : Fin 2) * 64 + 1 * (y 1).val = _; rw [e1]; omega

/-- What point `t` writes back is block `t` of `G`, for any array function `G` whose block at every point is what
    the body leaves in the output window there. -/
theorem flushed0 (c : Dev nD) (G : S100000x64.Idx → Elt F .f32)
    (hG : ∀ (t : Fin cfg0.N) (y : S5000x64.Idx),
      Gen.out0_3 (Gen.iblk0 V c 0 t) (Gen.iblk0 V c 1 t) (Gen.iblk0 V c 2 t) y = G (((cfg0.win 3).blk t).view.emb y)) (t : Fin cfg0.N) :
    (Gen.dat0 V c).flushed 3 t = ((cfg0.win 3).blk t).view.read (Elt F) G := by
  show (cfg0.win 3).cut (grid0.coords t) ((Gen.dat0 V c).after 3 t) = _
  rw [Gen.after0_3]
  funext y
  rw [View.read_apply]
  exact hG t y

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- The blocks cover the array: row `r` is in the block of the point whose block index is `r / 5000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := blockOnto0 ⟨(i 0).val / 5000, by omega⟩
  have q0 : win0_3.index t (0 : Fin 2) = (i 0).val / 5000 := congrFun ht 0
  have q1 : win0_3.index t (1 : Fin 2) = 0 := congrFun ht 1
  refine ⟨t, Gen.flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY AFTER REGION 0: any array function whose block at every point is what the body leaves there. -/
theorem final0 (c : Dev nD) (G : S100000x64.Idx → Elt F .f32)
    (hG : ∀ (t : Fin cfg0.N) (y : S5000x64.Idx),
      Gen.out0_3 (Gen.iblk0 V c 0 t) (Gen.iblk0 V c 1 t) (Gen.iblk0 V c 2 t) y = G (((cfg0.win 3).blk t).view.emb y)) :
    (Gen.dat0 V c).arrAt 3 cfg0.N = G :=
  (Gen.dat0 V c).arrAt_eq_of_cover 3 G (fun t _ => flushed0 V c G hG t) cover0

end Cert.KernelIdeal.KVal

end
-- ==== Proof.RowOps.lean ====
/-
  Rows and columns read at an entry, for arrays of any extents [a, b]: the keepdims forms a row-wise
  normalisation is written with. A per-row scalar held as a column [a, 1] broadcasts along the row; a
  per-feature row [1, b] (or a vector [b]) broadcasts down the rows; a sum over the feature axis at row p is
  the finite sum over k of the entries (p, k) — on the vector unit from the zero accumulator, on the host
  from the initial value.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.GcnSpec

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The vector unit's sum over the feature axis of an [a, b] array, from the zero accumulator, at row p. -/
theorem multiReduction_add_rows {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's vector [a] placed as a column [a, 1]. -/
theorem bcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's column [a, 1] broadcast along the rows of [a, b]. -/
theorem bcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's vector [b] placed as a row [1, b]. -/
theorem bcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's row [1, b] broadcast down the rows of [a, b]. -/
theorem bcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply ![0, 1] h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's sum over the feature axis of an [a, b] array at row p: the initial value plus the finite sum. -/
theorem hostReduceAdd_rows {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  show Ideal.hostReduceAdd h' x (init (Shape.Idx.first hu)) (ix1 p) = _
  rw [Ideal.hostReduceAdd_single h' h x _ (ix1 p), show Shape.Idx.first hu = ix0 from funext fun d => d.elim0]
  exact congrArg (init ix0 + ·) (Finset.sum_congr rfl fun k _ => congrArg x (funext fun c => Fin.ext (by
    match c with
    | ⟨0, _⟩ => rfl
    | ⟨1, _⟩ => rfl)))

end Cert.GcnSpec

end
-- ==== Proof.DotPlain.lean ====
/-
  A plain matrix product (rows × contraction by contraction × columns) read at an entry: the sum over the
  library's contraction index is the sum over k of lhs(r, k) · rhs(k, q). Both the matrix unit's product into
  a zero accumulator and the host's dot_general are this sum over the extended reals.
-/
import Idealize.ShloMosaic.PureOps.Ideal.Laws
import Idealize.ShloMosaic.Lib.ValueIdx

noncomputable section

namespace Cert.GcnSpec

open Idealize.ShloMosaic Idealize.ShloMosaic.ValueIdx

/-- The left operand's index at entry j and contraction position k is (j₀, k). -/
theorem plain_lhsIdx (M K C : Nat) (j : (⟨2, ![M, C]⟩ : Shape).Idx) (i : Fin K) :
    (DotDims.plain M K C).lhsIdx j ((contrEquiv1 (DotDims.plain M K C) K rfl rfl).symm i) = ix2 (j 0) i := by
  funext a
  apply Fin.ext
  match a with
  | ⟨0, _⟩ => rfl
  | ⟨1, _⟩ =>
    exact ((DotDims.plain M K C).lhsIdx_val_of_single (cl := (1 : Fin 2)) rfl j _).trans
      (contrEquiv1_symm_val (DotDims.plain M K C) K rfl rfl i)

/-- The right operand's index at entry j and contraction position k is (k, j₁). -/
theorem plain_rhsIdx (M K C : Nat) (j : (⟨2, ![M, C]⟩ : Shape).Idx) (i : Fin K) :
    (DotDims.plain M K C).rhsIdx j ((contrEquiv1 (DotDims.plain M K C) K rfl rfl).symm i) = ix2 i (j 1) := by
  funext a
  apply Fin.ext
  match a with
  | ⟨0, _⟩ =>
    exact ((DotDims.plain M K C).rhsIdx_val_of_single (cr := (0 : Fin 2)) rfl j _).trans
      (contrEquiv1_symm_val (DotDims.plain M K C) K rfl rfl i)
  | ⟨1, _⟩ => rfl

/-- The contraction sum of a plain product, re-indexed by the one contracted coordinate. -/
theorem plain_sum (M K C : Nat) (lhs : (⟨2, ![M, K]⟩ : Shape).Idx → EReal) (rhs : (⟨2, ![K, C]⟩ : Shape).Idx → EReal)
    (j : (⟨2, ![M, C]⟩ : Shape).Idx) :
    (∑ k : (DotDims.plain M K C).contr.Idx, lhs ((DotDims.plain M K C).lhsIdx j k) * rhs ((DotDims.plain M K C).rhsIdx j k))
      = ∑ i : Fin K, lhs (ix2 (j 0) i) * rhs (ix2 i (j 1)) := by
  rw [← Equiv.sum_comp (contrEquiv1 (DotDims.plain M K C) K rfl rfl).symm]
  exact Finset.sum_congr rfl fun i _ =>
    congrArg₂ (· * ·) (congrArg lhs (plain_lhsIdx M K C j i)) (congrArg rhs (plain_rhsIdx M K C j i))

end Cert.GcnSpec

end
-- ==== Proof.Pay.lean ====
/-
  The two kernel bodies of this network as pure functions of their loaded blocks, read at an entry, for blocks
  of any extents.

  * The dense body: the matrix unit's product of the row block with the weight matrix into a zero accumulator,
    plus the bias row broadcast down the rows. At (p, q): Σ_k x(p,k)·w(k,q) + b(0,q) — rounding the operands to
    bfloat16 is the identity on the extended reals, and the zero accumulator adds nothing.
  * The normalising body: z = block + bias row; the per-row mean and variance as columns [a, 1] (a lane sum,
    divided by the feature count); hn = (z − mean)·rsqrt(var + ε)·g + be; and ELU by a select on hn > 0 between
    hn and exp(hn) − 1. At (p, q) this is `lnEluRow` of row p.
-/
import proofs.«155585_j22110491640565_1_alg».proof.Proof.Spec
import proofs.«155585_j22110491640565_1_alg».proof.Proof.RowOps
import proofs.«155585_j22110491640565_1_alg».proof.Proof.DotPlain

noncomputable section

namespace Cert.GcnSpec

open Idealize.ShloMosaic Idealize.ShloMosaic.ValueIdx

/-- The dense body at (p, q). -/
theorem linPay_apply (M K C : ℕ) (hbits : FTy.bits .bf16 < FTy.bits .f32)
    (d : DotDims ⟨2, ![M, K]⟩ ⟨2, ![K, C]⟩ ⟨2, ![M, C]⟩) (hd : d = DotDims.plain M K C)
    (hsc : (⟨2, ![1, C]⟩ : Shape).ShapeCasts ⟨2, ![1, C]⟩) (hb : (⟨2, ![1, C]⟩ : Shape).Broadcasts ⟨2, ![M, C]⟩)
    (v0 : FVec Ideal ⟨2, ![M, K]⟩ .f32) (v2 : FVec Ideal ⟨2, ![K, C]⟩ .f32) (v5 : FVec Ideal ⟨2, ![1, C]⟩ .f32)
    (p : Fin M) (q : Fin C) :
    addf (matmul d none (truncf .bf16 v0 hbits) (truncf .bf16 v2 hbits) (constant ⟨2, ![M, C]⟩ .f32 0x00000000#32))
        (broadcastTo ⟨2, ![M, C]⟩ (shapeCast ⟨2, ![1, C]⟩ v5 hsc) hb) (ix2 p q)
      = (∑ k : Fin K, v0 (ix2 p k) * v2 (ix2 k q)) + v5 (ix2 (0 : Fin 1) q) := by
  subst hd
  show matmul (DotDims.plain M K C) none (truncf .bf16 v0 hbits) (truncf .bf16 v2 hbits) (constant ⟨2, ![M, C]⟩ .f32 0x00000000#32) (ix2 p q)
      + broadcastTo ⟨2, ![M, C]⟩ (shapeCast ⟨2, ![1, C]⟩ v5 hsc) hb (ix2 p q) = _
  rw [broadcastTo_1b_ab_apply, shapeCast_self]
  refine congrArg (· + v5 (ix2 (0 : Fin 1) q)) ?_
  refine (Ideal.matmul_constant_zero_apply (DotDims.plain M K C) none _ _ (ix2 p q)).trans ?_
  exact plain_sum M K C v0 v2 (ix2 p q)

section Ln

variable (a b : ℕ) (cnt : BitVec 32)
  (hs1 : (⟨2, ![a, b]⟩ : Shape).ShapeCasts ⟨2, ![a, b]⟩) (hs2 : (⟨2, ![1, b]⟩ : Shape).ShapeCasts ⟨2, ![1, b]⟩)
  (hb1 : (⟨2, ![1, b]⟩ : Shape).Broadcasts ⟨2, ![a, b]⟩) (hr : (⟨2, ![a, b]⟩ : Shape).Reduces [1] ⟨1, ![a]⟩)
  (hs3 : (⟨1, ![a]⟩ : Shape).ShapeCasts ⟨2, ![a, 1]⟩) (hb2 : (⟨2, ![a, 1]⟩ : Shape).Broadcasts ⟨2, ![a, b]⟩)
  (hφ : FKind.Formats .f32) (hacc : (0x00000000#32 : BitVec 32) = FKind.add.neutral .f32 hφ)

/-- The block with the bias row added. -/
def lnZ (v0 : FVec Ideal ⟨2, ![a, b]⟩ .f32) (v2 : FVec Ideal ⟨2, ![1, b]⟩ .f32) : FVec Ideal ⟨2, ![a, b]⟩ .f32 :=
  addf (shapeCast ⟨2, ![a, b]⟩ v0 hs1) (broadcastTo ⟨2, ![a, b]⟩ (shapeCast ⟨2, ![1, b]⟩ v2 hs2) hb1)

theorem lnZ_apply (v0 : FVec Ideal ⟨2, ![a, b]⟩ .f32) (v2 : FVec Ideal ⟨2, ![1, b]⟩ .f32) (p : Fin a) (k : Fin b) :
    lnZ a b hs1 hs2 hb1 v0 v2 (ix2 p k) = v0 (ix2 p k) + v2 (ix2 (0 : Fin 1) k) := by
  show shapeCast ⟨2, ![a, b]⟩ v0 hs1 (ix2 p k) + broadcastTo ⟨2, ![a, b]⟩ (shapeCast ⟨2, ![1, b]⟩ v2 hs2) hb1 (ix2 p k) = _
  rw [broadcastTo_1b_ab_apply, shapeCast_self, shapeCast_self]

/-- The per-row mean of an [a, b] array as a column: the lane sum over the features divided by the count word. -/
def colMean (z : FVec Ideal ⟨2, ![a, b]⟩ .f32) : FVec Ideal ⟨2, ![a, 1]⟩ .f32 :=
  divf (shapeCast ⟨2, ![a, 1]⟩ (multiReduction .add [1] ⟨1, ![a]⟩ z 0x00000000#32 hr hφ hacc) hs3)
    (broadcast ⟨2, ![a, 1]⟩ (Scalar.ofBits .f32 cnt))

theorem colMean_apply (z : FVec Ideal ⟨2, ![a, b]⟩ .f32) (p : Fin a) (u : Fin 1) :
    colMean a b cnt hr hs3 hφ hacc z (ix2 p u) = Ideal.div (∑ k : Fin b, z (ix2 p k)) (Ideal.ofBits .f32 cnt) := by
  show Ideal.div (shapeCast ⟨2, ![a, 1]⟩ (multiReduction .add [1] ⟨1, ![a]⟩ z 0x00000000#32 hr hφ hacc) hs3 (ix2 p u)) (Ideal.ofBits .f32 cnt) = _
  rw [shapeCast_a_a1_apply, multiReduction_add_rows]

/-- The normalised, scaled and shifted block (before the activation). -/
def lnHn (v0 : FVec Ideal ⟨2, ![a, b]⟩ .f32) (v2 v24 v28 : FVec Ideal ⟨2, ![1, b]⟩ .f32) : FVec Ideal ⟨2, ![a, b]⟩ .f32 :=
  addf
    (mulf
      (mulf (subf (lnZ a b hs1 hs2 hb1 v0 v2) (broadcastTo ⟨2, ![a, b]⟩ (colMean a b cnt hr hs3 hφ hacc (lnZ a b hs1 hs2 hb1 v0 v2)) hb2))
        (broadcastTo ⟨2, ![a, b]⟩
          (rsqrt (addf
            (colMean a b cnt hr hs3 hφ hacc
              (mulf (subf (lnZ a b hs1 hs2 hb1 v0 v2) (broadcastTo ⟨2, ![a, b]⟩ (colMean a b cnt hr hs3 hφ hacc (lnZ a b hs1 hs2 hb1 v0 v2)) hb2))
                (subf (lnZ a b hs1 hs2 hb1 v0 v2) (broadcastTo ⟨2, ![a, b]⟩ (colMean a b cnt hr hs3 hφ hacc (lnZ a b hs1 hs2 hb1 v0 v2)) hb2))))
            (broadcast ⟨2, ![a, 1]⟩ (Scalar.ofBits .f32 0x3727C5AC#32)))) hb2))
      (broadcastTo ⟨2, ![a, b]⟩ (shapeCast ⟨2, ![1, b]⟩ v24 hs2) hb1))
    (broadcastTo ⟨2, ![a, b]⟩ (shapeCast ⟨2, ![1, b]⟩ v28 hs2) hb1)

/-- The whole body's stored value. -/
def lnPay (v0 : FVec Ideal ⟨2, ![a, b]⟩ .f32) (v2 v24 v28 : FVec Ideal ⟨2, ![1, b]⟩ .f32) : FVec Ideal ⟨2, ![a, b]⟩ .f32 :=
  select (cmpf .ogt (lnHn a b cnt hs1 hs2 hb1 hr hs3 hb2 hφ hacc v0 v2 v24 v28) (broadcast ⟨2, ![a, b]⟩ (Scalar.ofBits .f32 0x00000000#32)))
    (lnHn a b cnt hs1 hs2 hb1 hr hs3 hb2 hφ hacc v0 v2 v24 v28)
    (subf (exp (lnHn a b cnt hs1 hs2 hb1 hr hs3 hb2 hφ hacc v0 v2 v24 v28)) (broadcast ⟨2, ![a, b]⟩ (Scalar.ofBits .f32 0x3F800000#32)))

/-- The normalising body at (p, q) is the row function of row p. -/
theorem lnPay_apply (v0 : FVec Ideal ⟨2, ![a, b]⟩ .f32) (v2 v24 v28 : FVec Ideal ⟨2, ![1, b]⟩ .f32) (p : Fin a) (q : Fin b) :
    lnPay a b cnt hs1 hs2 hb1 hr hs3 hb2 hφ hacc v0 v2 v24 v28 (ix2 p q)
      = lnEluRow (Ideal.ofBits .f32 cnt) (fun k => v0 (ix2 p k) + v2 (ix2 (0 : Fin 1) k)) (fun k => v24 (ix2 (0 : Fin 1) k))
          (fun k => v28 (ix2 (0 : Fin 1) k)) q := by
  have hz : ∀ k : Fin b, lnZ a b hs1 hs2 hb1 v0 v2 (ix2 p k) = v0 (ix2 p k) + v2 (ix2 (0 : Fin 1) k) :=
    fun k => lnZ_apply a b hs1 hs2 hb1 v0 v2 p k
  have hmean : ∀ c : Fin b, broadcastTo ⟨2, ![a, b]⟩ (colMean a b cnt hr hs3 hφ hacc (lnZ a b hs1 hs2 hb1 v0 v2)) hb2 (ix2 p c)
      = Ideal.div (∑ k : Fin b, (v0 (ix2 p k) + v2 (ix2 (0 : Fin 1) k))) (Ideal.ofBits .f32 cnt) := fun c => by
    rw [broadcastTo_a1_ab_apply, colMean_apply]
    exact congrArg (Ideal.div · (Ideal.ofBits .f32 cnt)) (Finset.sum_congr rfl fun k _ => hz k)
  have hd : ∀ c : Fin b, subf (lnZ a b hs1 hs2 hb1 v0 v2) (broadcastTo ⟨2, ![a, b]⟩ (colMean a b cnt hr hs3 hφ hacc (lnZ a b hs1 hs2 hb1 v0 v2)) hb2) (ix2 p c)
      = (v0 (ix2 p c) + v2 (ix2 (0 : Fin 1) c)) - Ideal.div (∑ k : Fin b, (v0 (ix2 p k) + v2 (ix2 (0 : Fin 1) k))) (Ideal.ofBits .f32 cnt) := fun c => by
    show lnZ a b hs1 hs2 hb1 v0 v2 (ix2 p c) - broadcastTo ⟨2, ![a, b]⟩ (colMean a b cnt hr hs3 hφ hacc (lnZ a b hs1 hs2 hb1 v0 v2)) hb2 (ix2 p c) = _
    rw [hz c, hmean c]
  have hhn : lnHn a b cnt hs1 hs2 hb1 hr hs3 hb2 hφ hacc v0 v2 v24 v28 (ix2 p q)
      = ((v0 (ix2 p q) + v2 (ix2 (0 : Fin 1) q)) - Ideal.div (∑ k : Fin b, (v0 (ix2 p k) + v2 (ix2 (0 : Fin 1) k))) (Ideal.ofBits .f32 cnt))
          * Ideal.rsqrt (Ideal.div (∑ c : Fin b,
              ((v0 (ix2 p c) + v2 (ix2 (0 : Fin 1) c)) - Ideal.div (∑ k : Fin b, (v0 (ix2 p k) + v2 (ix2 (0 : Fin 1) k))) (Ideal.ofBits .f32 cnt))
              * ((v0 (ix2 p c) + v2 (ix2 (0 : Fin 1) c)) - Ideal.div (∑ k : Fin b, (v0 (ix2 p k) + v2 (ix2 (0 : Fin 1) k))) (Ideal.ofBits .f32 cnt)))
              (Ideal.ofBits .f32 cnt) + Ideal.ofBits .f32 0x3727C5AC#32)
          * v24 (ix2 (0 : Fin 1) q) + v28 (ix2 (0 : Fin 1) q) := by
    unfold lnHn
    show (subf (lnZ a b hs1 hs2 hb1 v0 v2) (broadcastTo ⟨2, ![a, b]⟩ (colMean a b cnt hr hs3 hφ hacc (lnZ a b hs1 hs2 hb1 v0 v2)) hb2) (ix2 p q)
        * broadcastTo ⟨2, ![a, b]⟩ _ hb2 (ix2 p q))
        * broadcastTo ⟨2, ![a, b]⟩ (shapeCast ⟨2, ![1, b]⟩ v24 hs2) hb1 (ix2 p q)
        + broadcastTo ⟨2, ![a, b]⟩ (shapeCast ⟨2, ![1, b]⟩ v28 hs2) hb1 (ix2 p q) = _
    rw [broadcastTo_1b_ab_apply, broadcastTo_1b_ab_apply, shapeCast_self, shapeCast_self, hd q, broadcastTo_a1_ab_apply]
    refine congrArg (fun t => ((v0 (ix2 p q) + v2 (ix2 (0 : Fin 1) q)) - Ideal.div (∑ k : Fin b, (v0 (ix2 p k) + v2 (ix2 (0 : Fin 1) k))) (Ideal.ofBits .f32 cnt))
        * t * v24 (ix2 (0 : Fin 1) q) + v28 (ix2 (0 : Fin 1) q)) ?_
    show Ideal.rsqrt (colMean a b cnt hr hs3 hφ hacc _ (ix2 p (0 : Fin 1)) + Ideal.ofBits .f32 0x3727C5AC#32) = _
    rw [colMean_apply]
    refine congrArg (fun t => Ideal.rsqrt (Ideal.div t (Ideal.ofBits .f32 cnt) + Ideal.ofBits .f32 0x3727C5AC#32)) ?_
    exact Finset.sum_congr rfl fun c _ => by
      show subf _ _ (ix2 p c) * subf _ _ (ix2 p c) = _
      rw [hd c]
  show Scalar.select (Ideal.cmp .ogt (lnHn a b cnt hs1 hs2 hb1 hr hs3 hb2 hφ hacc v0 v2 v24 v28 (ix2 p q)) (Ideal.ofBits .f32 0x00000000#32))
      (lnHn a b cnt hs1 hs2 hb1 hr hs3 hb2 hφ hacc v0 v2 v24 v28 (ix2 p q))
      (Ideal.exp (lnHn a b cnt hs1 hs2 hb1 hr hs3 hb2 hφ hacc v0 v2 v24 v28 (ix2 p q)) - Ideal.ofBits .f32 0x3F800000#32) = _
  rw [hhn]
  rfl

end Ln

end Cert.GcnSpec

end
-- ==== Proof.SpecApply.lean ====
/-
  The two layer functions unfolded at an entry.
-/
import proofs.«155585_j22110491640565_1_alg».proof.Proof.Spec

noncomputable section

namespace Cert.GcnSpec

open Idealize.ShloMosaic Idealize.ShloMosaic.ValueIdx

theorem linG_apply {N K C : Nat} (x : (⟨2, ![N, K]⟩ : Shape).Idx → EReal) (w : (⟨2, ![K, C]⟩ : Shape).Idx → EReal)
    (b : (⟨2, ![1, C]⟩ : Shape).Idx → EReal) (i : (⟨2, ![N, C]⟩ : Shape).Idx) :
    linG x w b i = (∑ k : Fin K, x (ix2 (i 0) k) * w (ix2 k (i 1))) + b (ix2 (0 : Fin 1) (i 1)) := rfl

theorem lnEluG_apply {N C : Nat} (cnt : EReal) (h : (⟨2, ![N, C]⟩ : Shape).Idx → EReal) (b g be : (⟨2, ![1, C]⟩ : Shape).Idx → EReal)
    (i : (⟨2, ![N, C]⟩ : Shape).Idx) :
    lnEluG cnt h b g be i = lnEluRow cnt (fun k => h (ix2 (i 0) k) + b (ix2 (0 : Fin 1) k)) (fun k => g (ix2 (0 : Fin 1) k))
      (fun k => be (ix2 (0 : Fin 1) k)) (i 1) := rfl

end Cert.GcnSpec

end
-- ==== Proof.KReg0.lean ====
/- Region 0: a dense layer on row blocks. Each of the 20 grid points multiplies its 5000 rows of the input by
   the whole 128×64 weight matrix on the matrix unit and adds the bias row; the 20 blocks tile the 100000 rows,
   so the array after the region is the dense layer of the whole input: entry (r, q) = Σ_k x(r,k)·w(k,q) + b(0,q). -/
import proofs.«155585_j22110491640565_1_alg».proof.Proof.KCover0
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_0 : (![0, 0] : Fin 2 → Nat) = fun _ => 0 := funext fun a => by fin_cases a <;> rfl

/-- The body's one store covers the output block: the block after the body is the body's stored value. -/
theorem out0_3_eq (x0 : Vec Ideal S5000x128 .f32) (x1 : Vec Ideal S128x64 .f32) (x2 : Vec Ideal S1x64 .f32) :
    Gen.out0_3 (F := Ideal) x0 x1 x2 = Gen.k0_pay1 x0 x1 x2 := by
  unfold Gen.out0_3
  rw [View.canon_unit_zero zero2_0]
  simp only [View.ld_unit_zero (S := S5000x128) zero2_0, View.ld_unit_zero (S := S128x64) zero2_0, View.ld_unit_zero (S := S1x64) zero2_0]

/-- The array after region 0: the dense layer of the arrays the region finds. -/
theorem final0_val (c : Dev nD) :
    (Gen.dat0 V c).arrAt 3 cfg0.N
      = linG (V c (Pipeline.arrRef spec0 0) : S100000x128.Idx → Elt Ideal .f32) (V c (Pipeline.arrRef spec0 1) : S128x64.Idx → Elt Ideal .f32)
          (V c (Pipeline.arrRef spec0 2) : S1x64.Idx → Elt Ideal .f32) :=
  KVal.final0 V c _ (fun t y => by
    obtain ⟨p, q, rfl⟩ : ∃ (p : Fin 5000) (q : Fin 64), y = ix2 p q := ⟨y 0, y 1, eq_ix2 y⟩
    have he := KVal.oblk0_emb_val t (ix2 p q)
    have e1 : (((cfg0.win 3).blk t).view.emb (ix2 p q) : S100000x64.Idx) 1 = q := Fin.ext he.2
    rw [out0_3_eq]
    refine (linPay_apply 5000 128 64 _ _ rfl _ _ _ _ _ p q).trans ?_
    rw [linG_apply, e1]
    refine congrArg₂ (· + ·) (Finset.sum_congr rfl fun k _ => congrArg₂ (· * ·) ?_ ?_) ?_
    · exact KVal.iblk0_0_apply V c t (ix2 p k) (ix2 ((((cfg0.win 3).blk t).view.emb (ix2 p q) : S100000x64.Idx) 0) k) he.1 rfl
    · rw [KVal.iblk0_1_eq]
    · rw [KVal.iblk0_2_eq])

end Cert.KernelIdeal.KReg

end
-- ==== Proof.KCover1.lean ====
/- Region 1 of the program (bias, normalisation over a row, ELU; 20 grid points of 5000 rows each):
   its blocks as parts of its arrays, and its output array after the region as one whole-array function.
   At a parameter `V`, the buffer contents when the region is entered. The rows windows (input window 0 and
   the output window 4) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 1's index maps at its 20 grid points: the rows windows at block (t, 0), the whole-array windows at block (0, 0). -/
theorem blockIndex1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Every one of the 20 row blocks of the output array is some point's. -/
theorem blockOnto1 : ∀ q : Fin 20, ∃ t : Fin cfg1.N, win1_4.index t = ![q.val, 0] :=
  (by decide +kernel : ∀ q : Fin 20, ∃ t : Fin grid1.N, win1_4.index t = ![q.val, 0])

/-- Input window 0's block at point `t` is rows 5000 t … 5000 t + 4999 of its array: the element at block
    coordinates `y` is the array's at any index `k` with those coordinates. -/
theorem iblk1_0_apply (c : Dev nD) (t : Fin cfg1.N) (y : S5000x64.Idx) (k : S100000x64.Idx)
    (hk0 : (k 0).val = 5000 * t.val + (y 0).val) (hk1 : (k 1).val = (y 1).val) :
    (Gen.iblk1 V c 0 t : Vec F S5000x64 .f32) y = (V c (Pipeline.arrRef spec1 0) : S100000x64.Idx → Elt F .f32) k := by
  obtain ⟨e0, e1, -, -, -, -, -, -, -, -⟩ := blockIndex1 t
  unfold Gen.iblk1
  rw [View.read_apply]
  refine congrArg (V c (Pipeline.arrRef spec1 0) : S100000x64.Idx → Elt F .f32) ?_
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- Input window 1's block at every point is its whole array. -/
theorem iblk1_1_eq (c : Dev nD) (t : Fin cfg1.N) :
    (Gen.iblk1 V c 1 t : Vec F S1x64 .f32) = (V c (Pipeline.arrRef spec1 1) : S1x64.Idx → Elt F .f32) := by
  obtain ⟨-, -, e0, e1, -, -, -, -, -, -⟩ := blockIndex1 t
  funext y
  unfold Gen.iblk1
  rw [View.read_apply]
  refine congrArg (V c (Pipeline.arrRef spec1 1) : S1x64.Idx → Elt F .f32) ?_
  funext a
  apply Fin.ext
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- Input window 2's block at every point is its whole array. -/
theorem iblk1_2_eq (c : Dev nD) (t : Fin cfg1.N) :
    (Gen.iblk1 V c 2 t : Vec F S1x64 .f32) = (V c (Pipeline.arrRef spec1 2) : S1x64.Idx → Elt F .f32) := by
  obtain ⟨-, -, -, -, e0, e1, -, -, -, -⟩ := blockIndex1 t
  funext y
  unfold Gen.iblk1
  rw [View.read_apply]
  refine congrArg (V c (Pipeline.arrRef spec1 2) : S1x64.Idx → Elt F .f32) ?_
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- Input window 3's block at every point is its whole array. -/
theorem iblk1_3_eq (c : Dev nD) (t : Fin cfg1.N) :
    (Gen.iblk1 V c 3 t : Vec F S1x64 .f32) = (V c (Pipeline.arrRef spec1 3) : S1x64.Idx → Elt F .f32) := by
  obtain ⟨-, -, -, -, -, -, e0, e1, -, -⟩ := blockIndex1 t
  funext y
  unfold Gen.iblk1
  rw [View.read_apply]
  refine congrArg (V c (Pipeline.arrRef spec1 3) : S1x64.Idx → Elt F .f32) ?_
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The output block at point `t` sits at rows 5000 t … 5000 t + 4999 of the output array, all columns. -/
theorem oblk1_emb_val (t : Fin cfg1.N) (y : S5000x64.Idx) :
    ((((cfg1.win 4).blk t).view.emb y : S100000x64.Idx) 0).val = 5000 * t.val + (y 0).val
    ∧ ((((cfg1.win 4).blk t).view.emb y : S100000x64.Idx) 1).val = (y 1).val := by
  obtain ⟨-, -, -, -, -, -, -, -, e0, e1⟩ := blockIndex1 t
  constructor
  · show win1_4.index t (0 : Fin 2) * 5000 + 1 * (y 0).val = _; rw [e0]; omega
  · show win1_4.index t (1 : Fin 2) * 64 + 1 * (y 1).val = _; rw [e1]; omega

/-- What point `t` writes back is block `t` of `G`, for any array function `G` whose block at every point is what
    the body leaves in the output window there. -/
theorem flushed1 (c : Dev nD) (G : S100000x64.Idx → Elt F .f32)
    (hG : ∀ (t : Fin cfg1.N) (y : S5000x64.Idx),
      Gen.out1_4 (Gen.iblk1 V c 0 t) (Gen.iblk1 V c 1 t) (Gen.iblk1 V c 2 t) (Gen.iblk1 V c 3 t) y = G (((cfg1.win 4).blk t).view.emb y)) (t : Fin cfg1.N) :
    (Gen.dat1 V c).flushed 4 t = ((cfg1.win 4).blk t).view.read (Elt F) G := by
  show (cfg1.win 4).cut (grid1.coords t) ((Gen.dat1 V c).after 4 t) = _
  rw [Gen.after1_4]
  funext y
  rw [View.read_apply]
  exact hG t y

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v50).slice (win1_4.rect t)).set ↔ _
  rw [View.set_slice_whole, Rect.mem_set_unit]
  exact Iff.rfl

/-- The blocks cover the array: row `r` is in the block of the point whose block index is `r / 5000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := blockOnto1 ⟨(i 0).val / 5000, by omega⟩
  have q0 : win1_4.index t (0 : Fin 2) = (i 0).val / 5000 := congrFun ht 0
  have q1 : win1_4.index t (1 : Fin 2) = 0 := congrFun ht 1
  refine ⟨t, Gen.flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAY AFTER REGION 1: any array function whose block at every point is what the body leaves there. -/
theorem final1 (c : Dev nD) (G : S100000x64.Idx → Elt F .f32)
    (hG : ∀ (t : Fin cfg1.N) (y : S5000x64.Idx),
      Gen.out1_4 (Gen.iblk1 V c 0 t) (Gen.iblk1 V c 1 t) (Gen.iblk1 V c 2 t) (Gen.iblk1 V c 3 t) y = G (((cfg1.win 4).blk t).view.emb y)) :
    (Gen.dat1 V c).arrAt 4 cfg1.N = G :=
  (Gen.dat1 V c).arrAt_eq_of_cover 4 G (fun t _ => flushed1 V c G hG t) cover1

end Cert.KernelIdeal.KVal

end
-- ==== Proof.KReg1.lean ====
/- Region 1: bias, LayerNorm over the 64 features of a row, and ELU, on row blocks. A row's result depends on
   that row alone (and on the three parameter rows), so the 20 blocks of 5000 rows give the row-wise function of
   the whole input array. -/
import proofs.«155585_j22110491640565_1_alg».proof.Proof.KCover1
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_1 : (![0, 0] : Fin 2 → Nat) = fun _ => 0 := funext fun a => by fin_cases a <;> rfl

/-- The body's one store covers the output block: the block after the body is the body's stored value. -/
theorem out1_4_eq (x0 : Vec Ideal S5000x64 .f32) (x1 x2 x3 : Vec Ideal S1x64 .f32) :
    Gen.out1_4 (F := Ideal) x0 x1 x2 x3 = Gen.k1_pay1 x0 x1 x2 x3 := by
  unfold Gen.out1_4
  rw [View.canon_unit_zero zero2_1]
  simp only [View.ld_unit_zero (S := S5000x64) zero2_1, View.ld_unit_zero (S := S1x64) zero2_1]

/-- The body's stored value is the generic normalising body at these extents (the same operations in the same order). -/
theorem k1_pay1_eq (x0 : Vec Ideal S5000x64 .f32) (x1 x2 x3 : Vec Ideal S1x64 .f32) :
    Gen.k1_pay1 (F := Ideal) x0 x1 x2 x3
      = lnPay 5000 64 0x42800000#32 Gen.shapeCasts_S5000x64_S5000x64 Gen.shapeCasts_S1x64_S1x64 Gen.broadcasts_S1x64_S5000x64
          Gen.reduces_S5000x64_S5000 Gen.shapeCasts_S5000_S5000x1 Gen.broadcasts_S5000x1_S5000x64 (.inl rfl) rfl x0 x1 x2 x3 := by
  unfold Gen.k1_pay1 lnPay lnHn lnZ colMean
  rfl

/-- The array after region 1: the row-wise normalisation and activation of the arrays the region finds. -/
theorem final1_val (c : Dev nD) :
    (Gen.dat1 V c).arrAt 4 cfg1.N
      = lnEluG (Ideal.ofBits .f32 0x42800000#32) (V c (Pipeline.arrRef spec1 0) : S100000x64.Idx → Elt Ideal .f32)
          (V c (Pipeline.arrRef spec1 1) : S1x64.Idx → Elt Ideal .f32) (V c (Pipeline.arrRef spec1 2) : S1x64.Idx → Elt Ideal .f32)
          (V c (Pipeline.arrRef spec1 3) : S1x64.Idx → Elt Ideal .f32) :=
  KVal.final1 V c _ (fun t y => by
    obtain ⟨p, q, rfl⟩ : ∃ (p : Fin 5000) (q : Fin 64), y = ix2 p q := ⟨y 0, y 1, eq_ix2 y⟩
    have he := KVal.oblk1_emb_val t (ix2 p q)
    have e1 : (((cfg1.win 4).blk t).view.emb (ix2 p q) : S100000x64.Idx) 1 = q := Fin.ext he.2
    rw [out1_4_eq, k1_pay1_eq]
    refine (lnPay_apply 5000 64 0x42800000#32 _ _ _ _ _ _ _ _ _ _ _ _ p q).trans ?_
    rw [lnEluG_apply, e1, KVal.iblk1_1_eq, KVal.iblk1_2_eq, KVal.iblk1_3_eq]
    refine congrArg (fun z => lnEluRow _ z _ _ q) (funext fun k => congrArg (· + _) ?_)
    exact KVal.iblk1_0_apply V c t (ix2 p k) (ix2 ((((cfg1.win 4).blk t).view.emb (ix2 p q) : S100000x64.Idx) 0) k) he.1 rfl)

end Cert.KernelIdeal.KReg

end
-- ==== Proof.KCover2.lean ====
/- Region 2 of the program (rows times a matrix plus a bias row; 20 grid points of 5000 rows each):
   its blocks as parts of its arrays, and its output array after the region as one whole-array function.
   At a parameter `V`, the buffer contents when the region is entered. The rows windows (input window 0 and
   the output window 3) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 2's index maps at its 20 grid points: the rows windows at block (t, 0), the whole-array windows at block (0, 0). -/
theorem blockIndex2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Every one of the 20 row blocks of the output array is some point's. -/
theorem blockOnto2 : ∀ q : Fin 20, ∃ t : Fin cfg2.N, win2_3.index t = ![q.val, 0] :=
  (by decide +kernel : ∀ q : Fin 20, ∃ t : Fin grid2.N, win2_3.index t = ![q.val, 0])

/-- Input window 0's block at point `t` is rows 5000 t … 5000 t + 4999 of its array: the element at block
    coordinates `y` is the array's at any index `k` with those coordinates. -/
theorem iblk2_0_apply (c : Dev nD) (t : Fin cfg2.N) (y : S5000x64.Idx) (k : S100000x64.Idx)
    (hk0 : (k 0).val = 5000 * t.val + (y 0).val) (hk1 : (k 1).val = (y 1).val) :
    (Gen.iblk2 V c 0 t : Vec F S5000x64 .f32) y = (V c (Pipeline.arrRef spec2 0) : S100000x64.Idx → Elt F .f32) k := by
  obtain ⟨e0, e1, -, -, -, -, -, -⟩ := blockIndex2 t
  unfold Gen.iblk2
  rw [View.read_apply]
  refine congrArg (V c (Pipeline.arrRef spec2 0) : S100000x64.Idx → Elt F .f32) ?_
  funext a
  apply Fin.ext
  match a with
  | ⟨0, _⟩ => show win2_0.index t (0 : Fin 2) * 5000 + 1 * (y 0).val = (k 0).val; rw [e0, hk0]; omega
  | ⟨1, _⟩ => show win2_0.index t (1 : Fin 2) * 64 + 1 * (y 1).val = (k 1).val; rw [e1, hk1]; omega

/-- Input window 1's block at every point is its whole array. -/
theorem iblk2_1_eq (c : Dev nD) (t : Fin cfg2.N) :
    (Gen.iblk2 V c 1 t : Vec F S64x128 .f32) = (V c (Pipeline.arrRef spec2 1) : S64x128.Idx → Elt F .f32) := by
  obtain ⟨-, -, e0, e1, -, -, -, -⟩ := blockIndex2 t
  funext y
  unfold Gen.iblk2
  rw [View.read_apply]
  refine congrArg (V c (Pipeline.arrRef spec2 1) : S64x128.Idx → Elt F .f32) ?_
  funext a
  apply Fin.ext
  match a with
  | ⟨0, _⟩ => show win2_1.index t (0 : Fin 2) * 64 + 1 * (y 0).val = (y 0).val; rw [e0]; omega
  | ⟨1, _⟩ => show win2_1.index t (1 : Fin 2) * 128 + 1 * (y 1).val = (y 1).val; rw [e1]; omega

/-- Input window 2's block at every point is its whole array. -/
theorem iblk2_2_eq (c : Dev nD) (t : Fin cfg2.N) :
    (Gen.iblk2 V c 2 t : Vec F S1x128 .f32) = (V c (Pipeline.arrRef spec2 2) : S1x128.Idx → Elt F .f32) := by
  obtain ⟨-, -, -, -, e0, e1, -, -⟩ := blockIndex2 t
  funext y
  unfold Gen.iblk2
  rw [View.read_apply]
  refine congrArg (V c (Pipeline.arrRef spec2 2) : S1x128.Idx → Elt F .f32) ?_
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The output block at point `t` sits at rows 5000 t … 5000 t + 4999 of the output array, all columns. -/
theorem oblk2_emb_val (t : Fin cfg2.N) (y : S5000x128.Idx) :
    ((((cfg2.win 3).blk t).view.emb y : S100000x128.Idx) 0).val = 5000 * t.val + (y 0).val
    ∧ ((((cfg2.win 3).blk t).view.emb y : S100000x128.Idx) 1).val = (y 1).val := by
  obtain ⟨-, -, -, -, -, -, e0, e1⟩ := blockIndex2 t
  constructor
  · show win2_3.index t (0 : Fin 2) * 5000 + 1 * (y 0).val = _; rw [e0]; omega
  · show win2_3.index t (1 : Fin 2) * 128 + 1 * (y 1).val = _; rw [e1]; omega

/-- What point `t` writes back is block `t` of `G`, for any array function `G` whose block at every point is what
    the body leaves in the output window there. -/
theorem flushed2 (c : Dev nD) (G : S100000x128.Idx → Elt F .f32)
    (hG : ∀ (t : Fin cfg2.N) (y : S5000x128.Idx),
      Gen.out2_3 (Gen.iblk2 V c 0 t) (Gen.iblk2 V c 1 t) (Gen.iblk2 V c 2 t) y = G (((cfg2.win 3).blk t).view.emb y)) (t : Fin cfg2.N) :
    (Gen.dat2 V c).flushed 3 t = ((cfg2.win 3).blk t).view.read (Elt F) G := by
  show (cfg2.win 3).cut (grid2.coords t) ((Gen.dat2 V c).after 3 t) = _
  rw [Gen.after2_3]
  funext y
  rw [View.read_apply]
  exact hG t y

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v53).slice (win2_3.rect t)).set ↔ _
  rw [View.set_slice_whole, Rect.mem_set_unit]
  exact Iff.rfl

/-- The blocks cover the array: row `r` is in the block of the point whose block index is `r / 5000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := blockOnto2 ⟨(i 0).val / 5000, by omega⟩
  have q0 : win2_3.index t (0 : Fin 2) = (i 0).val / 5000 := congrFun ht 0
  have q1 : win2_3.index t (1 : Fin 2) = 0 := congrFun ht 1
  refine ⟨t, Gen.flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY AFTER REGION 2: any array function whose block at every point is what the body leaves there. -/
theorem final2 (c : Dev nD) (G : S100000x128.Idx → Elt F .f32)
    (hG : ∀ (t : Fin cfg2.N) (y : S5000x128.Idx),
      Gen.out2_3 (Gen.iblk2 V c 0 t) (Gen.iblk2 V c 1 t) (Gen.iblk2 V c 2 t) y = G (((cfg2.win 3).blk t).view.emb y)) :
    (Gen.dat2 V c).arrAt 3 cfg2.N = G :=
  (Gen.dat2 V c).arrAt_eq_of_cover 3 G (fun t _ => flushed2 V c G hG t) cover2

end Cert.KernelIdeal.KVal

end
-- ==== Proof.KReg2.lean ====
/- Region 2: a dense layer on row blocks. Each of the 20 grid points multiplies its 5000 rows of the input by
   the whole 64×128 weight matrix on the matrix unit and adds the bias row; the 20 blocks tile the 100000 rows,
   so the array after the region is the dense layer of the whole input: entry (r, q) = Σ_k x(r,k)·w(k,q) + b(0,q). -/
import proofs.«155585_j22110491640565_1_alg».proof.Proof.KCover2
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_2 : (![0, 0] : Fin 2 → Nat) = fun _ => 0 := funext fun a => by fin_cases a <;> rfl

/-- The body's one store covers the output block: the block after the body is the body's stored value. -/
theorem out2_3_eq (x0 : Vec Ideal S5000x64 .f32) (x1 : Vec Ideal S64x128 .f32) (x2 : Vec Ideal S1x128 .f32) :
    Gen.out2_3 (F := Ideal) x0 x1 x2 = Gen.k2_pay1 x0 x1 x2 := by
  unfold Gen.out2_3
  rw [View.canon_unit_zero zero2_2]
  simp only [View.ld_unit_zero (S := S5000x64) zero2_2, View.ld_unit_zero (S := S64x128) zero2_2, View.ld_unit_zero (S := S1x128) zero2_2]

/-- The array after region 2: the dense layer of the arrays the region finds. -/
theorem final2_val (c : Dev nD) :
    (Gen.dat2 V c).arrAt 3 cfg2.N
      = linG (V c (Pipeline.arrRef spec2 0) : S100000x64.Idx → Elt Ideal .f32) (V c (Pipeline.arrRef spec2 1) : S64x128.Idx → Elt Ideal .f32)
          (V c (Pipeline.arrRef spec2 2) : S1x128.Idx → Elt Ideal .f32) :=
  KVal.final2 V c _ (fun t y => by
    obtain ⟨p, q, rfl⟩ : ∃ (p : Fin 5000) (q : Fin 128), y = ix2 p q := ⟨y 0, y 1, eq_ix2 y⟩
    have he := KVal.oblk2_emb_val t (ix2 p q)
    have e1 : (((cfg2.win 3).blk t).view.emb (ix2 p q) : S100000x128.Idx) 1 = q := Fin.ext he.2
    rw [out2_3_eq]
    refine (linPay_apply 5000 64 128 _ _ rfl _ _ _ _ _ p q).trans ?_
    rw [linG_apply, e1]
    refine congrArg₂ (· + ·) (Finset.sum_congr rfl fun k _ => congrArg₂ (· * ·) ?_ ?_) ?_
    · rw [shapeCast_self]
      exact KVal.iblk2_0_apply V c t (ix2 p k) (ix2 ((((cfg2.win 3).blk t).view.emb (ix2 p q) : S100000x128.Idx) 0) k) he.1 rfl
    · rw [KVal.iblk2_1_eq]
    · rw [KVal.iblk2_2_eq])

end Cert.KernelIdeal.KReg

end
-- ==== Proof.KCover3.lean ====
/- Region 3 of the program (bias, normalisation over a row, ELU; 20 grid points of 5000 rows each):
   its blocks as parts of its arrays, and its output array after the region as one whole-array function.
   At a parameter `V`, the buffer contents when the region is entered. The rows windows (input window 0 and
   the output window 4) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 3's index maps at its 20 grid points: the rows windows at block (t, 0), the whole-array windows at block (0, 0). -/
theorem blockIndex3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- Every one of the 20 row blocks of the output array is some point's. -/
theorem blockOnto3 : ∀ q : Fin 20, ∃ t : Fin cfg3.N, win3_4.index t = ![q.val, 0] :=
  (by decide +kernel : ∀ q : Fin 20, ∃ t : Fin grid3.N, win3_4.index t = ![q.val, 0])

/-- Input window 0's block at point `t` is rows 5000 t … 5000 t + 4999 of its array: the element at block
    coordinates `y` is the array's at any index `k` with those coordinates. -/
theorem iblk3_0_apply (c : Dev nD) (t : Fin cfg3.N) (y : S5000x128.Idx) (k : S100000x128.Idx)
    (hk0 : (k 0).val = 5000 * t.val + (y 0).val) (hk1 : (k 1).val = (y 1).val) :
    (Gen.iblk3 V c 0 t : Vec F S5000x128 .f32) y = (V c (Pipeline.arrRef spec3 0) : S100000x128.Idx → Elt F .f32) k := by
  obtain ⟨e0, e1, -, -, -, -, -, -, -, -⟩ := blockIndex3 t
  unfold Gen.iblk3
  rw [View.read_apply]
  refine congrArg (V c (Pipeline.arrRef spec3 0) : S100000x128.Idx → Elt F .f32) ?_
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- Input window 1's block at every point is its whole array. -/
theorem iblk3_1_eq (c : Dev nD) (t : Fin cfg3.N) :
    (Gen.iblk3 V c 1 t : Vec F S1x128 .f32) = (V c (Pipeline.arrRef spec3 1) : S1x128.Idx → Elt F .f32) := by
  obtain ⟨-, -, e0, e1, -, -, -, -, -, -⟩ := blockIndex3 t
  funext y
  unfold Gen.iblk3
  rw [View.read_apply]
  refine congrArg (V c (Pipeline.arrRef spec3 1) : S1x128.Idx → Elt F .f32) ?_
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- Input window 2's block at every point is its whole array. -/
theorem iblk3_2_eq (c : Dev nD) (t : Fin cfg3.N) :
    (Gen.iblk3 V c 2 t : Vec F S1x128 .f32) = (V c (Pipeline.arrRef spec3 2) : S1x128.Idx → Elt F .f32) := by
  obtain ⟨-, -, -, -, e0, e1, -, -, -, -⟩ := blockIndex3 t
  funext y
  unfold Gen.iblk3
  rw [View.read_apply]
  refine congrArg (V c (Pipeline.arrRef spec3 2) : S1x128.Idx → Elt F .f32) ?_
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Input window 3's block at every point is its whole array. -/
theorem iblk3_3_eq (c : Dev nD) (t : Fin cfg3.N) :
    (Gen.iblk3 V c 3 t : Vec F S1x128 .f32) = (V c (Pipeline.arrRef spec3 3) : S1x128.Idx → Elt F .f32) := by
  obtain ⟨-, -, -, -, -, -, e0, e1, -, -⟩ := blockIndex3 t
  funext y
  unfold Gen.iblk3
  rw [View.read_apply]
  refine congrArg (V c (Pipeline.arrRef spec3 3) : S1x128.Idx → Elt F .f32) ?_
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The output block at point `t` sits at rows 5000 t … 5000 t + 4999 of the output array, all columns. -/
theorem oblk3_emb_val (t : Fin cfg3.N) (y : S5000x128.Idx) :
    ((((cfg3.win 4).blk t).view.emb y : S100000x128.Idx) 0).val = 5000 * t.val + (y 0).val
    ∧ ((((cfg3.win 4).blk t).view.emb y : S100000x128.Idx) 1).val = (y 1).val := by
  obtain ⟨-, -, -, -, -, -, -, -, e0, e1⟩ := blockIndex3 t
  constructor
  · show win3_4.index t (0 : Fin 2) * 5000 + 1 * (y 0).val = _; rw [e0]; omega
  · show win3_4.index t (1 : Fin 2) * 128 + 1 * (y 1).val = _; rw [e1]; omega

/-- What point `t` writes back is block `t` of `G`, for any array function `G` whose block at every point is what
    the body leaves in the output window there. -/
theorem flushed3 (c : Dev nD) (G : S100000x128.Idx → Elt F .f32)
    (hG : ∀ (t : Fin cfg3.N) (y : S5000x128.Idx),
      Gen.out3_4 (Gen.iblk3 V c 0 t) (Gen.iblk3 V c 1 t) (Gen.iblk3 V c 2 t) (Gen.iblk3 V c 3 t) y = G (((cfg3.win 4).blk t).view.emb y)) (t : Fin cfg3.N) :
    (Gen.dat3 V c).flushed 4 t = ((cfg3.win 4).blk t).view.read (Elt F) G := by
  show (cfg3.win 4).cut (grid3.coords t) ((Gen.dat3 V c).after 4 t) = _
  rw [Gen.after3_4]
  funext y
  rw [View.read_apply]
  exact hG t y

/-- An index of the output array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v89).slice (win3_4.rect t)).set ↔ _
  rw [View.set_slice_whole, Rect.mem_set_unit]
  exact Iff.rfl

/-- The blocks cover the array: row `r` is in the block of the point whose block index is `r / 5000`. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := blockOnto3 ⟨(i 0).val / 5000, by omega⟩
  have q0 : win3_4.index t (0 : Fin 2) = (i 0).val / 5000 := congrFun ht 0
  have q1 : win3_4.index t (1 : Fin 2) = 0 := congrFun ht 1
  refine ⟨t, Gen.flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE OUTPUT ARRAY AFTER REGION 3: any array function whose block at every point is what the body leaves there. -/
theorem final3 (c : Dev nD) (G : S100000x128.Idx → Elt F .f32)
    (hG : ∀ (t : Fin cfg3.N) (y : S5000x128.Idx),
      Gen.out3_4 (Gen.iblk3 V c 0 t) (Gen.iblk3 V c 1 t) (Gen.iblk3 V c 2 t) (Gen.iblk3 V c 3 t) y = G (((cfg3.win 4).blk t).view.emb y)) :
    (Gen.dat3 V c).arrAt 4 cfg3.N = G :=
  (Gen.dat3 V c).arrAt_eq_of_cover 4 G (fun t _ => flushed3 V c G hG t) cover3

end Cert.KernelIdeal.KVal

end
-- ==== Proof.KReg3.lean ====
/- Region 3: bias, LayerNorm over the 128 features of a row, and ELU, on row blocks. A row's result depends on
   that row alone (and on the three parameter rows), so the 20 blocks of 5000 rows give the row-wise function of
   the whole input array. -/
import proofs.«155585_j22110491640565_1_alg».proof.Proof.KCover3
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_3 : (![0, 0] : Fin 2 → Nat) = fun _ => 0 := funext fun a => by fin_cases a <;> rfl

/-- The body's one store covers the output block: the block after the body is the body's stored value. -/
theorem out3_4_eq (x0 : Vec Ideal S5000x128 .f32) (x1 x2 x3 : Vec Ideal S1x128 .f32) :
    Gen.out3_4 (F := Ideal) x0 x1 x2 x3 = Gen.k3_pay1 x0 x1 x2 x3 := by
  unfold Gen.out3_4
  rw [View.canon_unit_zero zero2_3]
  simp only [View.ld_unit_zero (S := S5000x128) zero2_3, View.ld_unit_zero (S := S1x128) zero2_3]

/-- The body's stored value is the generic normalising body at these extents (the same operations in the same order). -/
theorem k3_pay1_eq (x0 : Vec Ideal S5000x128 .f32) (x1 x2 x3 : Vec Ideal S1x128 .f32) :
    Gen.k3_pay1 (F := Ideal) x0 x1 x2 x3
      = lnPay 5000 128 0x43000000#32 Gen.shapeCasts_S5000x128_S5000x128 Gen.shapeCasts_S1x128_S1x128 Gen.broadcasts_S1x128_S5000x128
          Gen.reduces_S5000x128_S5000 Gen.shapeCasts_S5000_S5000x1 Gen.broadcasts_S5000x1_S5000x128 (.inl rfl) rfl x0 x1 x2 x3 := by
  unfold Gen.k3_pay1 lnPay lnHn lnZ colMean
  rfl

set_option maxHeartbeats 4000000 in
/-- The array after region 3: the row-wise normalisation and activation of the arrays the region finds. -/
theorem final3_val (c : Dev nD) :
    (Gen.dat3 V c).arrAt 4 cfg3.N
      = lnEluG (Ideal.ofBits .f32 0x43000000#32) (V c (Pipeline.arrRef spec3 0) : S100000x128.Idx → Elt Ideal .f32)
          (V c (Pipeline.arrRef spec3 1) : S1x128.Idx → Elt Ideal .f32) (V c (Pipeline.arrRef spec3 2) : S1x128.Idx → Elt Ideal .f32)
          (V c (Pipeline.arrRef spec3 3) : S1x128.Idx → Elt Ideal .f32) :=
  KVal.final3 V c _ (fun t y => by
    obtain ⟨p, q, rfl⟩ : ∃ (p : Fin 5000) (q : Fin 128), y = ix2 p q := ⟨y 0, y 1, eq_ix2 y⟩
    have he := KVal.oblk3_emb_val t (ix2 p q)
    have e1 : (((cfg3.win 4).blk t).view.emb (ix2 p q) : S100000x128.Idx) 1 = q := Fin.ext he.2
    rw [out3_4_eq, k3_pay1_eq]
    refine (lnPay_apply 5000 128 0x43000000#32 _ _ _ _ _ _ _ _ _ _ _ _ p q).trans ?_
    rw [lnEluG_apply, e1, KVal.iblk3_1_eq, KVal.iblk3_2_eq, KVal.iblk3_3_eq]
    refine congrArg (fun z => lnEluRow _ z _ _ q) (funext fun k => congrArg (· + _) ?_)
    exact KVal.iblk3_0_apply V c t (ix2 p k) (ix2 ((((cfg3.win 4).blk t).view.emb (ix2 p q) : S100000x128.Idx) 0) k) he.1 rfl)

end Cert.KernelIdeal.KReg

end
-- ==== Proof.KCover4.lean ====
/- Region 4 of the program (rows times a matrix plus a bias row; 20 grid points of 5000 rows each):
   its blocks as parts of its arrays, and its output array after the region as one whole-array function.
   At a parameter `V`, the buffer contents when the region is entered. The rows windows (input window 0 and
   the output window 3) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 4's index maps at its 20 grid points: the rows windows at block (t, 0), the whole-array windows at block (0, 0). -/
theorem blockIndex4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Every one of the 20 row blocks of the output array is some point's. -/
theorem blockOnto4 : ∀ q : Fin 20, ∃ t : Fin cfg4.N, win4_3.index t = ![q.val, 0] :=
  (by decide +kernel : ∀ q : Fin 20, ∃ t : Fin grid4.N, win4_3.index t = ![q.val, 0])

/-- Input window 0's block at point `t` is rows 5000 t … 5000 t + 4999 of its array: the element at block
    coordinates `y` is the array's at any index `k` with those coordinates. -/
theorem iblk4_0_apply (c : Dev nD) (t : Fin cfg4.N) (y : S5000x128.Idx) (k : S100000x128.Idx)
    (hk0 : (k 0).val = 5000 * t.val + (y 0).val) (hk1 : (k 1).val = (y 1).val) :
    (Gen.iblk4 V c 0 t : Vec F S5000x128 .f32) y = (V c (Pipeline.arrRef spec4 0) : S100000x128.Idx → Elt F .f32) k := by
  obtain ⟨e0, e1, -, -, -, -, -, -⟩ := blockIndex4 t
  unfold Gen.iblk4
  rw [View.read_apply]
  refine congrArg (V c (Pipeline.arrRef spec4 0) : S100000x128.Idx → Elt F .f32) ?_
  funext a
  apply Fin.ext
  match a with
  | ⟨0, _⟩ => show win4_0.index t (0 : Fin 2) * 5000 + 1 * (y 0).val = (k 0).val; rw [e0, hk0]; omega
  | ⟨1, _⟩ => show win4_0.index t (1 : Fin 2) * 128 + 1 * (y 1).val = (k 1).val; rw [e1, hk1]; omega

/-- Input window 1's block at every point is its whole array. -/
theorem iblk4_1_eq (c : Dev nD) (t : Fin cfg4.N) :
    (Gen.iblk4 V c 1 t : Vec F S128x64 .f32) = (V c (Pipeline.arrRef spec4 1) : S128x64.Idx → Elt F .f32) := by
  obtain ⟨-, -, e0, e1, -, -, -, -⟩ := blockIndex4 t
  funext y
  unfold Gen.iblk4
  rw [View.read_apply]
  refine congrArg (V c (Pipeline.arrRef spec4 1) : S128x64.Idx → Elt F .f32) ?_
  funext a
  apply Fin.ext
  match a with
  | ⟨0, _⟩ => show win4_1.index t (0 : Fin 2) * 128 + 1 * (y 0).val = (y 0).val; rw [e0]; omega
  | ⟨1, _⟩ => show win4_1.index t (1 : Fin 2) * 64 + 1 * (y 1).val = (y 1).val; rw [e1]; omega

/-- Input window 2's block at every point is its whole array. -/
theorem iblk4_2_eq (c : Dev nD) (t : Fin cfg4.N) :
    (Gen.iblk4 V c 2 t : Vec F S1x64 .f32) = (V c (Pipeline.arrRef spec4 2) : S1x64.Idx → Elt F .f32) := by
  obtain ⟨-, -, -, -, e0, e1, -, -⟩ := blockIndex4 t
  funext y
  unfold Gen.iblk4
  rw [View.read_apply]
  refine congrArg (V c (Pipeline.arrRef spec4 2) : S1x64.Idx → Elt F .f32) ?_
  funext a
  apply Fin.ext
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

/-- The output block at point `t` sits at rows 5000 t … 5000 t + 4999 of the output array, all columns. -/
theorem oblk4_emb_val (t : Fin cfg4.N) (y : S5000x64.Idx) :
    ((((cfg4.win 3).blk t).view.emb y : S100000x64.Idx) 0).val = 5000 * t.val + (y 0).val
    ∧ ((((cfg4.win 3).blk t).view.emb y : S100000x64.Idx) 1).val = (y 1).val := by
  obtain ⟨-, -, -, -, -, -, e0, e1⟩ := blockIndex4 t
  constructor
  · show win4_3.index t (0 : Fin 2) * 5000 + 1 * (y 0).val = _; rw [e0]; omega
  · show win4_3.index t (1 : Fin 2) * 64 + 1 * (y 1).val = _; rw [e1]; omega

/-- What point `t` writes back is block `t` of `G`, for any array function `G` whose block at every point is what
    the body leaves in the output window there. -/
theorem flushed4 (c : Dev nD) (G : S100000x64.Idx → Elt F .f32)
    (hG : ∀ (t : Fin cfg4.N) (y : S5000x64.Idx),
      Gen.out4_3 (Gen.iblk4 V c 0 t) (Gen.iblk4 V c 1 t) (Gen.iblk4 V c 2 t) y = G (((cfg4.win 3).blk t).view.emb y)) (t : Fin cfg4.N) :
    (Gen.dat4 V c).flushed 3 t = ((cfg4.win 3).blk t).view.read (Elt F) G := by
  show (cfg4.win 3).cut (grid4.coords t) ((Gen.dat4 V c).after 3 t) = _
  rw [Gen.after4_3]
  funext y
  rw [View.read_apply]
  exact hG t y

/-- An index of the output array is in point `t`'s block iff each coordinate is in the block's range on its axis. -/
theorem mem_blk4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v92).slice (win4_3.rect t)).set ↔ _
  rw [View.set_slice_whole, Rect.mem_set_unit]
  exact Iff.rfl

/-- The blocks cover the array: row `r` is in the block of the point whose block index is `r / 5000`. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := blockOnto4 ⟨(i 0).val / 5000, by omega⟩
  have q0 : win4_3.index t (0 : Fin 2) = (i 0).val / 5000 := congrFun ht 0
  have q1 : win4_3.index t (1 : Fin 2) = 0 := congrFun ht 1
  refine ⟨t, Gen.flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE OUTPUT ARRAY AFTER REGION 4: any array function whose block at every point is what the body leaves there. -/
theorem final4 (c : Dev nD) (G : S100000x64.Idx → Elt F .f32)
    (hG : ∀ (t : Fin cfg4.N) (y : S5000x64.Idx),
      Gen.out4_3 (Gen.iblk4 V c 0 t) (Gen.iblk4 V c 1 t) (Gen.iblk4 V c 2 t) y = G (((cfg4.win 3).blk t).view.emb y)) :
    (Gen.dat4 V c).arrAt 3 cfg4.N = G :=
  (Gen.dat4 V c).arrAt_eq_of_cover 3 G (fun t _ => flushed4 V c G hG t) cover4

end Cert.KernelIdeal.KVal

end
-- ==== Proof.KReg4.lean ====
/- Region 4: a dense layer on row blocks. Each of the 20 grid points multiplies its 5000 rows of the input by
   the whole 128×64 weight matrix on the matrix unit and adds the bias row; the 20 blocks tile the 100000 rows,
   so the array after the region is the dense layer of the whole input: entry (r, q) = Σ_k x(r,k)·w(k,q) + b(0,q). -/
import proofs.«155585_j22110491640565_1_alg».proof.Proof.KCover4
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_4 : (![0, 0] : Fin 2 → Nat) = fun _ => 0 := funext fun a => by fin_cases a <;> rfl

/-- The body's one store covers the output block: the block after the body is the body's stored value. -/
theorem out4_3_eq (x0 : Vec Ideal S5000x128 .f32) (x1 : Vec Ideal S128x64 .f32) (x2 : Vec Ideal S1x64 .f32) :
    Gen.out4_3 (F := Ideal) x0 x1 x2 = Gen.k4_pay1 x0 x1 x2 := by
  unfold Gen.out4_3
  rw [View.canon_unit_zero zero2_4]
  simp only [View.ld_unit_zero (S := S5000x128) zero2_4, View.ld_unit_zero (S := S128x64) zero2_4, View.ld_unit_zero (S := S1x64) zero2_4]

/-- The array after region 4: the dense layer of the arrays the region finds. -/
theorem final4_val (c : Dev nD) :
    (Gen.dat4 V c).arrAt 3 cfg4.N
      = linG (V c (Pipeline.arrRef spec4 0) : S100000x128.Idx → Elt Ideal .f32) (V c (Pipeline.arrRef spec4 1) : S128x64.Idx → Elt Ideal .f32)
          (V c (Pipeline.arrRef spec4 2) : S1x64.Idx → Elt Ideal .f32) :=
  KVal.final4 V c _ (fun t y => by
    obtain ⟨p, q, rfl⟩ : ∃ (p : Fin 5000) (q : Fin 64), y = ix2 p q := ⟨y 0, y 1, eq_ix2 y⟩
    have he := KVal.oblk4_emb_val t (ix2 p q)
    have e1 : (((cfg4.win 3).blk t).view.emb (ix2 p q) : S100000x64.Idx) 1 = q := Fin.ext he.2
    rw [out4_3_eq]
    refine (linPay_apply 5000 128 64 _ _ rfl _ _ _ _ _ p q).trans ?_
    rw [linG_apply, e1]
    refine congrArg₂ (· + ·) (Finset.sum_congr rfl fun k _ => congrArg₂ (· * ·) ?_ ?_) ?_
    · rw [shapeCast_self]
      exact KVal.iblk4_0_apply V c t (ix2 p k) (ix2 ((((cfg4.win 3).blk t).view.emb (ix2 p q) : S100000x64.Idx) 0) k) he.1 rfl
    · rw [KVal.iblk4_1_eq]
    · rw [KVal.iblk4_2_eq])

end Cert.KernelIdeal.KReg

end
-- ==== Proof.KCover5.lean ====
/- Region 5 of the program (bias, normalisation over a row, ELU; 20 grid points of 5000 rows each):
   its blocks as parts of its arrays, and its output array after the region as one whole-array function.
   At a parameter `V`, the buffer contents when the region is entered. The rows windows (input window 0 and
   the output window 4) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 5's index maps at its 20 grid points: the rows windows at block (t, 0), the whole-array windows at block (0, 0). -/
theorem blockIndex5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

/-- Every one of the 20 row blocks of the output array is some point's. -/
theorem blockOnto5 : ∀ q : Fin 20, ∃ t : Fin cfg5.N, win5_4.index t = ![q.val, 0] :=
  (by decide +kernel : ∀ q : Fin 20, ∃ t : Fin grid5.N, win5_4.index t = ![q.val, 0])

/-- Input window 0's block at point `t` is rows 5000 t … 5000 t + 4999 of its array: the element at block
    coordinates `y` is the array's at any index `k` with those coordinates. -/
theorem iblk5_0_apply (c : Dev nD) (t : Fin cfg5.N) (y : S5000x64.Idx) (k : S100000x64.Idx)
    (hk0 : (k 0).val = 5000 * t.val + (y 0).val) (hk1 : (k 1).val = (y 1).val) :
    (Gen.iblk5 V c 0 t : Vec F S5000x64 .f32) y = (V c (Pipeline.arrRef spec5 0) : S100000x64.Idx → Elt F .f32) k := by
  obtain ⟨e0, e1, -, -, -, -, -, -, -, -⟩ := blockIndex5 t
  unfold Gen.iblk5
  rw [View.read_apply]
  refine congrArg (V c (Pipeline.arrRef spec5 0) : S100000x64.Idx → Elt F .f32) ?_
  funext a
  apply Fin.ext
  match a with
  | ⟨0, _⟩ => show win5_0.index t (0 : Fin 2) * 5000 + 1 * (y 0).val = (k 0).val; rw [e0, hk0]; omega
  | ⟨1, _⟩ => show win5_0.index t (1 : Fin 2) * 64 + 1 * (y 1).val = (k 1).val; rw [e1, hk1]; omega

/-- Input window 1's block at every point is its whole array. -/
theorem iblk5_1_eq (c : Dev nD) (t : Fin cfg5.N) :
    (Gen.iblk5 V c 1 t : Vec F S1x64 .f32) = (V c (Pipeline.arrRef spec5 1) : S1x64.Idx → Elt F .f32) := by
  obtain ⟨-, -, e0, e1, -, -, -, -, -, -⟩ := blockIndex5 t
  funext y
  unfold Gen.iblk5
  rw [View.read_apply]
  refine congrArg (V c (Pipeline.arrRef spec5 1) : S1x64.Idx → Elt F .f32) ?_
  funext a
  apply Fin.ext
  match a with
  | ⟨0, _⟩ => show win5_1.index t (0 : Fin 2) * 1 + 1 * (y 0).val = (y 0).val; rw [e0]; omega
  | ⟨1, _⟩ => show win5_1.index t (1 : Fin 2) * 64 + 1 * (y 1).val = (y 1).val; rw [e1]; omega

/-- Input window 2's block at every point is its whole array. -/
theorem iblk5_2_eq (c : Dev nD) (t : Fin cfg5.N) :
    (Gen.iblk5 V c 2 t : Vec F S1x64 .f32) = (V c (Pipeline.arrRef spec5 2) : S1x64.Idx → Elt F .f32) := by
  obtain ⟨-, -, -, -, e0, e1, -, -, -, -⟩ := blockIndex5 t
  funext y
  unfold Gen.iblk5
  rw [View.read_apply]
  refine congrArg (V c (Pipeline.arrRef spec5 2) : S1x64.Idx → Elt F .f32) ?_
  funext a
  apply Fin.ext
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- Input window 3's block at every point is its whole array. -/
theorem iblk5_3_eq (c : Dev nD) (t : Fin cfg5.N) :
    (Gen.iblk5 V c 3 t : Vec F S1x64 .f32) = (V c (Pipeline.arrRef spec5 3) : S1x64.Idx → Elt F .f32) := by
  obtain ⟨-, -, -, -, -, -, e0, e1, -, -⟩ := blockIndex5 t
  funext y
  unfold Gen.iblk5
  rw [View.read_apply]
  refine congrArg (V c (Pipeline.arrRef spec5 3) : S1x64.Idx → Elt F .f32) ?_
  funext a
  apply Fin.ext
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- The output block at point `t` sits at rows 5000 t … 5000 t + 4999 of the output array, all columns. -/
theorem oblk5_emb_val (t : Fin cfg5.N) (y : S5000x64.Idx) :
    ((((cfg5.win 4).blk t).view.emb y : S100000x64.Idx) 0).val = 5000 * t.val + (y 0).val
    ∧ ((((cfg5.win 4).blk t).view.emb y : S100000x64.Idx) 1).val = (y 1).val := by
  obtain ⟨-, -, -, -, -, -, -, -, e0, e1⟩ := blockIndex5 t
  constructor
  · show win5_4.index t (0 : Fin 2) * 5000 + 1 * (y 0).val = _; rw [e0]; omega
  · show win5_4.index t (1 : Fin 2) * 64 + 1 * (y 1).val = _; rw [e1]; omega

/-- What point `t` writes back is block `t` of `G`, for any array function `G` whose block at every point is what
    the body leaves in the output window there. -/
theorem flushed5 (c : Dev nD) (G : S100000x64.Idx → Elt F .f32)
    (hG : ∀ (t : Fin cfg5.N) (y : S5000x64.Idx),
      Gen.out5_4 (Gen.iblk5 V c 0 t) (Gen.iblk5 V c 1 t) (Gen.iblk5 V c 2 t) (Gen.iblk5 V c 3 t) y = G (((cfg5.win 4).blk t).view.emb y)) (t : Fin cfg5.N) :
    (Gen.dat5 V c).flushed 4 t = ((cfg5.win 4).blk t).view.read (Elt F) G := by
  show (cfg5.win 4).cut (grid5.coords t) ((Gen.dat5 V c).after 4 t) = _
  rw [Gen.after5_4]
  funext y
  rw [View.read_apply]
  exact hG t y

/-- An index of the output array is in point `t`'s block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v128).slice (win5_4.rect t)).set ↔ _
  rw [View.set_slice_whole, Rect.mem_set_unit]
  exact Iff.rfl

/-- The blocks cover the array: row `r` is in the block of the point whose block index is `r / 5000`. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := blockOnto5 ⟨(i 0).val / 5000, by omega⟩
  have q0 : win5_4.index t (0 : Fin 2) = (i 0).val / 5000 := congrFun ht 0
  have q1 : win5_4.index t (1 : Fin 2) = 0 := congrFun ht 1
  refine ⟨t, Gen.flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- THE OUTPUT ARRAY AFTER REGION 5: any array function whose block at every point is what the body leaves there. -/
theorem final5 (c : Dev nD) (G : S100000x64.Idx → Elt F .f32)
    (hG : ∀ (t : Fin cfg5.N) (y : S5000x64.Idx),
      Gen.out5_4 (Gen.iblk5 V c 0 t) (Gen.iblk5 V c 1 t) (Gen.iblk5 V c 2 t) (Gen.iblk5 V c 3 t) y = G (((cfg5.win 4).blk t).view.emb y)) :
    (Gen.dat5 V c).arrAt 4 cfg5.N = G :=
  (Gen.dat5 V c).arrAt_eq_of_cover 4 G (fun t _ => flushed5 V c G hG t) cover5

end Cert.KernelIdeal.KVal

end
-- ==== Proof.KReg5.lean ====
/- Region 5: bias, LayerNorm over the 64 features of a row, and ELU, on row blocks. A row's result depends on
   that row alone (and on the three parameter rows), so the 20 blocks of 5000 rows give the row-wise function of
   the whole input array. -/
import proofs.«155585_j22110491640565_1_alg».proof.Proof.KCover5
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_5 : (![0, 0] : Fin 2 → Nat) = fun _ => 0 := funext fun a => by fin_cases a <;> rfl

/-- The body's one store covers the output block: the block after the body is the body's stored value. -/
theorem out5_4_eq (x0 : Vec Ideal S5000x64 .f32) (x1 x2 x3 : Vec Ideal S1x64 .f32) :
    Gen.out5_4 (F := Ideal) x0 x1 x2 x3 = Gen.k5_pay1 x0 x1 x2 x3 := by
  unfold Gen.out5_4
  rw [View.canon_unit_zero zero2_5]
  simp only [View.ld_unit_zero (S := S5000x64) zero2_5, View.ld_unit_zero (S := S1x64) zero2_5]

/-- The body's stored value is the generic normalising body at these extents (the same operations in the same order). -/
theorem k5_pay1_eq (x0 : Vec Ideal S5000x64 .f32) (x1 x2 x3 : Vec Ideal S1x64 .f32) :
    Gen.k5_pay1 (F := Ideal) x0 x1 x2 x3
      = lnPay 5000 64 0x42800000#32 Gen.shapeCasts_S5000x64_S5000x64 Gen.shapeCasts_S1x64_S1x64 Gen.broadcasts_S1x64_S5000x64
          Gen.reduces_S5000x64_S5000 Gen.shapeCasts_S5000_S5000x1 Gen.broadcasts_S5000x1_S5000x64 (.inl rfl) rfl x0 x1 x2 x3 := by
  unfold Gen.k5_pay1 lnPay lnHn lnZ colMean
  rfl

/-- The array after region 5: the row-wise normalisation and activation of the arrays the region finds. -/
theorem final5_val (c : Dev nD) :
    (Gen.dat5 V c).arrAt 4 cfg5.N
      = lnEluG (Ideal.ofBits .f32 0x42800000#32) (V c (Pipeline.arrRef spec5 0) : S100000x64.Idx → Elt Ideal .f32)
          (V c (Pipeline.arrRef spec5 1) : S1x64.Idx → Elt Ideal .f32) (V c (Pipeline.arrRef spec5 2) : S1x64.Idx → Elt Ideal .f32)
          (V c (Pipeline.arrRef spec5 3) : S1x64.Idx → Elt Ideal .f32) :=
  KVal.final5 V c _ (fun t y => by
    obtain ⟨p, q, rfl⟩ : ∃ (p : Fin 5000) (q : Fin 64), y = ix2 p q := ⟨y 0, y 1, eq_ix2 y⟩
    have he := KVal.oblk5_emb_val t (ix2 p q)
    have e1 : (((cfg5.win 4).blk t).view.emb (ix2 p q) : S100000x64.Idx) 1 = q := Fin.ext he.2
    rw [out5_4_eq, k5_pay1_eq]
    refine (lnPay_apply 5000 64 0x42800000#32 _ _ _ _ _ _ _ _ _ _ _ _ p q).trans ?_
    rw [lnEluG_apply, e1, KVal.iblk5_1_eq, KVal.iblk5_2_eq, KVal.iblk5_3_eq]
    refine congrArg (fun z => lnEluRow _ z _ _ q) (funext fun k => congrArg (· + _) ?_)
    exact KVal.iblk5_0_apply V c t (ix2 p k) (ix2 ((((cfg5.win 4).blk t).view.emb (ix2 p q) : S100000x64.Idx) 0) k) he.1 rfl)

end Cert.KernelIdeal.KReg

end
-- ==== Proof.KCover6.lean ====
/- Region 6 of the program (rows times a matrix plus a bias row; 20 grid points of 5000 rows each):
   its blocks as parts of its arrays, and its output array after the region as one whole-array function.
   At a parameter `V`, the buffer contents when the region is entered. The rows windows (input window 0 and
   the output window 3) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 6's index maps at its 20 grid points: the rows windows at block (t, 0), the whole-array windows at block (0, 0). -/
theorem blockIndex6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- Every one of the 20 row blocks of the output array is some point's. -/
theorem blockOnto6 : ∀ q : Fin 20, ∃ t : Fin cfg6.N, win6_3.index t = ![q.val, 0] :=
  (by decide +kernel : ∀ q : Fin 20, ∃ t : Fin grid6.N, win6_3.index t = ![q.val, 0])

/-- Input window 0's block at point `t` is rows 5000 t … 5000 t + 4999 of its array: the element at block
    coordinates `y` is the array's at any index `k` with those coordinates. -/
theorem iblk6_0_apply (c : Dev nD) (t : Fin cfg6.N) (y : S5000x64.Idx) (k : S100000x64.Idx)
    (hk0 : (k 0).val = 5000 * t.val + (y 0).val) (hk1 : (k 1).val = (y 1).val) :
    (Gen.iblk6 V c 0 t : Vec F S5000x64 .f32) y = (V c (Pipeline.arrRef spec6 0) : S100000x64.Idx → Elt F .f32) k := by
  obtain ⟨e0, e1, -, -, -, -, -, -⟩ := blockIndex6 t
  unfold Gen.iblk6
  rw [View.read_apply]
  refine congrArg (V c (Pipeline.arrRef spec6 0) : S100000x64.Idx → Elt F .f32) ?_
  funext a
  apply Fin.ext
  match a with
  | ⟨0, _⟩ => show win6_0.index t (0 : Fin 2) * 5000 + 1 * (y 0).val = (k 0).val; rw [e0, hk0]; omega
  | ⟨1, _⟩ => show win6_0.index t (1 : Fin 2) * 64 + 1 * (y 1).val = (k 1).val; rw [e1, hk1]; omega

/-- Input window 1's block at every point is its whole array. -/
theorem iblk6_1_eq (c : Dev nD) (t : Fin cfg6.N) :
    (Gen.iblk6 V c 1 t : Vec F S64x32 .f32) = (V c (Pipeline.arrRef spec6 1) : S64x32.Idx → Elt F .f32) := by
  obtain ⟨-, -, e0, e1, -, -, -, -⟩ := blockIndex6 t
  funext y
  unfold Gen.iblk6
  rw [View.read_apply]
  refine congrArg (V c (Pipeline.arrRef spec6 1) : S64x32.Idx → Elt F .f32) ?_
  funext a
  apply Fin.ext
  match a with
  | ⟨0, _⟩ => show win6_1.index t (0 : Fin 2) * 64 + 1 * (y 0).val = (y 0).val; rw [e0]; omega
  | ⟨1, _⟩ => show win6_1.index t (1 : Fin 2) * 32 + 1 * (y 1).val = (y 1).val; rw [e1]; omega

/-- Input window 2's block at every point is its whole array. -/
theorem iblk6_2_eq (c : Dev nD) (t : Fin cfg6.N) :
    (Gen.iblk6 V c 2 t : Vec F S1x32 .f32) = (V c (Pipeline.arrRef spec6 2) : S1x32.Idx → Elt F .f32) := by
  obtain ⟨-, -, -, -, e0, e1, -, -⟩ := blockIndex6 t
  funext y
  unfold Gen.iblk6
  rw [View.read_apply]
  refine congrArg (V c (Pipeline.arrRef spec6 2) : S1x32.Idx → Elt F .f32) ?_
  funext a
  apply Fin.ext
  match a with
  | ⟨0, _⟩ => show win6_2.index t (0 : Fin 2) * 1 + 1 * (y 0).val = (y 0).val; rw [e0]; omega
  | ⟨1, _⟩ => show win6_2.index t (1 : Fin 2) * 32 + 1 * (y 1).val = (y 1).val; rw [e1]; omega

/-- The output block at point `t` sits at rows 5000 t … 5000 t + 4999 of the output array, all columns. -/
theorem oblk6_emb_val (t : Fin cfg6.N) (y : S5000x32.Idx) :
    ((((cfg6.win 3).blk t).view.emb y : S100000x32.Idx) 0).val = 5000 * t.val + (y 0).val
    ∧ ((((cfg6.win 3).blk t).view.emb y : S100000x32.Idx) 1).val = (y 1).val := by
  obtain ⟨-, -, -, -, -, -, e0, e1⟩ := blockIndex6 t
  constructor
  · show win6_3.index t (0 : Fin 2) * 5000 + 1 * (y 0).val = _; rw [e0]; omega
  · show win6_3.index t (1 : Fin 2) * 32 + 1 * (y 1).val = _; rw [e1]; omega

/-- What point `t` writes back is block `t` of `G`, for any array function `G` whose block at every point is what
    the body leaves in the output window there. -/
theorem flushed6 (c : Dev nD) (G : S100000x32.Idx → Elt F .f32)
    (hG : ∀ (t : Fin cfg6.N) (y : S5000x32.Idx),
      Gen.out6_3 (Gen.iblk6 V c 0 t) (Gen.iblk6 V c 1 t) (Gen.iblk6 V c 2 t) y = G (((cfg6.win 3).blk t).view.emb y)) (t : Fin cfg6.N) :
    (Gen.dat6 V c).flushed 3 t = ((cfg6.win 3).blk t).view.read (Elt F) G := by
  show (cfg6.win 3).cut (grid6.coords t) ((Gen.dat6 V c).after 3 t) = _
  rw [Gen.after6_3]
  funext y
  rw [View.read_apply]
  exact hG t y

/-- An index of the output array is in point `t`'s block iff each coordinate is in the block's range on its axis. -/
theorem mem_blk6 (t : Fin cfg6.N) (i : S100000x32.Idx) :
    i ∈ ((cfg6.win 3).blk t).view.set ↔ ∀ a : Fin 2, win6_3.index t a * S5000x32.size a ≤ (i a).val ∧ (i a).val < win6_3.index t a * S5000x32.size a + S5000x32.size a := by
  show i ∈ ((View.whole main_v130).slice (win6_3.rect t)).set ↔ _
  rw [View.set_slice_whole, Rect.mem_set_unit]
  exact Iff.rfl

/-- The blocks cover the array: row `r` is in the block of the point whose block index is `r / 5000`. -/
theorem cover6 (i : S100000x32.Idx) :
    ∃ t : Fin cfg6.N, (cfg6.win 3).flush t = true ∧ i ∈ ((cfg6.win 3).blk t).view.set := by
  have hi0 : (i 0).val < 100000 := (i 0).isLt
  have hi1 : (i 1).val < 32 := (i 1).isLt
  obtain ⟨t, ht⟩ := blockOnto6 ⟨(i 0).val / 5000, by omega⟩
  have q0 : win6_3.index t (0 : Fin 2) = (i 0).val / 5000 := congrFun ht 0
  have q1 : win6_3.index t (1 : Fin 2) = 0 := congrFun ht 1
  refine ⟨t, Gen.flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 32 ≤ (i 1).val ∧ (i 1).val < win6_3.index t (1 : Fin 2) * 32 + 32; omega

/-- THE OUTPUT ARRAY AFTER REGION 6: any array function whose block at every point is what the body leaves there. -/
theorem final6 (c : Dev nD) (G : S100000x32.Idx → Elt F .f32)
    (hG : ∀ (t : Fin cfg6.N) (y : S5000x32.Idx),
      Gen.out6_3 (Gen.iblk6 V c 0 t) (Gen.iblk6 V c 1 t) (Gen.iblk6 V c 2 t) y = G (((cfg6.win 3).blk t).view.emb y)) :
    (Gen.dat6 V c).arrAt 3 cfg6.N = G :=
  (Gen.dat6 V c).arrAt_eq_of_cover 3 G (fun t _ => flushed6 V c G hG t) cover6

end Cert.KernelIdeal.KVal

end
-- ==== Proof.KReg6.lean ====
/- Region 6: a dense layer on row blocks. Each of the 20 grid points multiplies its 5000 rows of the input by
   the whole 64×32 weight matrix on the matrix unit and adds the bias row; the 20 blocks tile the 100000 rows,
   so the array after the region is the dense layer of the whole input: entry (r, q) = Σ_k x(r,k)·w(k,q) + b(0,q). -/
import proofs.«155585_j22110491640565_1_alg».proof.Proof.KCover6
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_6 : (![0, 0] : Fin 2 → Nat) = fun _ => 0 := funext fun a => by fin_cases a <;> rfl

/-- The body's one store covers the output block: the block after the body is the body's stored value. -/
theorem out6_3_eq (x0 : Vec Ideal S5000x64 .f32) (x1 : Vec Ideal S64x32 .f32) (x2 : Vec Ideal S1x32 .f32) :
    Gen.out6_3 (F := Ideal) x0 x1 x2 = Gen.k6_pay1 x0 x1 x2 := by
  unfold Gen.out6_3
  rw [View.canon_unit_zero zero2_6]
  simp only [View.ld_unit_zero (S := S5000x64) zero2_6, View.ld_unit_zero (S := S64x32) zero2_6, View.ld_unit_zero (S := S1x32) zero2_6]

/-- The array after region 6: the dense layer of the arrays the region finds. -/
theorem final6_val (c : Dev nD) :
    (Gen.dat6 V c).arrAt 3 cfg6.N
      = linG (V c (Pipeline.arrRef spec6 0) : S100000x64.Idx → Elt Ideal .f32) (V c (Pipeline.arrRef spec6 1) : S64x32.Idx → Elt Ideal .f32)
          (V c (Pipeline.arrRef spec6 2) : S1x32.Idx → Elt Ideal .f32) :=
  KVal.final6 V c _ (fun t y => by
    obtain ⟨p, q, rfl⟩ : ∃ (p : Fin 5000) (q : Fin 32), y = ix2 p q := ⟨y 0, y 1, eq_ix2 y⟩
    have he := KVal.oblk6_emb_val t (ix2 p q)
    have e1 : (((cfg6.win 3).blk t).view.emb (ix2 p q) : S100000x32.Idx) 1 = q := Fin.ext he.2
    rw [out6_3_eq]
    refine (linPay_apply 5000 64 32 _ _ rfl _ _ _ _ _ p q).trans ?_
    rw [linG_apply, e1]
    refine congrArg₂ (· + ·) (Finset.sum_congr rfl fun k _ => congrArg₂ (· * ·) ?_ ?_) ?_
    · rw [shapeCast_self]
      exact KVal.iblk6_0_apply V c t (ix2 p k) (ix2 ((((cfg6.win 3).blk t).view.emb (ix2 p q) : S100000x32.Idx) 0) k) he.1 rfl
    · rw [KVal.iblk6_1_eq]
    · rw [KVal.iblk6_2_eq])

end Cert.KernelIdeal.KReg

end
-- ==== Proof.KCover7.lean ====
/- Region 7 of the program (bias, normalisation over a row, ELU; 20 grid points of 5000 rows each):
   its blocks as parts of its arrays, and its output array after the region as one whole-array function.
   At a parameter `V`, the buffer contents when the region is entered. The rows windows (input window 0 and
   the output window 4) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 7's index maps at its 20 grid points: the rows windows at block (t, 0), the whole-array windows at block (0, 0). -/
theorem blockIndex7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0 :=
  (by decide +kernel : ∀ t : Fin grid7.N, _)

/-- Every one of the 20 row blocks of the output array is some point's. -/
theorem blockOnto7 : ∀ q : Fin 20, ∃ t : Fin cfg7.N, win7_4.index t = ![q.val, 0] :=
  (by decide +kernel : ∀ q : Fin 20, ∃ t : Fin grid7.N, win7_4.index t = ![q.val, 0])

/-- Input window 0's block at point `t` is rows 5000 t … 5000 t + 4999 of its array: the element at block
    coordinates `y` is the array's at any index `k` with those coordinates. -/
theorem iblk7_0_apply (c : Dev nD) (t : Fin cfg7.N) (y : S5000x32.Idx) (k : S100000x32.Idx)
    (hk0 : (k 0).val = 5000 * t.val + (y 0).val) (hk1 : (k 1).val = (y 1).val) :
    (Gen.iblk7 V c 0 t : Vec F S5000x32 .f32) y = (V c (Pipeline.arrRef spec7 0) : S100000x32.Idx → Elt F .f32) k := by
  obtain ⟨e0, e1, -, -, -, -, -, -, -, -⟩ := blockIndex7 t
  unfold Gen.iblk7
  rw [View.read_apply]
  refine congrArg (V c (Pipeline.arrRef spec7 0) : S100000x32.Idx → Elt F .f32) ?_
  funext a
  apply Fin.ext
  match a with
  | ⟨0, _⟩ => show win7_0.index t (0 : Fin 2) * 5000 + 1 * (y 0).val = (k 0).val; rw [e0, hk0]; omega
  | ⟨1, _⟩ => show win7_0.index t (1 : Fin 2) * 32 + 1 * (y 1).val = (k 1).val; rw [e1, hk1]; omega

/-- Input window 1's block at every point is its whole array. -/
theorem iblk7_1_eq (c : Dev nD) (t : Fin cfg7.N) :
    (Gen.iblk7 V c 1 t : Vec F S1x32 .f32) = (V c (Pipeline.arrRef spec7 1) : S1x32.Idx → Elt F .f32) := by
  obtain ⟨-, -, e0, e1, -, -, -, -, -, -⟩ := blockIndex7 t
  funext y
  unfold Gen.iblk7
  rw [View.read_apply]
  refine congrArg (V c (Pipeline.arrRef spec7 1) : S1x32.Idx → Elt F .f32) ?_
  funext a
  apply Fin.ext
  match a with
  | ⟨0, _⟩ => show win7_1.index t (0 : Fin 2) * 1 + 1 * (y 0).val = (y 0).val; rw [e0]; omega
  | ⟨1, _⟩ => show win7_1.index t (1 : Fin 2) * 32 + 1 * (y 1).val = (y 1).val; rw [e1]; omega

/-- Input window 2's block at every point is its whole array. -/
theorem iblk7_2_eq (c : Dev nD) (t : Fin cfg7.N) :
    (Gen.iblk7 V c 2 t : Vec F S1x32 .f32) = (V c (Pipeline.arrRef spec7 2) : S1x32.Idx → Elt F .f32) := by
  obtain ⟨-, -, -, -, e0, e1, -, -, -, -⟩ := blockIndex7 t
  funext y
  unfold Gen.iblk7
  rw [View.read_apply]
  refine congrArg (V c (Pipeline.arrRef spec7 2) : S1x32.Idx → Elt F .f32) ?_
  funext a
  apply Fin.ext
  match a with
  | ⟨0, _⟩ => show win7_2.index t (0 : Fin 2) * 1 + 1 * (y 0).val = (y 0).val; rw [e0]; omega
  | ⟨1, _⟩ => show win7_2.index t (1 : Fin 2) * 32 + 1 * (y 1).val = (y 1).val; rw [e1]; omega

/-- Input window 3's block at every point is its whole array. -/
theorem iblk7_3_eq (c : Dev nD) (t : Fin cfg7.N) :
    (Gen.iblk7 V c 3 t : Vec F S1x32 .f32) = (V c (Pipeline.arrRef spec7 3) : S1x32.Idx → Elt F .f32) := by
  obtain ⟨-, -, -, -, -, -, e0, e1, -, -⟩ := blockIndex7 t
  funext y
  unfold Gen.iblk7
  rw [View.read_apply]
  refine congrArg (V c (Pipeline.arrRef spec7 3) : S1x32.Idx → Elt F .f32) ?_
  funext a
  apply Fin.ext
  match a with
  | ⟨0, _⟩ => show win7_3.index t (0 : Fin 2) * 1 + 1 * (y 0).val = (y 0).val; rw [e0]; omega
  | ⟨1, _⟩ => show win7_3.index t (1 : Fin 2) * 32 + 1 * (y 1).val = (y 1).val; rw [e1]; omega

/-- The output block at point `t` sits at rows 5000 t … 5000 t + 4999 of the output array, all columns. -/
theorem oblk7_emb_val (t : Fin cfg7.N) (y : S5000x32.Idx) :
    ((((cfg7.win 4).blk t).view.emb y : S100000x32.Idx) 0).val = 5000 * t.val + (y 0).val
    ∧ ((((cfg7.win 4).blk t).view.emb y : S100000x32.Idx) 1).val = (y 1).val := by
  obtain ⟨-, -, -, -, -, -, -, -, e0, e1⟩ := blockIndex7 t
  constructor
  · show win7_4.index t (0 : Fin 2) * 5000 + 1 * (y 0).val = _; rw [e0]; omega
  · show win7_4.index t (1 : Fin 2) * 32 + 1 * (y 1).val = _; rw [e1]; omega

/-- What point `t` writes back is block `t` of `G`, for any array function `G` whose block at every point is what
    the body leaves in the output window there. -/
theorem flushed7 (c : Dev nD) (G : S100000x32.Idx → Elt F .f32)
    (hG : ∀ (t : Fin cfg7.N) (y : S5000x32.Idx),
      Gen.out7_4 (Gen.iblk7 V c 0 t) (Gen.iblk7 V c 1 t) (Gen.iblk7 V c 2 t) (Gen.iblk7 V c 3 t) y = G (((cfg7.win 4).blk t).view.emb y)) (t : Fin cfg7.N) :
    (Gen.dat7 V c).flushed 4 t = ((cfg7.win 4).blk t).view.read (Elt F) G := by
  show (cfg7.win 4).cut (grid7.coords t) ((Gen.dat7 V c).after 4 t) = _
  rw [Gen.after7_4]
  funext y
  rw [View.read_apply]
  exact hG t y

/-- An index of the output array is in point `t`'s block iff each coordinate is in the block's range on its axis. -/
theorem mem_blk7 (t : Fin cfg7.N) (i : S100000x32.Idx) :
    i ∈ ((cfg7.win 4).blk t).view.set ↔ ∀ a : Fin 2, win7_4.index t a * S5000x32.size a ≤ (i a).val ∧ (i a).val < win7_4.index t a * S5000x32.size a + S5000x32.size a := by
  show i ∈ ((View.whole main_v135).slice (win7_4.rect t)).set ↔ _
  rw [View.set_slice_whole, Rect.mem_set_unit]
  exact Iff.rfl

/-- The blocks cover the array: row `r` is in the block of the point whose block index is `r / 5000`. -/
theorem cover7 (i : S100000x32.Idx) :
    ∃ t : Fin cfg7.N, (cfg7.win 4).flush t = true ∧ i ∈ ((cfg7.win 4).blk t).view.set := by
  have hi0 : (i 0).val < 100000 := (i 0).isLt
  have hi1 : (i 1).val < 32 := (i 1).isLt
  obtain ⟨t, ht⟩ := blockOnto7 ⟨(i 0).val / 5000, by omega⟩
  have q0 : win7_4.index t (0 : Fin 2) = (i 0).val / 5000 := congrFun ht 0
  have q1 : win7_4.index t (1 : Fin 2) = 0 := congrFun ht 1
  refine ⟨t, Gen.flush7_4 t, ?_⟩
  rw [mem_blk7]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 32 ≤ (i 1).val ∧ (i 1).val < win7_4.index t (1 : Fin 2) * 32 + 32; omega

/-- THE OUTPUT ARRAY AFTER REGION 7: any array function whose block at every point is what the body leaves there. -/
theorem final7 (c : Dev nD) (G : S100000x32.Idx → Elt F .f32)
    (hG : ∀ (t : Fin cfg7.N) (y : S5000x32.Idx),
      Gen.out7_4 (Gen.iblk7 V c 0 t) (Gen.iblk7 V c 1 t) (Gen.iblk7 V c 2 t) (Gen.iblk7 V c 3 t) y = G (((cfg7.win 4).blk t).view.emb y)) :
    (Gen.dat7 V c).arrAt 4 cfg7.N = G :=
  (Gen.dat7 V c).arrAt_eq_of_cover 4 G (fun t _ => flushed7 V c G hG t) cover7

end Cert.KernelIdeal.KVal

end
-- ==== Proof.KReg7.lean ====
/- Region 7: bias, LayerNorm over the 32 features of a row, and ELU, on row blocks. A row's result depends on
   that row alone (and on the three parameter rows), so the 20 blocks of 5000 rows give the row-wise function of
   the whole input array. -/
import proofs.«155585_j22110491640565_1_alg».proof.Proof.KCover7
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_7 : (![0, 0] : Fin 2 → Nat) = fun _ => 0 := funext fun a => by fin_cases a <;> rfl

/-- The body's one store covers the output block: the block after the body is the body's stored value. -/
theorem out7_4_eq (x0 : Vec Ideal S5000x32 .f32) (x1 x2 x3 : Vec Ideal S1x32 .f32) :
    Gen.out7_4 (F := Ideal) x0 x1 x2 x3 = Gen.k7_pay1 x0 x1 x2 x3 := by
  unfold Gen.out7_4
  rw [View.canon_unit_zero zero2_7]
  simp only [View.ld_unit_zero (S := S5000x32) zero2_7, View.ld_unit_zero (S := S1x32) zero2_7]

/-- The body's stored value is the generic normalising body at these extents (the same operations in the same order). -/
theorem k7_pay1_eq (x0 : Vec Ideal S5000x32 .f32) (x1 x2 x3 : Vec Ideal S1x32 .f32) :
    Gen.k7_pay1 (F := Ideal) x0 x1 x2 x3
      = lnPay 5000 32 0x42000000#32 Gen.shapeCasts_S5000x32_S5000x32 Gen.shapeCasts_S1x32_S1x32 Gen.broadcasts_S1x32_S5000x32
          Gen.reduces_S5000x32_S5000 Gen.shapeCasts_S5000_S5000x1 Gen.broadcasts_S5000x1_S5000x32 (.inl rfl) rfl x0 x1 x2 x3 := by
  unfold Gen.k7_pay1 lnPay lnHn lnZ colMean
  rfl

/-- The array after region 7: the row-wise normalisation and activation of the arrays the region finds. -/
theorem final7_val (c : Dev nD) :
    (Gen.dat7 V c).arrAt 4 cfg7.N
      = lnEluG (Ideal.ofBits .f32 0x42000000#32) (V c (Pipeline.arrRef spec7 0) : S100000x32.Idx → Elt Ideal .f32)
          (V c (Pipeline.arrRef spec7 1) : S1x32.Idx → Elt Ideal .f32) (V c (Pipeline.arrRef spec7 2) : S1x32.Idx → Elt Ideal .f32)
          (V c (Pipeline.arrRef spec7 3) : S1x32.Idx → Elt Ideal .f32) :=
  KVal.final7 V c _ (fun t y => by
    obtain ⟨p, q, rfl⟩ : ∃ (p : Fin 5000) (q : Fin 32), y = ix2 p q := ⟨y 0, y 1, eq_ix2 y⟩
    have he := KVal.oblk7_emb_val t (ix2 p q)
    have e1 : (((cfg7.win 4).blk t).view.emb (ix2 p q) : S100000x32.Idx) 1 = q := Fin.ext he.2
    rw [out7_4_eq, k7_pay1_eq]
    refine (lnPay_apply 5000 32 0x42000000#32 _ _ _ _ _ _ _ _ _ _ _ _ p q).trans ?_
    rw [lnEluG_apply, e1, KVal.iblk7_1_eq, KVal.iblk7_2_eq, KVal.iblk7_3_eq]
    refine congrArg (fun z => lnEluRow _ z _ _ q) (funext fun k => congrArg (· + _) ?_)
    exact KVal.iblk7_0_apply V c t (ix2 p k) (ix2 ((((cfg7.win 4).blk t).view.emb (ix2 p q) : S100000x32.Idx) 0) k) he.1 rfl)

end Cert.KernelIdeal.KReg

end
-- ==== Proof.KCover8.lean ====
/- Region 8 of the program (rows times a matrix plus a bias row; 20 grid points of 5000 rows each):
   its blocks as parts of its arrays, and its output array after the region as one whole-array function.
   At a parameter `V`, the buffer contents when the region is entered. The rows windows (input window 0 and
   the output window 3) sit at block (t, 0) at point t, so their block at t is rows 5000 t … 5000 t + 4999; the other
   input windows hold their whole array at every point. The output's 20 blocks tile its 100000 rows, so an
   array function `G` whose block at every point is what the body leaves there IS the array after the region. -/
import proofs.«155585_j22110491640565_1_alg».proof.Proof.Gen.KernelIdeal.Frame
import Idealize.ShloMosaic.Lib.Pipeline.Value

set_option maxRecDepth 16384

noncomputable section

namespace Cert.KernelIdeal.KVal

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Region 8's index maps at its 20 grid points: the rows windows at block (t, 0), the whole-array windows at block (0, 0). -/
theorem blockIndex8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- Every one of the 20 row blocks of the output array is some point's. -/
theorem blockOnto8 : ∀ q : Fin 20, ∃ t : Fin cfg8.N, win8_3.index t = ![q.val, 0] :=
  (by decide +kernel : ∀ q : Fin 20, ∃ t : Fin grid8.N, win8_3.index t = ![q.val, 0])

/-- Input window 0's block at point `t` is rows 5000 t … 5000 t + 4999 of its array: the element at block
    coordinates `y` is the array's at any index `k` with those coordinates. -/
theorem iblk8_0_apply (c : Dev nD) (t : Fin cfg8.N) (y : S5000x32.Idx) (k : S100000x32.Idx)
    (hk0 : (k 0).val = 5000 * t.val + (y 0).val) (hk1 : (k 1).val = (y 1).val) :
    (Gen.iblk8 V c 0 t : Vec F S5000x32 .f32) y = (V c (Pipeline.arrRef spec8 0) : S100000x32.Idx → Elt F .f32) k := by
  obtain ⟨e0, e1, -, -, -, -, -, -⟩ := blockIndex8 t
  unfold Gen.iblk8
  rw [View.read_apply]
  refine congrArg (V c (Pipeline.arrRef spec8 0) : S100000x32.Idx → Elt F .f32) ?_
  funext a
  apply Fin.ext
  match a with
  | ⟨0, _⟩ => show win8_0.index t (0 : Fin 2) * 5000 + 1 * (y 0).val = (k 0).val; rw [e0, hk0]; omega
  | ⟨1, _⟩ => show win8_0.index t (1 : Fin 2) * 32 + 1 * (y 1).val = (k 1).val; rw [e1, hk1]; omega

/-- Input window 1's block at every point is its whole array. -/
theorem iblk8_1_eq (c : Dev nD) (t : Fin cfg8.N) :
    (Gen.iblk8 V c 1 t : Vec F S32x32 .f32) = (V c (Pipeline.arrRef spec8 1) : S32x32.Idx → Elt F .f32) := by
  obtain ⟨-, -, e0, e1, -, -, -, -⟩ := blockIndex8 t
  funext y
  unfold Gen.iblk8
  rw [View.read_apply]
  refine congrArg (V c (Pipeline.arrRef spec8 1) : S32x32.Idx → Elt F .f32) ?_
  funext a
  apply Fin.ext
  match a with
  | ⟨0, _⟩ => show win8_1.index t (0 : Fin 2) * 32 + 1 * (y 0).val = (y 0).val; rw [e0]; omega
  | ⟨1, _⟩ => show win8_1.index t (1 : Fin 2) * 32 + 1 * (y 1).val = (y 1).val; rw [e1]; omega

/-- Input window 2's block at every point is its whole array. -/
theorem iblk8_2_eq (c : Dev nD) (t : Fin cfg8.N) :
    (Gen.iblk8 V c 2 t : Vec F S1x32 .f32) = (V c (Pipeline.arrRef spec8 2) : S1x32.Idx → Elt F .f32) := by
  obtain ⟨-, -, -, -, e0, e1, -, -⟩ := blockIndex8 t
  funext y
  unfold Gen.iblk8
  rw [View.read_apply]
  refine congrArg (V c (Pipeline.arrRef spec8 2) : S1x32.Idx → Elt F .f32) ?_
  funext a
  apply Fin.ext
  match a with
  | ⟨0, _⟩ => show win8_2.index t (0 : Fin 2) * 1 + 1 * (y 0).val = (y 0).val; rw [e0]; omega
  | ⟨1, _⟩ => show win8_2.index t (1 : Fin 2) * 32 + 1 * (y 1).val = (y 1).val; rw [e1]; omega

/-- The output block at point `t` sits at rows 5000 t … 5000 t + 4999 of the output array, all columns. -/
theorem oblk8_emb_val (t : Fin cfg8.N) (y : S5000x32.Idx) :
    ((((cfg8.win 3).blk t).view.emb y : S100000x32.Idx) 0).val = 5000 * t.val + (y 0).val
    ∧ ((((cfg8.win 3).blk t).view.emb y : S100000x32.Idx) 1).val = (y 1).val := by
  obtain ⟨-, -, -, -, -, -, e0, e1⟩ := blockIndex8 t
  constructor
  · show win8_3.index t (0 : Fin 2) * 5000 + 1 * (y 0).val = _; rw [e0]; omega
  · show win8_3.index t (1 : Fin 2) * 32 + 1 * (y 1).val = _; rw [e1]; omega

/-- What point `t` writes back is block `t` of `G`, for any array function `G` whose block at every point is what
    the body leaves in the output window there. -/
theorem flushed8 (c : Dev nD) (G : S100000x32.Idx → Elt F .f32)
    (hG : ∀ (t : Fin cfg8.N) (y : S5000x32.Idx),
      Gen.out8_3 (Gen.iblk8 V c 0 t) (Gen.iblk8 V c 1 t) (Gen.iblk8 V c 2 t) y = G (((cfg8.win 3).blk t).view.emb y)) (t : Fin cfg8.N) :
    (Gen.dat8 V c).flushed 3 t = ((cfg8.win 3).blk t).view.read (Elt F) G := by
  show (cfg8.win 3).cut (grid8.coords t) ((Gen.dat8 V c).after 3 t) = _
  rw [Gen.after8_3]
  funext y
  rw [View.read_apply]
  exact hG t y

/-- An index of the output array is in point `t`'s block iff each coordinate is in the block's range on its axis. -/
theorem mem_blk8 (t : Fin cfg8.N) (i : S100000x32.Idx) :
    i ∈ ((cfg8.win 3).blk t).view.set ↔ ∀ a : Fin 2, win8_3.index t a * S5000x32.size a ≤ (i a).val ∧ (i a).val < win8_3.index t a * S5000x32.size a + S5000x32.size a := by
  show i ∈ ((View.whole main_v137).slice (win8_3.rect t)).set ↔ _
  rw [View.set_slice_whole, Rect.mem_set_unit]
  exact Iff.rfl

/-- The blocks cover the array: row `r` is in the block of the point whose block index is `r / 5000`. -/
theorem cover8 (i : S100000x32.Idx) :
    ∃ t : Fin cfg8.N, (cfg8.win 3).flush t = true ∧ i ∈ ((cfg8.win 3).blk t).view.set := by
  have hi0 : (i 0).val < 100000 := (i 0).isLt
  have hi1 : (i 1).val < 32 := (i 1).isLt
  obtain ⟨t, ht⟩ := blockOnto8 ⟨(i 0).val / 5000, by omega⟩
  have q0 : win8_3.index t (0 : Fin 2) = (i 0).val / 5000 := congrFun ht 0
  have q1 : win8_3.index t (1 : Fin 2) = 0 := congrFun ht 1
  refine ⟨t, Gen.flush8_3 t, ?_⟩
  rw [mem_blk8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 32 ≤ (i 1).val ∧ (i 1).val < win8_3.index t (1 : Fin 2) * 32 + 32; omega

/-- THE OUTPUT ARRAY AFTER REGION 8: any array function whose block at every point is what the body leaves there. -/
theorem final8 (c : Dev nD) (G : S100000x32.Idx → Elt F .f32)
    (hG : ∀ (t : Fin cfg8.N) (y : S5000x32.Idx),
      Gen.out8_3 (Gen.iblk8 V c 0 t) (Gen.iblk8 V c 1 t) (Gen.iblk8 V c 2 t) y = G (((cfg8.win 3).blk t).view.emb y)) :
    (Gen.dat8 V c).arrAt 3 cfg8.N = G :=
  (Gen.dat8 V c).arrAt_eq_of_cover 3 G (fun t _ => flushed8 V c G hG t) cover8

end Cert.KernelIdeal.KVal

end
-- ==== Proof.KReg8.lean ====
/- Region 8: a dense layer on row blocks. Each of the 20 grid points multiplies its 5000 rows of the input by
   the whole 32×32 weight matrix on the matrix unit and adds the bias row; the 20 blocks tile the 100000 rows,
   so the array after the region is the dense layer of the whole input: entry (r, q) = Σ_k x(r,k)·w(k,q) + b(0,q). -/
import proofs.«155585_j22110491640565_1_alg».proof.Proof.KCover8
import proofs.«155585_j22110491640565_1_alg».proof.Proof.Pay
import proofs.«155585_j22110491640565_1_alg».proof.Proof.SpecApply

set_option maxRecDepth 16384

noncomputable section

namespace Cert.KernelIdeal.KReg

open Cert.KernelIdeal Cert.KernelIdeal.Gen Cert.GcnSpec Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero2_8 : (![0, 0] : Fin 2 → Nat) = fun _ => 0 := funext fun a => by fin_cases a <;> rfl

/-- The body's one store covers the output block: the block after the body is the body's stored value. -/
theorem out8_3_eq (x0 : Vec Ideal S5000x32 .f32) (x1 : Vec Ideal S32x32 .f32) (x2 : Vec Ideal S1x32 .f32) :
    Gen.out8_3 (F := Ideal) x0 x1 x2 = Gen.k8_pay1 x0 x1 x2 := by
  unfold Gen.out8_3
  rw [View.canon_unit_zero zero2_8]
  simp only [View.ld_unit_zero (S := S5000x32) zero2_8, View.ld_unit_zero (S := S32x32) zero2_8, View.ld_unit_zero (S := S1x32) zero2_8]

/-- The array after region 8: the dense layer of the arrays the region finds. -/
theorem final8_val (c : Dev nD) :
    (Gen.dat8 V c).arrAt 3 cfg8.N
      = linG (V c (Pipeline.arrRef spec8 0) : S100000x32.Idx → Elt Ideal .f32) (V c (Pipeline.arrRef spec8 1) : S32x32.Idx → Elt Ideal .f32)
          (V c (Pipeline.arrRef spec8 2) : S1x32.Idx → Elt Ideal .f32) :=
  KVal.final8 V c _ (fun t y => by
    obtain ⟨p, q, rfl⟩ : ∃ (p : Fin 5000) (q : Fin 32), y = ix2 p q := ⟨y 0, y 1, eq_ix2 y⟩
    have he := KVal.oblk8_emb_val t (ix2 p q)
    have e1 : (((cfg8.win 3).blk t).view.emb (ix2 p q) : S100000x32.Idx) 1 = q := Fin.ext he.2
    rw [out8_3_eq]
    refine (linPay_apply 5000 32 32 _ _ rfl _ _ _ _ _ p q).trans ?_
    rw [linG_apply, e1]
    refine congrArg₂ (· + ·) (Finset.sum_congr rfl fun k _ => congrArg₂ (· * ·) ?_ ?_) ?_
    · rw [shapeCast_self]
      exact KVal.iblk8_0_apply V c t (ix2 p k) (ix2 ((((cfg8.win 3).blk t).view.emb (ix2 p q) : S100000x32.Idx) 0) k) he.1 rfl
    · rw [KVal.iblk8_1_eq]
    · rw [KVal.iblk8_2_eq])

end Cert.KernelIdeal.KReg

end
-- ==== Proof.KChainValue.lean ====
/- The kernel program's result as one function of its twenty argument arrays: three graph-convolution layers
   (a dense layer on the rows, the aggregation along the edges, then bias, normalisation and ELU) and the
   output head (a dense layer, normalisation and ELU with a zero bias, a dense layer), composed layer by layer
   from the regions' array functions and the host stages. The result buffer at the last boundary is that
   function of the launch memory's arrays: each region's output array is its function of the arrays it finds,
   and each of those is read back to the launch memory or to the region before. -/
import proofs.«155585_j22110491640565_1_alg».proof.Proof.KChain
import proofs.«155585_j22110491640565_1_alg».proof.Proof.Spec
import proofs.«155585_j22110491640565_1_alg».proof.Proof.KRun
import proofs.«155585_j22110491640565_1_alg».proof.Proof.KReg0
import proofs.«155585_j22110491640565_1_alg».proof.Proof.KReg1
import proofs.«155585_j22110491640565_1_alg».proof.Proof.KReg2
import proofs.«155585_j22110491640565_1_alg».proof.Proof.KReg3
import proofs.«155585_j22110491640565_1_alg».proof.Proof.KReg4
import proofs.«155585_j22110491640565_1_alg».proof.Proof.KReg5
import proofs.«155585_j22110491640565_1_alg».proof.Proof.KReg6
import proofs.«155585_j22110491640565_1_alg».proof.Proof.KReg7
import proofs.«155585_j22110491640565_1_alg».proof.Proof.KReg8

set_option maxRecDepth 16384

noncomputable section

namespace Cert.KernelIdeal.KVal

open Cert.KernelIdeal.Gen Idealize.ShloMosaic Idealize.ShloMosaic.TcCoe Idealize.SL.Sem

/-- The whole program on arrays: the result array from the twenty argument arrays (in the arguments' order:
    a0 the node features, a1 the edge list, then per layer the weight matrix and the bias, scale and shift vectors). -/
def KWhole (a0 : S100000x128.Idx → Elt Ideal .f32) (a1 : (⟨S2x1600000, .i32⟩ : BufTy).Contents (Elt Ideal)) (a2 : S128x64.Idx → Elt Ideal .f32) (a3 : S64.Idx → Elt Ideal .f32) (a4 : S64.Idx → Elt Ideal .f32) (a5 : S64.Idx → Elt Ideal .f32) (a6 : S64x128.Idx → Elt Ideal .f32) (a7 : S128.Idx → Elt Ideal .f32) (a8 : S128.Idx → Elt Ideal .f32) (a9 : S128.Idx → Elt Ideal .f32) (a10 : S128x64.Idx → Elt Ideal .f32) (a11 : S64.Idx → Elt Ideal .f32) (a12 : S64.Idx → Elt Ideal .f32) (a13 : S64.Idx → Elt Ideal .f32) (a14 : S64x32.Idx → Elt Ideal .f32) (a15 : S32.Idx → Elt Ideal .f32) (a16 : S32.Idx → Elt Ideal .f32) (a17 : S32.Idx → Elt Ideal .f32) (a18 : S32x32.Idx → Elt Ideal .f32) (a19 : S32.Idx → Elt Ideal .f32) :
    S100000x32.Idx → Elt Ideal .f32 :=
  (Cert.GcnSpec.linG (N := 100000) (K := 32) (C := 32) ((Cert.GcnSpec.lnEluG (N := 100000) (C := 32) (Ideal.ofBits .f32 0x42000000#32) ((Cert.GcnSpec.linG (N := 100000) (K := 64) (C := 32) ((Cert.GcnSpec.lnEluG (N := 100000) (C := 64) (Ideal.ofBits .f32 0x42800000#32) (agg64 (srcOf a1) (dstOf a1) (dinvOf (dstOf a1)) ((Cert.GcnSpec.linG (N := 100000) (K := 128) (C := 64) ((Cert.GcnSpec.lnEluG (N := 100000) (C := 128) (Ideal.ofBits .f32 0x43000000#32) (agg128 (srcOf a1) (dstOf a1) (dinvOf (dstOf a1)) ((Cert.GcnSpec.linG (N := 100000) (K := 64) (C := 128) ((Cert.GcnSpec.lnEluG (N := 100000) (C := 64) (Ideal.ofBits .f32 0x42800000#32) (agg64 (srcOf a1) (dstOf a1) (dinvOf (dstOf a1)) ((Cert.GcnSpec.linG (N := 100000) (K := 128) (C := 64) a0 a2 (shapeCast S1x64 ((broadcastInDim S64 ![] bcast_S_S64 : (⟨S_, .f32⟩ : BufTy).Contents (Elt Ideal) → (⟨S64, .f32⟩ : BufTy).Contents (Elt Ideal)) (constant (F := Ideal) S_ .f32 0x00000000#32)) shapeCasts_S64_S1x64) : S100000x64.Idx → Elt Ideal .f32))) (shapeCast S1x64 (a3) shapeCasts_S64_S1x64) (shapeCast S1x64 (a4) shapeCasts_S64_S1x64) (shapeCast S1x64 (a5) shapeCasts_S64_S1x64) : S100000x64.Idx → Elt Ideal .f32)) a6 (shapeCast S1x128 ((broadcastInDim S128 ![] bcast_S_S128 : (⟨S_, .f32⟩ : BufTy).Contents (Elt Ideal) → (⟨S128, .f32⟩ : BufTy).Contents (Elt Ideal)) (constant (F := Ideal) S_ .f32 0x00000000#32)) shapeCasts_S128_S1x128) : S100000x128.Idx → Elt Ideal .f32))) (shapeCast S1x128 (a7) shapeCasts_S128_S1x128) (shapeCast S1x128 (a8) shapeCasts_S128_S1x128) (shapeCast S1x128 (a9) shapeCasts_S128_S1x128) : S100000x128.Idx → Elt Ideal .f32)) a10 (shapeCast S1x64 ((broadcastInDim S64 ![] bcast_S_S64 : (⟨S_, .f32⟩ : BufTy).Contents (Elt Ideal) → (⟨S64, .f32⟩ : BufTy).Contents (Elt Ideal)) (constant (F := Ideal) S_ .f32 0x00000000#32)) shapeCasts_S64_S1x64) : S100000x64.Idx → Elt Ideal .f32))) (shapeCast S1x64 (a11) shapeCasts_S64_S1x64) (shapeCast S1x64 (a12) shapeCasts_S64_S1x64) (shapeCast S1x64 (a13) shapeCasts_S64_S1x64) : S100000x64.Idx → Elt Ideal .f32)) a14 (shapeCast S1x32 (a15) shapeCasts_S32_S1x32) : S100000x32.Idx → Elt Ideal .f32)) (shapeCast S1x32 ((broadcastInDim S32 ![] bcast_S_S32 : (⟨S_, .f32⟩ : BufTy).Contents (Elt Ideal) → (⟨S32, .f32⟩ : BufTy).Contents (Elt Ideal)) (constant (F := Ideal) S_ .f32 0x00000000#32)) shapeCasts_S32_S1x32) (shapeCast S1x32 (a16) shapeCasts_S32_S1x32) (shapeCast S1x32 (a17) shapeCasts_S32_S1x32) : S100000x32.Idx → Elt Ideal .f32)) a18 (shapeCast S1x32 (a19) shapeCasts_S32_S1x32) : S100000x32.Idx → Elt Ideal .f32)

variable (m : (ℓ : Loc nD τ sig) → Buf (Elt Ideal) ℓ) (ρ : Dev nD → PrngReg)

set_option maxHeartbeats 4000000 in
/-- THE RESULT BUFFER AT THE LAST BOUNDARY is the whole-program function of the launch memory's argument arrays. -/
theorem kernel_value (c : Dev nD) :
    Gen.W18 m ρ c (Proc.devRef .tc main_v137)
      = KWhole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [W18_v137 m ρ c,
    Cert.KernelIdeal.KReg.final8_val (Gen.V17 m ρ) c,
    reg8_in0 m ρ c,
    reg8_in1 m ρ c,
    reg8_in2 m ρ c,
    Cert.KernelIdeal.KReg.final7_val (Gen.V15 m ρ) c,
    reg7_in0 m ρ c,
    reg7_in1 m ρ c,
    reg7_in2 m ρ c,
    reg7_in3 m ρ c,
    Cert.KernelIdeal.KReg.final6_val (Gen.V13 m ρ) c,
    reg6_in0 m ρ c,
    reg6_in1 m ρ c,
    reg6_in2 m ρ c,
    Cert.KernelIdeal.KReg.final5_val (Gen.V11 m ρ) c,
    reg5_in0 m ρ c,
    reg5_in1 m ρ c,
    reg5_in2 m ρ c,
    reg5_in3 m ρ c,
    Cert.KernelIdeal.KReg.final4_val (Gen.V9 m ρ) c,
    reg4_in0 m ρ c,
    reg4_in1 m ρ c,
    reg4_in2 m ρ c,
    Cert.KernelIdeal.KReg.final3_val (Gen.V7 m ρ) c,
    reg3_in0 m ρ c,
    reg3_in1 m ρ c,
    reg3_in2 m ρ c,
    reg3_in3 m ρ c,
    Cert.KernelIdeal.KReg.final2_val (Gen.V5 m ρ) c,
    reg2_in0 m ρ c,
    reg2_in1 m ρ c,
    reg2_in2 m ρ c,
    Cert.KernelIdeal.KReg.final1_val (Gen.V3 m ρ) c,
    reg1_in0 m ρ c,
    reg1_in1 m ρ c,
    reg1_in2 m ρ c,
    reg1_in3 m ρ c,
    Cert.KernelIdeal.KReg.final0_val (Gen.V1 m ρ) c,
    reg0_in0 m ρ c,
    reg0_in1 m ρ c,
    reg0_in2 m ρ c]
  rfl

/-- THE RUN WITH THE RESULT AS A FUNCTION OF THE ARGUMENTS: every weakly fair execution from a zero-counter state
    terminates without a fault; the result buffer ends at the whole-program function of the launched argument
    arrays, and every argument array ends as launched. -/
theorem run_value : θ_run (defs (F := Ideal)) (onTc (τ := τ) (main (F := Ideal))) ⟨m, fun _ => 0, ρ⟩ (fun r => ∀ c : Dev nD,
      r.2.mem ((c.tc : Thread nD τ).loc main_v137)
        = KWhole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (kernel_value m ρ c), (h c).2⟩) (run_named m ρ)

end Cert.KernelIdeal.KVal

end
-- ==== Proof.RefRunP0.lean ====
/- The reference program's window `main_part0` as a list of its 60 host operations (operations 1 … 60 of the whole
   program, each called function's operations standing inline at its call site over that call's buffers), with the
   facts the run of a straight line of operations asks of the list: the window is the sequence of the list, every
   operation touches TensorCore buffers only and allocates nothing, and the list writes exactly the buffers named. -/
import proofs.«155585_j22110491640565_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops0 : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v4 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v47 main_cst_8 main_v48 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) ]

set_option maxRecDepth 8192 in
set_option maxHeartbeats 4000000 in
/-- The window is that straight line, by unfolding. -/
theorem main_part0_eq (c : Dev nD) : main_part0 (F := F) c = seq ops0 := rfl

set_option maxRecDepth 8192 in
/-- Every operation of the window reads and writes TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub ..⟩

set_option maxRecDepth 8192 in
/-- No operation of the window allocates a buffer. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops0_W : List (Ref sig .tc) := [main_v0, main_v1, main_v2, main_v3, main_v4, main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_cst_8, main_v48]

set_option maxRecDepth 8192 in
/-- Each operation of the window writes one buffer of that list. -/
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRunP1.lean ====
/- The reference program's window `main_part1` as a list of its 74 host operations (operations 61 … 134 of the whole
   program, each called function's operations standing inline at its call site over that call's buffers), with the
   facts the run of a straight line of operations asks of the list: the window is the sequence of the list, every
   operation touches TensorCore buffers only and allocates nothing, and the list writes exactly the buffers named. -/
import proofs.«155585_j22110491640565_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 74 operations, in order. -/
abbrev ops1 : List (HloOp τ sig (Elt F)) :=
  [
    StableHlo.unary main_v48 main_v49 (broadcastInDim S100000x1 ![0] bcast_S100000_S100000x1_0 : (⟨S100000, .f32⟩ : BufTy).Contents (Elt F) → (⟨S100000x1, .f32⟩ : BufTy).Contents (Elt F)),
    StableHlo.nullary main_cst_9 (constant S_ .f32 0x42800000#32),
    StableHlo.unary main_cst_9 main_v50 (broadcastInDim S100000x1 ![] bcast_S_S100000x1 : (⟨S_, .f32⟩ : BufTy).Contents (Elt F) → (⟨S100000x1, .f32⟩ : BufTy).Contents (Elt F)),
    StableHlo.binary main_v49 main_v50 main_v51 (Host.divf : (⟨S100000x1, .f32⟩ : BufTy).Contents (Elt F) → (⟨S100000x1, .f32⟩ : BufTy).Contents (Elt F) → (⟨S100000x1, .f32⟩ : BufTy).Contents (Elt F)),
    StableHlo.unary main_v51 main_v52 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v52 main_v53 (subf : (⟨S100000x64, .f32⟩ : BufTy).Contents (Elt F) → (⟨S100000x64, .f32⟩ : BufTy).Contents (Elt F) → (⟨S100000x64, .f32⟩ : BufTy).Contents (Elt F)),
    StableHlo.binary main_v53 main_v53 main_v54 (mulf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.binary main_v54 main_cst_10 main_v55 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v55 main_v56 (broadcastInDim S100000x1 ![0] bcast_S100000_S100000x1_0 : (⟨S100000, .f32⟩ : BufTy).Contents (Elt F) → (⟨S100000x1, .f32⟩ : BufTy).Contents (Elt F)),
    StableHlo.nullary main_cst_11 (constant S_ .f32 0x42800000#32),
    StableHlo.unary main_cst_11 main_v57 (broadcastInDim S100000x1 ![] bcast_S_S100000x1 : (⟨S_, .f32⟩ : BufTy).Contents (Elt F) → (⟨S100000x1, .f32⟩ : BufTy).Contents (Elt F)),
    StableHlo.binary main_v56 main_v57 main_v58 (Host.divf : (⟨S100000x1, .f32⟩ : BufTy).Contents (Elt F) → (⟨S100000x1, .f32⟩ : BufTy).Contents (Elt F) → (⟨S100000x1, .f32⟩ : BufTy).Contents (Elt F)),
    StableHlo.unary main_v51 main_v59 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v59 main_v60 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v61 (broadcastInDim S100000x1 ![] bcast_S_S100000x1 : (⟨S_, .f32⟩ : BufTy).Contents (Elt F) → (⟨S100000x1, .f32⟩ : BufTy).Contents (Elt F)),
    StableHlo.binary main_v58 main_v61 main_v62 (addf : (⟨S100000x1, .f32⟩ : BufTy).Contents (Elt F) → (⟨S100000x1, .f32⟩ : BufTy).Contents (Elt F) → (⟨S100000x1, .f32⟩ : BufTy).Contents (Elt F)),
    StableHlo.unary main_v62 main_v63 (Host.rsqrt : (⟨S100000x1, .f32⟩ : BufTy).Contents (Elt F) → (⟨S100000x1, .f32⟩ : BufTy).Contents (Elt F)),
    StableHlo.unary main_v63 main_v64 (broadcastInDim S100000x64 ![0, 1] bcast_S100000x1_S100000x64_0_1 : (⟨S100000x1, .f32⟩ : BufTy).Contents (Elt F) → (⟨S100000x64, .f32⟩ : BufTy).Contents (Elt F)),
    StableHlo.binary main_v60 main_v64 main_v65 (mulf : (⟨S100000x64, .f32⟩ : BufTy).Contents (Elt F) → (⟨S100000x64, .f32⟩ : BufTy).Contents (Elt F) → (⟨S100000x64, .f32⟩ : BufTy).Contents (Elt F)),
    StableHlo.unary main_arg4 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v67 main_v68 (mulf : (⟨S100000x64, .f32⟩ : BufTy).Contents (Elt F) → (⟨S100000x64, .f32⟩ : BufTy).Contents (Elt F) → (⟨S100000x64, .f32⟩ : BufTy).Contents (Elt F)),
    StableHlo.unary main_arg5 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v71) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v71) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v71) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v71) main_call0.v7 main_call0.call1.v0 select,
    StableHlo.binary main_v72 main_arg6 main_v73 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.nullary main_cst_13 (constant S_ .f32 0x3F800000#32),
    StableHlo.unary main_cst_13 main_v74 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v75 (broadcastInDim S100000 ![] bcast_S_S100000 : (⟨S_, .f32⟩ : BufTy).Contents (Elt F) → (⟨S100000, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v78 (broadcastInDim S100000 ![] bcast_S_S100000 : (⟨S_, .f32⟩ : BufTy).Contents (Elt F) → (⟨S100000, .f32⟩ : BufTy).Contents (Elt F)),
    StableHlo.binary main_v77 main_v78 main_v79 (addf : (⟨S100000, .f32⟩ : BufTy).Contents (Elt F) → (⟨S100000, .f32⟩ : BufTy).Contents (Elt F) → (⟨S100000, .f32⟩ : BufTy).Contents (Elt F)),
    StableHlo.unary main_v79 main_v80 (Host.rsqrt : (⟨S100000, .f32⟩ : BufTy).Contents (Elt F) → (⟨S100000, .f32⟩ : BufTy).Contents (Elt F)),
    StableHlo.nullary main_c_16 (constantI S_ 32 0#32),
    StableHlo.unary main_c_16 main_v81 (broadcastInDim S1600000 ![] bcast_S_S1600000 : (⟨S_, .i32⟩ : BufTy).Contents (Elt F) → (⟨S1600000, .i32⟩ : BufTy).Contents (Elt F)),
    StableHlo.binary main_v1 main_v81 main_v82 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v83 (broadcastInDim S1600000 ![] bcast_S_S1600000 : (⟨S_, .i32⟩ : BufTy).Contents (Elt F) → (⟨S1600000, .i32⟩ : BufTy).Contents (Elt F)),
    StableHlo.binary main_v1 main_v83 main_v84 (addi : (⟨S1600000, .i32⟩ : BufTy).Contents (Elt F) → (⟨S1600000, .i32⟩ : BufTy).Contents (Elt F) → (⟨S1600000, .i32⟩ : BufTy).Contents (Elt F)),
    StableHlo.ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v85 main_v86 (broadcastInDim S1600000x1 ![0] bcast_S1600000_S1600000x1_0 : (⟨S1600000, .i32⟩ : BufTy).Contents (Elt F) → (⟨S1600000x1, .i32⟩ : BufTy).Contents (Elt F)),
    StableHlo.binary main_v80 main_v86 main_v87 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_18 (constantI S_ 32 0#32),
    StableHlo.unary main_c_18 main_v88 (broadcastInDim S1600000 ![] bcast_S_S1600000 : (⟨S_, .i32⟩ : BufTy).Contents (Elt F) → (⟨S1600000, .i32⟩ : BufTy).Contents (Elt F)),
    StableHlo.binary main_v3 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v90 (broadcastInDim S1600000 ![] bcast_S_S1600000 : (⟨S_, .i32⟩ : BufTy).Contents (Elt F) → (⟨S1600000, .i32⟩ : BufTy).Contents (Elt F)),
    StableHlo.binary main_v3 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v3 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v80 main_v93 main_v94 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v87 main_v94 main_v95 (mulf : (⟨S1600000, .f32⟩ : BufTy).Contents (Elt F) → (⟨S1600000, .f32⟩ : BufTy).Contents (Elt F) → (⟨S1600000, .f32⟩ : BufTy).Contents (Elt F)),
    StableHlo.nullary main_c_20 (constantI S_ 32 0#32),
    StableHlo.unary main_c_20 main_v96 (broadcastInDim S1600000 ![] bcast_S_S1600000 : (⟨S_, .i32⟩ : BufTy).Contents (Elt F) → (⟨S1600000, .i32⟩ : BufTy).Contents (Elt F)) ]

set_option maxRecDepth 8192 in
set_option maxHeartbeats 4000000 in
/-- The window is that straight line: the called functions' bodies unfolded at their calls, both sides are one chain of
    operation steps once sequencing is reassociated. -/
theorem main_part1_eq (c : Dev nD) : main_part1 (F := F) c = seq ops1 := by
  simp only [main_part1, fn_elu.body, fn_where.body, fn_where_0.body, seq, bind_assoc, pure_bind]
  rfl

set_option maxRecDepth 8192 in
/-- Every operation of the window reads and writes TensorCore buffers only. -/
theorem ops1_sub : (ops1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩

set_option maxRecDepth 8192 in
/-- No operation of the window allocates a buffer. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops1_W : List (Ref sig .tc) := [main_v49, main_cst_9, main_v50, main_v51, main_v52, main_v53, main_v54, main_cst_10, main_v55, main_v56, main_cst_11, main_v57, main_v58, main_v59, main_v60, main_cst_12, main_v61, main_v62, main_v63, main_v64, main_v65, main_v66, main_v67, main_v68, main_v69, main_v70, main_v71, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v72, main_v73, main_cst_13, main_v74, main_cst_14, main_v75, main_v76, main_v77, main_cst_15, main_v78, main_v79, main_v80, main_c_16, main_v81, main_v82, main_c_17, main_v83, main_v84, main_v85, main_v86, main_v87, main_c_18, main_v88, main_v89, main_c_19, main_v90, main_v91, main_v92, main_v93, main_v94, main_v95, main_c_20, main_v96]

set_option maxRecDepth 8192 in
/-- Each operation of the window writes one buffer of that list. -/
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRunP2.lean ====
/- The reference program's window `main_part2` as a list of its 74 host operations (operations 135 … 208 of the whole
   program, each called function's operations standing inline at its call site over that call's buffers), with the
   facts the run of a straight line of operations asks of the list: the window is the sequence of the list, every
   operation touches TensorCore buffers only and allocates nothing, and the list writes exactly the buffers named. -/
import proofs.«155585_j22110491640565_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 74 operations, in order. -/
abbrev ops2 : List (HloOp τ sig (Elt F)) :=
  [
    StableHlo.binary main_v1 main_v96 main_v97 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v98 (broadcastInDim S1600000 ![] bcast_S_S1600000 : (⟨S_, .i32⟩ : BufTy).Contents (Elt F) → (⟨S1600000, .i32⟩ : BufTy).Contents (Elt F)),
    StableHlo.binary main_v1 main_v98 main_v99 (addi : (⟨S1600000, .i32⟩ : BufTy).Contents (Elt F) → (⟨S1600000, .i32⟩ : BufTy).Contents (Elt F) → (⟨S1600000, .i32⟩ : BufTy).Contents (Elt F)),
    StableHlo.ternary main_v97 main_v99 main_v1 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v100 main_v101 (broadcastInDim S1600000x1 ![0] bcast_S1600000_S1600000x1_0 : (⟨S1600000, .i32⟩ : BufTy).Contents (Elt F) → (⟨S1600000x1, .i32⟩ : BufTy).Contents (Elt F)),
    StableHlo.binary main_v73 main_v101 main_v102 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v95 main_v103 (broadcastInDim S1600000x1 ![0] bcast_S1600000_S1600000x1_0 : (⟨S1600000, .f32⟩ : BufTy).Contents (Elt F) → (⟨S1600000x1, .f32⟩ : BufTy).Contents (Elt F)),
    StableHlo.unary main_v103 main_v104 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v102 main_v104 main_v105 (mulf : (⟨S1600000x128, .f32⟩ : BufTy).Contents (Elt F) → (⟨S1600000x128, .f32⟩ : BufTy).Contents (Elt F) → (⟨S1600000x128, .f32⟩ : BufTy).Contents (Elt F)),
    StableHlo.nullary main_cst_22 (constant S_ .f32 0x00000000#32),
    StableHlo.unary main_cst_22 main_v106 (broadcastInDim S100000x128 ![] bcast_S_S100000x128 : (⟨S_, .f32⟩ : BufTy).Contents (Elt F) → (⟨S100000x128, .f32⟩ : BufTy).Contents (Elt F)),
    StableHlo.unary main_v3 main_v107 (broadcastInDim S1600000x1 ![0] bcast_S1600000_S1600000x1_0 : (⟨S1600000, .i32⟩ : BufTy).Contents (Elt F) → (⟨S1600000x1, .i32⟩ : BufTy).Contents (Elt F)),
    StableHlo.ternary main_v106 main_v107 main_v105 main_v108 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v80 main_v80 main_v109 (mulf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x128 ![0, 1] bcast_S100000x1_S100000x128_0_1 : (⟨S100000x1, .f32⟩ : BufTy).Contents (Elt F) → (⟨S100000x128, .f32⟩ : BufTy).Contents (Elt F)),
    StableHlo.binary main_v73 main_v111 main_v112 (mulf : (⟨S100000x128, .f32⟩ : BufTy).Contents (Elt F) → (⟨S100000x128, .f32⟩ : BufTy).Contents (Elt F) → (⟨S100000x128, .f32⟩ : BufTy).Contents (Elt F)),
    StableHlo.binary main_v108 main_v112 main_v113 (addf : (⟨S100000x128, .f32⟩ : BufTy).Contents (Elt F) → (⟨S100000x128, .f32⟩ : BufTy).Contents (Elt F) → (⟨S100000x128, .f32⟩ : BufTy).Contents (Elt F)),
    StableHlo.unary main_arg7 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.binary main_v116 main_cst_23 main_v117 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v117 main_v118 (broadcastInDim S100000x1 ![0] bcast_S100000_S100000x1_0 : (⟨S100000, .f32⟩ : BufTy).Contents (Elt F) → (⟨S100000x1, .f32⟩ : BufTy).Contents (Elt F)),
    StableHlo.nullary main_cst_24 (constant S_ .f32 0x43000000#32),
    StableHlo.unary main_cst_24 main_v119 (broadcastInDim S100000x1 ![] bcast_S_S100000x1 : (⟨S_, .f32⟩ : BufTy).Contents (Elt F) → (⟨S100000x1, .f32⟩ : BufTy).Contents (Elt F)),
    StableHlo.binary main_v118 main_v119 main_v120 (Host.divf : (⟨S100000x1, .f32⟩ : BufTy).Contents (Elt F) → (⟨S100000x1, .f32⟩ : BufTy).Contents (Elt F) → (⟨S100000x1, .f32⟩ : BufTy).Contents (Elt F)),
    StableHlo.unary main_v120 main_v121 (broadcastInDim S100000x128 ![0, 1] bcast_S100000x1_S100000x128_0_1 : (⟨S100000x1, .f32⟩ : BufTy).Contents (Elt F) → (⟨S100000x128, .f32⟩ : BufTy).Contents (Elt F)),
    StableHlo.binary main_v116 main_v121 main_v122 (subf : (⟨S100000x128, .f32⟩ : BufTy).Contents (Elt F) → (⟨S100000x128, .f32⟩ : BufTy).Contents (Elt F) → (⟨S100000x128, .f32⟩ : BufTy).Contents (Elt F)),
    StableHlo.binary main_v122 main_v122 main_v123 (mulf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.binary main_v123 main_cst_25 main_v124 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v124 main_v125 (broadcastInDim S100000x1 ![0] bcast_S100000_S100000x1_0 : (⟨S100000, .f32⟩ : BufTy).Contents (Elt F) → (⟨S100000x1, .f32⟩ : BufTy).Contents (Elt F)),
    StableHlo.nullary main_cst_26 (constant S_ .f32 0x43000000#32),
    StableHlo.unary main_cst_26 main_v126 (broadcastInDim S100000x1 ![] bcast_S_S100000x1 : (⟨S_, .f32⟩ : BufTy).Contents (Elt F) → (⟨S100000x1, .f32⟩ : BufTy).Contents (Elt F)),
    StableHlo.binary main_v125 main_v126 main_v127 (Host.divf : (⟨S100000x1, .f32⟩ : BufTy).Contents (Elt F) → (⟨S100000x1, .f32⟩ : BufTy).Contents (Elt F) → (⟨S100000x1, .f32⟩ : BufTy).Contents (Elt F)),
    StableHlo.unary main_v120 main_v128 (broadcastInDim S100000x128 ![0, 1] bcast_S100000x1_S100000x128_0_1 : (⟨S100000x1, .f32⟩ : BufTy).Contents (Elt F) → (⟨S100000x128, .f32⟩ : BufTy).Contents (Elt F)),
    StableHlo.binary main_v116 main_v128 main_v129 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v130 (broadcastInDim S100000x1 ![] bcast_S_S100000x1 : (⟨S_, .f32⟩ : BufTy).Contents (Elt F) → (⟨S100000x1, .f32⟩ : BufTy).Contents (Elt F)),
    StableHlo.binary main_v127 main_v130 main_v131 (addf : (⟨S100000x1, .f32⟩ : BufTy).Contents (Elt F) → (⟨S100000x1, .f32⟩ : BufTy).Contents (Elt F) → (⟨S100000x1, .f32⟩ : BufTy).Contents (Elt F)),
    StableHlo.unary main_v131 main_v132 (Host.rsqrt : (⟨S100000x1, .f32⟩ : BufTy).Contents (Elt F) → (⟨S100000x1, .f32⟩ : BufTy).Contents (Elt F)),
    StableHlo.unary main_v132 main_v133 (broadcastInDim S100000x128 ![0, 1] bcast_S100000x1_S100000x128_0_1 : (⟨S100000x1, .f32⟩ : BufTy).Contents (Elt F) → (⟨S100000x128, .f32⟩ : BufTy).Contents (Elt F)),
    StableHlo.binary main_v129 main_v133 main_v134 (mulf : (⟨S100000x128, .f32⟩ : BufTy).Contents (Elt F) → (⟨S100000x128, .f32⟩ : BufTy).Contents (Elt F) → (⟨S100000x128, .f32⟩ : BufTy).Contents (Elt F)),
    StableHlo.unary main_arg8 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (mulf : (⟨S100000x128, .f32⟩ : BufTy).Contents (Elt F) → (⟨S100000x128, .f32⟩ : BufTy).Contents (Elt F) → (⟨S100000x128, .f32⟩ : BufTy).Contents (Elt F)),
    StableHlo.unary main_arg9 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v140) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v140) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v140) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v140) main_call1.v7 main_call1.call1.v0 select,
    StableHlo.binary main_v141 main_arg10 main_v142 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_cst_28 (constant S_ .f32 0x3F800000#32),
    StableHlo.unary main_cst_28 main_v143 (broadcastInDim S1600000 ![] bcast_S_S1600000 : (⟨S_, .f32⟩ : BufTy).Contents (Elt F) → (⟨S1600000, .f32⟩ : BufTy).Contents (Elt F)),
    StableHlo.nullary main_cst_29 (constant S_ .f32 0x00000000#32),
    StableHlo.unary main_cst_29 main_v144 (broadcastInDim S100000 ![] bcast_S_S100000 : (⟨S_, .f32⟩ : BufTy).Contents (Elt F) → (⟨S100000, .f32⟩ : BufTy).Contents (Elt F)),
    StableHlo.unary main_v3 main_v145 (broadcastInDim S1600000x1 ![0] bcast_S1600000_S1600000x1_0 : (⟨S1600000, .i32⟩ : BufTy).Contents (Elt F) → (⟨S1600000x1, .i32⟩ : BufTy).Contents (Elt F)),
    StableHlo.ternary main_v144 main_v145 main_v143 main_v146 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_30 (constant S_ .f32 0x3F800000#32) ]

set_option maxRecDepth 8192 in
set_option maxHeartbeats 4000000 in
/-- The window is that straight line: the called functions' bodies unfolded at their calls, both sides are one chain of
    operation steps once sequencing is reassociated. -/
theorem main_part2_eq (c : Dev nD) : main_part2 (F := F) c = seq ops2 := by
  simp only [main_part2, fn_elu_1.body, fn_where_2.body, fn_where_3.body, seq, bind_assoc, pure_bind]
  rfl

set_option maxRecDepth 8192 in
/-- Every operation of the window reads and writes TensorCore buffers only. -/
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., nullary_bufs_sub .., unary_bufs_sub .., unary_bufs_sub .., ternary_bufs_sub .., nullary_bufs_sub ..⟩

set_option maxRecDepth 8192 in
/-- No operation of the window allocates a buffer. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops2_W : List (Ref sig .tc) := [main_v97, main_c_21, main_v98, main_v99, main_v100, main_v101, main_v102, main_v103, main_v104, main_v105, main_cst_22, main_v106, main_v107, main_v108, main_v109, main_v110, main_v111, main_v112, main_v113, main_v114, main_v115, main_v116, main_cst_23, main_v117, main_v118, main_cst_24, main_v119, main_v120, main_v121, main_v122, main_v123, main_cst_25, main_v124, main_v125, main_cst_26, main_v126, main_v127, main_v128, main_v129, main_cst_27, main_v130, main_v131, main_v132, main_v133, main_v134, main_v135, main_v136, main_v137, main_v138, main_v139, main_v140, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v141, main_v142, main_cst_28, main_v143, main_cst_29, main_v144, main_v145, main_v146, main_cst_30]

set_option maxRecDepth 8192 in
/-- Each operation of the window writes one buffer of that list. -/
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRunP3.lean ====
/- The reference program's window `main_part3` as a list of its 60 host operations (operations 209 … 268 of the whole
   program, each called function's operations standing inline at its call site over that call's buffers), with the
   facts the run of a straight line of operations asks of the list: the window is the sequence of the list, every
   operation touches TensorCore buffers only and allocates nothing, and the list writes exactly the buffers named. -/
import proofs.«155585_j22110491640565_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops3 : List (HloOp τ sig (Elt F)) :=
  [
    StableHlo.unary main_cst_30 main_v147 (broadcastInDim S100000 ![] bcast_S_S100000 : (⟨S_, .f32⟩ : BufTy).Contents (Elt F) → (⟨S100000, .f32⟩ : BufTy).Contents (Elt F)),
    StableHlo.binary main_v146 main_v147 main_v148 (addf : (⟨S100000, .f32⟩ : BufTy).Contents (Elt F) → (⟨S100000, .f32⟩ : BufTy).Contents (Elt F) → (⟨S100000, .f32⟩ : BufTy).Contents (Elt F)),
    StableHlo.unary main_v148 main_v149 (Host.rsqrt : (⟨S100000, .f32⟩ : BufTy).Contents (Elt F) → (⟨S100000, .f32⟩ : BufTy).Contents (Elt F)),
    StableHlo.nullary main_c_31 (constantI S_ 32 0#32),
    StableHlo.unary main_c_31 main_v150 (broadcastInDim S1600000 ![] bcast_S_S1600000 : (⟨S_, .i32⟩ : BufTy).Contents (Elt F) → (⟨S1600000, .i32⟩ : BufTy).Contents (Elt F)),
    StableHlo.binary main_v1 main_v150 main_v151 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v152 (broadcastInDim S1600000 ![] bcast_S_S1600000 : (⟨S_, .i32⟩ : BufTy).Contents (Elt F) → (⟨S1600000, .i32⟩ : BufTy).Contents (Elt F)),
    StableHlo.binary main_v1 main_v152 main_v153 (addi : (⟨S1600000, .i32⟩ : BufTy).Contents (Elt F) → (⟨S1600000, .i32⟩ : BufTy).Contents (Elt F) → (⟨S1600000, .i32⟩ : BufTy).Contents (Elt F)),
    StableHlo.ternary main_v151 main_v153 main_v1 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v154 main_v155 (broadcastInDim S1600000x1 ![0] bcast_S1600000_S1600000x1_0 : (⟨S1600000, .i32⟩ : BufTy).Contents (Elt F) → (⟨S1600000x1, .i32⟩ : BufTy).Contents (Elt F)),
    StableHlo.binary main_v149 main_v155 main_v156 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_33 (constantI S_ 32 0#32),
    StableHlo.unary main_c_33 main_v157 (broadcastInDim S1600000 ![] bcast_S_S1600000 : (⟨S_, .i32⟩ : BufTy).Contents (Elt F) → (⟨S1600000, .i32⟩ : BufTy).Contents (Elt F)),
    StableHlo.binary main_v3 main_v157 main_v158 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v159 (broadcastInDim S1600000 ![] bcast_S_S1600000 : (⟨S_, .i32⟩ : BufTy).Contents (Elt F) → (⟨S1600000, .i32⟩ : BufTy).Contents (Elt F)),
    StableHlo.binary main_v3 main_v159 main_v160 (addi : (⟨S1600000, .i32⟩ : BufTy).Contents (Elt F) → (⟨S1600000, .i32⟩ : BufTy).Contents (Elt F) → (⟨S1600000, .i32⟩ : BufTy).Contents (Elt F)),
    StableHlo.ternary main_v158 main_v160 main_v3 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v161 main_v162 (broadcastInDim S1600000x1 ![0] bcast_S1600000_S1600000x1_0 : (⟨S1600000, .i32⟩ : BufTy).Contents (Elt F) → (⟨S1600000x1, .i32⟩ : BufTy).Contents (Elt F)),
    StableHlo.binary main_v149 main_v162 main_v163 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v156 main_v163 main_v164 (mulf : (⟨S1600000, .f32⟩ : BufTy).Contents (Elt F) → (⟨S1600000, .f32⟩ : BufTy).Contents (Elt F) → (⟨S1600000, .f32⟩ : BufTy).Contents (Elt F)),
    StableHlo.nullary main_c_35 (constantI S_ 32 0#32),
    StableHlo.unary main_c_35 main_v165 (broadcastInDim S1600000 ![] bcast_S_S1600000 : (⟨S_, .i32⟩ : BufTy).Contents (Elt F) → (⟨S1600000, .i32⟩ : BufTy).Contents (Elt F)),
    StableHlo.binary main_v1 main_v165 main_v166 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 100000#32),
    StableHlo.unary main_c_36 main_v167 (broadcastInDim S1600000 ![] bcast_S_S1600000 : (⟨S_, .i32⟩ : BufTy).Contents (Elt F) → (⟨S1600000, .i32⟩ : BufTy).Contents (Elt F)),
    StableHlo.binary main_v1 main_v167 main_v168 (addi : (⟨S1600000, .i32⟩ : BufTy).Contents (Elt F) → (⟨S1600000, .i32⟩ : BufTy).Contents (Elt F) → (⟨S1600000, .i32⟩ : BufTy).Contents (Elt F)),
    StableHlo.ternary main_v166 main_v168 main_v1 main_v169 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v169 main_v170 (broadcastInDim S1600000x1 ![0] bcast_S1600000_S1600000x1_0 : (⟨S1600000, .i32⟩ : BufTy).Contents (Elt F) → (⟨S1600000x1, .i32⟩ : BufTy).Contents (Elt F)),
    StableHlo.binary main_v142 main_v170 main_v171 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v164 main_v172 (broadcastInDim S1600000x1 ![0] bcast_S1600000_S1600000x1_0 : (⟨S1600000, .f32⟩ : BufTy).Contents (Elt F) → (⟨S1600000x1, .f32⟩ : BufTy).Contents (Elt F)),
    StableHlo.unary main_v172 main_v173 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v171 main_v173 main_v174 (mulf : (⟨S1600000x64, .f32⟩ : BufTy).Contents (Elt F) → (⟨S1600000x64, .f32⟩ : BufTy).Contents (Elt F) → (⟨S1600000x64, .f32⟩ : BufTy).Contents (Elt F)),
    StableHlo.nullary main_cst_37 (constant S_ .f32 0x00000000#32),
    StableHlo.unary main_cst_37 main_v175 (broadcastInDim S100000x64 ![] bcast_S_S100000x64 : (⟨S_, .f32⟩ : BufTy).Contents (Elt F) → (⟨S100000x64, .f32⟩ : BufTy).Contents (Elt F)),
    StableHlo.unary main_v3 main_v176 (broadcastInDim S1600000x1 ![0] bcast_S1600000_S1600000x1_0 : (⟨S1600000, .i32⟩ : BufTy).Contents (Elt F) → (⟨S1600000x1, .i32⟩ : BufTy).Contents (Elt F)),
    StableHlo.ternary main_v175 main_v176 main_v174 main_v177 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v149 main_v149 main_v178 (mulf : (⟨S100000, .f32⟩ : BufTy).Contents (Elt F) → (⟨S100000, .f32⟩ : BufTy).Contents (Elt F) → (⟨S100000, .f32⟩ : BufTy).Contents (Elt F)),
    StableHlo.unary main_v178 main_v179 (broadcastInDim S100000x1 ![0] bcast_S100000_S100000x1_0 : (⟨S100000, .f32⟩ : BufTy).Contents (Elt F) → (⟨S100000x1, .f32⟩ : BufTy).Contents (Elt F)),
    StableHlo.unary main_v179 main_v180 (broadcastInDim S100000x64 ![0, 1] bcast_S100000x1_S100000x64_0_1 : (⟨S100000x1, .f32⟩ : BufTy).Contents (Elt F) → (⟨S100000x64, .f32⟩ : BufTy).Contents (Elt F)),
    StableHlo.binary main_v142 main_v180 main_v181 (mulf : (⟨S100000x64, .f32⟩ : BufTy).Contents (Elt F) → (⟨S100000x64, .f32⟩ : BufTy).Contents (Elt F) → (⟨S100000x64, .f32⟩ : BufTy).Contents (Elt F)),
    StableHlo.binary main_v177 main_v181 main_v182 (addf : (⟨S100000x64, .f32⟩ : BufTy).Contents (Elt F) → (⟨S100000x64, .f32⟩ : BufTy).Contents (Elt F) → (⟨S100000x64, .f32⟩ : BufTy).Contents (Elt F)),
    StableHlo.unary main_arg11 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S100000x64 ![0, 1] bcast_S1x64_S100000x64_0_1 : (⟨S1x64, .f32⟩ : BufTy).Contents (Elt F) → (⟨S100000x64, .f32⟩ : BufTy).Contents (Elt F)),
    StableHlo.binary main_v182 main_v184 main_v185 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x00000000#32),
    StableHlo.binary main_v185 main_cst_38 main_v186 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v186 main_v187 (broadcastInDim S100000x1 ![0] bcast_S100000_S100000x1_0 : (⟨S100000, .f32⟩ : BufTy).Contents (Elt F) → (⟨S100000x1, .f32⟩ : BufTy).Contents (Elt F)),
    StableHlo.nullary main_cst_39 (constant S_ .f32 0x42800000#32),
    StableHlo.unary main_cst_39 main_v188 (broadcastInDim S100000x1 ![] bcast_S_S100000x1 : (⟨S_, .f32⟩ : BufTy).Contents (Elt F) → (⟨S100000x1, .f32⟩ : BufTy).Contents (Elt F)),
    StableHlo.binary main_v187 main_v188 main_v189 (Host.divf : (⟨S100000x1, .f32⟩ : BufTy).Contents (Elt F) → (⟨S100000x1, .f32⟩ : BufTy).Contents (Elt F) → (⟨S100000x1, .f32⟩ : BufTy).Contents (Elt F)),
    StableHlo.unary main_v189 main_v190 (broadcastInDim S100000x64 ![0, 1] bcast_S100000x1_S100000x64_0_1 : (⟨S100000x1, .f32⟩ : BufTy).Contents (Elt F) → (⟨S100000x64, .f32⟩ : BufTy).Contents (Elt F)),
    StableHlo.binary main_v185 main_v190 main_v191 (subf : (⟨S100000x64, .f32⟩ : BufTy).Contents (Elt F) → (⟨S100000x64, .f32⟩ : BufTy).Contents (Elt F) → (⟨S100000x64, .f32⟩ : BufTy).Contents (Elt F)),
    StableHlo.binary main_v191 main_v191 main_v192 (mulf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x00000000#32),
    StableHlo.binary main_v192 main_cst_40 main_v193 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v193 main_v194 (broadcastInDim S100000x1 ![0] bcast_S100000_S100000x1_0 : (⟨S100000, .f32⟩ : BufTy).Contents (Elt F) → (⟨S100000x1, .f32⟩ : BufTy).Contents (Elt F)),
    StableHlo.nullary main_cst_41 (constant S_ .f32 0x42800000#32),
    StableHlo.unary main_cst_41 main_v195 (broadcastInDim S100000x1 ![] bcast_S_S100000x1 : (⟨S_, .f32⟩ : BufTy).Contents (Elt F) → (⟨S100000x1, .f32⟩ : BufTy).Contents (Elt F)) ]

set_option maxRecDepth 8192 in
set_option maxHeartbeats 4000000 in
/-- The window is that straight line, by unfolding. -/
theorem main_part3_eq (c : Dev nD) : main_part3 (F := F) c = seq ops3 := rfl

set_option maxRecDepth 8192 in
/-- Every operation of the window reads and writes TensorCore buffers only. -/
theorem ops3_sub : (ops3 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub ..⟩

set_option maxRecDepth 8192 in
/-- No operation of the window allocates a buffer. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops3_W : List (Ref sig .tc) := [main_v147, main_v148, main_v149, main_c_31, main_v150, main_v151, main_c_32, main_v152, main_v153, main_v154, main_v155, main_v156, main_c_33, main_v157, main_v158, main_c_34, main_v159, main_v160, main_v161, main_v162, main_v163, main_v164, main_c_35, main_v165, main_v166, main_c_36, main_v167, main_v168, main_v169, main_v170, main_v171, main_v172, main_v173, main_v174, main_cst_37, main_v175, main_v176, main_v177, main_v178, main_v179, main_v180, main_v181, main_v182, main_v183, main_v184, main_v185, main_cst_38, main_v186, main_v187, main_cst_39, main_v188, main_v189, main_v190, main_v191, main_v192, main_cst_40, main_v193, main_v194, main_cst_41, main_v195]

set_option maxRecDepth 8192 in
/-- Each operation of the window writes one buffer of that list. -/
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRunP4.lean ====
/- The reference program's window `main_part4` as a list of its 82 host operations (operations 269 … 350 of the whole
   program, each called function's operations standing inline at its call site over that call's buffers), with the
   facts the run of a straight line of operations asks of the list: the window is the sequence of the list, every
   operation touches TensorCore buffers only and allocates nothing, and the list writes exactly the buffers named. -/
import proofs.«155585_j22110491640565_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 82 operations, in order. -/
abbrev ops4 : List (HloOp τ sig (Elt F)) :=
  [
    StableHlo.binary main_v194 main_v195 main_v196 (Host.divf : (⟨S100000x1, .f32⟩ : BufTy).Contents (Elt F) → (⟨S100000x1, .f32⟩ : BufTy).Contents (Elt F) → (⟨S100000x1, .f32⟩ : BufTy).Contents (Elt F)),
    StableHlo.unary main_v189 main_v197 (broadcastInDim S100000x64 ![0, 1] bcast_S100000x1_S100000x64_0_1 : (⟨S100000x1, .f32⟩ : BufTy).Contents (Elt F) → (⟨S100000x64, .f32⟩ : BufTy).Contents (Elt F)),
    StableHlo.binary main_v185 main_v197 main_v198 (subf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v199 (broadcastInDim S100000x1 ![] bcast_S_S100000x1 : (⟨S_, .f32⟩ : BufTy).Contents (Elt F) → (⟨S100000x1, .f32⟩ : BufTy).Contents (Elt F)),
    StableHlo.binary main_v196 main_v199 main_v200 (addf : (⟨S100000x1, .f32⟩ : BufTy).Contents (Elt F) → (⟨S100000x1, .f32⟩ : BufTy).Contents (Elt F) → (⟨S100000x1, .f32⟩ : BufTy).Contents (Elt F)),
    StableHlo.unary main_v200 main_v201 (Host.rsqrt : (⟨S100000x1, .f32⟩ : BufTy).Contents (Elt F) → (⟨S100000x1, .f32⟩ : BufTy).Contents (Elt F)),
    StableHlo.unary main_v201 main_v202 (broadcastInDim S100000x64 ![0, 1] bcast_S100000x1_S100000x64_0_1 : (⟨S100000x1, .f32⟩ : BufTy).Contents (Elt F) → (⟨S100000x64, .f32⟩ : BufTy).Contents (Elt F)),
    StableHlo.binary main_v198 main_v202 main_v203 (mulf : (⟨S100000x64, .f32⟩ : BufTy).Contents (Elt F) → (⟨S100000x64, .f32⟩ : BufTy).Contents (Elt F) → (⟨S100000x64, .f32⟩ : BufTy).Contents (Elt F)),
    StableHlo.unary main_arg12 main_v204 (broadcastInDim S1x64 ![1] bcast_S64_S1x64_1 : (⟨S64, .f32⟩ : BufTy).Contents (Elt F) → (⟨S1x64, .f32⟩ : BufTy).Contents (Elt F)),
    StableHlo.unary main_v204 main_v205 (broadcastInDim S100000x64 ![0, 1] bcast_S1x64_S100000x64_0_1 : (⟨S1x64, .f32⟩ : BufTy).Contents (Elt F) → (⟨S100000x64, .f32⟩ : BufTy).Contents (Elt F)),
    StableHlo.binary main_v203 main_v205 main_v206 (mulf : (⟨S100000x64, .f32⟩ : BufTy).Contents (Elt F) → (⟨S100000x64, .f32⟩ : BufTy).Contents (Elt F) → (⟨S100000x64, .f32⟩ : BufTy).Contents (Elt F)),
    StableHlo.unary main_arg13 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S100000x64 ![0, 1] bcast_S1x64_S100000x64_0_1 : (⟨S1x64, .f32⟩ : BufTy).Contents (Elt F) → (⟨S100000x64, .f32⟩ : BufTy).Contents (Elt F)),
    StableHlo.binary main_v206 main_v208 main_v209 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v209) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v209) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v209) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v209) main_call2.v7 main_call2.call1.v0 select,
    StableHlo.binary main_v210 main_arg14 main_v211 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg15 main_v212 (broadcastInDim S1x32 ![1] bcast_S32_S1x32_1 : (⟨S32, .f32⟩ : BufTy).Contents (Elt F) → (⟨S1x32, .f32⟩ : BufTy).Contents (Elt F)),
    StableHlo.unary main_v212 main_v213 (broadcastInDim S100000x32 ![0, 1] bcast_S1x32_S100000x32_0_1 : (⟨S1x32, .f32⟩ : BufTy).Contents (Elt F) → (⟨S100000x32, .f32⟩ : BufTy).Contents (Elt F)),
    StableHlo.binary main_v211 main_v213 main_v214 (addf : (⟨S100000x32, .f32⟩ : BufTy).Contents (Elt F) → (⟨S100000x32, .f32⟩ : BufTy).Contents (Elt F) → (⟨S100000x32, .f32⟩ : BufTy).Contents (Elt F)),
    StableHlo.nullary main_cst_43 (constant S_ .f32 0x00000000#32),
    StableHlo.binary main_v214 main_cst_43 main_v215 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v215 main_v216 (broadcastInDim S100000x1 ![0] bcast_S100000_S100000x1_0 : (⟨S100000, .f32⟩ : BufTy).Contents (Elt F) → (⟨S100000x1, .f32⟩ : BufTy).Contents (Elt F)),
    StableHlo.nullary main_cst_44 (constant S_ .f32 0x42000000#32),
    StableHlo.unary main_cst_44 main_v217 (broadcastInDim S100000x1 ![] bcast_S_S100000x1 : (⟨S_, .f32⟩ : BufTy).Contents (Elt F) → (⟨S100000x1, .f32⟩ : BufTy).Contents (Elt F)),
    StableHlo.binary main_v216 main_v217 main_v218 (Host.divf : (⟨S100000x1, .f32⟩ : BufTy).Contents (Elt F) → (⟨S100000x1, .f32⟩ : BufTy).Contents (Elt F) → (⟨S100000x1, .f32⟩ : BufTy).Contents (Elt F)),
    StableHlo.unary main_v218 main_v219 (broadcastInDim S100000x32 ![0, 1] bcast_S100000x1_S100000x32_0_1 : (⟨S100000x1, .f32⟩ : BufTy).Contents (Elt F) → (⟨S100000x32, .f32⟩ : BufTy).Contents (Elt F)),
    StableHlo.binary main_v214 main_v219 main_v220 (subf : (⟨S100000x32, .f32⟩ : BufTy).Contents (Elt F) → (⟨S100000x32, .f32⟩ : BufTy).Contents (Elt F) → (⟨S100000x32, .f32⟩ : BufTy).Contents (Elt F)),
    StableHlo.binary main_v220 main_v220 main_v221 (mulf : (⟨S100000x32, .f32⟩ : BufTy).Contents (Elt F) → (⟨S100000x32, .f32⟩ : BufTy).Contents (Elt F) → (⟨S100000x32, .f32⟩ : BufTy).Contents (Elt F)),
    StableHlo.nullary main_cst_45 (constant S_ .f32 0x00000000#32),
    StableHlo.binary main_v221 main_cst_45 main_v222 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v222 main_v223 (broadcastInDim S100000x1 ![0] bcast_S100000_S100000x1_0 : (⟨S100000, .f32⟩ : BufTy).Contents (Elt F) → (⟨S100000x1, .f32⟩ : BufTy).Contents (Elt F)),
    StableHlo.nullary main_cst_46 (constant S_ .f32 0x42000000#32),
    StableHlo.unary main_cst_46 main_v224 (broadcastInDim S100000x1 ![] bcast_S_S100000x1 : (⟨S_, .f32⟩ : BufTy).Contents (Elt F) → (⟨S100000x1, .f32⟩ : BufTy).Contents (Elt F)),
    StableHlo.binary main_v223 main_v224 main_v225 (Host.divf : (⟨S100000x1, .f32⟩ : BufTy).Contents (Elt F) → (⟨S100000x1, .f32⟩ : BufTy).Contents (Elt F) → (⟨S100000x1, .f32⟩ : BufTy).Contents (Elt F)),
    StableHlo.unary main_v218 main_v226 (broadcastInDim S100000x32 ![0, 1] bcast_S100000x1_S100000x32_0_1 : (⟨S100000x1, .f32⟩ : BufTy).Contents (Elt F) → (⟨S100000x32, .f32⟩ : BufTy).Contents (Elt F)),
    StableHlo.binary main_v214 main_v226 main_v227 (subf : (⟨S100000x32, .f32⟩ : BufTy).Contents (Elt F) → (⟨S100000x32, .f32⟩ : BufTy).Contents (Elt F) → (⟨S100000x32, .f32⟩ : BufTy).Contents (Elt F)),
    StableHlo.nullary main_cst_47 (constant S_ .f32 0x3727C5AC#32),
    StableHlo.unary main_cst_47 main_v228 (broadcastInDim S100000x1 ![] bcast_S_S100000x1 : (⟨S_, .f32⟩ : BufTy).Contents (Elt F) → (⟨S100000x1, .f32⟩ : BufTy).Contents (Elt F)),
    StableHlo.binary main_v225 main_v228 main_v229 (addf : (⟨S100000x1, .f32⟩ : BufTy).Contents (Elt F) → (⟨S100000x1, .f32⟩ : BufTy).Contents (Elt F) → (⟨S100000x1, .f32⟩ : BufTy).Contents (Elt F)),
    StableHlo.unary main_v229 main_v230 (Host.rsqrt : (⟨S100000x1, .f32⟩ : BufTy).Contents (Elt F) → (⟨S100000x1, .f32⟩ : BufTy).Contents (Elt F)),
    StableHlo.unary main_v230 main_v231 (broadcastInDim S100000x32 ![0, 1] bcast_S100000x1_S100000x32_0_1 : (⟨S100000x1, .f32⟩ : BufTy).Contents (Elt F) → (⟨S100000x32, .f32⟩ : BufTy).Contents (Elt F)),
    StableHlo.binary main_v227 main_v231 main_v232 (mulf : (⟨S100000x32, .f32⟩ : BufTy).Contents (Elt F) → (⟨S100000x32, .f32⟩ : BufTy).Contents (Elt F) → (⟨S100000x32, .f32⟩ : BufTy).Contents (Elt F)),
    StableHlo.unary main_arg16 main_v233 (broadcastInDim S1x32 ![1] bcast_S32_S1x32_1 : (⟨S32, .f32⟩ : BufTy).Contents (Elt F) → (⟨S1x32, .f32⟩ : BufTy).Contents (Elt F)),
    StableHlo.unary main_v233 main_v234 (broadcastInDim S100000x32 ![0, 1] bcast_S1x32_S100000x32_0_1 : (⟨S1x32, .f32⟩ : BufTy).Contents (Elt F) → (⟨S100000x32, .f32⟩ : BufTy).Contents (Elt F)),
    StableHlo.binary main_v232 main_v234 main_v235 (mulf : (⟨S100000x32, .f32⟩ : BufTy).Contents (Elt F) → (⟨S100000x32, .f32⟩ : BufTy).Contents (Elt F) → (⟨S100000x32, .f32⟩ : BufTy).Contents (Elt F)),
    StableHlo.unary main_arg17 main_v236 (broadcastInDim S1x32 ![1] bcast_S32_S1x32_1 : (⟨S32, .f32⟩ : BufTy).Contents (Elt F) → (⟨S1x32, .f32⟩ : BufTy).Contents (Elt F)),
    StableHlo.unary main_v236 main_v237 (broadcastInDim S100000x32 ![0, 1] bcast_S1x32_S100000x32_0_1 : (⟨S1x32, .f32⟩ : BufTy).Contents (Elt F) → (⟨S100000x32, .f32⟩ : BufTy).Contents (Elt F)),
    StableHlo.binary main_v235 main_v237 main_v238 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v238) main_call3.v0 main_call3.v1 (cmpf .ogt),
    StableHlo.TRef.nullary main_call3.cst_0 (constant S_ .f32 0x00000000#32),
    StableHlo.TRef.unary main_call3.cst_0 main_call3.v2 (broadcastInDim S100000x32 ![] bcast_S_S100000x32),
    StableHlo.TRef.binary (.of main_v238) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x32 ![] bcast_S_S100000x32),
    StableHlo.TRef.ternary main_call3.v3 main_call3.call0.v1 (.of main_v238) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x32 ![] bcast_S_S100000x32),
    StableHlo.TRef.binary main_call3.v6 main_call3.v5 main_call3.v7 mulf,
    StableHlo.TRef.ternary main_call3.v1 (.of main_v238) main_call3.v7 main_call3.call1.v0 select,
    StableHlo.binary main_v239 main_arg18 main_v240 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg19 main_v241 (broadcastInDim S1x32 ![1] bcast_S32_S1x32_1 : (⟨S32, .f32⟩ : BufTy).Contents (Elt F) → (⟨S1x32, .f32⟩ : BufTy).Contents (Elt F)),
    StableHlo.unary main_v241 main_v242 (broadcastInDim S100000x32 ![0, 1] bcast_S1x32_S100000x32_0_1 : (⟨S1x32, .f32⟩ : BufTy).Contents (Elt F) → (⟨S100000x32, .f32⟩ : BufTy).Contents (Elt F)),
    StableHlo.binary main_v240 main_v242 main_v243 (addf : (⟨S100000x32, .f32⟩ : BufTy).Contents (Elt F) → (⟨S100000x32, .f32⟩ : BufTy).Contents (Elt F) → (⟨S100000x32, .f32⟩ : BufTy).Contents (Elt F)) ]

set_option maxRecDepth 8192 in
set_option maxHeartbeats 4000000 in
/-- The window is that straight line: the called functions' bodies unfolded at their calls, both sides are one chain of
    operation steps once sequencing is reassociated. -/
theorem main_part4_eq (c : Dev nD) : main_part4 (F := F) c = seq ops4 := by
  simp only [main_part4, fn_elu.body, fn_where.body, fn_where_0.body, fn_elu_4.body, fn_where_5.body, fn_where_6.body, seq, bind_assoc, pure_bind]

set_option maxRecDepth 8192 in
/-- Every operation of the window reads and writes TensorCore buffers only. -/
theorem ops4_sub : (ops4 : List (HloOp τ sig (Elt F))).Forall fun op => op.bufs ⊆ tcRefs τ sig :=
  ⟨binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩

set_option maxRecDepth 8192 in
/-- No operation of the window allocates a buffer. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops4_W : List (Ref sig .tc) := [main_v196, main_v197, main_v198, main_cst_42, main_v199, main_v200, main_v201, main_v202, main_v203, main_v204, main_v205, main_v206, main_v207, main_v208, main_v209, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v210, main_v211, main_v212, main_v213, main_v214, main_cst_43, main_v215, main_v216, main_cst_44, main_v217, main_v218, main_v219, main_v220, main_v221, main_cst_45, main_v222, main_v223, main_cst_46, main_v224, main_v225, main_v226, main_v227, main_cst_47, main_v228, main_v229, main_v230, main_v231, main_v232, main_v233, main_v234, main_v235, main_v236, main_v237, main_v238, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v239, main_v240, main_v241, main_v242, main_v243]

set_option maxRecDepth 8192 in
/-- Each operation of the window writes one buffer of that list. -/
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.RefRun

end
-- ==== Proof.RefRun.lean ====
/- The run of the reference program, read as one straight line of host operations.

   The program's five windows are, each, the sequence of a list of operations (the sibling modules); their concatenation
   `ops` is the whole program (60 + 74 + 74 + 60 + 82 = 350 operations, a called function's operations inline at its call).
   From any memory with zero counters every weakly fair execution terminates; the result buffer then holds the fold of
   the operations' results over the launch contents, read at the result buffer, and each of the twenty argument buffers
   holds what it held at launch, since no operation writes an argument. -/
import proofs.«155585_j22110491640565_1_alg».proof.Proof.RefRunP0
import proofs.«155585_j22110491640565_1_alg».proof.Proof.RefRunP1
import proofs.«155585_j22110491640565_1_alg».proof.Proof.RefRunP2
import proofs.«155585_j22110491640565_1_alg».proof.Proof.RefRunP3
import proofs.«155585_j22110491640565_1_alg».proof.Proof.RefRunP4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the five windows' lists, concatenated. -/
abbrev ops : List (HloOp τ sig (Elt F)) := ops0 ++ (ops1 ++ (ops2 ++ (ops3 ++ ops4)))

/-- The program is that straight line: window by window, a concatenation's sequence being the sequences in turn. -/
theorem main_eq (c : Dev nD) : main (F := F) c = seq ops := by
  show main (F := F) c = seq (ops0 ++ (ops1 ++ (ops2 ++ (ops3 ++ ops4))))
  rw [seq_append, seq_append, seq_append, seq_append, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only: window by window. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    · exact List.forall_iff_forall_mem.mp ops4_sub op h

/-- No operation allocates a buffer: window by window. -/
theorem ops_fresh : ∀ op ∈ (ops : List (HloOp τ sig (Elt F))), op.fresh = ∅ := fun op h => by
    rcases List.mem_append.mp h with h | h
    · exact List.forall_iff_forall_mem.mp ops0_fresh op h
    rcases List.mem_append.mp h with h | h
    · exact List.forall_iff_forall_mem.mp ops1_fresh op h
    rcases List.mem_append.mp h with h | h
    · exact List.forall_iff_forall_mem.mp ops2_fresh op h
    rcases List.mem_append.mp h with h | h
    · exact List.forall_iff_forall_mem.mp ops3_fresh op h
    · exact List.forall_iff_forall_mem.mp ops4_fresh op h

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the whole list is the fold over the windows in turn. -/
theorem after_ops (V : Valuation τ sig (Elt F)) :
    after ops V = after ops4 (after ops3 (after ops2 (after ops1 (after ops0 V)))) := by
  show after (ops0 ++ (ops1 ++ (ops2 ++ (ops3 ++ ops4)))) V = _
  rw [after_app, after_app, after_app, after_app]

/-- A buffer that no window writes holds at the end what it held at the start. -/
theorem after_ops_keep (V : Valuation τ sig (Elt F)) (r : Ref sig .tc) (h0 : r ∉ (ops0_W : List (Ref sig .tc)))
    (h1 : r ∉ (ops1_W : List (Ref sig .tc))) (h2 : r ∉ (ops2_W : List (Ref sig .tc))) (h3 : r ∉ (ops3_W : List (Ref sig .tc)))
    (h4 : r ∉ (ops4_W : List (Ref sig .tc))) :
    after ops V (Proc.devRef .tc r) = V (Proc.devRef .tc r) := by
  rw [after_ops, after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

theorem after_ops_main_arg0 (V : Valuation τ sig (Elt F)) : after ops V (Proc.devRef .tc main_arg0) = V (Proc.devRef .tc main_arg0) :=
  after_ops_keep V main_arg0 (by decide) (by decide) (by decide) (by decide) (by decide)
theorem after_ops_main_arg1 (V : Valuation τ sig (Elt F)) : after ops V (Proc.devRef .tc main_arg1) = V (Proc.devRef .tc main_arg1) :=
  after_ops_keep V main_arg1 (by decide) (by decide) (by decide) (by decide) (by decide)
theorem after_ops_main_arg2 (V : Valuation τ sig (Elt F)) : after ops V (Proc.devRef .tc main_arg2) = V (Proc.devRef .tc main_arg2) :=
  after_ops_keep V main_arg2 (by decide) (by decide) (by decide) (by decide) (by decide)
theorem after_ops_main_arg3 (V : Valuation τ sig (Elt F)) : after ops V (Proc.devRef .tc main_arg3) = V (Proc.devRef .tc main_arg3) :=
  after_ops_keep V main_arg3 (by decide) (by decide) (by decide) (by decide) (by decide)
theorem after_ops_main_arg4 (V : Valuation τ sig (Elt F)) : after ops V (Proc.devRef .tc main_arg4) = V (Proc.devRef .tc main_arg4) :=
  after_ops_keep V main_arg4 (by decide) (by decide) (by decide) (by decide) (by decide)
theorem after_ops_main_arg5 (V : Valuation τ sig (Elt F)) : after ops V (Proc.devRef .tc main_arg5) = V (Proc.devRef .tc main_arg5) :=
  after_ops_keep V main_arg5 (by decide) (by decide) (by decide) (by decide) (by decide)
theorem after_ops_main_arg6 (V : Valuation τ sig (Elt F)) : after ops V (Proc.devRef .tc main_arg6) = V (Proc.devRef .tc main_arg6) :=
  after_ops_keep V main_arg6 (by decide) (by decide) (by decide) (by decide) (by decide)
theorem after_ops_main_arg7 (V : Valuation τ sig (Elt F)) : after ops V (Proc.devRef .tc main_arg7) = V (Proc.devRef .tc main_arg7) :=
  after_ops_keep V main_arg7 (by decide) (by decide) (by decide) (by decide) (by decide)
theorem after_ops_main_arg8 (V : Valuation τ sig (Elt F)) : after ops V (Proc.devRef .tc main_arg8) = V (Proc.devRef .tc main_arg8) :=
  after_ops_keep V main_arg8 (by decide) (by decide) (by decide) (by decide) (by decide)
theorem after_ops_main_arg9 (V : Valuation τ sig (Elt F)) : after ops V (Proc.devRef .tc main_arg9) = V (Proc.devRef .tc main_arg9) :=
  after_ops_keep V main_arg9 (by decide) (by decide) (by decide) (by decide) (by decide)
theorem after_ops_main_arg10 (V : Valuation τ sig (Elt F)) : after ops V (Proc.devRef .tc main_arg10) = V (Proc.devRef .tc main_arg10) :=
  after_ops_keep V main_arg10 (by decide) (by decide) (by decide) (by decide) (by decide)
theorem after_ops_main_arg11 (V : Valuation τ sig (Elt F)) : after ops V (Proc.devRef .tc main_arg11) = V (Proc.devRef .tc main_arg11) :=
  after_ops_keep V main_arg11 (by decide) (by decide) (by decide) (by decide) (by decide)
theorem after_ops_main_arg12 (V : Valuation τ sig (Elt F)) : after ops V (Proc.devRef .tc main_arg12) = V (Proc.devRef .tc main_arg12) :=
  after_ops_keep V main_arg12 (by decide) (by decide) (by decide) (by decide) (by decide)
theorem after_ops_main_arg13 (V : Valuation τ sig (Elt F)) : after ops V (Proc.devRef .tc main_arg13) = V (Proc.devRef .tc main_arg13) :=
  after_ops_keep V main_arg13 (by decide) (by decide) (by decide) (by decide) (by decide)
theorem after_ops_main_arg14 (V : Valuation τ sig (Elt F)) : after ops V (Proc.devRef .tc main_arg14) = V (Proc.devRef .tc main_arg14) :=
  after_ops_keep V main_arg14 (by decide) (by decide) (by decide) (by decide) (by decide)
theorem after_ops_main_arg15 (V : Valuation τ sig (Elt F)) : after ops V (Proc.devRef .tc main_arg15) = V (Proc.devRef .tc main_arg15) :=
  after_ops_keep V main_arg15 (by decide) (by decide) (by decide) (by decide) (by decide)
theorem after_ops_main_arg16 (V : Valuation τ sig (Elt F)) : after ops V (Proc.devRef .tc main_arg16) = V (Proc.devRef .tc main_arg16) :=
  after_ops_keep V main_arg16 (by decide) (by decide) (by decide) (by decide) (by decide)
theorem after_ops_main_arg17 (V : Valuation τ sig (Elt F)) : after ops V (Proc.devRef .tc main_arg17) = V (Proc.devRef .tc main_arg17) :=
  after_ops_keep V main_arg17 (by decide) (by decide) (by decide) (by decide) (by decide)
theorem after_ops_main_arg18 (V : Valuation τ sig (Elt F)) : after ops V (Proc.devRef .tc main_arg18) = V (Proc.devRef .tc main_arg18) :=
  after_ops_keep V main_arg18 (by decide) (by decide) (by decide) (by decide) (by decide)
theorem after_ops_main_arg19 (V : Valuation τ sig (Elt F)) : after ops V (Proc.devRef .tc main_arg19) = V (Proc.devRef .tc main_arg19) :=
  after_ops_keep V main_arg19 (by decide) (by decide) (by decide) (by decide) (by decide)

/-- On every device, for any float values, from any memory with zero counters: every weakly fair execution of the
    program terminates with the result buffer at the operations' fold over the launch contents, read at the result
    buffer, and the twenty arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243) = after ops (launchContents m c) (Proc.devRef .tc main_v243)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨h c main_v243,
      (h c main_arg0).trans (after_ops_main_arg0 _),
      (h c main_arg1).trans (after_ops_main_arg1 _),
      (h c main_arg2).trans (after_ops_main_arg2 _),
      (h c main_arg3).trans (after_ops_main_arg3 _),
      (h c main_arg4).trans (after_ops_main_arg4 _),
      (h c main_arg5).trans (after_ops_main_arg5 _),
      (h c main_arg6).trans (after_ops_main_arg6 _),
      (h c main_arg7).trans (after_ops_main_arg7 _),
      (h c main_arg8).trans (after_ops_main_arg8 _),
      (h c main_arg9).trans (after_ops_main_arg9 _),
      (h c main_arg10).trans (after_ops_main_arg10 _),
      (h c main_arg11).trans (after_ops_main_arg11 _),
      (h c main_arg12).trans (after_ops_main_arg12 _),
      (h c main_arg13).trans (after_ops_main_arg13 _),
      (h c main_arg14).trans (after_ops_main_arg14 _),
      (h c main_arg15).trans (after_ops_main_arg15 _),
      (h c main_arg16).trans (after_ops_main_arg16 _),
      (h c main_arg17).trans (after_ops_main_arg17 _),
      (h c main_arg18).trans (after_ops_main_arg18 _),
      (h c main_arg19).trans (after_ops_main_arg19 _)⟩)
    (run_seq scopedRefs_eq scopedSems_eq defs main (fun _ => ops) main_eq (fun _ => ops_sub) m ρ (fun _ => ops_fresh))

end Cert.ReferenceIdeal.RefRun

end
-- ==== Proof.RefRunStages.lean ====
/- The reference program's stages as pure functions of array contents, each the composition of the program's own host
   operations in the order the program applies them: the edge rows, the inverse root degrees, the index wrap, the
   normalized aggregation and the convolution at widths 64 and 128, layer normalization and the exponential linear unit
   at widths 64, 128 and 32, the five matrix products (the last two with their bias), and the whole program `out`. -/
import proofs.«155585_j22110491640565_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: row 0 of the edge array, as a vector. -/
def srcOf (e : (⟨S2x1600000, .i32⟩ : BufTy).Contents (Elt F)) :
    (⟨S1600000, .i32⟩ : BufTy).Contents (Elt F) :=
  shapeCast S1600000 (extractStridedSlice S1x1600000 ![0, 0] (e) slices_S2x1600000_S1x1600000_0_0) shapeCasts_S1x1600000_S1600000

/-- The edges' destination nodes: row 1 of the edge array, as a vector. -/
def dstOf (e : (⟨S2x1600000, .i32⟩ : BufTy).Contents (Elt F)) :
    (⟨S1600000, .i32⟩ : BufTy).Contents (Elt F) :=
  shapeCast S1600000 (extractStridedSlice S1x1600000 ![1, 0] (e) slices_S2x1600000_S1x1600000_1_0) shapeCasts_S1x1600000_S1600000

/-- The inverse square root of each node's degree, counting a self loop: one added per edge at its destination, plus one. -/
def dinvOf (d : (⟨S1600000, .i32⟩ : BufTy).Contents (Elt F)) :
    (⟨S100000, .f32⟩ : BufTy).Contents (Elt F) :=
  (Host.rsqrt : (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (Host.scatterAdd scatter_S100000_S1600000x1_S1600000_n_0_0_1 ((broadcastInDim S100000 ![] bcast_S_S100000 : (⟨S_, .f32⟩ : BufTy).Contents (Elt F) → (⟨S100000, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (d)) ((broadcastInDim S1600000 ![] bcast_S_S1600000 : (⟨S_, .f32⟩ : BufTy).Contents (Elt F) → (⟨S1600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))

/-- A node index read the way an array index is: a negative one counts from the end; as a column. -/
def wrapIdx (i : (⟨S1600000, .i32⟩ : BufTy).Contents (Elt F)) :
    (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (i) ((broadcastInDim S1600000 ![] bcast_S_S1600000 : (⟨S_, .i32⟩ : BufTy).Contents (Elt F) → (⟨S1600000, .i32⟩ : BufTy).Contents (Elt F)) (constantI S_ 32 0#32))) ((addi : (⟨S1600000, .i32⟩ : BufTy).Contents (Elt F) → (⟨S1600000, .i32⟩ : BufTy).Contents (Elt F) → (⟨S1600000, .i32⟩ : BufTy).Contents (Elt F)) (i) ((broadcastInDim S1600000 ![] bcast_S_S1600000 : (⟨S_, .i32⟩ : BufTy).Contents (Elt F) → (⟨S1600000, .i32⟩ : BufTy).Contents (Elt F)) (constantI S_ 32 100000#32))) (i))

/-- The normalized aggregation at width 64: each edge carries its source's row scaled by the two ends' inverse root degrees to its destination, rows summed per destination, plus the self loop's share. -/
def agg64 (s d : (⟨S1600000, .i32⟩ : BufTy).Contents (Elt F)) (dinv : (⟨S100000, .f32⟩ : BufTy).Contents (Elt F)) (xw : (⟨S100000x64, .f32⟩ : BufTy).Contents (Elt F)) :
    (⟨S100000x64, .f32⟩ : BufTy).Contents (Elt F) :=
  (addf : (⟨S100000x64, .f32⟩ : BufTy).Contents (Elt F) → (⟨S100000x64, .f32⟩ : BufTy).Contents (Elt F) → (⟨S100000x64, .f32⟩ : BufTy).Contents (Elt F)) (Host.scatterAdd scatter_S100000x64_S1600000x1_S1600000x64_1_0_0_1 ((broadcastInDim S100000x64 ![] bcast_S_S100000x64 : (⟨S_, .f32⟩ : BufTy).Contents (Elt F) → (⟨S100000x64, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (d)) ((mulf : (⟨S1600000x64, .f32⟩ : BufTy).Contents (Elt F) → (⟨S1600000x64, .f32⟩ : BufTy).Contents (Elt F) → (⟨S1600000x64, .f32⟩ : BufTy).Contents (Elt F)) (Host.gather gather_S100000x64_S1600000x1_S1600000x64_1_0_n_n_0_1_164 (xw) (wrapIdx s)) ((broadcastInDim S1600000x64 ![0, 1] bcast_S1600000x1_S1600000x64_0_1 : (⟨S1600000x1, .f32⟩ : BufTy).Contents (Elt F) → (⟨S1600000x64, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (Host.gather gather_S100000_S1600000x1_S1600000_n_0_n_n_0_1_1 (dinv) (wrapIdx s)) (Host.gather gather_S100000_S1600000x1_S1600000_n_0_n_n_0_1_1 (dinv) (wrapIdx d))))))) ((mulf : (⟨S100000x64, .f32⟩ : BufTy).Contents (Elt F) → (⟨S100000x64, .f32⟩ : BufTy).Contents (Elt F) → (⟨S100000x64, .f32⟩ : BufTy).Contents (Elt F)) (xw) ((broadcastInDim S100000x64 ![0, 1] bcast_S100000x1_S100000x64_0_1 : (⟨S100000x1, .f32⟩ : BufTy).Contents (Elt F) → (⟨S100000x64, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) (dinv) (dinv)))))

/-- The normalized aggregation at width 128. -/
def agg128 (s d : (⟨S1600000, .i32⟩ : BufTy).Contents (Elt F)) (dinv : (⟨S100000, .f32⟩ : BufTy).Contents (Elt F)) (xw : (⟨S100000x128, .f32⟩ : BufTy).Contents (Elt F)) :
    (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) (Host.scatterAdd scatter_S100000x128_S1600000x1_S1600000x128_1_0_0_1 ((broadcastInDim S100000x128 ![] bcast_S_S100000x128 : (⟨S_, .f32⟩ : BufTy).Contents (Elt F) → (⟨S100000x128, .f32⟩ : BufTy).Contents (Elt F)) (constant S_ .f32 0x00000000#32)) ((broadcastInDim S1600000x1 ![0] bcast_S1600000_S1600000x1_0 : (⟨S1600000, .i32⟩ : BufTy).Contents (Elt F) → (⟨S1600000x1, .i32⟩ : BufTy).Contents (Elt F)) (d)) ((mulf : (⟨S1600000x128, .f32⟩ : BufTy).Contents (Elt F) → (⟨S1600000x128, .f32⟩ : BufTy).Contents (Elt F) → (⟨S1600000x128, .f32⟩ : BufTy).Contents (Elt F)) (Host.gather gather_S100000x128_S1600000x1_S1600000x128_1_0_n_n_0_1_1128 (xw) (wrapIdx s)) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) ((mulf : (⟨S1600000, .f32⟩ : BufTy).Contents (Elt F) → (⟨S1600000, .f32⟩ : BufTy).Contents (Elt F) → (⟨S1600000, .f32⟩ : BufTy).Contents (Elt F)) (Host.gather gather_S100000_S1600000x1_S1600000_n_0_n_n_0_1_1 (dinv) (wrapIdx s)) (Host.gather gather_S100000_S1600000x1_S1600000_n_0_n_n_0_1_1 (dinv) (wrapIdx d))))))) ((mulf : (⟨S100000x128, .f32⟩ : BufTy).Contents (Elt F) → (⟨S100000x128, .f32⟩ : BufTy).Contents (Elt F) → (⟨S100000x128, .f32⟩ : BufTy).Contents (Elt F)) (xw) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((mulf : (⟨S100000, .f32⟩ : BufTy).Contents (Elt F) → (⟨S100000, .f32⟩ : BufTy).Contents (Elt F) → (⟨S100000, .f32⟩ : BufTy).Contents (Elt F)) (dinv) (dinv)))))

/-- The graph convolution at width 64 after the feature product: the aggregation, plus the bias on every row. -/
def conv64 (s d : (⟨S1600000, .i32⟩ : BufTy).Contents (Elt F)) (xw : (⟨S100000x64, .f32⟩ : BufTy).Contents (Elt F)) (b : (⟨S64, .f32⟩ : BufTy).Contents (Elt F)) :
    (⟨S100000x64, .f32⟩ : BufTy).Contents (Elt F) :=
  (addf : (⟨S100000x64, .f32⟩ : BufTy).Contents (Elt F) → (⟨S100000x64, .f32⟩ : BufTy).Contents (Elt F) → (⟨S100000x64, .f32⟩ : BufTy).Contents (Elt F)) (agg64 s d (dinvOf d) xw) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) (b)))

/-- The graph convolution at width 128 after the feature product. -/
def conv128 (s d : (⟨S1600000, .i32⟩ : BufTy).Contents (Elt F)) (xw : (⟨S100000x128, .f32⟩ : BufTy).Contents (Elt F)) (b : (⟨S128, .f32⟩ : BufTy).Contents (Elt F)) :
    (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) (agg128 s d (dinvOf d) xw) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (b)))

/-- Layer normalization of each row at width 64: centred, scaled by the inverse root of the variance plus epsilon, then gain and bias. -/
def ln64 (x : (⟨S100000x64, .f32⟩ : BufTy).Contents (Elt F)) (g b : (⟨S64, .f32⟩ : BufTy).Contents (Elt F)) :
    (⟨S100000x64, .f32⟩ : BufTy).Contents (Elt F) :=
  (addf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) (x) ((broadcastInDim S100000x64 ![0, 1] bcast_S100000x1_S100000x64_0_1 : (⟨S100000x1, .f32⟩ : BufTy).Contents (Elt F) → (⟨S100000x64, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x64_S100000_d1 h_S_)) ((broadcastInDim S100000x1 ![] bcast_S_S100000x1 : (⟨S_, .f32⟩ : BufTy).Contents (Elt F) → (⟨S100000x1, .f32⟩ : BufTy).Contents (Elt F)) (constant S_ .f32 0x42800000#32))))) ((broadcastInDim S100000x64 ![0, 1] bcast_S100000x1_S100000x64_0_1 : (⟨S100000x1, .f32⟩ : BufTy).Contents (Elt F) → (⟨S100000x64, .f32⟩ : BufTy).Contents (Elt F)) ((Host.rsqrt : (⟨S100000x1, .f32⟩ : BufTy).Contents (Elt F) → (⟨S100000x1, .f32⟩ : BufTy).Contents (Elt F)) ((addf : (⟨S100000x1, .f32⟩ : BufTy).Contents (Elt F) → (⟨S100000x1, .f32⟩ : BufTy).Contents (Elt F) → (⟨S100000x1, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) (x) ((broadcastInDim S100000x64 ![0, 1] bcast_S100000x1_S100000x64_0_1 : (⟨S100000x1, .f32⟩ : BufTy).Contents (Elt F) → (⟨S100000x64, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x64_S100000_d1 h_S_)) ((broadcastInDim S100000x1 ![] bcast_S_S100000x1 : (⟨S_, .f32⟩ : BufTy).Contents (Elt F) → (⟨S100000x1, .f32⟩ : BufTy).Contents (Elt F)) (constant S_ .f32 0x42800000#32))))) ((subf : (⟨S100000x64, .f32⟩ : BufTy).Contents (Elt F) → (⟨S100000x64, .f32⟩ : BufTy).Contents (Elt F) → (⟨S100000x64, .f32⟩ : BufTy).Contents (Elt F)) (x) ((broadcastInDim S100000x64 ![0, 1] bcast_S100000x1_S100000x64_0_1 : (⟨S100000x1, .f32⟩ : BufTy).Contents (Elt F) → (⟨S100000x64, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x64_S100000_d1 h_S_)) ((broadcastInDim S100000x1 ![] bcast_S_S100000x1 : (⟨S_, .f32⟩ : BufTy).Contents (Elt F) → (⟨S100000x1, .f32⟩ : BufTy).Contents (Elt F)) (constant S_ .f32 0x42800000#32)))))) (constant S_ .f32 0x00000000#32) reducesTo_S100000x64_S100000_d1 h_S_)) ((broadcastInDim S100000x1 ![] bcast_S_S100000x1 : (⟨S_, .f32⟩ : BufTy).Contents (Elt F) → (⟨S100000x1, .f32⟩ : BufTy).Contents (Elt F)) (constant S_ .f32 0x42800000#32))) ((broadcastInDim S100000x1 ![] bcast_S_S100000x1 : (⟨S_, .f32⟩ : BufTy).Contents (Elt F) → (⟨S100000x1, .f32⟩ : BufTy).Contents (Elt F)) (constant S_ .f32 0x3727C5AC#32)))))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) (g)))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) (b)))

/-- Layer normalization of each row at width 128. -/
def ln128 (x : (⟨S100000x128, .f32⟩ : BufTy).Contents (Elt F)) (g b : (⟨S128, .f32⟩ : BufTy).Contents (Elt F)) :
    (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) (x) ((broadcastInDim S100000x128 ![0, 1] bcast_S100000x1_S100000x128_0_1 : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x128_S100000_d1 h_S_)) ((broadcastInDim S100000x1 ![] bcast_S_S100000x1 : (⟨S_, .f32⟩ : BufTy).Contents (Elt F) → (⟨S100000x1, .f32⟩ : BufTy).Contents (Elt F)) (constant S_ .f32 0x43000000#32))))) ((broadcastInDim S100000x128 ![0, 1] bcast_S100000x1_S100000x128_0_1 : (⟨S100000x1, .f32⟩ : BufTy).Contents (Elt F) → (⟨S100000x128, .f32⟩ : BufTy).Contents (Elt F)) ((Host.rsqrt : (⟨S100000x1, .f32⟩ : BufTy).Contents (Elt F) → (⟨S100000x1, .f32⟩ : BufTy).Contents (Elt F)) ((addf : (⟨S100000x1, .f32⟩ : BufTy).Contents (Elt F) → (⟨S100000x1, .f32⟩ : BufTy).Contents (Elt F) → (⟨S100000x1, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) (x) ((broadcastInDim S100000x128 ![0, 1] bcast_S100000x1_S100000x128_0_1 : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x128_S100000_d1 h_S_)) ((broadcastInDim S100000x1 ![] bcast_S_S100000x1 : (⟨S_, .f32⟩ : BufTy).Contents (Elt F) → (⟨S100000x1, .f32⟩ : BufTy).Contents (Elt F)) (constant S_ .f32 0x43000000#32))))) ((subf : (⟨S100000x128, .f32⟩ : BufTy).Contents (Elt F) → (⟨S100000x128, .f32⟩ : BufTy).Contents (Elt F) → (⟨S100000x128, .f32⟩ : BufTy).Contents (Elt F)) (x) ((broadcastInDim S100000x128 ![0, 1] bcast_S100000x1_S100000x128_0_1 : (⟨S100000x1, .f32⟩ : BufTy).Contents (Elt F) → (⟨S100000x128, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x128_S100000_d1 h_S_)) ((broadcastInDim S100000x1 ![] bcast_S_S100000x1 : (⟨S_, .f32⟩ : BufTy).Contents (Elt F) → (⟨S100000x1, .f32⟩ : BufTy).Contents (Elt F)) (constant S_ .f32 0x43000000#32)))))) (constant S_ .f32 0x00000000#32) reducesTo_S100000x128_S100000_d1 h_S_)) ((broadcastInDim S100000x1 ![] bcast_S_S100000x1 : (⟨S_, .f32⟩ : BufTy).Contents (Elt F) → (⟨S100000x1, .f32⟩ : BufTy).Contents (Elt F)) (constant S_ .f32 0x43000000#32))) ((broadcastInDim S100000x1 ![] bcast_S_S100000x1 : (⟨S_, .f32⟩ : BufTy).Contents (Elt F) → (⟨S100000x1, .f32⟩ : BufTy).Contents (Elt F)) (constant S_ .f32 0x3727C5AC#32)))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (g)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (b)))

/-- Layer normalization of each row at width 32. -/
def ln32 (x : (⟨S100000x32, .f32⟩ : BufTy).Contents (Elt F)) (g b : (⟨S32, .f32⟩ : BufTy).Contents (Elt F)) :
    (⟨S100000x32, .f32⟩ : BufTy).Contents (Elt F) :=
  (addf : (⟨S100000x32, .f32⟩ : BufTy).Contents (Elt F) → (⟨S100000x32, .f32⟩ : BufTy).Contents (Elt F) → (⟨S100000x32, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) ((subf : (⟨S100000x32, .f32⟩ : BufTy).Contents (Elt F) → (⟨S100000x32, .f32⟩ : BufTy).Contents (Elt F) → (⟨S100000x32, .f32⟩ : BufTy).Contents (Elt F)) (x) ((broadcastInDim S100000x32 ![0, 1] bcast_S100000x1_S100000x32_0_1 : (⟨S100000x1, .f32⟩ : BufTy).Contents (Elt F) → (⟨S100000x32, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x32_S100000_d1 h_S_)) ((broadcastInDim S100000x1 ![] bcast_S_S100000x1 : (⟨S_, .f32⟩ : BufTy).Contents (Elt F) → (⟨S100000x1, .f32⟩ : BufTy).Contents (Elt F)) (constant S_ .f32 0x42000000#32))))) ((broadcastInDim S100000x32 ![0, 1] bcast_S100000x1_S100000x32_0_1 : (⟨S100000x1, .f32⟩ : BufTy).Contents (Elt F) → (⟨S100000x32, .f32⟩ : BufTy).Contents (Elt F)) ((Host.rsqrt : (⟨S100000x1, .f32⟩ : BufTy).Contents (Elt F) → (⟨S100000x1, .f32⟩ : BufTy).Contents (Elt F)) ((addf : (⟨S100000x1, .f32⟩ : BufTy).Contents (Elt F) → (⟨S100000x1, .f32⟩ : BufTy).Contents (Elt F) → (⟨S100000x1, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd ((mulf : (⟨S100000x32, .f32⟩ : BufTy).Contents (Elt F) → (⟨S100000x32, .f32⟩ : BufTy).Contents (Elt F) → (⟨S100000x32, .f32⟩ : BufTy).Contents (Elt F)) ((subf : (⟨S100000x32, .f32⟩ : BufTy).Contents (Elt F) → (⟨S100000x32, .f32⟩ : BufTy).Contents (Elt F) → (⟨S100000x32, .f32⟩ : BufTy).Contents (Elt F)) (x) ((broadcastInDim S100000x32 ![0, 1] bcast_S100000x1_S100000x32_0_1 : (⟨S100000x1, .f32⟩ : BufTy).Contents (Elt F) → (⟨S100000x32, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x32_S100000_d1 h_S_)) ((broadcastInDim S100000x1 ![] bcast_S_S100000x1 : (⟨S_, .f32⟩ : BufTy).Contents (Elt F) → (⟨S100000x1, .f32⟩ : BufTy).Contents (Elt F)) (constant S_ .f32 0x42000000#32))))) ((subf : (⟨S100000x32, .f32⟩ : BufTy).Contents (Elt F) → (⟨S100000x32, .f32⟩ : BufTy).Contents (Elt F) → (⟨S100000x32, .f32⟩ : BufTy).Contents (Elt F)) (x) ((broadcastInDim S100000x32 ![0, 1] bcast_S100000x1_S100000x32_0_1 : (⟨S100000x1, .f32⟩ : BufTy).Contents (Elt F) → (⟨S100000x32, .f32⟩ : BufTy).Contents (Elt F)) ((Host.divf : (⟨S100000x1, .f32⟩ : BufTy).Contents (Elt F) → (⟨S100000x1, .f32⟩ : BufTy).Contents (Elt F) → (⟨S100000x1, .f32⟩ : BufTy).Contents (Elt F)) ((broadcastInDim S100000x1 ![0] bcast_S100000_S100000x1_0 : (⟨S100000, .f32⟩ : BufTy).Contents (Elt F) → (⟨S100000x1, .f32⟩ : BufTy).Contents (Elt F)) (Host.reduceAdd (x) (constant S_ .f32 0x00000000#32) reducesTo_S100000x32_S100000_d1 h_S_)) ((broadcastInDim S100000x1 ![] bcast_S_S100000x1 : (⟨S_, .f32⟩ : BufTy).Contents (Elt F) → (⟨S100000x1, .f32⟩ : BufTy).Contents (Elt F)) (constant S_ .f32 0x42000000#32)))))) (constant S_ .f32 0x00000000#32) reducesTo_S100000x32_S100000_d1 h_S_)) ((broadcastInDim S100000x1 ![] bcast_S_S100000x1 : (⟨S_, .f32⟩ : BufTy).Contents (Elt F) → (⟨S100000x1, .f32⟩ : BufTy).Contents (Elt F)) (constant S_ .f32 0x42000000#32))) ((broadcastInDim S100000x1 ![] bcast_S_S100000x1 : (⟨S_, .f32⟩ : BufTy).Contents (Elt F) → (⟨S100000x1, .f32⟩ : BufTy).Contents (Elt F)) (constant S_ .f32 0x3727C5AC#32)))))) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) (g)))) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) (b)))

/-- The exponential linear unit, elementwise, at width 64: x where x > 0, else exp(x) - 1 (taken of 0 where x > 0). -/
def elu64 (x : (⟨S100000x64, .f32⟩ : BufTy).Contents (Elt F)) :
    (⟨S100000x64, .f32⟩ : BufTy).Contents (Elt F) :=
  select ((cmpf .ogt) (x) ((broadcastInDim S100000x64 ![] bcast_S_S100000x64) (constant S_ .f32 0x00000000#32))) (x) (mulf ((broadcastInDim S100000x64 ![] bcast_S_S100000x64) (constant S_ .f32 0x3F800000#32)) (Host.expm1 (select ((cmpf .ogt) (x) ((broadcastInDim S100000x64 ![] bcast_S_S100000x64) (constant S_ .f32 0x00000000#32))) ((broadcastInDim S100000x64 ![] bcast_S_S100000x64) (id (constant S_ .f32 0x00000000#32))) (x))))

/-- The exponential linear unit at width 128. -/
def elu128 (x : (⟨S100000x128, .f32⟩ : BufTy).Contents (Elt F)) :
    (⟨S100000x128, .f32⟩ : BufTy).Contents (Elt F) :=
  select ((cmpf .ogt) (x) ((broadcastInDim S100000x128 ![] bcast_S_S100000x128) (constant S_ .f32 0x00000000#32))) (x) (mulf ((broadcastInDim S100000x128 ![] bcast_S_S100000x128) (constant S_ .f32 0x3F800000#32)) (Host.expm1 (select ((cmpf .ogt) (x) ((broadcastInDim S100000x128 ![] bcast_S_S100000x128) (constant S_ .f32 0x00000000#32))) ((broadcastInDim S100000x128 ![] bcast_S_S100000x128) (id (constant S_ .f32 0x00000000#32))) (x))))

/-- The exponential linear unit at width 32. -/
def elu32 (x : (⟨S100000x32, .f32⟩ : BufTy).Contents (Elt F)) :
    (⟨S100000x32, .f32⟩ : BufTy).Contents (Elt F) :=
  select ((cmpf .ogt) (x) ((broadcastInDim S100000x32 ![] bcast_S_S100000x32) (constant S_ .f32 0x00000000#32))) (x) (mulf ((broadcastInDim S100000x32 ![] bcast_S_S100000x32) (constant S_ .f32 0x3F800000#32)) (Host.expm1 (select ((cmpf .ogt) (x) ((broadcastInDim S100000x32 ![] bcast_S_S100000x32) (constant S_ .f32 0x00000000#32))) ((broadcastInDim S100000x32 ![] bcast_S_S100000x32) (id (constant S_ .f32 0x00000000#32))) (x))))

/-- The first layer's feature product. -/
def dot1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none (x) (w)

/-- The second layer's feature product. -/
def dot2 (x : (⟨S100000x64, .f32⟩ : BufTy).Contents (Elt F)) (w : (⟨S64x128, .f32⟩ : BufTy).Contents (Elt F)) :
    (⟨S100000x128, .f32⟩ : BufTy).Contents (Elt F) :=
  Host.dotGeneral dot_S100000x64_S64x128_S100000x128_1_0_0_1_n_n none (x) (w)

/-- The third layer's feature product. -/
def dot3 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none (x) (w)

/-- The first linear layer: the product plus the bias on every row. -/
def dot4b (x : (⟨S100000x64, .f32⟩ : BufTy).Contents (Elt F)) (w : (⟨S64x32, .f32⟩ : BufTy).Contents (Elt F)) (b : (⟨S32, .f32⟩ : BufTy).Contents (Elt F)) :
    (⟨S100000x32, .f32⟩ : BufTy).Contents (Elt F) :=
  (addf : (⟨S100000x32, .f32⟩ : BufTy).Contents (Elt F) → (⟨S100000x32, .f32⟩ : BufTy).Contents (Elt F) → (⟨S100000x32, .f32⟩ : BufTy).Contents (Elt F)) (Host.dotGeneral dot_S100000x64_S64x32_S100000x32_1_0_0_1_n_n none (x) (w)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) (b)))

/-- The last linear layer: the product plus the bias on every row. -/
def dot5b (x : (⟨S100000x32, .f32⟩ : BufTy).Contents (Elt F)) (w : (⟨S32x32, .f32⟩ : BufTy).Contents (Elt F)) (b : (⟨S32, .f32⟩ : BufTy).Contents (Elt F)) :
    (⟨S100000x32, .f32⟩ : BufTy).Contents (Elt F) :=
  (addf : (⟨S100000x32, .f32⟩ : BufTy).Contents (Elt F) → (⟨S100000x32, .f32⟩ : BufTy).Contents (Elt F) → (⟨S100000x32, .f32⟩ : BufTy).Contents (Elt F)) (Host.dotGeneral dot_S100000x32_S32x32_S100000x32_1_0_0_1_n_n none (x) (w)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) (b)))

/-- The whole program on its twenty arguments: three convolution layers, each normalized and passed through the unit,
    then the two linear layers with a normalization and a unit between them. -/
def out
    (a0 : (⟨S100000x128, .f32⟩ : BufTy).Contents (Elt F))
    (a1 : (⟨S2x1600000, .i32⟩ : BufTy).Contents (Elt F))
    (a2 : (⟨S128x64, .f32⟩ : BufTy).Contents (Elt F))
    (a3 : (⟨S64, .f32⟩ : BufTy).Contents (Elt F))
    (a4 : (⟨S64, .f32⟩ : BufTy).Contents (Elt F))
    (a5 : (⟨S64, .f32⟩ : BufTy).Contents (Elt F))
    (a6 : (⟨S64x128, .f32⟩ : BufTy).Contents (Elt F))
    (a7 : (⟨S128, .f32⟩ : BufTy).Contents (Elt F))
    (a8 : (⟨S128, .f32⟩ : BufTy).Contents (Elt F))
    (a9 : (⟨S128, .f32⟩ : BufTy).Contents (Elt F))
    (a10 : (⟨S128x64, .f32⟩ : BufTy).Contents (Elt F))
    (a11 : (⟨S64, .f32⟩ : BufTy).Contents (Elt F))
    (a12 : (⟨S64, .f32⟩ : BufTy).Contents (Elt F))
    (a13 : (⟨S64, .f32⟩ : BufTy).Contents (Elt F))
    (a14 : (⟨S64x32, .f32⟩ : BufTy).Contents (Elt F))
    (a15 : (⟨S32, .f32⟩ : BufTy).Contents (Elt F))
    (a16 : (⟨S32, .f32⟩ : BufTy).Contents (Elt F))
    (a17 : (⟨S32, .f32⟩ : BufTy).Contents (Elt F))
    (a18 : (⟨S32x32, .f32⟩ : BufTy).Contents (Elt F))
    (a19 : (⟨S32, .f32⟩ : BufTy).Contents (Elt F)) :
    (⟨S100000x32, .f32⟩ : BufTy).Contents (Elt F) :=
  dot5b (elu32 (ln32 (dot4b (elu64 (ln64 (conv64 (srcOf a1) (dstOf a1) (dot3 (elu128 (ln128 (conv128 (srcOf a1) (dstOf a1) (dot2 (elu64 (ln64 (conv64 (srcOf a1) (dstOf a1) (dot1 a0 a2) a3) a4 a5)) a6) a7) a8 a9)) a10) a11) a12 a13)) a14 a15) a16 a17)) a18 a19

end Cert.ReferenceIdeal.RefRun

end
-- ==== Proof.RefRunRead1.lean ====
/- The reference program's operations 1 … 102, cut at the stages' ends: each stretch as a list, the buffers it writes, and its
   result buffer read back as the stage's pure function of what its operand buffers held before the stretch. -/
import proofs.«155585_j22110491640565_1_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4 of the program. -/
abbrev cA : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The buffers those operations write, in order. -/
abbrev cA_W : List (Ref sig .tc) := [main_v0, main_v1, main_v2, main_v3]

set_option maxRecDepth 8192 in
theorem cA_writes : (cA : List (HloOp τ sig (Elt F))).Forall fun op =>
    op.writes ⊆ (cA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cA_keep (W : Valuation τ sig (Elt F)) (r : Ref sig .tc) (h : r ∉ (cA_W : List (Ref sig .tc))) :
    after cA W (Proc.devRef .tc r) = W (Proc.devRef .tc r) :=
  after_of_writes_sub cA W cA_writes h

set_option maxRecDepth 8192 in
set_option maxHeartbeats 4000000 in
/-- After the operations, `main_v1` holds `srcOf` of what the operand buffers held before them. -/
theorem cA_main_v1 (W : Valuation τ sig (Elt F)) :
    after cA W (Proc.devRef .tc main_v1) = srcOf (W (Proc.devRef .tc main_arg1)) := by
  simp only [cA]
  after_results_simp
  rfl

set_option maxRecDepth 8192 in
set_option maxHeartbeats 4000000 in
/-- After the operations, `main_v3` holds `dstOf` of what the operand buffers held before them. -/
theorem cA_main_v3 (W : Valuation τ sig (Elt F)) :
    after cA W (Proc.devRef .tc main_v3) = dstOf (W (Proc.devRef .tc main_arg1)) := by
  simp only [cA]
  after_results_simp
  rfl

/-- Operations 5 … 5 of the program. -/
abbrev cD1 : List (HloOp τ sig (Elt F)) :=
  [
    StableHlo.binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The buffers those operations write, in order. -/
abbrev cD1_W : List (Ref sig .tc) := [main_v4]

set_option maxRecDepth 8192 in
theorem cD1_writes : (cD1 : List (HloOp τ sig (Elt F))).Forall fun op =>
    op.writes ⊆ (cD1_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))

/-- A buffer those operations do not write keeps its contents through them. -/
theorem cD1_keep (W : Valuation τ sig (Elt F)) (r : Ref sig .tc) (h : r ∉ (cD1_W : List (Ref sig .tc))) :
    after cD1 W (Proc.devRef .tc r) = W (Proc.devRef .tc r) :=
  after_of_writes_sub cD1 W cD1_writes h

set_option maxRecDepth 8192 in
set_option maxHeartbeats 4000000 in
/-- After the operations, `main_v4` holds `dot1` of what the operand buffers held before them. -/
theorem cD1_main_v4 (W : Valuation τ sig (Elt F)) :
    after cD1 W (Proc.devRef .tc main_v4) = dot1 (W (Proc.devRef .tc main_arg0)) (W (Proc.devRef .tc main_arg2)) := by
  simp only [cD1]
  after_results_simp
  rfl

/-- Operations 6 … 58 of the program. -/
abbrev cC1 : List (HloOp τ sig (Elt F)) :=
  [
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v4 main_v42 main_v43 (mulf : (⟨S100000x64, .f32⟩ : BufTy).Contents (Elt F) → (⟨S100000x64, .f32⟩ : BufTy).Contents (Elt F) → (⟨S100000x64, .f32⟩ : BufTy).Contents (Elt F)),
    StableHlo.binary main_v39 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg3 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev cC1_W : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47]

set_option maxRecDepth 8192 in
theorem cC1_writes : (cC1 : List (HloOp τ sig (Elt F))).Forall fun op =>
    op.writes ⊆ (cC1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cC1_keep (W : Valuation τ sig (Elt F)) (r : Ref sig .tc) (h : r ∉ (cC1_W : List (Ref sig .tc))) :
    after cC1 W (Proc.devRef .tc r) = W (Proc.devRef .tc r) :=
  after_of_writes_sub cC1 W cC1_writes h

set_option maxRecDepth 8192 in
set_option maxHeartbeats 4000000 in
/-- After the operations, `main_v47` holds `conv64` of what the operand buffers held before them. -/
theorem cC1_main_v47 (W : Valuation τ sig (Elt F)) :
    after cC1 W (Proc.devRef .tc main_v47) = conv64 (W (Proc.devRef .tc main_v1)) (W (Proc.devRef .tc main_v3)) (W (Proc.devRef .tc main_v4)) (W (Proc.devRef .tc main_arg3)) := by
  simp only [cC1]
  after_results_simp
  rfl

/-- Operations 59 … 87 of the program. -/
abbrev cL1 : List (HloOp τ sig (Elt F)) :=
  [
    StableHlo.nullary main_cst_8 (constant S_ .f32 0x00000000#32),
    StableHlo.binary main_v47 main_cst_8 main_v48 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v48 main_v49 (broadcastInDim S100000x1 ![0] bcast_S100000_S100000x1_0 : (⟨S100000, .f32⟩ : BufTy).Contents (Elt F) → (⟨S100000x1, .f32⟩ : BufTy).Contents (Elt F)),
    StableHlo.nullary main_cst_9 (constant S_ .f32 0x42800000#32),
    StableHlo.unary main_cst_9 main_v50 (broadcastInDim S100000x1 ![] bcast_S_S100000x1 : (⟨S_, .f32⟩ : BufTy).Contents (Elt F) → (⟨S100000x1, .f32⟩ : BufTy).Contents (Elt F)),
    StableHlo.binary main_v49 main_v50 main_v51 (Host.divf : (⟨S100000x1, .f32⟩ : BufTy).Contents (Elt F) → (⟨S100000x1, .f32⟩ : BufTy).Contents (Elt F) → (⟨S100000x1, .f32⟩ : BufTy).Contents (Elt F)),
    StableHlo.unary main_v51 main_v52 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v52 main_v53 (subf : (⟨S100000x64, .f32⟩ : BufTy).Contents (Elt F) → (⟨S100000x64, .f32⟩ : BufTy).Contents (Elt F) → (⟨S100000x64, .f32⟩ : BufTy).Contents (Elt F)),
    StableHlo.binary main_v53 main_v53 main_v54 (mulf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.binary main_v54 main_cst_10 main_v55 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v55 main_v56 (broadcastInDim S100000x1 ![0] bcast_S100000_S100000x1_0 : (⟨S100000, .f32⟩ : BufTy).Contents (Elt F) → (⟨S100000x1, .f32⟩ : BufTy).Contents (Elt F)),
    StableHlo.nullary main_cst_11 (constant S_ .f32 0x42800000#32),
    StableHlo.unary main_cst_11 main_v57 (broadcastInDim S100000x1 ![] bcast_S_S100000x1 : (⟨S_, .f32⟩ : BufTy).Contents (Elt F) → (⟨S100000x1, .f32⟩ : BufTy).Contents (Elt F)),
    StableHlo.binary main_v56 main_v57 main_v58 (Host.divf : (⟨S100000x1, .f32⟩ : BufTy).Contents (Elt F) → (⟨S100000x1, .f32⟩ : BufTy).Contents (Elt F) → (⟨S100000x1, .f32⟩ : BufTy).Contents (Elt F)),
    StableHlo.unary main_v51 main_v59 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v59 main_v60 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v61 (broadcastInDim S100000x1 ![] bcast_S_S100000x1 : (⟨S_, .f32⟩ : BufTy).Contents (Elt F) → (⟨S100000x1, .f32⟩ : BufTy).Contents (Elt F)),
    StableHlo.binary main_v58 main_v61 main_v62 (addf : (⟨S100000x1, .f32⟩ : BufTy).Contents (Elt F) → (⟨S100000x1, .f32⟩ : BufTy).Contents (Elt F) → (⟨S100000x1, .f32⟩ : BufTy).Contents (Elt F)),
    StableHlo.unary main_v62 main_v63 (Host.rsqrt : (⟨S100000x1, .f32⟩ : BufTy).Contents (Elt F) → (⟨S100000x1, .f32⟩ : BufTy).Contents (Elt F)),
    StableHlo.unary main_v63 main_v64 (broadcastInDim S100000x64 ![0, 1] bcast_S100000x1_S100000x64_0_1 : (⟨S100000x1, .f32⟩ : BufTy).Contents (Elt F) → (⟨S100000x64, .f32⟩ : BufTy).Contents (Elt F)),
    StableHlo.binary main_v60 main_v64 main_v65 (mulf : (⟨S100000x64, .f32⟩ : BufTy).Contents (Elt F) → (⟨S100000x64, .f32⟩ : BufTy).Contents (Elt F) → (⟨S100000x64, .f32⟩ : BufTy).Contents (Elt F)),
    StableHlo.unary main_arg4 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v67 main_v68 (mulf : (⟨S100000x64, .f32⟩ : BufTy).Contents (Elt F) → (⟨S100000x64, .f32⟩ : BufTy).Contents (Elt F) → (⟨S100000x64, .f32⟩ : BufTy).Contents (Elt F)),
    StableHlo.unary main_arg5 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev cL1_W : List (Ref sig .tc) := [main_cst_8, main_v48, main_v49, main_cst_9, main_v50, main_v51, main_v52, main_v53, main_v54, main_cst_10, main_v55, main_v56, main_cst_11, main_v57, main_v58, main_v59, main_v60, main_cst_12, main_v61, main_v62, main_v63, main_v64, main_v65, main_v66, main_v67, main_v68, main_v69, main_v70, main_v71]

set_option maxRecDepth 8192 in
theorem cL1_writes : (cL1 : List (HloOp τ sig (Elt F))).Forall fun op =>
    op.writes ⊆ (cL1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cL1_keep (W : Valuation τ sig (Elt F)) (r : Ref sig .tc) (h : r ∉ (cL1_W : List (Ref sig .tc))) :
    after cL1 W (Proc.devRef .tc r) = W (Proc.devRef .tc r) :=
  after_of_writes_sub cL1 W cL1_writes h

set_option maxRecDepth 8192 in
set_option maxHeartbeats 4000000 in
/-- After the operations, `main_v71` holds `ln64` of what the operand buffers held before them. -/
theorem cL1_main_v71 (W : Valuation τ sig (Elt F)) :
    after cL1 W (Proc.devRef .tc main_v71) = ln64 (W (Proc.devRef .tc main_v47)) (W (Proc.devRef .tc main_arg4)) (W (Proc.devRef .tc main_arg5)) := by
  simp only [cL1]
  after_results_simp
  rfl

/-- Operations 88 … 102 of the program. -/
abbrev cE1 : List (HloOp τ sig (Elt F)) :=
  [
    StableHlo.TRef.nullary main_call0.cst (constant S_ .f32 0x00000000#32),
    StableHlo.TRef.unary main_call0.cst main_call0.v0 (broadcastInDim S100000x64 ![] bcast_S_S100000x64),
    StableHlo.TRef.binary (.of main_v71) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v71) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v71) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v71) main_call0.v7 main_call0.call1.v0 select ]

/-- The buffers those operations write, in order. -/
abbrev cE1_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v72]

set_option maxRecDepth 8192 in
theorem cE1_writes : (cE1 : List (HloOp τ sig (Elt F))).Forall fun op =>
    op.writes ⊆ (cE1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cE1_keep (W : Valuation τ sig (Elt F)) (r : Ref sig .tc) (h : r ∉ (cE1_W : List (Ref sig .tc))) :
    after cE1 W (Proc.devRef .tc r) = W (Proc.devRef .tc r) :=
  after_of_writes_sub cE1 W cE1_writes h

set_option maxRecDepth 8192 in
set_option maxHeartbeats 4000000 in
/-- After the operations, `main_v72` holds `elu64` of what the operand buffers held before them. -/
theorem cE1_main_v72 (W : Valuation τ sig (Elt F)) :
    after cE1 W (Proc.devRef .tc main_v72) = elu64 (W (Proc.devRef .tc main_v71)) := by
  simp only [cE1]
  after_results_simp
  rfl

end Cert.ReferenceIdeal.RefRun

end
-- ==== Proof.RefRunRead2.lean ====
/- The reference program's operations 103 … 200, cut at the stages' ends: each stretch as a list, the buffers it writes, and its
   result buffer read back as the stage's pure function of what its operand buffers held before the stretch. -/
import proofs.«155585_j22110491640565_1_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 103 … 103 of the program. -/
abbrev cD2 : List (HloOp τ sig (Elt F)) :=
  [
    StableHlo.binary main_v72 main_arg6 main_v73 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ]

/-- The buffers those operations write, in order. -/
abbrev cD2_W : List (Ref sig .tc) := [main_v73]

set_option maxRecDepth 8192 in
theorem cD2_writes : (cD2 : List (HloOp τ sig (Elt F))).Forall fun op =>
    op.writes ⊆ (cD2_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))

/-- A buffer those operations do not write keeps its contents through them. -/
theorem cD2_keep (W : Valuation τ sig (Elt F)) (r : Ref sig .tc) (h : r ∉ (cD2_W : List (Ref sig .tc))) :
    after cD2 W (Proc.devRef .tc r) = W (Proc.devRef .tc r) :=
  after_of_writes_sub cD2 W cD2_writes h

set_option maxRecDepth 8192 in
set_option maxHeartbeats 4000000 in
/-- After the operations, `main_v73` holds `dot2` of what the operand buffers held before them. -/
theorem cD2_main_v73 (W : Valuation τ sig (Elt F)) :
    after cD2 W (Proc.devRef .tc main_v73) = dot2 (W (Proc.devRef .tc main_v72)) (W (Proc.devRef .tc main_arg6)) := by
  simp only [cD2]
  after_results_simp
  rfl

/-- Operations 104 … 156 of the program. -/
abbrev cC2 : List (HloOp τ sig (Elt F)) :=
  [
    StableHlo.nullary main_cst_13 (constant S_ .f32 0x3F800000#32),
    StableHlo.unary main_cst_13 main_v74 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v75 (broadcastInDim S100000 ![] bcast_S_S100000 : (⟨S_, .f32⟩ : BufTy).Contents (Elt F) → (⟨S100000, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v78 (broadcastInDim S100000 ![] bcast_S_S100000 : (⟨S_, .f32⟩ : BufTy).Contents (Elt F) → (⟨S100000, .f32⟩ : BufTy).Contents (Elt F)),
    StableHlo.binary main_v77 main_v78 main_v79 (addf : (⟨S100000, .f32⟩ : BufTy).Contents (Elt F) → (⟨S100000, .f32⟩ : BufTy).Contents (Elt F) → (⟨S100000, .f32⟩ : BufTy).Contents (Elt F)),
    StableHlo.unary main_v79 main_v80 (Host.rsqrt : (⟨S100000, .f32⟩ : BufTy).Contents (Elt F) → (⟨S100000, .f32⟩ : BufTy).Contents (Elt F)),
    StableHlo.nullary main_c_16 (constantI S_ 32 0#32),
    StableHlo.unary main_c_16 main_v81 (broadcastInDim S1600000 ![] bcast_S_S1600000 : (⟨S_, .i32⟩ : BufTy).Contents (Elt F) → (⟨S1600000, .i32⟩ : BufTy).Contents (Elt F)),
    StableHlo.binary main_v1 main_v81 main_v82 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v83 (broadcastInDim S1600000 ![] bcast_S_S1600000 : (⟨S_, .i32⟩ : BufTy).Contents (Elt F) → (⟨S1600000, .i32⟩ : BufTy).Contents (Elt F)),
    StableHlo.binary main_v1 main_v83 main_v84 (addi : (⟨S1600000, .i32⟩ : BufTy).Contents (Elt F) → (⟨S1600000, .i32⟩ : BufTy).Contents (Elt F) → (⟨S1600000, .i32⟩ : BufTy).Contents (Elt F)),
    StableHlo.ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v85 main_v86 (broadcastInDim S1600000x1 ![0] bcast_S1600000_S1600000x1_0 : (⟨S1600000, .i32⟩ : BufTy).Contents (Elt F) → (⟨S1600000x1, .i32⟩ : BufTy).Contents (Elt F)),
    StableHlo.binary main_v80 main_v86 main_v87 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_18 (constantI S_ 32 0#32),
    StableHlo.unary main_c_18 main_v88 (broadcastInDim S1600000 ![] bcast_S_S1600000 : (⟨S_, .i32⟩ : BufTy).Contents (Elt F) → (⟨S1600000, .i32⟩ : BufTy).Contents (Elt F)),
    StableHlo.binary main_v3 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v90 (broadcastInDim S1600000 ![] bcast_S_S1600000 : (⟨S_, .i32⟩ : BufTy).Contents (Elt F) → (⟨S1600000, .i32⟩ : BufTy).Contents (Elt F)),
    StableHlo.binary main_v3 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v3 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v80 main_v93 main_v94 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v87 main_v94 main_v95 (mulf : (⟨S1600000, .f32⟩ : BufTy).Contents (Elt F) → (⟨S1600000, .f32⟩ : BufTy).Contents (Elt F) → (⟨S1600000, .f32⟩ : BufTy).Contents (Elt F)),
    StableHlo.nullary main_c_20 (constantI S_ 32 0#32),
    StableHlo.unary main_c_20 main_v96 (broadcastInDim S1600000 ![] bcast_S_S1600000 : (⟨S_, .i32⟩ : BufTy).Contents (Elt F) → (⟨S1600000, .i32⟩ : BufTy).Contents (Elt F)),
    StableHlo.binary main_v1 main_v96 main_v97 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v98 (broadcastInDim S1600000 ![] bcast_S_S1600000 : (⟨S_, .i32⟩ : BufTy).Contents (Elt F) → (⟨S1600000, .i32⟩ : BufTy).Contents (Elt F)),
    StableHlo.binary main_v1 main_v98 main_v99 (addi : (⟨S1600000, .i32⟩ : BufTy).Contents (Elt F) → (⟨S1600000, .i32⟩ : BufTy).Contents (Elt F) → (⟨S1600000, .i32⟩ : BufTy).Contents (Elt F)),
    StableHlo.ternary main_v97 main_v99 main_v1 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v100 main_v101 (broadcastInDim S1600000x1 ![0] bcast_S1600000_S1600000x1_0 : (⟨S1600000, .i32⟩ : BufTy).Contents (Elt F) → (⟨S1600000x1, .i32⟩ : BufTy).Contents (Elt F)),
    StableHlo.binary main_v73 main_v101 main_v102 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v95 main_v103 (broadcastInDim S1600000x1 ![0] bcast_S1600000_S1600000x1_0 : (⟨S1600000, .f32⟩ : BufTy).Contents (Elt F) → (⟨S1600000x1, .f32⟩ : BufTy).Contents (Elt F)),
    StableHlo.unary main_v103 main_v104 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v102 main_v104 main_v105 (mulf : (⟨S1600000x128, .f32⟩ : BufTy).Contents (Elt F) → (⟨S1600000x128, .f32⟩ : BufTy).Contents (Elt F) → (⟨S1600000x128, .f32⟩ : BufTy).Contents (Elt F)),
    StableHlo.nullary main_cst_22 (constant S_ .f32 0x00000000#32),
    StableHlo.unary main_cst_22 main_v106 (broadcastInDim S100000x128 ![] bcast_S_S100000x128 : (⟨S_, .f32⟩ : BufTy).Contents (Elt F) → (⟨S100000x128, .f32⟩ : BufTy).Contents (Elt F)),
    StableHlo.unary main_v3 main_v107 (broadcastInDim S1600000x1 ![0] bcast_S1600000_S1600000x1_0 : (⟨S1600000, .i32⟩ : BufTy).Contents (Elt F) → (⟨S1600000x1, .i32⟩ : BufTy).Contents (Elt F)),
    StableHlo.ternary main_v106 main_v107 main_v105 main_v108 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v80 main_v80 main_v109 (mulf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x128 ![0, 1] bcast_S100000x1_S100000x128_0_1 : (⟨S100000x1, .f32⟩ : BufTy).Contents (Elt F) → (⟨S100000x128, .f32⟩ : BufTy).Contents (Elt F)),
    StableHlo.binary main_v73 main_v111 main_v112 (mulf : (⟨S100000x128, .f32⟩ : BufTy).Contents (Elt F) → (⟨S100000x128, .f32⟩ : BufTy).Contents (Elt F) → (⟨S100000x128, .f32⟩ : BufTy).Contents (Elt F)),
    StableHlo.binary main_v108 main_v112 main_v113 (addf : (⟨S100000x128, .f32⟩ : BufTy).Contents (Elt F) → (⟨S100000x128, .f32⟩ : BufTy).Contents (Elt F) → (⟨S100000x128, .f32⟩ : BufTy).Contents (Elt F)),
    StableHlo.unary main_arg7 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)) ]

/-- The buffers those operations write, in order. -/
abbrev cC2_W : List (Ref sig .tc) := [main_cst_13, main_v74, main_cst_14, main_v75, main_v76, main_v77, main_cst_15, main_v78, main_v79, main_v80, main_c_16, main_v81, main_v82, main_c_17, main_v83, main_v84, main_v85, main_v86, main_v87, main_c_18, main_v88, main_v89, main_c_19, main_v90, main_v91, main_v92, main_v93, main_v94, main_v95, main_c_20, main_v96, main_v97, main_c_21, main_v98, main_v99, main_v100, main_v101, main_v102, main_v103, main_v104, main_v105, main_cst_22, main_v106, main_v107, main_v108, main_v109, main_v110, main_v111, main_v112, main_v113, main_v114, main_v115, main_v116]

set_option maxRecDepth 8192 in
theorem cC2_writes : (cC2 : List (HloOp τ sig (Elt F))).Forall fun op =>
    op.writes ⊆ (cC2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cC2_keep (W : Valuation τ sig (Elt F)) (r : Ref sig .tc) (h : r ∉ (cC2_W : List (Ref sig .tc))) :
    after cC2 W (Proc.devRef .tc r) = W (Proc.devRef .tc r) :=
  after_of_writes_sub cC2 W cC2_writes h

set_option maxRecDepth 8192 in
set_option maxHeartbeats 4000000 in
/-- After the operations, `main_v116` holds `conv128` of what the operand buffers held before them. -/
theorem cC2_main_v116 (W : Valuation τ sig (Elt F)) :
    after cC2 W (Proc.devRef .tc main_v116) = conv128 (W (Proc.devRef .tc main_v1)) (W (Proc.devRef .tc main_v3)) (W (Proc.devRef .tc main_v73)) (W (Proc.devRef .tc main_arg7)) := by
  simp only [cC2]
  after_results_simp
  rfl

/-- Operations 157 … 185 of the program. -/
abbrev cL2 : List (HloOp τ sig (Elt F)) :=
  [
    StableHlo.nullary main_cst_23 (constant S_ .f32 0x00000000#32),
    StableHlo.binary main_v116 main_cst_23 main_v117 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v117 main_v118 (broadcastInDim S100000x1 ![0] bcast_S100000_S100000x1_0 : (⟨S100000, .f32⟩ : BufTy).Contents (Elt F) → (⟨S100000x1, .f32⟩ : BufTy).Contents (Elt F)),
    StableHlo.nullary main_cst_24 (constant S_ .f32 0x43000000#32),
    StableHlo.unary main_cst_24 main_v119 (broadcastInDim S100000x1 ![] bcast_S_S100000x1 : (⟨S_, .f32⟩ : BufTy).Contents (Elt F) → (⟨S100000x1, .f32⟩ : BufTy).Contents (Elt F)),
    StableHlo.binary main_v118 main_v119 main_v120 (Host.divf : (⟨S100000x1, .f32⟩ : BufTy).Contents (Elt F) → (⟨S100000x1, .f32⟩ : BufTy).Contents (Elt F) → (⟨S100000x1, .f32⟩ : BufTy).Contents (Elt F)),
    StableHlo.unary main_v120 main_v121 (broadcastInDim S100000x128 ![0, 1] bcast_S100000x1_S100000x128_0_1 : (⟨S100000x1, .f32⟩ : BufTy).Contents (Elt F) → (⟨S100000x128, .f32⟩ : BufTy).Contents (Elt F)),
    StableHlo.binary main_v116 main_v121 main_v122 (subf : (⟨S100000x128, .f32⟩ : BufTy).Contents (Elt F) → (⟨S100000x128, .f32⟩ : BufTy).Contents (Elt F) → (⟨S100000x128, .f32⟩ : BufTy).Contents (Elt F)),
    StableHlo.binary main_v122 main_v122 main_v123 (mulf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.binary main_v123 main_cst_25 main_v124 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v124 main_v125 (broadcastInDim S100000x1 ![0] bcast_S100000_S100000x1_0 : (⟨S100000, .f32⟩ : BufTy).Contents (Elt F) → (⟨S100000x1, .f32⟩ : BufTy).Contents (Elt F)),
    StableHlo.nullary main_cst_26 (constant S_ .f32 0x43000000#32),
    StableHlo.unary main_cst_26 main_v126 (broadcastInDim S100000x1 ![] bcast_S_S100000x1 : (⟨S_, .f32⟩ : BufTy).Contents (Elt F) → (⟨S100000x1, .f32⟩ : BufTy).Contents (Elt F)),
    StableHlo.binary main_v125 main_v126 main_v127 (Host.divf : (⟨S100000x1, .f32⟩ : BufTy).Contents (Elt F) → (⟨S100000x1, .f32⟩ : BufTy).Contents (Elt F) → (⟨S100000x1, .f32⟩ : BufTy).Contents (Elt F)),
    StableHlo.unary main_v120 main_v128 (broadcastInDim S100000x128 ![0, 1] bcast_S100000x1_S100000x128_0_1 : (⟨S100000x1, .f32⟩ : BufTy).Contents (Elt F) → (⟨S100000x128, .f32⟩ : BufTy).Contents (Elt F)),
    StableHlo.binary main_v116 main_v128 main_v129 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v130 (broadcastInDim S100000x1 ![] bcast_S_S100000x1 : (⟨S_, .f32⟩ : BufTy).Contents (Elt F) → (⟨S100000x1, .f32⟩ : BufTy).Contents (Elt F)),
    StableHlo.binary main_v127 main_v130 main_v131 (addf : (⟨S100000x1, .f32⟩ : BufTy).Contents (Elt F) → (⟨S100000x1, .f32⟩ : BufTy).Contents (Elt F) → (⟨S100000x1, .f32⟩ : BufTy).Contents (Elt F)),
    StableHlo.unary main_v131 main_v132 (Host.rsqrt : (⟨S100000x1, .f32⟩ : BufTy).Contents (Elt F) → (⟨S100000x1, .f32⟩ : BufTy).Contents (Elt F)),
    StableHlo.unary main_v132 main_v133 (broadcastInDim S100000x128 ![0, 1] bcast_S100000x1_S100000x128_0_1 : (⟨S100000x1, .f32⟩ : BufTy).Contents (Elt F) → (⟨S100000x128, .f32⟩ : BufTy).Contents (Elt F)),
    StableHlo.binary main_v129 main_v133 main_v134 (mulf : (⟨S100000x128, .f32⟩ : BufTy).Contents (Elt F) → (⟨S100000x128, .f32⟩ : BufTy).Contents (Elt F) → (⟨S100000x128, .f32⟩ : BufTy).Contents (Elt F)),
    StableHlo.unary main_arg8 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (mulf : (⟨S100000x128, .f32⟩ : BufTy).Contents (Elt F) → (⟨S100000x128, .f32⟩ : BufTy).Contents (Elt F) → (⟨S100000x128, .f32⟩ : BufTy).Contents (Elt F)),
    StableHlo.unary main_arg9 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (addf : (⟨S100000x128, .f32⟩ : BufTy).Contents (Elt F) → (⟨S100000x128, .f32⟩ : BufTy).Contents (Elt F) → (⟨S100000x128, .f32⟩ : BufTy).Contents (Elt F)) ]

/-- The buffers those operations write, in order. -/
abbrev cL2_W : List (Ref sig .tc) := [main_cst_23, main_v117, main_v118, main_cst_24, main_v119, main_v120, main_v121, main_v122, main_v123, main_cst_25, main_v124, main_v125, main_cst_26, main_v126, main_v127, main_v128, main_v129, main_cst_27, main_v130, main_v131, main_v132, main_v133, main_v134, main_v135, main_v136, main_v137, main_v138, main_v139, main_v140]

set_option maxRecDepth 8192 in
theorem cL2_writes : (cL2 : List (HloOp τ sig (Elt F))).Forall fun op =>
    op.writes ⊆ (cL2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cL2_keep (W : Valuation τ sig (Elt F)) (r : Ref sig .tc) (h : r ∉ (cL2_W : List (Ref sig .tc))) :
    after cL2 W (Proc.devRef .tc r) = W (Proc.devRef .tc r) :=
  after_of_writes_sub cL2 W cL2_writes h

set_option maxRecDepth 8192 in
set_option maxHeartbeats 4000000 in
/-- After the operations, `main_v140` holds `ln128` of what the operand buffers held before them. -/
theorem cL2_main_v140 (W : Valuation τ sig (Elt F)) :
    after cL2 W (Proc.devRef .tc main_v140) = ln128 (W (Proc.devRef .tc main_v116)) (W (Proc.devRef .tc main_arg8)) (W (Proc.devRef .tc main_arg9)) := by
  simp only [cL2]
  after_results_simp
  rfl

/-- Operations 186 … 200 of the program. -/
abbrev cE2 : List (HloOp τ sig (Elt F)) :=
  [
    StableHlo.TRef.nullary main_call1.cst (constant S_ .f32 0x00000000#32),
    StableHlo.TRef.unary main_call1.cst main_call1.v0 (broadcastInDim S100000x128 ![] bcast_S_S100000x128),
    StableHlo.TRef.binary (.of main_v140) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v140) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v140) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v140) main_call1.v7 main_call1.call1.v0 select ]

/-- The buffers those operations write, in order. -/
abbrev cE2_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v141]

set_option maxRecDepth 8192 in
theorem cE2_writes : (cE2 : List (HloOp τ sig (Elt F))).Forall fun op =>
    op.writes ⊆ (cE2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cE2_keep (W : Valuation τ sig (Elt F)) (r : Ref sig .tc) (h : r ∉ (cE2_W : List (Ref sig .tc))) :
    after cE2 W (Proc.devRef .tc r) = W (Proc.devRef .tc r) :=
  after_of_writes_sub cE2 W cE2_writes h

set_option maxRecDepth 8192 in
set_option maxHeartbeats 4000000 in
/-- After the operations, `main_v141` holds `elu128` of what the operand buffers held before them. -/
theorem cE2_main_v141 (W : Valuation τ sig (Elt F)) :
    after cE2 W (Proc.devRef .tc main_v141) = elu128 (W (Proc.devRef .tc main_v140)) := by
  simp only [cE2]
  after_results_simp
  rfl

end Cert.ReferenceIdeal.RefRun

end
-- ==== Proof.RefRunRead3.lean ====
/- The reference program's operations 201 … 298, cut at the stages' ends: each stretch as a list, the buffers it writes, and its
   result buffer read back as the stage's pure function of what its operand buffers held before the stretch. -/
import proofs.«155585_j22110491640565_1_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 201 … 201 of the program. -/
abbrev cD3 : List (HloOp τ sig (Elt F)) :=
  [
    StableHlo.binary main_v141 main_arg10 main_v142 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The buffers those operations write, in order. -/
abbrev cD3_W : List (Ref sig .tc) := [main_v142]

set_option maxRecDepth 8192 in
theorem cD3_writes : (cD3 : List (HloOp τ sig (Elt F))).Forall fun op =>
    op.writes ⊆ (cD3_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))

/-- A buffer those operations do not write keeps its contents through them. -/
theorem cD3_keep (W : Valuation τ sig (Elt F)) (r : Ref sig .tc) (h : r ∉ (cD3_W : List (Ref sig .tc))) :
    after cD3 W (Proc.devRef .tc r) = W (Proc.devRef .tc r) :=
  after_of_writes_sub cD3 W cD3_writes h

set_option maxRecDepth 8192 in
set_option maxHeartbeats 4000000 in
/-- After the operations, `main_v142` holds `dot3` of what the operand buffers held before them. -/
theorem cD3_main_v142 (W : Valuation τ sig (Elt F)) :
    after cD3 W (Proc.devRef .tc main_v142) = dot3 (W (Proc.devRef .tc main_v141)) (W (Proc.devRef .tc main_arg10)) := by
  simp only [cD3]
  after_results_simp
  rfl

/-- Operations 202 … 254 of the program. -/
abbrev cC3 : List (HloOp τ sig (Elt F)) :=
  [
    StableHlo.nullary main_cst_28 (constant S_ .f32 0x3F800000#32),
    StableHlo.unary main_cst_28 main_v143 (broadcastInDim S1600000 ![] bcast_S_S1600000 : (⟨S_, .f32⟩ : BufTy).Contents (Elt F) → (⟨S1600000, .f32⟩ : BufTy).Contents (Elt F)),
    StableHlo.nullary main_cst_29 (constant S_ .f32 0x00000000#32),
    StableHlo.unary main_cst_29 main_v144 (broadcastInDim S100000 ![] bcast_S_S100000 : (⟨S_, .f32⟩ : BufTy).Contents (Elt F) → (⟨S100000, .f32⟩ : BufTy).Contents (Elt F)),
    StableHlo.unary main_v3 main_v145 (broadcastInDim S1600000x1 ![0] bcast_S1600000_S1600000x1_0 : (⟨S1600000, .i32⟩ : BufTy).Contents (Elt F) → (⟨S1600000x1, .i32⟩ : BufTy).Contents (Elt F)),
    StableHlo.ternary main_v144 main_v145 main_v143 main_v146 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_30 (constant S_ .f32 0x3F800000#32),
    StableHlo.unary main_cst_30 main_v147 (broadcastInDim S100000 ![] bcast_S_S100000 : (⟨S_, .f32⟩ : BufTy).Contents (Elt F) → (⟨S100000, .f32⟩ : BufTy).Contents (Elt F)),
    StableHlo.binary main_v146 main_v147 main_v148 (addf : (⟨S100000, .f32⟩ : BufTy).Contents (Elt F) → (⟨S100000, .f32⟩ : BufTy).Contents (Elt F) → (⟨S100000, .f32⟩ : BufTy).Contents (Elt F)),
    StableHlo.unary main_v148 main_v149 (Host.rsqrt : (⟨S100000, .f32⟩ : BufTy).Contents (Elt F) → (⟨S100000, .f32⟩ : BufTy).Contents (Elt F)),
    StableHlo.nullary main_c_31 (constantI S_ 32 0#32),
    StableHlo.unary main_c_31 main_v150 (broadcastInDim S1600000 ![] bcast_S_S1600000 : (⟨S_, .i32⟩ : BufTy).Contents (Elt F) → (⟨S1600000, .i32⟩ : BufTy).Contents (Elt F)),
    StableHlo.binary main_v1 main_v150 main_v151 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v152 (broadcastInDim S1600000 ![] bcast_S_S1600000 : (⟨S_, .i32⟩ : BufTy).Contents (Elt F) → (⟨S1600000, .i32⟩ : BufTy).Contents (Elt F)),
    StableHlo.binary main_v1 main_v152 main_v153 (addi : (⟨S1600000, .i32⟩ : BufTy).Contents (Elt F) → (⟨S1600000, .i32⟩ : BufTy).Contents (Elt F) → (⟨S1600000, .i32⟩ : BufTy).Contents (Elt F)),
    StableHlo.ternary main_v151 main_v153 main_v1 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v154 main_v155 (broadcastInDim S1600000x1 ![0] bcast_S1600000_S1600000x1_0 : (⟨S1600000, .i32⟩ : BufTy).Contents (Elt F) → (⟨S1600000x1, .i32⟩ : BufTy).Contents (Elt F)),
    StableHlo.binary main_v149 main_v155 main_v156 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_33 (constantI S_ 32 0#32),
    StableHlo.unary main_c_33 main_v157 (broadcastInDim S1600000 ![] bcast_S_S1600000 : (⟨S_, .i32⟩ : BufTy).Contents (Elt F) → (⟨S1600000, .i32⟩ : BufTy).Contents (Elt F)),
    StableHlo.binary main_v3 main_v157 main_v158 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v159 (broadcastInDim S1600000 ![] bcast_S_S1600000 : (⟨S_, .i32⟩ : BufTy).Contents (Elt F) → (⟨S1600000, .i32⟩ : BufTy).Contents (Elt F)),
    StableHlo.binary main_v3 main_v159 main_v160 (addi : (⟨S1600000, .i32⟩ : BufTy).Contents (Elt F) → (⟨S1600000, .i32⟩ : BufTy).Contents (Elt F) → (⟨S1600000, .i32⟩ : BufTy).Contents (Elt F)),
    StableHlo.ternary main_v158 main_v160 main_v3 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v161 main_v162 (broadcastInDim S1600000x1 ![0] bcast_S1600000_S1600000x1_0 : (⟨S1600000, .i32⟩ : BufTy).Contents (Elt F) → (⟨S1600000x1, .i32⟩ : BufTy).Contents (Elt F)),
    StableHlo.binary main_v149 main_v162 main_v163 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v156 main_v163 main_v164 (mulf : (⟨S1600000, .f32⟩ : BufTy).Contents (Elt F) → (⟨S1600000, .f32⟩ : BufTy).Contents (Elt F) → (⟨S1600000, .f32⟩ : BufTy).Contents (Elt F)),
    StableHlo.nullary main_c_35 (constantI S_ 32 0#32),
    StableHlo.unary main_c_35 main_v165 (broadcastInDim S1600000 ![] bcast_S_S1600000 : (⟨S_, .i32⟩ : BufTy).Contents (Elt F) → (⟨S1600000, .i32⟩ : BufTy).Contents (Elt F)),
    StableHlo.binary main_v1 main_v165 main_v166 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 100000#32),
    StableHlo.unary main_c_36 main_v167 (broadcastInDim S1600000 ![] bcast_S_S1600000 : (⟨S_, .i32⟩ : BufTy).Contents (Elt F) → (⟨S1600000, .i32⟩ : BufTy).Contents (Elt F)),
    StableHlo.binary main_v1 main_v167 main_v168 (addi : (⟨S1600000, .i32⟩ : BufTy).Contents (Elt F) → (⟨S1600000, .i32⟩ : BufTy).Contents (Elt F) → (⟨S1600000, .i32⟩ : BufTy).Contents (Elt F)),
    StableHlo.ternary main_v166 main_v168 main_v1 main_v169 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v169 main_v170 (broadcastInDim S1600000x1 ![0] bcast_S1600000_S1600000x1_0 : (⟨S1600000, .i32⟩ : BufTy).Contents (Elt F) → (⟨S1600000x1, .i32⟩ : BufTy).Contents (Elt F)),
    StableHlo.binary main_v142 main_v170 main_v171 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v164 main_v172 (broadcastInDim S1600000x1 ![0] bcast_S1600000_S1600000x1_0 : (⟨S1600000, .f32⟩ : BufTy).Contents (Elt F) → (⟨S1600000x1, .f32⟩ : BufTy).Contents (Elt F)),
    StableHlo.unary main_v172 main_v173 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v171 main_v173 main_v174 (mulf : (⟨S1600000x64, .f32⟩ : BufTy).Contents (Elt F) → (⟨S1600000x64, .f32⟩ : BufTy).Contents (Elt F) → (⟨S1600000x64, .f32⟩ : BufTy).Contents (Elt F)),
    StableHlo.nullary main_cst_37 (constant S_ .f32 0x00000000#32),
    StableHlo.unary main_cst_37 main_v175 (broadcastInDim S100000x64 ![] bcast_S_S100000x64 : (⟨S_, .f32⟩ : BufTy).Contents (Elt F) → (⟨S100000x64, .f32⟩ : BufTy).Contents (Elt F)),
    StableHlo.unary main_v3 main_v176 (broadcastInDim S1600000x1 ![0] bcast_S1600000_S1600000x1_0 : (⟨S1600000, .i32⟩ : BufTy).Contents (Elt F) → (⟨S1600000x1, .i32⟩ : BufTy).Contents (Elt F)),
    StableHlo.ternary main_v175 main_v176 main_v174 main_v177 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v149 main_v149 main_v178 (mulf : (⟨S100000, .f32⟩ : BufTy).Contents (Elt F) → (⟨S100000, .f32⟩ : BufTy).Contents (Elt F) → (⟨S100000, .f32⟩ : BufTy).Contents (Elt F)),
    StableHlo.unary main_v178 main_v179 (broadcastInDim S100000x1 ![0] bcast_S100000_S100000x1_0 : (⟨S100000, .f32⟩ : BufTy).Contents (Elt F) → (⟨S100000x1, .f32⟩ : BufTy).Contents (Elt F)),
    StableHlo.unary main_v179 main_v180 (broadcastInDim S100000x64 ![0, 1] bcast_S100000x1_S100000x64_0_1 : (⟨S100000x1, .f32⟩ : BufTy).Contents (Elt F) → (⟨S100000x64, .f32⟩ : BufTy).Contents (Elt F)),
    StableHlo.binary main_v142 main_v180 main_v181 (mulf : (⟨S100000x64, .f32⟩ : BufTy).Contents (Elt F) → (⟨S100000x64, .f32⟩ : BufTy).Contents (Elt F) → (⟨S100000x64, .f32⟩ : BufTy).Contents (Elt F)),
    StableHlo.binary main_v177 main_v181 main_v182 (addf : (⟨S100000x64, .f32⟩ : BufTy).Contents (Elt F) → (⟨S100000x64, .f32⟩ : BufTy).Contents (Elt F) → (⟨S100000x64, .f32⟩ : BufTy).Contents (Elt F)),
    StableHlo.unary main_arg11 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S100000x64 ![0, 1] bcast_S1x64_S100000x64_0_1 : (⟨S1x64, .f32⟩ : BufTy).Contents (Elt F) → (⟨S100000x64, .f32⟩ : BufTy).Contents (Elt F)),
    StableHlo.binary main_v182 main_v184 main_v185 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev cC3_W : List (Ref sig .tc) := [main_cst_28, main_v143, main_cst_29, main_v144, main_v145, main_v146, main_cst_30, main_v147, main_v148, main_v149, main_c_31, main_v150, main_v151, main_c_32, main_v152, main_v153, main_v154, main_v155, main_v156, main_c_33, main_v157, main_v158, main_c_34, main_v159, main_v160, main_v161, main_v162, main_v163, main_v164, main_c_35, main_v165, main_v166, main_c_36, main_v167, main_v168, main_v169, main_v170, main_v171, main_v172, main_v173, main_v174, main_cst_37, main_v175, main_v176, main_v177, main_v178, main_v179, main_v180, main_v181, main_v182, main_v183, main_v184, main_v185]

set_option maxRecDepth 8192 in
theorem cC3_writes : (cC3 : List (HloOp τ sig (Elt F))).Forall fun op =>
    op.writes ⊆ (cC3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cC3_keep (W : Valuation τ sig (Elt F)) (r : Ref sig .tc) (h : r ∉ (cC3_W : List (Ref sig .tc))) :
    after cC3 W (Proc.devRef .tc r) = W (Proc.devRef .tc r) :=
  after_of_writes_sub cC3 W cC3_writes h

set_option maxRecDepth 8192 in
set_option maxHeartbeats 4000000 in
/-- After the operations, `main_v185` holds `conv64` of what the operand buffers held before them. -/
theorem cC3_main_v185 (W : Valuation τ sig (Elt F)) :
    after cC3 W (Proc.devRef .tc main_v185) = conv64 (W (Proc.devRef .tc main_v1)) (W (Proc.devRef .tc main_v3)) (W (Proc.devRef .tc main_v142)) (W (Proc.devRef .tc main_arg11)) := by
  simp only [cC3]
  after_results_simp
  rfl

/-- Operations 255 … 283 of the program. -/
abbrev cL3 : List (HloOp τ sig (Elt F)) :=
  [
    StableHlo.nullary main_cst_38 (constant S_ .f32 0x00000000#32),
    StableHlo.binary main_v185 main_cst_38 main_v186 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v186 main_v187 (broadcastInDim S100000x1 ![0] bcast_S100000_S100000x1_0 : (⟨S100000, .f32⟩ : BufTy).Contents (Elt F) → (⟨S100000x1, .f32⟩ : BufTy).Contents (Elt F)),
    StableHlo.nullary main_cst_39 (constant S_ .f32 0x42800000#32),
    StableHlo.unary main_cst_39 main_v188 (broadcastInDim S100000x1 ![] bcast_S_S100000x1 : (⟨S_, .f32⟩ : BufTy).Contents (Elt F) → (⟨S100000x1, .f32⟩ : BufTy).Contents (Elt F)),
    StableHlo.binary main_v187 main_v188 main_v189 (Host.divf : (⟨S100000x1, .f32⟩ : BufTy).Contents (Elt F) → (⟨S100000x1, .f32⟩ : BufTy).Contents (Elt F) → (⟨S100000x1, .f32⟩ : BufTy).Contents (Elt F)),
    StableHlo.unary main_v189 main_v190 (broadcastInDim S100000x64 ![0, 1] bcast_S100000x1_S100000x64_0_1 : (⟨S100000x1, .f32⟩ : BufTy).Contents (Elt F) → (⟨S100000x64, .f32⟩ : BufTy).Contents (Elt F)),
    StableHlo.binary main_v185 main_v190 main_v191 (subf : (⟨S100000x64, .f32⟩ : BufTy).Contents (Elt F) → (⟨S100000x64, .f32⟩ : BufTy).Contents (Elt F) → (⟨S100000x64, .f32⟩ : BufTy).Contents (Elt F)),
    StableHlo.binary main_v191 main_v191 main_v192 (mulf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x00000000#32),
    StableHlo.binary main_v192 main_cst_40 main_v193 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v193 main_v194 (broadcastInDim S100000x1 ![0] bcast_S100000_S100000x1_0 : (⟨S100000, .f32⟩ : BufTy).Contents (Elt F) → (⟨S100000x1, .f32⟩ : BufTy).Contents (Elt F)),
    StableHlo.nullary main_cst_41 (constant S_ .f32 0x42800000#32),
    StableHlo.unary main_cst_41 main_v195 (broadcastInDim S100000x1 ![] bcast_S_S100000x1 : (⟨S_, .f32⟩ : BufTy).Contents (Elt F) → (⟨S100000x1, .f32⟩ : BufTy).Contents (Elt F)),
    StableHlo.binary main_v194 main_v195 main_v196 (Host.divf : (⟨S100000x1, .f32⟩ : BufTy).Contents (Elt F) → (⟨S100000x1, .f32⟩ : BufTy).Contents (Elt F) → (⟨S100000x1, .f32⟩ : BufTy).Contents (Elt F)),
    StableHlo.unary main_v189 main_v197 (broadcastInDim S100000x64 ![0, 1] bcast_S100000x1_S100000x64_0_1 : (⟨S100000x1, .f32⟩ : BufTy).Contents (Elt F) → (⟨S100000x64, .f32⟩ : BufTy).Contents (Elt F)),
    StableHlo.binary main_v185 main_v197 main_v198 (subf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v199 (broadcastInDim S100000x1 ![] bcast_S_S100000x1 : (⟨S_, .f32⟩ : BufTy).Contents (Elt F) → (⟨S100000x1, .f32⟩ : BufTy).Contents (Elt F)),
    StableHlo.binary main_v196 main_v199 main_v200 (addf : (⟨S100000x1, .f32⟩ : BufTy).Contents (Elt F) → (⟨S100000x1, .f32⟩ : BufTy).Contents (Elt F) → (⟨S100000x1, .f32⟩ : BufTy).Contents (Elt F)),
    StableHlo.unary main_v200 main_v201 (Host.rsqrt : (⟨S100000x1, .f32⟩ : BufTy).Contents (Elt F) → (⟨S100000x1, .f32⟩ : BufTy).Contents (Elt F)),
    StableHlo.unary main_v201 main_v202 (broadcastInDim S100000x64 ![0, 1] bcast_S100000x1_S100000x64_0_1 : (⟨S100000x1, .f32⟩ : BufTy).Contents (Elt F) → (⟨S100000x64, .f32⟩ : BufTy).Contents (Elt F)),
    StableHlo.binary main_v198 main_v202 main_v203 (mulf : (⟨S100000x64, .f32⟩ : BufTy).Contents (Elt F) → (⟨S100000x64, .f32⟩ : BufTy).Contents (Elt F) → (⟨S100000x64, .f32⟩ : BufTy).Contents (Elt F)),
    StableHlo.unary main_arg12 main_v204 (broadcastInDim S1x64 ![1] bcast_S64_S1x64_1 : (⟨S64, .f32⟩ : BufTy).Contents (Elt F) → (⟨S1x64, .f32⟩ : BufTy).Contents (Elt F)),
    StableHlo.unary main_v204 main_v205 (broadcastInDim S100000x64 ![0, 1] bcast_S1x64_S100000x64_0_1 : (⟨S1x64, .f32⟩ : BufTy).Contents (Elt F) → (⟨S100000x64, .f32⟩ : BufTy).Contents (Elt F)),
    StableHlo.binary main_v203 main_v205 main_v206 (mulf : (⟨S100000x64, .f32⟩ : BufTy).Contents (Elt F) → (⟨S100000x64, .f32⟩ : BufTy).Contents (Elt F) → (⟨S100000x64, .f32⟩ : BufTy).Contents (Elt F)),
    StableHlo.unary main_arg13 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S100000x64 ![0, 1] bcast_S1x64_S100000x64_0_1 : (⟨S1x64, .f32⟩ : BufTy).Contents (Elt F) → (⟨S100000x64, .f32⟩ : BufTy).Contents (Elt F)),
    StableHlo.binary main_v206 main_v208 main_v209 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev cL3_W : List (Ref sig .tc) := [main_cst_38, main_v186, main_v187, main_cst_39, main_v188, main_v189, main_v190, main_v191, main_v192, main_cst_40, main_v193, main_v194, main_cst_41, main_v195, main_v196, main_v197, main_v198, main_cst_42, main_v199, main_v200, main_v201, main_v202, main_v203, main_v204, main_v205, main_v206, main_v207, main_v208, main_v209]

set_option maxRecDepth 8192 in
theorem cL3_writes : (cL3 : List (HloOp τ sig (Elt F))).Forall fun op =>
    op.writes ⊆ (cL3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cL3_keep (W : Valuation τ sig (Elt F)) (r : Ref sig .tc) (h : r ∉ (cL3_W : List (Ref sig .tc))) :
    after cL3 W (Proc.devRef .tc r) = W (Proc.devRef .tc r) :=
  after_of_writes_sub cL3 W cL3_writes h

set_option maxRecDepth 8192 in
set_option maxHeartbeats 4000000 in
/-- After the operations, `main_v209` holds `ln64` of what the operand buffers held before them. -/
theorem cL3_main_v209 (W : Valuation τ sig (Elt F)) :
    after cL3 W (Proc.devRef .tc main_v209) = ln64 (W (Proc.devRef .tc main_v185)) (W (Proc.devRef .tc main_arg12)) (W (Proc.devRef .tc main_arg13)) := by
  simp only [cL3]
  after_results_simp
  rfl

/-- Operations 284 … 298 of the program. -/
abbrev cE3 : List (HloOp τ sig (Elt F)) :=
  [
    StableHlo.TRef.nullary main_call2.cst (constant S_ .f32 0x00000000#32),
    StableHlo.TRef.unary main_call2.cst main_call2.v0 (broadcastInDim S100000x64 ![] bcast_S_S100000x64),
    StableHlo.TRef.binary (.of main_v209) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v209) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v209) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v209) main_call2.v7 main_call2.call1.v0 select ]

/-- The buffers those operations write, in order. -/
abbrev cE3_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v210]

set_option maxRecDepth 8192 in
theorem cE3_writes : (cE3 : List (HloOp τ sig (Elt F))).Forall fun op =>
    op.writes ⊆ (cE3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cE3_keep (W : Valuation τ sig (Elt F)) (r : Ref sig .tc) (h : r ∉ (cE3_W : List (Ref sig .tc))) :
    after cE3 W (Proc.devRef .tc r) = W (Proc.devRef .tc r) :=
  after_of_writes_sub cE3 W cE3_writes h

set_option maxRecDepth 8192 in
set_option maxHeartbeats 4000000 in
/-- After the operations, `main_v210` holds `elu64` of what the operand buffers held before them. -/
theorem cE3_main_v210 (W : Valuation τ sig (Elt F)) :
    after cE3 W (Proc.devRef .tc main_v210) = elu64 (W (Proc.devRef .tc main_v209)) := by
  simp only [cE3]
  after_results_simp
  rfl

end Cert.ReferenceIdeal.RefRun

end
-- ==== Proof.RefRunRead4.lean ====
/- The reference program's operations 299 … 350, cut at the stages' ends: each stretch as a list, the buffers it writes, and its
   result buffer read back as the stage's pure function of what its operand buffers held before the stretch. -/
import proofs.«155585_j22110491640565_1_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 299 … 302 of the program. -/
abbrev cD4 : List (HloOp τ sig (Elt F)) :=
  [
    StableHlo.binary main_v210 main_arg14 main_v211 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg15 main_v212 (broadcastInDim S1x32 ![1] bcast_S32_S1x32_1 : (⟨S32, .f32⟩ : BufTy).Contents (Elt F) → (⟨S1x32, .f32⟩ : BufTy).Contents (Elt F)),
    StableHlo.unary main_v212 main_v213 (broadcastInDim S100000x32 ![0, 1] bcast_S1x32_S100000x32_0_1 : (⟨S1x32, .f32⟩ : BufTy).Contents (Elt F) → (⟨S100000x32, .f32⟩ : BufTy).Contents (Elt F)),
    StableHlo.binary main_v211 main_v213 main_v214 (addf : (⟨S100000x32, .f32⟩ : BufTy).Contents (Elt F) → (⟨S100000x32, .f32⟩ : BufTy).Contents (Elt F) → (⟨S100000x32, .f32⟩ : BufTy).Contents (Elt F)) ]

/-- The buffers those operations write, in order. -/
abbrev cD4_W : List (Ref sig .tc) := [main_v211, main_v212, main_v213, main_v214]

set_option maxRecDepth 8192 in
theorem cD4_writes : (cD4 : List (HloOp τ sig (Elt F))).Forall fun op =>
    op.writes ⊆ (cD4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cD4_keep (W : Valuation τ sig (Elt F)) (r : Ref sig .tc) (h : r ∉ (cD4_W : List (Ref sig .tc))) :
    after cD4 W (Proc.devRef .tc r) = W (Proc.devRef .tc r) :=
  after_of_writes_sub cD4 W cD4_writes h

set_option maxRecDepth 8192 in
set_option maxHeartbeats 4000000 in
/-- After the operations, `main_v214` holds `dot4b` of what the operand buffers held before them. -/
theorem cD4_main_v214 (W : Valuation τ sig (Elt F)) :
    after cD4 W (Proc.devRef .tc main_v214) = dot4b (W (Proc.devRef .tc main_v210)) (W (Proc.devRef .tc main_arg14)) (W (Proc.devRef .tc main_arg15)) := by
  simp only [cD4]
  after_results_simp
  rfl

/-- Operations 303 … 331 of the program. -/
abbrev cL4 : List (HloOp τ sig (Elt F)) :=
  [
    StableHlo.nullary main_cst_43 (constant S_ .f32 0x00000000#32),
    StableHlo.binary main_v214 main_cst_43 main_v215 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v215 main_v216 (broadcastInDim S100000x1 ![0] bcast_S100000_S100000x1_0 : (⟨S100000, .f32⟩ : BufTy).Contents (Elt F) → (⟨S100000x1, .f32⟩ : BufTy).Contents (Elt F)),
    StableHlo.nullary main_cst_44 (constant S_ .f32 0x42000000#32),
    StableHlo.unary main_cst_44 main_v217 (broadcastInDim S100000x1 ![] bcast_S_S100000x1 : (⟨S_, .f32⟩ : BufTy).Contents (Elt F) → (⟨S100000x1, .f32⟩ : BufTy).Contents (Elt F)),
    StableHlo.binary main_v216 main_v217 main_v218 (Host.divf : (⟨S100000x1, .f32⟩ : BufTy).Contents (Elt F) → (⟨S100000x1, .f32⟩ : BufTy).Contents (Elt F) → (⟨S100000x1, .f32⟩ : BufTy).Contents (Elt F)),
    StableHlo.unary main_v218 main_v219 (broadcastInDim S100000x32 ![0, 1] bcast_S100000x1_S100000x32_0_1 : (⟨S100000x1, .f32⟩ : BufTy).Contents (Elt F) → (⟨S100000x32, .f32⟩ : BufTy).Contents (Elt F)),
    StableHlo.binary main_v214 main_v219 main_v220 (subf : (⟨S100000x32, .f32⟩ : BufTy).Contents (Elt F) → (⟨S100000x32, .f32⟩ : BufTy).Contents (Elt F) → (⟨S100000x32, .f32⟩ : BufTy).Contents (Elt F)),
    StableHlo.binary main_v220 main_v220 main_v221 (mulf : (⟨S100000x32, .f32⟩ : BufTy).Contents (Elt F) → (⟨S100000x32, .f32⟩ : BufTy).Contents (Elt F) → (⟨S100000x32, .f32⟩ : BufTy).Contents (Elt F)),
    StableHlo.nullary main_cst_45 (constant S_ .f32 0x00000000#32),
    StableHlo.binary main_v221 main_cst_45 main_v222 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v222 main_v223 (broadcastInDim S100000x1 ![0] bcast_S100000_S100000x1_0 : (⟨S100000, .f32⟩ : BufTy).Contents (Elt F) → (⟨S100000x1, .f32⟩ : BufTy).Contents (Elt F)),
    StableHlo.nullary main_cst_46 (constant S_ .f32 0x42000000#32),
    StableHlo.unary main_cst_46 main_v224 (broadcastInDim S100000x1 ![] bcast_S_S100000x1 : (⟨S_, .f32⟩ : BufTy).Contents (Elt F) → (⟨S100000x1, .f32⟩ : BufTy).Contents (Elt F)),
    StableHlo.binary main_v223 main_v224 main_v225 (Host.divf : (⟨S100000x1, .f32⟩ : BufTy).Contents (Elt F) → (⟨S100000x1, .f32⟩ : BufTy).Contents (Elt F) → (⟨S100000x1, .f32⟩ : BufTy).Contents (Elt F)),
    StableHlo.unary main_v218 main_v226 (broadcastInDim S100000x32 ![0, 1] bcast_S100000x1_S100000x32_0_1 : (⟨S100000x1, .f32⟩ : BufTy).Contents (Elt F) → (⟨S100000x32, .f32⟩ : BufTy).Contents (Elt F)),
    StableHlo.binary main_v214 main_v226 main_v227 (subf : (⟨S100000x32, .f32⟩ : BufTy).Contents (Elt F) → (⟨S100000x32, .f32⟩ : BufTy).Contents (Elt F) → (⟨S100000x32, .f32⟩ : BufTy).Contents (Elt F)),
    StableHlo.nullary main_cst_47 (constant S_ .f32 0x3727C5AC#32),
    StableHlo.unary main_cst_47 main_v228 (broadcastInDim S100000x1 ![] bcast_S_S100000x1 : (⟨S_, .f32⟩ : BufTy).Contents (Elt F) → (⟨S100000x1, .f32⟩ : BufTy).Contents (Elt F)),
    StableHlo.binary main_v225 main_v228 main_v229 (addf : (⟨S100000x1, .f32⟩ : BufTy).Contents (Elt F) → (⟨S100000x1, .f32⟩ : BufTy).Contents (Elt F) → (⟨S100000x1, .f32⟩ : BufTy).Contents (Elt F)),
    StableHlo.unary main_v229 main_v230 (Host.rsqrt : (⟨S100000x1, .f32⟩ : BufTy).Contents (Elt F) → (⟨S100000x1, .f32⟩ : BufTy).Contents (Elt F)),
    StableHlo.unary main_v230 main_v231 (broadcastInDim S100000x32 ![0, 1] bcast_S100000x1_S100000x32_0_1 : (⟨S100000x1, .f32⟩ : BufTy).Contents (Elt F) → (⟨S100000x32, .f32⟩ : BufTy).Contents (Elt F)),
    StableHlo.binary main_v227 main_v231 main_v232 (mulf : (⟨S100000x32, .f32⟩ : BufTy).Contents (Elt F) → (⟨S100000x32, .f32⟩ : BufTy).Contents (Elt F) → (⟨S100000x32, .f32⟩ : BufTy).Contents (Elt F)),
    StableHlo.unary main_arg16 main_v233 (broadcastInDim S1x32 ![1] bcast_S32_S1x32_1 : (⟨S32, .f32⟩ : BufTy).Contents (Elt F) → (⟨S1x32, .f32⟩ : BufTy).Contents (Elt F)),
    StableHlo.unary main_v233 main_v234 (broadcastInDim S100000x32 ![0, 1] bcast_S1x32_S100000x32_0_1 : (⟨S1x32, .f32⟩ : BufTy).Contents (Elt F) → (⟨S100000x32, .f32⟩ : BufTy).Contents (Elt F)),
    StableHlo.binary main_v232 main_v234 main_v235 (mulf : (⟨S100000x32, .f32⟩ : BufTy).Contents (Elt F) → (⟨S100000x32, .f32⟩ : BufTy).Contents (Elt F) → (⟨S100000x32, .f32⟩ : BufTy).Contents (Elt F)),
    StableHlo.unary main_arg17 main_v236 (broadcastInDim S1x32 ![1] bcast_S32_S1x32_1 : (⟨S32, .f32⟩ : BufTy).Contents (Elt F) → (⟨S1x32, .f32⟩ : BufTy).Contents (Elt F)),
    StableHlo.unary main_v236 main_v237 (broadcastInDim S100000x32 ![0, 1] bcast_S1x32_S100000x32_0_1 : (⟨S1x32, .f32⟩ : BufTy).Contents (Elt F) → (⟨S100000x32, .f32⟩ : BufTy).Contents (Elt F)),
    StableHlo.binary main_v235 main_v237 main_v238 (addf : (⟨S100000x32, .f32⟩ : BufTy).Contents (Elt F) → (⟨S100000x32, .f32⟩ : BufTy).Contents (Elt F) → (⟨S100000x32, .f32⟩ : BufTy).Contents (Elt F)) ]

/-- The buffers those operations write, in order. -/
abbrev cL4_W : List (Ref sig .tc) := [main_cst_43, main_v215, main_v216, main_cst_44, main_v217, main_v218, main_v219, main_v220, main_v221, main_cst_45, main_v222, main_v223, main_cst_46, main_v224, main_v225, main_v226, main_v227, main_cst_47, main_v228, main_v229, main_v230, main_v231, main_v232, main_v233, main_v234, main_v235, main_v236, main_v237, main_v238]

set_option maxRecDepth 8192 in
theorem cL4_writes : (cL4 : List (HloOp τ sig (Elt F))).Forall fun op =>
    op.writes ⊆ (cL4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cL4_keep (W : Valuation τ sig (Elt F)) (r : Ref sig .tc) (h : r ∉ (cL4_W : List (Ref sig .tc))) :
    after cL4 W (Proc.devRef .tc r) = W (Proc.devRef .tc r) :=
  after_of_writes_sub cL4 W cL4_writes h

set_option maxRecDepth 8192 in
set_option maxHeartbeats 4000000 in
/-- After the operations, `main_v238` holds `ln32` of what the operand buffers held before them. -/
theorem cL4_main_v238 (W : Valuation τ sig (Elt F)) :
    after cL4 W (Proc.devRef .tc main_v238) = ln32 (W (Proc.devRef .tc main_v214)) (W (Proc.devRef .tc main_arg16)) (W (Proc.devRef .tc main_arg17)) := by
  simp only [cL4]
  after_results_simp
  rfl

/-- Operations 332 … 346 of the program. -/
abbrev cE4 : List (HloOp τ sig (Elt F)) :=
  [
    StableHlo.TRef.nullary main_call3.cst (constant S_ .f32 0x00000000#32),
    StableHlo.TRef.unary main_call3.cst main_call3.v0 (broadcastInDim S100000x32 ![] bcast_S_S100000x32),
    StableHlo.TRef.binary (.of main_v238) main_call3.v0 main_call3.v1 (cmpf .ogt),
    StableHlo.TRef.nullary main_call3.cst_0 (constant S_ .f32 0x00000000#32),
    StableHlo.TRef.unary main_call3.cst_0 main_call3.v2 (broadcastInDim S100000x32 ![] bcast_S_S100000x32),
    StableHlo.TRef.binary (.of main_v238) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x32 ![] bcast_S_S100000x32),
    StableHlo.TRef.ternary main_call3.v3 main_call3.call0.v1 (.of main_v238) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x32 ![] bcast_S_S100000x32),
    StableHlo.TRef.binary main_call3.v6 main_call3.v5 main_call3.v7 mulf,
    StableHlo.TRef.ternary main_call3.v1 (.of main_v238) main_call3.v7 main_call3.call1.v0 select ]

/-- The buffers those operations write, in order. -/
abbrev cE4_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v239]

set_option maxRecDepth 8192 in
theorem cE4_writes : (cE4 : List (HloOp τ sig (Elt F))).Forall fun op =>
    op.writes ⊆ (cE4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cE4_keep (W : Valuation τ sig (Elt F)) (r : Ref sig .tc) (h : r ∉ (cE4_W : List (Ref sig .tc))) :
    after cE4 W (Proc.devRef .tc r) = W (Proc.devRef .tc r) :=
  after_of_writes_sub cE4 W cE4_writes h

set_option maxRecDepth 8192 in
set_option maxHeartbeats 4000000 in
/-- After the operations, `main_v239` holds `elu32` of what the operand buffers held before them. -/
theorem cE4_main_v239 (W : Valuation τ sig (Elt F)) :
    after cE4 W (Proc.devRef .tc main_v239) = elu32 (W (Proc.devRef .tc main_v238)) := by
  simp only [cE4]
  after_results_simp
  rfl

/-- Operations 347 … 350 of the program. -/
abbrev cD5 : List (HloOp τ sig (Elt F)) :=
  [
    StableHlo.binary main_v239 main_arg18 main_v240 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg19 main_v241 (broadcastInDim S1x32 ![1] bcast_S32_S1x32_1 : (⟨S32, .f32⟩ : BufTy).Contents (Elt F) → (⟨S1x32, .f32⟩ : BufTy).Contents (Elt F)),
    StableHlo.unary main_v241 main_v242 (broadcastInDim S100000x32 ![0, 1] bcast_S1x32_S100000x32_0_1 : (⟨S1x32, .f32⟩ : BufTy).Contents (Elt F) → (⟨S100000x32, .f32⟩ : BufTy).Contents (Elt F)),
    StableHlo.binary main_v240 main_v242 main_v243 (addf : (⟨S100000x32, .f32⟩ : BufTy).Contents (Elt F) → (⟨S100000x32, .f32⟩ : BufTy).Contents (Elt F) → (⟨S100000x32, .f32⟩ : BufTy).Contents (Elt F)) ]

/-- The buffers those operations write, in order. -/
abbrev cD5_W : List (Ref sig .tc) := [main_v240, main_v241, main_v242, main_v243]

set_option maxRecDepth 8192 in
theorem cD5_writes : (cD5 : List (HloOp τ sig (Elt F))).Forall fun op =>
    op.writes ⊆ (cD5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer those operations do not write keeps its contents through them. -/
theorem cD5_keep (W : Valuation τ sig (Elt F)) (r : Ref sig .tc) (h : r ∉ (cD5_W : List (Ref sig .tc))) :
    after cD5 W (Proc.devRef .tc r) = W (Proc.devRef .tc r) :=
  after_of_writes_sub cD5 W cD5_writes h

set_option maxRecDepth 8192 in
set_option maxHeartbeats 4000000 in
/-- After the operations, `main_v243` holds `dot5b` of what the operand buffers held before them. -/
theorem cD5_main_v243 (W : Valuation τ sig (Elt F)) :
    after cD5 W (Proc.devRef .tc main_v243) = dot5b (W (Proc.devRef .tc main_v239)) (W (Proc.devRef .tc main_arg18)) (W (Proc.devRef .tc main_arg19)) := by
  simp only [cD5]
  after_results_simp
  rfl

end Cert.ReferenceIdeal.RefRun

end
-- ==== Proof.RefRunRead.lean ====
/- The reference program's result read back: the fold of its operations at the result buffer is the program's pure
   function `out` of the twenty arguments' contents. The operation list is cut at the stages' ends; the contents after
   each stretch are followed buffer by buffer — a stretch's result is its stage of the operands' contents before it,
   every other live buffer is untouched by it — down to the launch contents. -/
import proofs.«155585_j22110491640565_1_alg».proof.Proof.RefRun
import proofs.«155585_j22110491640565_1_alg».proof.Proof.RefRunRead1
import proofs.«155585_j22110491640565_1_alg».proof.Proof.RefRunRead2
import proofs.«155585_j22110491640565_1_alg».proof.Proof.RefRunRead3
import proofs.«155585_j22110491640565_1_alg».proof.Proof.RefRunRead4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations are the stretches' lists, concatenated. -/
theorem ops_chunks : (ops : List (HloOp τ sig (Elt F))) = cA ++ (cD1 ++ (cC1 ++ (cL1 ++ (cE1 ++ (cD2 ++ (cC2 ++ (cL2 ++ (cE2 ++ (cD3 ++ (cC3 ++ (cL3 ++ (cE3 ++ (cD4 ++ (cL4 ++ (cE4 ++ (cD5)))))))))))))))) := rfl

/-- The buffer contents before the first stretch. -/
def P0 (V : Valuation τ sig (Elt F)) : Valuation τ sig (Elt F) := V
/-- The buffer contents after the first 1 stretch. -/
def P1 (V : Valuation τ sig (Elt F)) : Valuation τ sig (Elt F) := after cA (P0 V)
/-- The buffer contents after the first 2 stretches. -/
def P2 (V : Valuation τ sig (Elt F)) : Valuation τ sig (Elt F) := after cD1 (P1 V)
/-- The buffer contents after the first 3 stretches. -/
def P3 (V : Valuation τ sig (Elt F)) : Valuation τ sig (Elt F) := after cC1 (P2 V)
/-- The buffer contents after the first 4 stretches. -/
def P4 (V : Valuation τ sig (Elt F)) : Valuation τ sig (Elt F) := after cL1 (P3 V)
/-- The buffer contents after the first 5 stretches. -/
def P5 (V : Valuation τ sig (Elt F)) : Valuation τ sig (Elt F) := after cE1 (P4 V)
/-- The buffer contents after the first 6 stretches. -/
def P6 (V : Valuation τ sig (Elt F)) : Valuation τ sig (Elt F) := after cD2 (P5 V)
/-- The buffer contents after the first 7 stretches. -/
def P7 (V : Valuation τ sig (Elt F)) : Valuation τ sig (Elt F) := after cC2 (P6 V)
/-- The buffer contents after the first 8 stretches. -/
def P8 (V : Valuation τ sig (Elt F)) : Valuation τ sig (Elt F) := after cL2 (P7 V)
/-- The buffer contents after the first 9 stretches. -/
def P9 (V : Valuation τ sig (Elt F)) : Valuation τ sig (Elt F) := after cE2 (P8 V)
/-- The buffer contents after the first 10 stretches. -/
def P10 (V : Valuation τ sig (Elt F)) : Valuation τ sig (Elt F) := after cD3 (P9 V)
/-- The buffer contents after the first 11 stretches. -/
def P11 (V : Valuation τ sig (Elt F)) : Valuation τ sig (Elt F) := after cC3 (P10 V)
/-- The buffer contents after the first 12 stretches. -/
def P12 (V : Valuation τ sig (Elt F)) : Valuation τ sig (Elt F) := after cL3 (P11 V)
/-- The buffer contents after the first 13 stretches. -/
def P13 (V : Valuation τ sig (Elt F)) : Valuation τ sig (Elt F) := after cE3 (P12 V)
/-- The buffer contents after the first 14 stretches. -/
def P14 (V : Valuation τ sig (Elt F)) : Valuation τ sig (Elt F) := after cD4 (P13 V)
/-- The buffer contents after the first 15 stretches. -/
def P15 (V : Valuation τ sig (Elt F)) : Valuation τ sig (Elt F) := after cL4 (P14 V)
/-- The buffer contents after the first 16 stretches. -/
def P16 (V : Valuation τ sig (Elt F)) : Valuation τ sig (Elt F) := after cE4 (P15 V)
/-- The buffer contents after the first 17 stretches. -/
def P17 (V : Valuation τ sig (Elt F)) : Valuation τ sig (Elt F) := after cD5 (P16 V)

/-- The fold over the whole list is the fold over the stretches in turn. -/
theorem after_ops_P (V : Valuation τ sig (Elt F)) : after ops V = P17 V := by
  rw [ops_chunks, after_app, after_app, after_app, after_app, after_app, after_app, after_app, after_app, after_app, after_app, after_app, after_app, after_app, after_app, after_app, after_app]
  rfl
theorem P0_main_arg0 (V : Valuation τ sig (Elt F)) :
    P0 V (Proc.devRef .tc main_arg0) = V (Proc.devRef .tc main_arg0) := rfl
theorem P0_main_arg1 (V : Valuation τ sig (Elt F)) :
    P0 V (Proc.devRef .tc main_arg1) = V (Proc.devRef .tc main_arg1) := rfl
theorem P0_main_arg2 (V : Valuation τ sig (Elt F)) :
    P0 V (Proc.devRef .tc main_arg2) = V (Proc.devRef .tc main_arg2) := rfl
theorem P0_main_arg3 (V : Valuation τ sig (Elt F)) :
    P0 V (Proc.devRef .tc main_arg3) = V (Proc.devRef .tc main_arg3) := rfl
theorem P0_main_arg4 (V : Valuation τ sig (Elt F)) :
    P0 V (Proc.devRef .tc main_arg4) = V (Proc.devRef .tc main_arg4) := rfl
theorem P0_main_arg5 (V : Valuation τ sig (Elt F)) :
    P0 V (Proc.devRef .tc main_arg5) = V (Proc.devRef .tc main_arg5) := rfl
theorem P0_main_arg6 (V : Valuation τ sig (Elt F)) :
    P0 V (Proc.devRef .tc main_arg6) = V (Proc.devRef .tc main_arg6) := rfl
theorem P0_main_arg7 (V : Valuation τ sig (Elt F)) :
    P0 V (Proc.devRef .tc main_arg7) = V (Proc.devRef .tc main_arg7) := rfl
theorem P0_main_arg8 (V : Valuation τ sig (Elt F)) :
    P0 V (Proc.devRef .tc main_arg8) = V (Proc.devRef .tc main_arg8) := rfl
theorem P0_main_arg9 (V : Valuation τ sig (Elt F)) :
    P0 V (Proc.devRef .tc main_arg9) = V (Proc.devRef .tc main_arg9) := rfl
theorem P0_main_arg10 (V : Valuation τ sig (Elt F)) :
    P0 V (Proc.devRef .tc main_arg10) = V (Proc.devRef .tc main_arg10) := rfl
theorem P0_main_arg11 (V : Valuation τ sig (Elt F)) :
    P0 V (Proc.devRef .tc main_arg11) = V (Proc.devRef .tc main_arg11) := rfl
theorem P0_main_arg12 (V : Valuation τ sig (Elt F)) :
    P0 V (Proc.devRef .tc main_arg12) = V (Proc.devRef .tc main_arg12) := rfl
theorem P0_main_arg13 (V : Valuation τ sig (Elt F)) :
    P0 V (Proc.devRef .tc main_arg13) = V (Proc.devRef .tc main_arg13) := rfl
theorem P0_main_arg14 (V : Valuation τ sig (Elt F)) :
    P0 V (Proc.devRef .tc main_arg14) = V (Proc.devRef .tc main_arg14) := rfl
theorem P0_main_arg15 (V : Valuation τ sig (Elt F)) :
    P0 V (Proc.devRef .tc main_arg15) = V (Proc.devRef .tc main_arg15) := rfl
theorem P0_main_arg16 (V : Valuation τ sig (Elt F)) :
    P0 V (Proc.devRef .tc main_arg16) = V (Proc.devRef .tc main_arg16) := rfl
theorem P0_main_arg17 (V : Valuation τ sig (Elt F)) :
    P0 V (Proc.devRef .tc main_arg17) = V (Proc.devRef .tc main_arg17) := rfl
theorem P0_main_arg18 (V : Valuation τ sig (Elt F)) :
    P0 V (Proc.devRef .tc main_arg18) = V (Proc.devRef .tc main_arg18) := rfl
theorem P0_main_arg19 (V : Valuation τ sig (Elt F)) :
    P0 V (Proc.devRef .tc main_arg19) = V (Proc.devRef .tc main_arg19) := rfl
theorem P1_main_arg0 (V : Valuation τ sig (Elt F)) :
    P1 V (Proc.devRef .tc main_arg0) = V (Proc.devRef .tc main_arg0) := by
  rw [P1]
  exact (cA_keep (P0 V) main_arg0 (by decide)).trans (P0_main_arg0 V)
theorem P1_main_arg2 (V : Valuation τ sig (Elt F)) :
    P1 V (Proc.devRef .tc main_arg2) = V (Proc.devRef .tc main_arg2) := by
  rw [P1]
  exact (cA_keep (P0 V) main_arg2 (by decide)).trans (P0_main_arg2 V)
theorem P1_main_arg3 (V : Valuation τ sig (Elt F)) :
    P1 V (Proc.devRef .tc main_arg3) = V (Proc.devRef .tc main_arg3) := by
  rw [P1]
  exact (cA_keep (P0 V) main_arg3 (by decide)).trans (P0_main_arg3 V)
theorem P1_main_arg4 (V : Valuation τ sig (Elt F)) :
    P1 V (Proc.devRef .tc main_arg4) = V (Proc.devRef .tc main_arg4) := by
  rw [P1]
  exact (cA_keep (P0 V) main_arg4 (by decide)).trans (P0_main_arg4 V)
theorem P1_main_arg5 (V : Valuation τ sig (Elt F)) :
    P1 V (Proc.devRef .tc main_arg5) = V (Proc.devRef .tc main_arg5) := by
  rw [P1]
  exact (cA_keep (P0 V) main_arg5 (by decide)).trans (P0_main_arg5 V)
theorem P1_main_arg6 (V : Valuation τ sig (Elt F)) :
    P1 V (Proc.devRef .tc main_arg6) = V (Proc.devRef .tc main_arg6) := by
  rw [P1]
  exact (cA_keep (P0 V) main_arg6 (by decide)).trans (P0_main_arg6 V)
theorem P1_main_arg7 (V : Valuation τ sig (Elt F)) :
    P1 V (Proc.devRef .tc main_arg7) = V (Proc.devRef .tc main_arg7) := by
  rw [P1]
  exact (cA_keep (P0 V) main_arg7 (by decide)).trans (P0_main_arg7 V)
theorem P1_main_arg8 (V : Valuation τ sig (Elt F)) :
    P1 V (Proc.devRef .tc main_arg8) = V (Proc.devRef .tc main_arg8) := by
  rw [P1]
  exact (cA_keep (P0 V) main_arg8 (by decide)).trans (P0_main_arg8 V)
theorem P1_main_arg9 (V : Valuation τ sig (Elt F)) :
    P1 V (Proc.devRef .tc main_arg9) = V (Proc.devRef .tc main_arg9) := by
  rw [P1]
  exact (cA_keep (P0 V) main_arg9 (by decide)).trans (P0_main_arg9 V)
theorem P1_main_arg10 (V : Valuation τ sig (Elt F)) :
    P1 V (Proc.devRef .tc main_arg10) = V (Proc.devRef .tc main_arg10) := by
  rw [P1]
  exact (cA_keep (P0 V) main_arg10 (by decide)).trans (P0_main_arg10 V)
theorem P1_main_arg11 (V : Valuation τ sig (Elt F)) :
    P1 V (Proc.devRef .tc main_arg11) = V (Proc.devRef .tc main_arg11) := by
  rw [P1]
  exact (cA_keep (P0 V) main_arg11 (by decide)).trans (P0_main_arg11 V)
theorem P1_main_arg12 (V : Valuation τ sig (Elt F)) :
    P1 V (Proc.devRef .tc main_arg12) = V (Proc.devRef .tc main_arg12) := by
  rw [P1]
  exact (cA_keep (P0 V) main_arg12 (by decide)).trans (P0_main_arg12 V)
theorem P1_main_arg13 (V : Valuation τ sig (Elt F)) :
    P1 V (Proc.devRef .tc main_arg13) = V (Proc.devRef .tc main_arg13) := by
  rw [P1]
  exact (cA_keep (P0 V) main_arg13 (by decide)).trans (P0_main_arg13 V)
theorem P1_main_arg14 (V : Valuation τ sig (Elt F)) :
    P1 V (Proc.devRef .tc main_arg14) = V (Proc.devRef .tc main_arg14) := by
  rw [P1]
  exact (cA_keep (P0 V) main_arg14 (by decide)).trans (P0_main_arg14 V)
theorem P1_main_arg15 (V : Valuation τ sig (Elt F)) :
    P1 V (Proc.devRef .tc main_arg15) = V (Proc.devRef .tc main_arg15) := by
  rw [P1]
  exact (cA_keep (P0 V) main_arg15 (by decide)).trans (P0_main_arg15 V)
theorem P1_main_arg16 (V : Valuation τ sig (Elt F)) :
    P1 V (Proc.devRef .tc main_arg16) = V (Proc.devRef .tc main_arg16) := by
  rw [P1]
  exact (cA_keep (P0 V) main_arg16 (by decide)).trans (P0_main_arg16 V)
theorem P1_main_arg17 (V : Valuation τ sig (Elt F)) :
    P1 V (Proc.devRef .tc main_arg17) = V (Proc.devRef .tc main_arg17) := by
  rw [P1]
  exact (cA_keep (P0 V) main_arg17 (by decide)).trans (P0_main_arg17 V)
theorem P1_main_arg18 (V : Valuation τ sig (Elt F)) :
    P1 V (Proc.devRef .tc main_arg18) = V (Proc.devRef .tc main_arg18) := by
  rw [P1]
  exact (cA_keep (P0 V) main_arg18 (by decide)).trans (P0_main_arg18 V)
theorem P1_main_arg19 (V : Valuation τ sig (Elt F)) :
    P1 V (Proc.devRef .tc main_arg19) = V (Proc.devRef .tc main_arg19) := by
  rw [P1]
  exact (cA_keep (P0 V) main_arg19 (by decide)).trans (P0_main_arg19 V)
theorem P1_main_v1 (V : Valuation τ sig (Elt F)) :
    P1 V (Proc.devRef .tc main_v1) = srcOf (V (Proc.devRef .tc main_arg1)) := by
  rw [P1, cA_main_v1, P0_main_arg1]
theorem P1_main_v3 (V : Valuation τ sig (Elt F)) :
    P1 V (Proc.devRef .tc main_v3) = dstOf (V (Proc.devRef .tc main_arg1)) := by
  rw [P1, cA_main_v3, P0_main_arg1]
theorem P2_main_arg3 (V : Valuation τ sig (Elt F)) :
    P2 V (Proc.devRef .tc main_arg3) = V (Proc.devRef .tc main_arg3) := by
  rw [P2]
  exact (cD1_keep (P1 V) main_arg3 (by decide)).trans (P1_main_arg3 V)
theorem P2_main_arg4 (V : Valuation τ sig (Elt F)) :
    P2 V (Proc.devRef .tc main_arg4) = V (Proc.devRef .tc main_arg4) := by
  rw [P2]
  exact (cD1_keep (P1 V) main_arg4 (by decide)).trans (P1_main_arg4 V)
theorem P2_main_arg5 (V : Valuation τ sig (Elt F)) :
    P2 V (Proc.devRef .tc main_arg5) = V (Proc.devRef .tc main_arg5) := by
  rw [P2]
  exact (cD1_keep (P1 V) main_arg5 (by decide)).trans (P1_main_arg5 V)
theorem P2_main_arg6 (V : Valuation τ sig (Elt F)) :
    P2 V (Proc.devRef .tc main_arg6) = V (Proc.devRef .tc main_arg6) := by
  rw [P2]
  exact (cD1_keep (P1 V) main_arg6 (by decide)).trans (P1_main_arg6 V)
theorem P2_main_arg7 (V : Valuation τ sig (Elt F)) :
    P2 V (Proc.devRef .tc main_arg7) = V (Proc.devRef .tc main_arg7) := by
  rw [P2]
  exact (cD1_keep (P1 V) main_arg7 (by decide)).trans (P1_main_arg7 V)
theorem P2_main_arg8 (V : Valuation τ sig (Elt F)) :
    P2 V (Proc.devRef .tc main_arg8) = V (Proc.devRef .tc main_arg8) := by
  rw [P2]
  exact (cD1_keep (P1 V) main_arg8 (by decide)).trans (P1_main_arg8 V)
theorem P2_main_arg9 (V : Valuation τ sig (Elt F)) :
    P2 V (Proc.devRef .tc main_arg9) = V (Proc.devRef .tc main_arg9) := by
  rw [P2]
  exact (cD1_keep (P1 V) main_arg9 (by decide)).trans (P1_main_arg9 V)
theorem P2_main_arg10 (V : Valuation τ sig (Elt F)) :
    P2 V (Proc.devRef .tc main_arg10) = V (Proc.devRef .tc main_arg10) := by
  rw [P2]
  exact (cD1_keep (P1 V) main_arg10 (by decide)).trans (P1_main_arg10 V)
theorem P2_main_arg11 (V : Valuation τ sig (Elt F)) :
    P2 V (Proc.devRef .tc main_arg11) = V (Proc.devRef .tc main_arg11) := by
  rw [P2]
  exact (cD1_keep (P1 V) main_arg11 (by decide)).trans (P1_main_arg11 V)
theorem P2_main_arg12 (V : Valuation τ sig (Elt F)) :
    P2 V (Proc.devRef .tc main_arg12) = V (Proc.devRef .tc main_arg12) := by
  rw [P2]
  exact (cD1_keep (P1 V) main_arg12 (by decide)).trans (P1_main_arg12 V)
theorem P2_main_arg13 (V : Valuation τ sig (Elt F)) :
    P2 V (Proc.devRef .tc main_arg13) = V (Proc.devRef .tc main_arg13) := by
  rw [P2]
  exact (cD1_keep (P1 V) main_arg13 (by decide)).trans (P1_main_arg13 V)
theorem P2_main_arg14 (V : Valuation τ sig (Elt F)) :
    P2 V (Proc.devRef .tc main_arg14) = V (Proc.devRef .tc main_arg14) := by
  rw [P2]
  exact (cD1_keep (P1 V) main_arg14 (by decide)).trans (P1_main_arg14 V)
theorem P2_main_arg15 (V : Valuation τ sig (Elt F)) :
    P2 V (Proc.devRef .tc main_arg15) = V (Proc.devRef .tc main_arg15) := by
  rw [P2]
  exact (cD1_keep (P1 V) main_arg15 (by decide)).trans (P1_main_arg15 V)
theorem P2_main_arg16 (V : Valuation τ sig (Elt F)) :
    P2 V (Proc.devRef .tc main_arg16) = V (Proc.devRef .tc main_arg16) := by
  rw [P2]
  exact (cD1_keep (P1 V) main_arg16 (by decide)).trans (P1_main_arg16 V)
theorem P2_main_arg17 (V : Valuation τ sig (Elt F)) :
    P2 V (Proc.devRef .tc main_arg17) = V (Proc.devRef .tc main_arg17) := by
  rw [P2]
  exact (cD1_keep (P1 V) main_arg17 (by decide)).trans (P1_main_arg17 V)
theorem P2_main_arg18 (V : Valuation τ sig (Elt F)) :
    P2 V (Proc.devRef .tc main_arg18) = V (Proc.devRef .tc main_arg18) := by
  rw [P2]
  exact (cD1_keep (P1 V) main_arg18 (by decide)).trans (P1_main_arg18 V)
theorem P2_main_arg19 (V : Valuation τ sig (Elt F)) :
    P2 V (Proc.devRef .tc main_arg19) = V (Proc.devRef .tc main_arg19) := by
  rw [P2]
  exact (cD1_keep (P1 V) main_arg19 (by decide)).trans (P1_main_arg19 V)
theorem P2_main_v1 (V : Valuation τ sig (Elt F)) :
    P2 V (Proc.devRef .tc main_v1) = srcOf (V (Proc.devRef .tc main_arg1)) := by
  rw [P2]
  exact (cD1_keep (P1 V) main_v1 (by decide)).trans (P1_main_v1 V)
theorem P2_main_v3 (V : Valuation τ sig (Elt F)) :
    P2 V (Proc.devRef .tc main_v3) = dstOf (V (Proc.devRef .tc main_arg1)) := by
  rw [P2]
  exact (cD1_keep (P1 V) main_v3 (by decide)).trans (P1_main_v3 V)
theorem P2_main_v4 (V : Valuation τ sig (Elt F)) :
    P2 V (Proc.devRef .tc main_v4) = dot1 (V (Proc.devRef .tc main_arg0)) (V (Proc.devRef .tc main_arg2)) := by
  rw [P2, cD1_main_v4, P1_main_arg0, P1_main_arg2]
theorem P3_main_arg4 (V : Valuation τ sig (Elt F)) :
    P3 V (Proc.devRef .tc main_arg4) = V (Proc.devRef .tc main_arg4) := by
  rw [P3]
  exact (cC1_keep (P2 V) main_arg4 (by decide)).trans (P2_main_arg4 V)
theorem P3_main_arg5 (V : Valuation τ sig (Elt F)) :
    P3 V (Proc.devRef .tc main_arg5) = V (Proc.devRef .tc main_arg5) := by
  rw [P3]
  exact (cC1_keep (P2 V) main_arg5 (by decide)).trans (P2_main_arg5 V)
theorem P3_main_arg6 (V : Valuation τ sig (Elt F)) :
    P3 V (Proc.devRef .tc main_arg6) = V (Proc.devRef .tc main_arg6) := by
  rw [P3]
  exact (cC1_keep (P2 V) main_arg6 (by decide)).trans (P2_main_arg6 V)
theorem P3_main_arg7 (V : Valuation τ sig (Elt F)) :
    P3 V (Proc.devRef .tc main_arg7) = V (Proc.devRef .tc main_arg7) := by
  rw [P3]
  exact (cC1_keep (P2 V) main_arg7 (by decide)).trans (P2_main_arg7 V)
theorem P3_main_arg8 (V : Valuation τ sig (Elt F)) :
    P3 V (Proc.devRef .tc main_arg8) = V (Proc.devRef .tc main_arg8) := by
  rw [P3]
  exact (cC1_keep (P2 V) main_arg8 (by decide)).trans (P2_main_arg8 V)
theorem P3_main_arg9 (V : Valuation τ sig (Elt F)) :
    P3 V (Proc.devRef .tc main_arg9) = V (Proc.devRef .tc main_arg9) := by
  rw [P3]
  exact (cC1_keep (P2 V) main_arg9 (by decide)).trans (P2_main_arg9 V)
theorem P3_main_arg10 (V : Valuation τ sig (Elt F)) :
    P3 V (Proc.devRef .tc main_arg10) = V (Proc.devRef .tc main_arg10) := by
  rw [P3]
  exact (cC1_keep (P2 V) main_arg10 (by decide)).trans (P2_main_arg10 V)
theorem P3_main_arg11 (V : Valuation τ sig (Elt F)) :
    P3 V (Proc.devRef .tc main_arg11) = V (Proc.devRef .tc main_arg11) := by
  rw [P3]
  exact (cC1_keep (P2 V) main_arg11 (by decide)).trans (P2_main_arg11 V)
theorem P3_main_arg12 (V : Valuation τ sig (Elt F)) :
    P3 V (Proc.devRef .tc main_arg12) = V (Proc.devRef .tc main_arg12) := by
  rw [P3]
  exact (cC1_keep (P2 V) main_arg12 (by decide)).trans (P2_main_arg12 V)
theorem P3_main_arg13 (V : Valuation τ sig (Elt F)) :
    P3 V (Proc.devRef .tc main_arg13) = V (Proc.devRef .tc main_arg13) := by
  rw [P3]
  exact (cC1_keep (P2 V) main_arg13 (by decide)).trans (P2_main_arg13 V)
theorem P3_main_arg14 (V : Valuation τ sig (Elt F)) :
    P3 V (Proc.devRef .tc main_arg14) = V (Proc.devRef .tc main_arg14) := by
  rw [P3]
  exact (cC1_keep (P2 V) main_arg14 (by decide)).trans (P2_main_arg14 V)
theorem P3_main_arg15 (V : Valuation τ sig (Elt F)) :
    P3 V (Proc.devRef .tc main_arg15) = V (Proc.devRef .tc main_arg15) := by
  rw [P3]
  exact (cC1_keep (P2 V) main_arg15 (by decide)).trans (P2_main_arg15 V)
theorem P3_main_arg16 (V : Valuation τ sig (Elt F)) :
    P3 V (Proc.devRef .tc main_arg16) = V (Proc.devRef .tc main_arg16) := by
  rw [P3]
  exact (cC1_keep (P2 V) main_arg16 (by decide)).trans (P2_main_arg16 V)
theorem P3_main_arg17 (V : Valuation τ sig (Elt F)) :
    P3 V (Proc.devRef .tc main_arg17) = V (Proc.devRef .tc main_arg17) := by
  rw [P3]
  exact (cC1_keep (P2 V) main_arg17 (by decide)).trans (P2_main_arg17 V)
theorem P3_main_arg18 (V : Valuation τ sig (Elt F)) :
    P3 V (Proc.devRef .tc main_arg18) = V (Proc.devRef .tc main_arg18) := by
  rw [P3]
  exact (cC1_keep (P2 V) main_arg18 (by decide)).trans (P2_main_arg18 V)
theorem P3_main_arg19 (V : Valuation τ sig (Elt F)) :
    P3 V (Proc.devRef .tc main_arg19) = V (Proc.devRef .tc main_arg19) := by
  rw [P3]
  exact (cC1_keep (P2 V) main_arg19 (by decide)).trans (P2_main_arg19 V)
theorem P3_main_v1 (V : Valuation τ sig (Elt F)) :
    P3 V (Proc.devRef .tc main_v1) = srcOf (V (Proc.devRef .tc main_arg1)) := by
  rw [P3]
  exact (cC1_keep (P2 V) main_v1 (by decide)).trans (P2_main_v1 V)
theorem P3_main_v3 (V : Valuation τ sig (Elt F)) :
    P3 V (Proc.devRef .tc main_v3) = dstOf (V (Proc.devRef .tc main_arg1)) := by
  rw [P3]
  exact (cC1_keep (P2 V) main_v3 (by decide)).trans (P2_main_v3 V)
theorem P3_main_v47 (V : Valuation τ sig (Elt F)) :
    P3 V (Proc.devRef .tc main_v47) = conv64 (srcOf (V (Proc.devRef .tc main_arg1))) (dstOf (V (Proc.devRef .tc main_arg1))) (dot1 (V (Proc.devRef .tc main_arg0)) (V (Proc.devRef .tc main_arg2))) (V (Proc.devRef .tc main_arg3)) := by
  rw [P3, cC1_main_v47, P2_main_v1, P2_main_v3, P2_main_v4, P2_main_arg3]
theorem P4_main_arg6 (V : Valuation τ sig (Elt F)) :
    P4 V (Proc.devRef .tc main_arg6) = V (Proc.devRef .tc main_arg6) := by
  rw [P4]
  exact (cL1_keep (P3 V) main_arg6 (by decide)).trans (P3_main_arg6 V)
theorem P4_main_arg7 (V : Valuation τ sig (Elt F)) :
    P4 V (Proc.devRef .tc main_arg7) = V (Proc.devRef .tc main_arg7) := by
  rw [P4]
  exact (cL1_keep (P3 V) main_arg7 (by decide)).trans (P3_main_arg7 V)
theorem P4_main_arg8 (V : Valuation τ sig (Elt F)) :
    P4 V (Proc.devRef .tc main_arg8) = V (Proc.devRef .tc main_arg8) := by
  rw [P4]
  exact (cL1_keep (P3 V) main_arg8 (by decide)).trans (P3_main_arg8 V)
theorem P4_main_arg9 (V : Valuation τ sig (Elt F)) :
    P4 V (Proc.devRef .tc main_arg9) = V (Proc.devRef .tc main_arg9) := by
  rw [P4]
  exact (cL1_keep (P3 V) main_arg9 (by decide)).trans (P3_main_arg9 V)
theorem P4_main_arg10 (V : Valuation τ sig (Elt F)) :
    P4 V (Proc.devRef .tc main_arg10) = V (Proc.devRef .tc main_arg10) := by
  rw [P4]
  exact (cL1_keep (P3 V) main_arg10 (by decide)).trans (P3_main_arg10 V)
theorem P4_main_arg11 (V : Valuation τ sig (Elt F)) :
    P4 V (Proc.devRef .tc main_arg11) = V (Proc.devRef .tc main_arg11) := by
  rw [P4]
  exact (cL1_keep (P3 V) main_arg11 (by decide)).trans (P3_main_arg11 V)
theorem P4_main_arg12 (V : Valuation τ sig (Elt F)) :
    P4 V (Proc.devRef .tc main_arg12) = V (Proc.devRef .tc main_arg12) := by
  rw [P4]
  exact (cL1_keep (P3 V) main_arg12 (by decide)).trans (P3_main_arg12 V)
theorem P4_main_arg13 (V : Valuation τ sig (Elt F)) :
    P4 V (Proc.devRef .tc main_arg13) = V (Proc.devRef .tc main_arg13) := by
  rw [P4]
  exact (cL1_keep (P3 V) main_arg13 (by decide)).trans (P3_main_arg13 V)
theorem P4_main_arg14 (V : Valuation τ sig (Elt F)) :
    P4 V (Proc.devRef .tc main_arg14) = V (Proc.devRef .tc main_arg14) := by
  rw [P4]
  exact (cL1_keep (P3 V) main_arg14 (by decide)).trans (P3_main_arg14 V)
theorem P4_main_arg15 (V : Valuation τ sig (Elt F)) :
    P4 V (Proc.devRef .tc main_arg15) = V (Proc.devRef .tc main_arg15) := by
  rw [P4]
  exact (cL1_keep (P3 V) main_arg15 (by decide)).trans (P3_main_arg15 V)
theorem P4_main_arg16 (V : Valuation τ sig (Elt F)) :
    P4 V (Proc.devRef .tc main_arg16) = V (Proc.devRef .tc main_arg16) := by
  rw [P4]
  exact (cL1_keep (P3 V) main_arg16 (by decide)).trans (P3_main_arg16 V)
theorem P4_main_arg17 (V : Valuation τ sig (Elt F)) :
    P4 V (Proc.devRef .tc main_arg17) = V (Proc.devRef .tc main_arg17) := by
  rw [P4]
  exact (cL1_keep (P3 V) main_arg17 (by decide)).trans (P3_main_arg17 V)
theorem P4_main_arg18 (V : Valuation τ sig (Elt F)) :
    P4 V (Proc.devRef .tc main_arg18) = V (Proc.devRef .tc main_arg18) := by
  rw [P4]
  exact (cL1_keep (P3 V) main_arg18 (by decide)).trans (P3_main_arg18 V)
theorem P4_main_arg19 (V : Valuation τ sig (Elt F)) :
    P4 V (Proc.devRef .tc main_arg19) = V (Proc.devRef .tc main_arg19) := by
  rw [P4]
  exact (cL1_keep (P3 V) main_arg19 (by decide)).trans (P3_main_arg19 V)
theorem P4_main_v1 (V : Valuation τ sig (Elt F)) :
    P4 V (Proc.devRef .tc main_v1) = srcOf (V (Proc.devRef .tc main_arg1)) := by
  rw [P4]
  exact (cL1_keep (P3 V) main_v1 (by decide)).trans (P3_main_v1 V)
theorem P4_main_v3 (V : Valuation τ sig (Elt F)) :
    P4 V (Proc.devRef .tc main_v3) = dstOf (V (Proc.devRef .tc main_arg1)) := by
  rw [P4]
  exact (cL1_keep (P3 V) main_v3 (by decide)).trans (P3_main_v3 V)
theorem P4_main_v71 (V : Valuation τ sig (Elt F)) :
    P4 V (Proc.devRef .tc main_v71) = ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)) := by
  rw [P4, cL1_main_v71, P3_main_v47, P3_main_arg4, P3_main_arg5]
theorem P5_main_arg6 (V : Valuation τ sig (Elt F)) :
    P5 V (Proc.devRef .tc main_arg6) = V (Proc.devRef .tc main_arg6) := by
  rw [P5]
  exact (cE1_keep (P4 V) main_arg6 (by decide)).trans (P4_main_arg6 V)
theorem P5_main_arg7 (V : Valuation τ sig (Elt F)) :
    P5 V (Proc.devRef .tc main_arg7) = V (Proc.devRef .tc main_arg7) := by
  rw [P5]
  exact (cE1_keep (P4 V) main_arg7 (by decide)).trans (P4_main_arg7 V)
theorem P5_main_arg8 (V : Valuation τ sig (Elt F)) :
    P5 V (Proc.devRef .tc main_arg8) = V (Proc.devRef .tc main_arg8) := by
  rw [P5]
  exact (cE1_keep (P4 V) main_arg8 (by decide)).trans (P4_main_arg8 V)
theorem P5_main_arg9 (V : Valuation τ sig (Elt F)) :
    P5 V (Proc.devRef .tc main_arg9) = V (Proc.devRef .tc main_arg9) := by
  rw [P5]
  exact (cE1_keep (P4 V) main_arg9 (by decide)).trans (P4_main_arg9 V)
theorem P5_main_arg10 (V : Valuation τ sig (Elt F)) :
    P5 V (Proc.devRef .tc main_arg10) = V (Proc.devRef .tc main_arg10) := by
  rw [P5]
  exact (cE1_keep (P4 V) main_arg10 (by decide)).trans (P4_main_arg10 V)
theorem P5_main_arg11 (V : Valuation τ sig (Elt F)) :
    P5 V (Proc.devRef .tc main_arg11) = V (Proc.devRef .tc main_arg11) := by
  rw [P5]
  exact (cE1_keep (P4 V) main_arg11 (by decide)).trans (P4_main_arg11 V)
theorem P5_main_arg12 (V : Valuation τ sig (Elt F)) :
    P5 V (Proc.devRef .tc main_arg12) = V (Proc.devRef .tc main_arg12) := by
  rw [P5]
  exact (cE1_keep (P4 V) main_arg12 (by decide)).trans (P4_main_arg12 V)
theorem P5_main_arg13 (V : Valuation τ sig (Elt F)) :
    P5 V (Proc.devRef .tc main_arg13) = V (Proc.devRef .tc main_arg13) := by
  rw [P5]
  exact (cE1_keep (P4 V) main_arg13 (by decide)).trans (P4_main_arg13 V)
theorem P5_main_arg14 (V : Valuation τ sig (Elt F)) :
    P5 V (Proc.devRef .tc main_arg14) = V (Proc.devRef .tc main_arg14) := by
  rw [P5]
  exact (cE1_keep (P4 V) main_arg14 (by decide)).trans (P4_main_arg14 V)
theorem P5_main_arg15 (V : Valuation τ sig (Elt F)) :
    P5 V (Proc.devRef .tc main_arg15) = V (Proc.devRef .tc main_arg15) := by
  rw [P5]
  exact (cE1_keep (P4 V) main_arg15 (by decide)).trans (P4_main_arg15 V)
theorem P5_main_arg16 (V : Valuation τ sig (Elt F)) :
    P5 V (Proc.devRef .tc main_arg16) = V (Proc.devRef .tc main_arg16) := by
  rw [P5]
  exact (cE1_keep (P4 V) main_arg16 (by decide)).trans (P4_main_arg16 V)
theorem P5_main_arg17 (V : Valuation τ sig (Elt F)) :
    P5 V (Proc.devRef .tc main_arg17) = V (Proc.devRef .tc main_arg17) := by
  rw [P5]
  exact (cE1_keep (P4 V) main_arg17 (by decide)).trans (P4_main_arg17 V)
theorem P5_main_arg18 (V : Valuation τ sig (Elt F)) :
    P5 V (Proc.devRef .tc main_arg18) = V (Proc.devRef .tc main_arg18) := by
  rw [P5]
  exact (cE1_keep (P4 V) main_arg18 (by decide)).trans (P4_main_arg18 V)
theorem P5_main_arg19 (V : Valuation τ sig (Elt F)) :
    P5 V (Proc.devRef .tc main_arg19) = V (Proc.devRef .tc main_arg19) := by
  rw [P5]
  exact (cE1_keep (P4 V) main_arg19 (by decide)).trans (P4_main_arg19 V)
theorem P5_main_v1 (V : Valuation τ sig (Elt F)) :
    P5 V (Proc.devRef .tc main_v1) = srcOf (V (Proc.devRef .tc main_arg1)) := by
  rw [P5]
  exact (cE1_keep (P4 V) main_v1 (by decide)).trans (P4_main_v1 V)
theorem P5_main_v3 (V : Valuation τ sig (Elt F)) :
    P5 V (Proc.devRef .tc main_v3) = dstOf (V (Proc.devRef .tc main_arg1)) := by
  rw [P5]
  exact (cE1_keep (P4 V) main_v3 (by decide)).trans (P4_main_v3 V)
theorem P5_main_v72 (V : Valuation τ sig (Elt F)) :
    P5 V (Proc.devRef .tc main_v72) = elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5))) := by
  rw [P5, cE1_main_v72, P4_main_v71]
theorem P6_main_arg7 (V : Valuation τ sig (Elt F)) :
    P6 V (Proc.devRef .tc main_arg7) = V (Proc.devRef .tc main_arg7) := by
  rw [P6]
  exact (cD2_keep (P5 V) main_arg7 (by decide)).trans (P5_main_arg7 V)
theorem P6_main_arg8 (V : Valuation τ sig (Elt F)) :
    P6 V (Proc.devRef .tc main_arg8) = V (Proc.devRef .tc main_arg8) := by
  rw [P6]
  exact (cD2_keep (P5 V) main_arg8 (by decide)).trans (P5_main_arg8 V)
theorem P6_main_arg9 (V : Valuation τ sig (Elt F)) :
    P6 V (Proc.devRef .tc main_arg9) = V (Proc.devRef .tc main_arg9) := by
  rw [P6]
  exact (cD2_keep (P5 V) main_arg9 (by decide)).trans (P5_main_arg9 V)
theorem P6_main_arg10 (V : Valuation τ sig (Elt F)) :
    P6 V (Proc.devRef .tc main_arg10) = V (Proc.devRef .tc main_arg10) := by
  rw [P6]
  exact (cD2_keep (P5 V) main_arg10 (by decide)).trans (P5_main_arg10 V)
theorem P6_main_arg11 (V : Valuation τ sig (Elt F)) :
    P6 V (Proc.devRef .tc main_arg11) = V (Proc.devRef .tc main_arg11) := by
  rw [P6]
  exact (cD2_keep (P5 V) main_arg11 (by decide)).trans (P5_main_arg11 V)
theorem P6_main_arg12 (V : Valuation τ sig (Elt F)) :
    P6 V (Proc.devRef .tc main_arg12) = V (Proc.devRef .tc main_arg12) := by
  rw [P6]
  exact (cD2_keep (P5 V) main_arg12 (by decide)).trans (P5_main_arg12 V)
theorem P6_main_arg13 (V : Valuation τ sig (Elt F)) :
    P6 V (Proc.devRef .tc main_arg13) = V (Proc.devRef .tc main_arg13) := by
  rw [P6]
  exact (cD2_keep (P5 V) main_arg13 (by decide)).trans (P5_main_arg13 V)
theorem P6_main_arg14 (V : Valuation τ sig (Elt F)) :
    P6 V (Proc.devRef .tc main_arg14) = V (Proc.devRef .tc main_arg14) := by
  rw [P6]
  exact (cD2_keep (P5 V) main_arg14 (by decide)).trans (P5_main_arg14 V)
theorem P6_main_arg15 (V : Valuation τ sig (Elt F)) :
    P6 V (Proc.devRef .tc main_arg15) = V (Proc.devRef .tc main_arg15) := by
  rw [P6]
  exact (cD2_keep (P5 V) main_arg15 (by decide)).trans (P5_main_arg15 V)
theorem P6_main_arg16 (V : Valuation τ sig (Elt F)) :
    P6 V (Proc.devRef .tc main_arg16) = V (Proc.devRef .tc main_arg16) := by
  rw [P6]
  exact (cD2_keep (P5 V) main_arg16 (by decide)).trans (P5_main_arg16 V)
theorem P6_main_arg17 (V : Valuation τ sig (Elt F)) :
    P6 V (Proc.devRef .tc main_arg17) = V (Proc.devRef .tc main_arg17) := by
  rw [P6]
  exact (cD2_keep (P5 V) main_arg17 (by decide)).trans (P5_main_arg17 V)
theorem P6_main_arg18 (V : Valuation τ sig (Elt F)) :
    P6 V (Proc.devRef .tc main_arg18) = V (Proc.devRef .tc main_arg18) := by
  rw [P6]
  exact (cD2_keep (P5 V) main_arg18 (by decide)).trans (P5_main_arg18 V)
theorem P6_main_arg19 (V : Valuation τ sig (Elt F)) :
    P6 V (Proc.devRef .tc main_arg19) = V (Proc.devRef .tc main_arg19) := by
  rw [P6]
  exact (cD2_keep (P5 V) main_arg19 (by decide)).trans (P5_main_arg19 V)
theorem P6_main_v1 (V : Valuation τ sig (Elt F)) :
    P6 V (Proc.devRef .tc main_v1) = srcOf (V (Proc.devRef .tc main_arg1)) := by
  rw [P6]
  exact (cD2_keep (P5 V) main_v1 (by decide)).trans (P5_main_v1 V)
theorem P6_main_v3 (V : Valuation τ sig (Elt F)) :
    P6 V (Proc.devRef .tc main_v3) = dstOf (V (Proc.devRef .tc main_arg1)) := by
  rw [P6]
  exact (cD2_keep (P5 V) main_v3 (by decide)).trans (P5_main_v3 V)
theorem P6_main_v73 (V : Valuation τ sig (Elt F)) :
    P6 V (Proc.devRef .tc main_v73) = dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6)) := by
  rw [P6, cD2_main_v73, P5_main_v72, P5_main_arg6]
theorem P7_main_arg8 (V : Valuation τ sig (Elt F)) :
    P7 V (Proc.devRef .tc main_arg8) = V (Proc.devRef .tc main_arg8) := by
  rw [P7]
  exact (cC2_keep (P6 V) main_arg8 (by decide)).trans (P6_main_arg8 V)
theorem P7_main_arg9 (V : Valuation τ sig (Elt F)) :
    P7 V (Proc.devRef .tc main_arg9) = V (Proc.devRef .tc main_arg9) := by
  rw [P7]
  exact (cC2_keep (P6 V) main_arg9 (by decide)).trans (P6_main_arg9 V)
theorem P7_main_arg10 (V : Valuation τ sig (Elt F)) :
    P7 V (Proc.devRef .tc main_arg10) = V (Proc.devRef .tc main_arg10) := by
  rw [P7]
  exact (cC2_keep (P6 V) main_arg10 (by decide)).trans (P6_main_arg10 V)
theorem P7_main_arg11 (V : Valuation τ sig (Elt F)) :
    P7 V (Proc.devRef .tc main_arg11) = V (Proc.devRef .tc main_arg11) := by
  rw [P7]
  exact (cC2_keep (P6 V) main_arg11 (by decide)).trans (P6_main_arg11 V)
theorem P7_main_arg12 (V : Valuation τ sig (Elt F)) :
    P7 V (Proc.devRef .tc main_arg12) = V (Proc.devRef .tc main_arg12) := by
  rw [P7]
  exact (cC2_keep (P6 V) main_arg12 (by decide)).trans (P6_main_arg12 V)
theorem P7_main_arg13 (V : Valuation τ sig (Elt F)) :
    P7 V (Proc.devRef .tc main_arg13) = V (Proc.devRef .tc main_arg13) := by
  rw [P7]
  exact (cC2_keep (P6 V) main_arg13 (by decide)).trans (P6_main_arg13 V)
theorem P7_main_arg14 (V : Valuation τ sig (Elt F)) :
    P7 V (Proc.devRef .tc main_arg14) = V (Proc.devRef .tc main_arg14) := by
  rw [P7]
  exact (cC2_keep (P6 V) main_arg14 (by decide)).trans (P6_main_arg14 V)
theorem P7_main_arg15 (V : Valuation τ sig (Elt F)) :
    P7 V (Proc.devRef .tc main_arg15) = V (Proc.devRef .tc main_arg15) := by
  rw [P7]
  exact (cC2_keep (P6 V) main_arg15 (by decide)).trans (P6_main_arg15 V)
theorem P7_main_arg16 (V : Valuation τ sig (Elt F)) :
    P7 V (Proc.devRef .tc main_arg16) = V (Proc.devRef .tc main_arg16) := by
  rw [P7]
  exact (cC2_keep (P6 V) main_arg16 (by decide)).trans (P6_main_arg16 V)
theorem P7_main_arg17 (V : Valuation τ sig (Elt F)) :
    P7 V (Proc.devRef .tc main_arg17) = V (Proc.devRef .tc main_arg17) := by
  rw [P7]
  exact (cC2_keep (P6 V) main_arg17 (by decide)).trans (P6_main_arg17 V)
theorem P7_main_arg18 (V : Valuation τ sig (Elt F)) :
    P7 V (Proc.devRef .tc main_arg18) = V (Proc.devRef .tc main_arg18) := by
  rw [P7]
  exact (cC2_keep (P6 V) main_arg18 (by decide)).trans (P6_main_arg18 V)
theorem P7_main_arg19 (V : Valuation τ sig (Elt F)) :
    P7 V (Proc.devRef .tc main_arg19) = V (Proc.devRef .tc main_arg19) := by
  rw [P7]
  exact (cC2_keep (P6 V) main_arg19 (by decide)).trans (P6_main_arg19 V)
theorem P7_main_v1 (V : Valuation τ sig (Elt F)) :
    P7 V (Proc.devRef .tc main_v1) = srcOf (V (Proc.devRef .tc main_arg1)) := by
  rw [P7]
  exact (cC2_keep (P6 V) main_v1 (by decide)).trans (P6_main_v1 V)
theorem P7_main_v3 (V : Valuation τ sig (Elt F)) :
    P7 V (Proc.devRef .tc main_v3) = dstOf (V (Proc.devRef .tc main_arg1)) := by
  rw [P7]
  exact (cC2_keep (P6 V) main_v3 (by decide)).trans (P6_main_v3 V)
theorem P7_main_v116 (V : Valuation τ sig (Elt F)) :
    P7 V (Proc.devRef .tc main_v116) = conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7)) := by
  rw [P7, cC2_main_v116, P6_main_v1, P6_main_v3, P6_main_v73, P6_main_arg7]
theorem P8_main_arg10 (V : Valuation τ sig (Elt F)) :
    P8 V (Proc.devRef .tc main_arg10) = V (Proc.devRef .tc main_arg10) := by
  rw [P8]
  exact (cL2_keep (P7 V) main_arg10 (by decide)).trans (P7_main_arg10 V)
theorem P8_main_arg11 (V : Valuation τ sig (Elt F)) :
    P8 V (Proc.devRef .tc main_arg11) = V (Proc.devRef .tc main_arg11) := by
  rw [P8]
  exact (cL2_keep (P7 V) main_arg11 (by decide)).trans (P7_main_arg11 V)
theorem P8_main_arg12 (V : Valuation τ sig (Elt F)) :
    P8 V (Proc.devRef .tc main_arg12) = V (Proc.devRef .tc main_arg12) := by
  rw [P8]
  exact (cL2_keep (P7 V) main_arg12 (by decide)).trans (P7_main_arg12 V)
theorem P8_main_arg13 (V : Valuation τ sig (Elt F)) :
    P8 V (Proc.devRef .tc main_arg13) = V (Proc.devRef .tc main_arg13) := by
  rw [P8]
  exact (cL2_keep (P7 V) main_arg13 (by decide)).trans (P7_main_arg13 V)
theorem P8_main_arg14 (V : Valuation τ sig (Elt F)) :
    P8 V (Proc.devRef .tc main_arg14) = V (Proc.devRef .tc main_arg14) := by
  rw [P8]
  exact (cL2_keep (P7 V) main_arg14 (by decide)).trans (P7_main_arg14 V)
theorem P8_main_arg15 (V : Valuation τ sig (Elt F)) :
    P8 V (Proc.devRef .tc main_arg15) = V (Proc.devRef .tc main_arg15) := by
  rw [P8]
  exact (cL2_keep (P7 V) main_arg15 (by decide)).trans (P7_main_arg15 V)
theorem P8_main_arg16 (V : Valuation τ sig (Elt F)) :
    P8 V (Proc.devRef .tc main_arg16) = V (Proc.devRef .tc main_arg16) := by
  rw [P8]
  exact (cL2_keep (P7 V) main_arg16 (by decide)).trans (P7_main_arg16 V)
theorem P8_main_arg17 (V : Valuation τ sig (Elt F)) :
    P8 V (Proc.devRef .tc main_arg17) = V (Proc.devRef .tc main_arg17) := by
  rw [P8]
  exact (cL2_keep (P7 V) main_arg17 (by decide)).trans (P7_main_arg17 V)
theorem P8_main_arg18 (V : Valuation τ sig (Elt F)) :
    P8 V (Proc.devRef .tc main_arg18) = V (Proc.devRef .tc main_arg18) := by
  rw [P8]
  exact (cL2_keep (P7 V) main_arg18 (by decide)).trans (P7_main_arg18 V)
theorem P8_main_arg19 (V : Valuation τ sig (Elt F)) :
    P8 V (Proc.devRef .tc main_arg19) = V (Proc.devRef .tc main_arg19) := by
  rw [P8]
  exact (cL2_keep (P7 V) main_arg19 (by decide)).trans (P7_main_arg19 V)
theorem P8_main_v1 (V : Valuation τ sig (Elt F)) :
    P8 V (Proc.devRef .tc main_v1) = srcOf (V (Proc.devRef .tc main_arg1)) := by
  rw [P8]
  exact (cL2_keep (P7 V) main_v1 (by decide)).trans (P7_main_v1 V)
theorem P8_main_v3 (V : Valuation τ sig (Elt F)) :
    P8 V (Proc.devRef .tc main_v3) = dstOf (V (Proc.devRef .tc main_arg1)) := by
  rw [P8]
  exact (cL2_keep (P7 V) main_v3 (by decide)).trans (P7_main_v3 V)
theorem P8_main_v140 (V : Valuation τ sig (Elt F)) :
    P8 V (Proc.devRef .tc main_v140) = ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)) := by
  rw [P8, cL2_main_v140, P7_main_v116, P7_main_arg8, P7_main_arg9]
theorem P9_main_arg10 (V : Valuation τ sig (Elt F)) :
    P9 V (Proc.devRef .tc main_arg10) = V (Proc.devRef .tc main_arg10) := by
  rw [P9]
  exact (cE2_keep (P8 V) main_arg10 (by decide)).trans (P8_main_arg10 V)
theorem P9_main_arg11 (V : Valuation τ sig (Elt F)) :
    P9 V (Proc.devRef .tc main_arg11) = V (Proc.devRef .tc main_arg11) := by
  rw [P9]
  exact (cE2_keep (P8 V) main_arg11 (by decide)).trans (P8_main_arg11 V)
theorem P9_main_arg12 (V : Valuation τ sig (Elt F)) :
    P9 V (Proc.devRef .tc main_arg12) = V (Proc.devRef .tc main_arg12) := by
  rw [P9]
  exact (cE2_keep (P8 V) main_arg12 (by decide)).trans (P8_main_arg12 V)
theorem P9_main_arg13 (V : Valuation τ sig (Elt F)) :
    P9 V (Proc.devRef .tc main_arg13) = V (Proc.devRef .tc main_arg13) := by
  rw [P9]
  exact (cE2_keep (P8 V) main_arg13 (by decide)).trans (P8_main_arg13 V)
theorem P9_main_arg14 (V : Valuation τ sig (Elt F)) :
    P9 V (Proc.devRef .tc main_arg14) = V (Proc.devRef .tc main_arg14) := by
  rw [P9]
  exact (cE2_keep (P8 V) main_arg14 (by decide)).trans (P8_main_arg14 V)
theorem P9_main_arg15 (V : Valuation τ sig (Elt F)) :
    P9 V (Proc.devRef .tc main_arg15) = V (Proc.devRef .tc main_arg15) := by
  rw [P9]
  exact (cE2_keep (P8 V) main_arg15 (by decide)).trans (P8_main_arg15 V)
theorem P9_main_arg16 (V : Valuation τ sig (Elt F)) :
    P9 V (Proc.devRef .tc main_arg16) = V (Proc.devRef .tc main_arg16) := by
  rw [P9]
  exact (cE2_keep (P8 V) main_arg16 (by decide)).trans (P8_main_arg16 V)
theorem P9_main_arg17 (V : Valuation τ sig (Elt F)) :
    P9 V (Proc.devRef .tc main_arg17) = V (Proc.devRef .tc main_arg17) := by
  rw [P9]
  exact (cE2_keep (P8 V) main_arg17 (by decide)).trans (P8_main_arg17 V)
theorem P9_main_arg18 (V : Valuation τ sig (Elt F)) :
    P9 V (Proc.devRef .tc main_arg18) = V (Proc.devRef .tc main_arg18) := by
  rw [P9]
  exact (cE2_keep (P8 V) main_arg18 (by decide)).trans (P8_main_arg18 V)
theorem P9_main_arg19 (V : Valuation τ sig (Elt F)) :
    P9 V (Proc.devRef .tc main_arg19) = V (Proc.devRef .tc main_arg19) := by
  rw [P9]
  exact (cE2_keep (P8 V) main_arg19 (by decide)).trans (P8_main_arg19 V)
theorem P9_main_v1 (V : Valuation τ sig (Elt F)) :
    P9 V (Proc.devRef .tc main_v1) = srcOf (V (Proc.devRef .tc main_arg1)) := by
  rw [P9]
  exact (cE2_keep (P8 V) main_v1 (by decide)).trans (P8_main_v1 V)
theorem P9_main_v3 (V : Valuation τ sig (Elt F)) :
    P9 V (Proc.devRef .tc main_v3) = dstOf (V (Proc.devRef .tc main_arg1)) := by
  rw [P9]
  exact (cE2_keep (P8 V) main_v3 (by decide)).trans (P8_main_v3 V)
theorem P9_main_v141 (V : Valuation τ sig (Elt F)) :
    P9 V (Proc.devRef .tc main_v141) = elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9))) := by
  rw [P9, cE2_main_v141, P8_main_v140]
theorem P10_main_arg11 (V : Valuation τ sig (Elt F)) :
    P10 V (Proc.devRef .tc main_arg11) = V (Proc.devRef .tc main_arg11) := by
  rw [P10]
  exact (cD3_keep (P9 V) main_arg11 (by decide)).trans (P9_main_arg11 V)
theorem P10_main_arg12 (V : Valuation τ sig (Elt F)) :
    P10 V (Proc.devRef .tc main_arg12) = V (Proc.devRef .tc main_arg12) := by
  rw [P10]
  exact (cD3_keep (P9 V) main_arg12 (by decide)).trans (P9_main_arg12 V)
theorem P10_main_arg13 (V : Valuation τ sig (Elt F)) :
    P10 V (Proc.devRef .tc main_arg13) = V (Proc.devRef .tc main_arg13) := by
  rw [P10]
  exact (cD3_keep (P9 V) main_arg13 (by decide)).trans (P9_main_arg13 V)
theorem P10_main_arg14 (V : Valuation τ sig (Elt F)) :
    P10 V (Proc.devRef .tc main_arg14) = V (Proc.devRef .tc main_arg14) := by
  rw [P10]
  exact (cD3_keep (P9 V) main_arg14 (by decide)).trans (P9_main_arg14 V)
theorem P10_main_arg15 (V : Valuation τ sig (Elt F)) :
    P10 V (Proc.devRef .tc main_arg15) = V (Proc.devRef .tc main_arg15) := by
  rw [P10]
  exact (cD3_keep (P9 V) main_arg15 (by decide)).trans (P9_main_arg15 V)
theorem P10_main_arg16 (V : Valuation τ sig (Elt F)) :
    P10 V (Proc.devRef .tc main_arg16) = V (Proc.devRef .tc main_arg16) := by
  rw [P10]
  exact (cD3_keep (P9 V) main_arg16 (by decide)).trans (P9_main_arg16 V)
theorem P10_main_arg17 (V : Valuation τ sig (Elt F)) :
    P10 V (Proc.devRef .tc main_arg17) = V (Proc.devRef .tc main_arg17) := by
  rw [P10]
  exact (cD3_keep (P9 V) main_arg17 (by decide)).trans (P9_main_arg17 V)
theorem P10_main_arg18 (V : Valuation τ sig (Elt F)) :
    P10 V (Proc.devRef .tc main_arg18) = V (Proc.devRef .tc main_arg18) := by
  rw [P10]
  exact (cD3_keep (P9 V) main_arg18 (by decide)).trans (P9_main_arg18 V)
theorem P10_main_arg19 (V : Valuation τ sig (Elt F)) :
    P10 V (Proc.devRef .tc main_arg19) = V (Proc.devRef .tc main_arg19) := by
  rw [P10]
  exact (cD3_keep (P9 V) main_arg19 (by decide)).trans (P9_main_arg19 V)
theorem P10_main_v1 (V : Valuation τ sig (Elt F)) :
    P10 V (Proc.devRef .tc main_v1) = srcOf (V (Proc.devRef .tc main_arg1)) := by
  rw [P10]
  exact (cD3_keep (P9 V) main_v1 (by decide)).trans (P9_main_v1 V)
theorem P10_main_v3 (V : Valuation τ sig (Elt F)) :
    P10 V (Proc.devRef .tc main_v3) = dstOf (V (Proc.devRef .tc main_arg1)) := by
  rw [P10]
  exact (cD3_keep (P9 V) main_v3 (by decide)).trans (P9_main_v3 V)
theorem P10_main_v142 (V : Valuation τ sig (Elt F)) :
    P10 V (Proc.devRef .tc main_v142) = dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10)) := by
  rw [P10, cD3_main_v142, P9_main_v141, P9_main_arg10]
theorem P11_main_arg12 (V : Valuation τ sig (Elt F)) :
    P11 V (Proc.devRef .tc main_arg12) = V (Proc.devRef .tc main_arg12) := by
  rw [P11]
  exact (cC3_keep (P10 V) main_arg12 (by decide)).trans (P10_main_arg12 V)
theorem P11_main_arg13 (V : Valuation τ sig (Elt F)) :
    P11 V (Proc.devRef .tc main_arg13) = V (Proc.devRef .tc main_arg13) := by
  rw [P11]
  exact (cC3_keep (P10 V) main_arg13 (by decide)).trans (P10_main_arg13 V)
theorem P11_main_arg14 (V : Valuation τ sig (Elt F)) :
    P11 V (Proc.devRef .tc main_arg14) = V (Proc.devRef .tc main_arg14) := by
  rw [P11]
  exact (cC3_keep (P10 V) main_arg14 (by decide)).trans (P10_main_arg14 V)
theorem P11_main_arg15 (V : Valuation τ sig (Elt F)) :
    P11 V (Proc.devRef .tc main_arg15) = V (Proc.devRef .tc main_arg15) := by
  rw [P11]
  exact (cC3_keep (P10 V) main_arg15 (by decide)).trans (P10_main_arg15 V)
theorem P11_main_arg16 (V : Valuation τ sig (Elt F)) :
    P11 V (Proc.devRef .tc main_arg16) = V (Proc.devRef .tc main_arg16) := by
  rw [P11]
  exact (cC3_keep (P10 V) main_arg16 (by decide)).trans (P10_main_arg16 V)
theorem P11_main_arg17 (V : Valuation τ sig (Elt F)) :
    P11 V (Proc.devRef .tc main_arg17) = V (Proc.devRef .tc main_arg17) := by
  rw [P11]
  exact (cC3_keep (P10 V) main_arg17 (by decide)).trans (P10_main_arg17 V)
theorem P11_main_arg18 (V : Valuation τ sig (Elt F)) :
    P11 V (Proc.devRef .tc main_arg18) = V (Proc.devRef .tc main_arg18) := by
  rw [P11]
  exact (cC3_keep (P10 V) main_arg18 (by decide)).trans (P10_main_arg18 V)
theorem P11_main_arg19 (V : Valuation τ sig (Elt F)) :
    P11 V (Proc.devRef .tc main_arg19) = V (Proc.devRef .tc main_arg19) := by
  rw [P11]
  exact (cC3_keep (P10 V) main_arg19 (by decide)).trans (P10_main_arg19 V)
theorem P11_main_v185 (V : Valuation τ sig (Elt F)) :
    P11 V (Proc.devRef .tc main_v185) = conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11)) := by
  rw [P11, cC3_main_v185, P10_main_v1, P10_main_v3, P10_main_v142, P10_main_arg11]
theorem P12_main_arg14 (V : Valuation τ sig (Elt F)) :
    P12 V (Proc.devRef .tc main_arg14) = V (Proc.devRef .tc main_arg14) := by
  rw [P12]
  exact (cL3_keep (P11 V) main_arg14 (by decide)).trans (P11_main_arg14 V)
theorem P12_main_arg15 (V : Valuation τ sig (Elt F)) :
    P12 V (Proc.devRef .tc main_arg15) = V (Proc.devRef .tc main_arg15) := by
  rw [P12]
  exact (cL3_keep (P11 V) main_arg15 (by decide)).trans (P11_main_arg15 V)
theorem P12_main_arg16 (V : Valuation τ sig (Elt F)) :
    P12 V (Proc.devRef .tc main_arg16) = V (Proc.devRef .tc main_arg16) := by
  rw [P12]
  exact (cL3_keep (P11 V) main_arg16 (by decide)).trans (P11_main_arg16 V)
theorem P12_main_arg17 (V : Valuation τ sig (Elt F)) :
    P12 V (Proc.devRef .tc main_arg17) = V (Proc.devRef .tc main_arg17) := by
  rw [P12]
  exact (cL3_keep (P11 V) main_arg17 (by decide)).trans (P11_main_arg17 V)
theorem P12_main_arg18 (V : Valuation τ sig (Elt F)) :
    P12 V (Proc.devRef .tc main_arg18) = V (Proc.devRef .tc main_arg18) := by
  rw [P12]
  exact (cL3_keep (P11 V) main_arg18 (by decide)).trans (P11_main_arg18 V)
theorem P12_main_arg19 (V : Valuation τ sig (Elt F)) :
    P12 V (Proc.devRef .tc main_arg19) = V (Proc.devRef .tc main_arg19) := by
  rw [P12]
  exact (cL3_keep (P11 V) main_arg19 (by decide)).trans (P11_main_arg19 V)
theorem P12_main_v209 (V : Valuation τ sig (Elt F)) :
    P12 V (Proc.devRef .tc main_v209) = ln64 (conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11))) (V (Proc.devRef .tc main_arg12)) (V (Proc.devRef .tc main_arg13)) := by
  rw [P12, cL3_main_v209, P11_main_v185, P11_main_arg12, P11_main_arg13]
theorem P13_main_arg14 (V : Valuation τ sig (Elt F)) :
    P13 V (Proc.devRef .tc main_arg14) = V (Proc.devRef .tc main_arg14) := by
  rw [P13]
  exact (cE3_keep (P12 V) main_arg14 (by decide)).trans (P12_main_arg14 V)
theorem P13_main_arg15 (V : Valuation τ sig (Elt F)) :
    P13 V (Proc.devRef .tc main_arg15) = V (Proc.devRef .tc main_arg15) := by
  rw [P13]
  exact (cE3_keep (P12 V) main_arg15 (by decide)).trans (P12_main_arg15 V)
theorem P13_main_arg16 (V : Valuation τ sig (Elt F)) :
    P13 V (Proc.devRef .tc main_arg16) = V (Proc.devRef .tc main_arg16) := by
  rw [P13]
  exact (cE3_keep (P12 V) main_arg16 (by decide)).trans (P12_main_arg16 V)
theorem P13_main_arg17 (V : Valuation τ sig (Elt F)) :
    P13 V (Proc.devRef .tc main_arg17) = V (Proc.devRef .tc main_arg17) := by
  rw [P13]
  exact (cE3_keep (P12 V) main_arg17 (by decide)).trans (P12_main_arg17 V)
theorem P13_main_arg18 (V : Valuation τ sig (Elt F)) :
    P13 V (Proc.devRef .tc main_arg18) = V (Proc.devRef .tc main_arg18) := by
  rw [P13]
  exact (cE3_keep (P12 V) main_arg18 (by decide)).trans (P12_main_arg18 V)
theorem P13_main_arg19 (V : Valuation τ sig (Elt F)) :
    P13 V (Proc.devRef .tc main_arg19) = V (Proc.devRef .tc main_arg19) := by
  rw [P13]
  exact (cE3_keep (P12 V) main_arg19 (by decide)).trans (P12_main_arg19 V)
theorem P13_main_v210 (V : Valuation τ sig (Elt F)) :
    P13 V (Proc.devRef .tc main_v210) = elu64 (ln64 (conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11))) (V (Proc.devRef .tc main_arg12)) (V (Proc.devRef .tc main_arg13))) := by
  rw [P13, cE3_main_v210, P12_main_v209]
theorem P14_main_arg16 (V : Valuation τ sig (Elt F)) :
    P14 V (Proc.devRef .tc main_arg16) = V (Proc.devRef .tc main_arg16) := by
  rw [P14]
  exact (cD4_keep (P13 V) main_arg16 (by decide)).trans (P13_main_arg16 V)
theorem P14_main_arg17 (V : Valuation τ sig (Elt F)) :
    P14 V (Proc.devRef .tc main_arg17) = V (Proc.devRef .tc main_arg17) := by
  rw [P14]
  exact (cD4_keep (P13 V) main_arg17 (by decide)).trans (P13_main_arg17 V)
theorem P14_main_arg18 (V : Valuation τ sig (Elt F)) :
    P14 V (Proc.devRef .tc main_arg18) = V (Proc.devRef .tc main_arg18) := by
  rw [P14]
  exact (cD4_keep (P13 V) main_arg18 (by decide)).trans (P13_main_arg18 V)
theorem P14_main_arg19 (V : Valuation τ sig (Elt F)) :
    P14 V (Proc.devRef .tc main_arg19) = V (Proc.devRef .tc main_arg19) := by
  rw [P14]
  exact (cD4_keep (P13 V) main_arg19 (by decide)).trans (P13_main_arg19 V)
theorem P14_main_v214 (V : Valuation τ sig (Elt F)) :
    P14 V (Proc.devRef .tc main_v214) = dot4b (elu64 (ln64 (conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11))) (V (Proc.devRef .tc main_arg12)) (V (Proc.devRef .tc main_arg13)))) (V (Proc.devRef .tc main_arg14)) (V (Proc.devRef .tc main_arg15)) := by
  rw [P14, cD4_main_v214, P13_main_v210, P13_main_arg14, P13_main_arg15]
theorem P15_main_arg18 (V : Valuation τ sig (Elt F)) :
    P15 V (Proc.devRef .tc main_arg18) = V (Proc.devRef .tc main_arg18) := by
  rw [P15]
  exact (cL4_keep (P14 V) main_arg18 (by decide)).trans (P14_main_arg18 V)
theorem P15_main_arg19 (V : Valuation τ sig (Elt F)) :
    P15 V (Proc.devRef .tc main_arg19) = V (Proc.devRef .tc main_arg19) := by
  rw [P15]
  exact (cL4_keep (P14 V) main_arg19 (by decide)).trans (P14_main_arg19 V)
theorem P15_main_v238 (V : Valuation τ sig (Elt F)) :
    P15 V (Proc.devRef .tc main_v238) = ln32 (dot4b (elu64 (ln64 (conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11))) (V (Proc.devRef .tc main_arg12)) (V (Proc.devRef .tc main_arg13)))) (V (Proc.devRef .tc main_arg14)) (V (Proc.devRef .tc main_arg15))) (V (Proc.devRef .tc main_arg16)) (V (Proc.devRef .tc main_arg17)) := by
  rw [P15, cL4_main_v238, P14_main_v214, P14_main_arg16, P14_main_arg17]
theorem P16_main_arg18 (V : Valuation τ sig (Elt F)) :
    P16 V (Proc.devRef .tc main_arg18) = V (Proc.devRef .tc main_arg18) := by
  rw [P16]
  exact (cE4_keep (P15 V) main_arg18 (by decide)).trans (P15_main_arg18 V)
theorem P16_main_arg19 (V : Valuation τ sig (Elt F)) :
    P16 V (Proc.devRef .tc main_arg19) = V (Proc.devRef .tc main_arg19) := by
  rw [P16]
  exact (cE4_keep (P15 V) main_arg19 (by decide)).trans (P15_main_arg19 V)
theorem P16_main_v239 (V : Valuation τ sig (Elt F)) :
    P16 V (Proc.devRef .tc main_v239) = elu32 (ln32 (dot4b (elu64 (ln64 (conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11))) (V (Proc.devRef .tc main_arg12)) (V (Proc.devRef .tc main_arg13)))) (V (Proc.devRef .tc main_arg14)) (V (Proc.devRef .tc main_arg15))) (V (Proc.devRef .tc main_arg16)) (V (Proc.devRef .tc main_arg17))) := by
  rw [P16, cE4_main_v239, P15_main_v238]
theorem P17_main_v243 (V : Valuation τ sig (Elt F)) :
    P17 V (Proc.devRef .tc main_v243) = dot5b (elu32 (ln32 (dot4b (elu64 (ln64 (conv64 (srcOf (V (Proc.devRef .tc main_arg1))) (dstOf (V (Proc.devRef .tc main_arg1))) (dot3 (elu128 (ln128 (conv128 (srcOf (V (Proc.devRef .tc main_arg1))) (dstOf (V (Proc.devRef .tc main_arg1))) (dot2 (elu64 (ln64 (conv64 (srcOf (V (Proc.devRef .tc main_arg1))) (dstOf (V (Proc.devRef .tc main_arg1))) (dot1 (V (Proc.devRef .tc main_arg0)) (V (Proc.devRef .tc main_arg2))) (V (Proc.devRef .tc main_arg3))) (V (Proc.devRef .tc main_arg4)) (V (Proc.devRef .tc main_arg5)))) (V (Proc.devRef .tc main_arg6))) (V (Proc.devRef .tc main_arg7))) (V (Proc.devRef .tc main_arg8)) (V (Proc.devRef .tc main_arg9)))) (V (Proc.devRef .tc main_arg10))) (V (Proc.devRef .tc main_arg11))) (V (Proc.devRef .tc main_arg12)) (V (Proc.devRef .tc main_arg13)))) (V (Proc.devRef .tc main_arg14)) (V (Proc.devRef .tc main_arg15))) (V (Proc.devRef .tc main_arg16)) (V (Proc.devRef .tc main_arg17)))) (V (Proc.devRef .tc main_arg18)) (V (Proc.devRef .tc main_arg19)) := by
  rw [P17, cD5_main_v243, P16_main_v239, P16_main_arg18, P16_main_arg19]

/-- The result buffer after the whole program: the program's pure function `out` of the twenty arguments' contents. -/
theorem res_eq (V : Valuation τ sig (Elt F)) :
    after ops V (Proc.devRef .tc main_v243) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops_P]
  exact P17_main_v243 V

/-- On every device, for any float values, from any memory with zero counters: every weakly fair execution of the
    program terminates with the result buffer at `out` of the twenty arguments' launch contents and the arguments
    unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243) = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans (res_eq (launchContents m c)), (h c).2⟩) (run m ρ)

end Cert.ReferenceIdeal.RefRun

end
-- ==== Proof.RefStages.lean ====
/-
  The host's spelling of the same two layers, read at an entry, for arrays of any extents.

  * The host's dot_general of an [N, K] array with a [K, C] matrix is, at (r, q), Σ_k x(r,k)·w(k,q).
  * The host's LayerNorm chain — reduce-add over the features from 0, divide by the count, subtract, square,
    reduce-add, divide, add ε, rsqrt, multiply, scale by g, shift by be, each per-row scalar carried as a column
    [a, 1] and each per-feature vector as a row [1, b] — followed by the reference's ELU, `where(x > 0, x, 1·expm1(where(x > 0, 0, x)))`,
    is at (p, q) the row function `lnEluRow` of row p: expm1(y) = exp(y) − 1 on the extended reals, the inner
    `where` returns x itself exactly where the outer one looks at it, and 0 + s = s, 1 · s = s.
-/
import proofs.«155585_j22110491640565_1_alg».proof.Proof.SpecApply
import proofs.«155585_j22110491640565_1_alg».proof.Proof.RowOps
import proofs.«155585_j22110491640565_1_alg».proof.Proof.DotPlain

noncomputable section

namespace Cert.GcnSpec

open Idealize.ShloMosaic Idealize.ShloMosaic.ValueIdx

/-- The host's dot_general at (r, q). -/
theorem hostDot_apply (M K C : ℕ) (d : DotDims ⟨2, ![M, K]⟩ ⟨2, ![K, C]⟩ ⟨2, ![M, C]⟩) (hd : d = DotDims.plain M K C)
    (x : FVec Ideal ⟨2, ![M, K]⟩ .f32) (w : FVec Ideal ⟨2, ![K, C]⟩ .f32) (j : (⟨2, ![M, C]⟩ : Shape).Idx) :
    Host.dotGeneral d none x w j = ∑ k : Fin K, x (ix2 (j 0) k) * w (ix2 k (j 1)) := by
  subst hd
  refine (Ideal.dotGeneral_apply (DotDims.plain M K C) none _ x w j).trans ?_
  exact plain_sum M K C x w j

section Ln

variable (a b : ℕ) (cnt : BitVec 32)
  (hrt : (⟨2, ![a, b]⟩ : Shape).ReducesTo [1] ⟨1, ![a]⟩) (hr : (⟨2, ![a, b]⟩ : Shape).Reduces [1] ⟨1, ![a]⟩)
  (hu : 0 < (⟨0, ![]⟩ : Shape).numel)
  (hc1 : (⟨1, ![a]⟩ : Shape).BroadcastsInDim ⟨2, ![a, 1]⟩ ![0])
  (hs1 : (⟨0, ![]⟩ : Shape).BroadcastsInDim ⟨2, ![a, 1]⟩ ![])
  (hc2 : (⟨2, ![a, 1]⟩ : Shape).BroadcastsInDim ⟨2, ![a, b]⟩ ![0, 1])
  (hr1 : (⟨1, ![b]⟩ : Shape).BroadcastsInDim ⟨2, ![1, b]⟩ ![1])
  (hr2 : (⟨2, ![1, b]⟩ : Shape).BroadcastsInDim ⟨2, ![a, b]⟩ ![0, 1])
  (hs2 : (⟨0, ![]⟩ : Shape).BroadcastsInDim ⟨2, ![a, b]⟩ ![])

/-- The host's per-row mean as a column. -/
def hostColMean (z : FVec Ideal ⟨2, ![a, b]⟩ .f32) : FVec Ideal ⟨2, ![a, 1]⟩ .f32 :=
  Host.divf (broadcastInDim ⟨2, ![a, 1]⟩ ![0] hc1 (Host.reduceAdd z (constant (F := Ideal) ⟨0, ![]⟩ .f32 0x00000000#32) hrt hu))
    (broadcastInDim ⟨2, ![a, 1]⟩ ![] hs1 (constant (F := Ideal) ⟨0, ![]⟩ .f32 cnt))

include hr in
theorem hostColMean_apply (z : FVec Ideal ⟨2, ![a, b]⟩ .f32) (p : Fin a) (u : Fin 1) :
    hostColMean a b cnt hrt hu hc1 hs1 z (ix2 p u) = Ideal.div (∑ k : Fin b, z (ix2 p k)) (Ideal.ofBits .f32 cnt) := by
  show Ideal.div (broadcastInDim ⟨2, ![a, 1]⟩ ![0] hc1 (Host.reduceAdd z (constant (F := Ideal) ⟨0, ![]⟩ .f32 0x00000000#32) hrt hu) (ix2 p u))
      (broadcastInDim ⟨2, ![a, 1]⟩ ![] hs1 (constant (F := Ideal) ⟨0, ![]⟩ .f32 cnt) (ix2 p u)) = _
  rw [bcastInDim_a_a1_apply, broadcastInDim_scalar_apply, hostReduceAdd_rows z _ hrt hr hu p]
  show Ideal.div (Ideal.ofBits .f32 0x00000000#32 + _) (Ideal.ofBits .f32 cnt) = _
  rw [Ideal.ofBits_zero_f32, zero_add]

/-- The host's per-row reciprocal standard deviation as a column: rsqrt of the variance plus ε. -/
def hostRstd (z : FVec Ideal ⟨2, ![a, b]⟩ .f32) : FVec Ideal ⟨2, ![a, 1]⟩ .f32 :=
  Host.rsqrt (addf
    (hostColMean a b cnt hrt hu hc1 hs1
      (mulf (subf z (broadcastInDim ⟨2, ![a, b]⟩ ![0, 1] hc2 (hostColMean a b cnt hrt hu hc1 hs1 z)))
        (subf z (broadcastInDim ⟨2, ![a, b]⟩ ![0, 1] hc2 (hostColMean a b cnt hrt hu hc1 hs1 z)))))
    (broadcastInDim ⟨2, ![a, 1]⟩ ![] hs1 (constant (F := Ideal) ⟨0, ![]⟩ .f32 0x3727C5AC#32)))

/-- The host's normalised, scaled and shifted array (before the activation). -/
def hostLnHn (z : FVec Ideal ⟨2, ![a, b]⟩ .f32) (g be : FVec Ideal ⟨1, ![b]⟩ .f32) : FVec Ideal ⟨2, ![a, b]⟩ .f32 :=
  addf
    (mulf
      (mulf (subf z (broadcastInDim ⟨2, ![a, b]⟩ ![0, 1] hc2 (hostColMean a b cnt hrt hu hc1 hs1 z)))
        (broadcastInDim ⟨2, ![a, b]⟩ ![0, 1] hc2 (hostRstd a b cnt hrt hu hc1 hs1 hc2 z)))
      (broadcastInDim ⟨2, ![a, b]⟩ ![0, 1] hr2 (broadcastInDim ⟨2, ![1, b]⟩ ![1] hr1 g)))
    (broadcastInDim ⟨2, ![a, b]⟩ ![0, 1] hr2 (broadcastInDim ⟨2, ![1, b]⟩ ![1] hr1 be))

/-- The reference's ELU on the host. -/
def hostElu (x : FVec Ideal ⟨2, ![a, b]⟩ .f32) : FVec Ideal ⟨2, ![a, b]⟩ .f32 :=
  select (cmpf .ogt x (broadcastInDim ⟨2, ![a, b]⟩ ![] hs2 (constant (F := Ideal) ⟨0, ![]⟩ .f32 0x00000000#32))) x
    (mulf (broadcastInDim ⟨2, ![a, b]⟩ ![] hs2 (constant (F := Ideal) ⟨0, ![]⟩ .f32 0x3F800000#32))
      (Host.expm1 (select (cmpf .ogt x (broadcastInDim ⟨2, ![a, b]⟩ ![] hs2 (constant (F := Ideal) ⟨0, ![]⟩ .f32 0x00000000#32)))
        (broadcastInDim ⟨2, ![a, b]⟩ ![] hs2 (id (constant (F := Ideal) ⟨0, ![]⟩ .f32 0x00000000#32))) x)))

/-- The reference's ELU at an entry: x where x > 0, exp(x) − 1 elsewhere. -/
theorem hostElu_apply (x : FVec Ideal ⟨2, ![a, b]⟩ .f32) (i : (⟨2, ![a, b]⟩ : Shape).Idx) :
    hostElu a b hs2 x i
      = Scalar.select (Ideal.cmp .ogt (x i) (Ideal.ofBits .f32 0x00000000#32)) (x i) (Ideal.exp (x i) - Ideal.ofBits .f32 0x3F800000#32) := by
  show Scalar.select (Ideal.cmp .ogt (x i) (broadcastInDim ⟨2, ![a, b]⟩ ![] hs2 (constant (F := Ideal) ⟨0, ![]⟩ .f32 0x00000000#32) i)) (x i)
      (broadcastInDim ⟨2, ![a, b]⟩ ![] hs2 (constant (F := Ideal) ⟨0, ![]⟩ .f32 0x3F800000#32) i
        * (Ideal.exp (Scalar.select (Ideal.cmp .ogt (x i) (broadcastInDim ⟨2, ![a, b]⟩ ![] hs2 (constant (F := Ideal) ⟨0, ![]⟩ .f32 0x00000000#32) i))
            (broadcastInDim ⟨2, ![a, b]⟩ ![] hs2 (id (constant (F := Ideal) ⟨0, ![]⟩ .f32 0x00000000#32)) i) (x i)) - 1)) = _
  rw [broadcastInDim_scalar_apply, broadcastInDim_scalar_apply, broadcastInDim_scalar_apply]
  show Scalar.select (Ideal.cmp .ogt (x i) (Ideal.ofBits .f32 0x00000000#32)) (x i)
      (Ideal.ofBits .f32 0x3F800000#32
        * (Ideal.exp (Scalar.select (Ideal.cmp .ogt (x i) (Ideal.ofBits .f32 0x00000000#32)) (Ideal.ofBits .f32 0x00000000#32) (x i)) - 1)) = _
  rcases BitVec.eq_zero_or_eq_one (Ideal.cmp .ogt (x i) (Ideal.ofBits .f32 0x00000000#32)) with h | h
  · rw [h, select_zero, select_zero, select_zero, Ideal.ofBits_one_f32, one_mul]
  · rw [h, select_one, select_one]

include hr in
/-- The host's LayerNorm chain and ELU at (p, q): the row function of row p. -/
theorem hostLnElu_apply (z : FVec Ideal ⟨2, ![a, b]⟩ .f32) (g be : FVec Ideal ⟨1, ![b]⟩ .f32) (p : Fin a) (q : Fin b) :
    hostElu a b hs2 (hostLnHn a b cnt hrt hu hc1 hs1 hc2 hr1 hr2 z g be) (ix2 p q)
      = lnEluRow (Ideal.ofBits .f32 cnt) (fun k => z (ix2 p k)) (fun k => g (ix1 k)) (fun k => be (ix1 k)) q := by
  have hmean : ∀ c : Fin b, broadcastInDim ⟨2, ![a, b]⟩ ![0, 1] hc2 (hostColMean a b cnt hrt hu hc1 hs1 z) (ix2 p c)
      = Ideal.div (∑ k : Fin b, z (ix2 p k)) (Ideal.ofBits .f32 cnt) := fun c => by
    rw [bcastInDim_a1_ab_apply, hostColMean_apply a b cnt hrt hr]
  have hd : ∀ c : Fin b, subf z (broadcastInDim ⟨2, ![a, b]⟩ ![0, 1] hc2 (hostColMean a b cnt hrt hu hc1 hs1 z)) (ix2 p c)
      = z (ix2 p c) - Ideal.div (∑ k : Fin b, z (ix2 p k)) (Ideal.ofBits .f32 cnt) := fun c => by
    show z (ix2 p c) - broadcastInDim ⟨2, ![a, b]⟩ ![0, 1] hc2 (hostColMean a b cnt hrt hu hc1 hs1 z) (ix2 p c) = _
    rw [hmean c]
  have hhn : hostLnHn a b cnt hrt hu hc1 hs1 hc2 hr1 hr2 z g be (ix2 p q)
      = (z (ix2 p q) - Ideal.div (∑ k : Fin b, z (ix2 p k)) (Ideal.ofBits .f32 cnt))
          * Ideal.rsqrt (Ideal.div (∑ c : Fin b,
              (z (ix2 p c) - Ideal.div (∑ k : Fin b, z (ix2 p k)) (Ideal.ofBits .f32 cnt))
              * (z (ix2 p c) - Ideal.div (∑ k : Fin b, z (ix2 p k)) (Ideal.ofBits .f32 cnt)))
              (Ideal.ofBits .f32 cnt) + Ideal.ofBits .f32 0x3727C5AC#32)
          * g (ix1 q) + be (ix1 q) := by
    unfold hostLnHn
    show (subf z (broadcastInDim ⟨2, ![a, b]⟩ ![0, 1] hc2 (hostColMean a b cnt hrt hu hc1 hs1 z)) (ix2 p q)
        * broadcastInDim ⟨2, ![a, b]⟩ ![0, 1] hc2 (hostRstd a b cnt hrt hu hc1 hs1 hc2 z) (ix2 p q))
        * broadcastInDim ⟨2, ![a, b]⟩ ![0, 1] hr2 (broadcastInDim ⟨2, ![1, b]⟩ ![1] hr1 g) (ix2 p q)
        + broadcastInDim ⟨2, ![a, b]⟩ ![0, 1] hr2 (broadcastInDim ⟨2, ![1, b]⟩ ![1] hr1 be) (ix2 p q) = _
    rw [bcastInDim_1b_ab_apply, bcastInDim_1b_ab_apply, bcastInDim_b_1b_apply, bcastInDim_b_1b_apply, hd q, bcastInDim_a1_ab_apply]
    refine congrArg (fun t => (z (ix2 p q) - Ideal.div (∑ k : Fin b, z (ix2 p k)) (Ideal.ofBits .f32 cnt)) * t * g (ix1 q) + be (ix1 q)) ?_
    show Ideal.rsqrt (hostColMean a b cnt hrt hu hc1 hs1
        (mulf (subf z (broadcastInDim ⟨2, ![a, b]⟩ ![0, 1] hc2 (hostColMean a b cnt hrt hu hc1 hs1 z)))
          (subf z (broadcastInDim ⟨2, ![a, b]⟩ ![0, 1] hc2 (hostColMean a b cnt hrt hu hc1 hs1 z)))) (ix2 p (0 : Fin 1)) + broadcastInDim ⟨2, ![a, 1]⟩ ![] hs1 (constant (F := Ideal) ⟨0, ![]⟩ .f32 0x3727C5AC#32) (ix2 p (0 : Fin 1))) = _
    rw [hostColMean_apply a b cnt hrt hr, broadcastInDim_scalar_apply]
    refine congrArg (fun t => Ideal.rsqrt (Ideal.div t (Ideal.ofBits .f32 cnt) + Ideal.ofBits .f32 0x3727C5AC#32)) ?_
    exact Finset.sum_congr rfl fun c _ => by
      show subf _ _ (ix2 p c) * subf _ _ (ix2 p c) = _
      rw [hd c]
  rw [hostElu_apply, hhn]
  rfl

end Ln

end Cert.GcnSpec

end
-- ==== Proof.BridgeOps.lean ====
/-
  Where the two programs spell one layer differently, at an entry.

  * A dense layer. The kernel's bias row is a vector [C] reshaped to [1, C] (a zero vector for the three
    graph-convolution products); the reference adds the vector broadcast to a row and then down the rows after
    its dot_general (or adds nothing). Both are Σ_k x(r,k)·w(k,q) + bias_q, and adding the zero word adds nothing.
  * Bias, LayerNorm and ELU. The kernel takes the three parameter vectors as reshaped rows and adds the bias
    inside; the reference adds the bias (broadcast to the array) before its LayerNorm chain and takes the scale
    and shift as vectors. Both are the row function `lnEluRow` of the row with the bias added.
-/
import proofs.«155585_j22110491640565_1_alg».proof.Proof.RefStages
import Idealize.ShloMosaic.Lib.ValueLayout

noncomputable section

namespace Cert.GcnSpec

open Idealize.ShloMosaic Idealize.ShloMosaic.ValueIdx

/-- The dense layer with a zero bias vector is the bare sum of products. -/
theorem linG_zero_row {N K C : ℕ} (x : (⟨2, ![N, K]⟩ : Shape).Idx → EReal) (w : (⟨2, ![K, C]⟩ : Shape).Idx → EReal)
    (hb : (⟨0, ![]⟩ : Shape).BroadcastsInDim ⟨1, ![C]⟩ ![]) (hs : (⟨1, ![C]⟩ : Shape).ShapeCasts ⟨2, ![1, C]⟩)
    (j : (⟨2, ![N, C]⟩ : Shape).Idx) :
    linG x w (shapeCast ⟨2, ![1, C]⟩ (broadcastInDim ⟨1, ![C]⟩ ![] hb (constant (F := Ideal) ⟨0, ![]⟩ .f32 0x00000000#32)) hs) j
      = ∑ k : Fin K, x (ix2 (j 0) k) * w (ix2 k (j 1)) := by
  have e : shapeCast ⟨2, ![1, C]⟩ (broadcastInDim ⟨1, ![C]⟩ ![] hb (constant (F := Ideal) ⟨0, ![]⟩ .f32 0x00000000#32)) hs (ix2 (0 : Fin 1) (j 1))
      = Ideal.ofBits .f32 0x00000000#32 :=
    (shapeCast_a_1a_apply _ hs 0 (j 1)).trans (broadcastInDim_scalar_apply hb _ _)
  rw [linG_apply, e, Ideal.ofBits_zero_f32, add_zero]

/-- The dense layer with a bias vector reshaped to a row. -/
theorem linG_vec_row {N K C : ℕ} (x : (⟨2, ![N, K]⟩ : Shape).Idx → EReal) (w : (⟨2, ![K, C]⟩ : Shape).Idx → EReal)
    (bv : (⟨1, ![C]⟩ : Shape).Idx → EReal) (hs : (⟨1, ![C]⟩ : Shape).ShapeCasts ⟨2, ![1, C]⟩) (j : (⟨2, ![N, C]⟩ : Shape).Idx) :
    linG x w (shapeCast ⟨2, ![1, C]⟩ bv hs) j = (∑ k : Fin K, x (ix2 (j 0) k) * w (ix2 k (j 1))) + bv (ix1 (j 1)) := by
  rw [linG_apply]
  exact congrArg (fun t => (∑ k : Fin K, x (ix2 (j 0) k) * w (ix2 k (j 1))) + t) (shapeCast_a_1a_apply bv hs 0 (j 1))

/-- The host's dot_general followed by the bias vector broadcast to the array and added. -/
theorem hostDotBias_apply (M K C : ℕ) (d : DotDims ⟨2, ![M, K]⟩ ⟨2, ![K, C]⟩ ⟨2, ![M, C]⟩) (hd : d = DotDims.plain M K C)
    (x : FVec Ideal ⟨2, ![M, K]⟩ .f32) (w : FVec Ideal ⟨2, ![K, C]⟩ .f32) (bv : FVec Ideal ⟨1, ![C]⟩ .f32)
    (hr1 : (⟨1, ![C]⟩ : Shape).BroadcastsInDim ⟨2, ![1, C]⟩ ![1]) (hr2 : (⟨2, ![1, C]⟩ : Shape).BroadcastsInDim ⟨2, ![M, C]⟩ ![0, 1])
    (j : (⟨2, ![M, C]⟩ : Shape).Idx) :
    addf (Host.dotGeneral d none x w) (broadcastInDim ⟨2, ![M, C]⟩ ![0, 1] hr2 (broadcastInDim ⟨2, ![1, C]⟩ ![1] hr1 bv)) j
      = (∑ k : Fin K, x (ix2 (j 0) k) * w (ix2 k (j 1))) + bv (ix1 (j 1)) := by
  obtain ⟨p, q, rfl⟩ : ∃ (p : Fin M) (q : Fin C), j = ix2 p q := ⟨j 0, j 1, eq_ix2 j⟩
  show Host.dotGeneral d none x w (ix2 p q) + broadcastInDim ⟨2, ![M, C]⟩ ![0, 1] hr2 (broadcastInDim ⟨2, ![1, C]⟩ ![1] hr1 bv) (ix2 p q) = _
  rw [hostDot_apply M K C d hd, bcastInDim_1b_ab_apply, bcastInDim_b_1b_apply]
  rfl

/-- The kernel's bias, LayerNorm and ELU over parameter vectors reshaped to rows, at (p, q). -/
theorem lnEluG_vec_rows {N C : ℕ} (cnt : EReal) (h : (⟨2, ![N, C]⟩ : Shape).Idx → EReal) (b g be : (⟨1, ![C]⟩ : Shape).Idx → EReal)
    (hs : (⟨1, ![C]⟩ : Shape).ShapeCasts ⟨2, ![1, C]⟩) (p : Fin N) (q : Fin C) :
    lnEluG cnt h (shapeCast ⟨2, ![1, C]⟩ b hs) (shapeCast ⟨2, ![1, C]⟩ g hs) (shapeCast ⟨2, ![1, C]⟩ be hs) (ix2 p q)
      = lnEluRow cnt (fun k => h (ix2 p k) + b (ix1 k)) (fun k => g (ix1 k)) (fun k => be (ix1 k)) q := by
  have e : ∀ (v : (⟨1, ![C]⟩ : Shape).Idx → EReal) (k : Fin C), shapeCast ⟨2, ![1, C]⟩ v hs (ix2 (0 : Fin 1) k) = v (ix1 k) :=
    fun v k => shapeCast_a_1a_apply v hs 0 k
  rw [lnEluG_apply]
  show lnEluRow cnt (fun k => h (ix2 p k) + shapeCast ⟨2, ![1, C]⟩ b hs (ix2 (0 : Fin 1) k)) (fun k => shapeCast ⟨2, ![1, C]⟩ g hs (ix2 (0 : Fin 1) k))
      (fun k => shapeCast ⟨2, ![1, C]⟩ be hs (ix2 (0 : Fin 1) k)) q = _
  simp only [e]

/-- The same with a zero bias vector: the row itself is normalised. -/
theorem lnEluG_zero_vec_rows {N C : ℕ} (cnt : EReal) (h : (⟨2, ![N, C]⟩ : Shape).Idx → EReal) (g be : (⟨1, ![C]⟩ : Shape).Idx → EReal)
    (hb : (⟨0, ![]⟩ : Shape).BroadcastsInDim ⟨1, ![C]⟩ ![]) (hs : (⟨1, ![C]⟩ : Shape).ShapeCasts ⟨2, ![1, C]⟩) (p : Fin N) (q : Fin C) :
    lnEluG cnt h (shapeCast ⟨2, ![1, C]⟩ (broadcastInDim ⟨1, ![C]⟩ ![] hb (constant (F := Ideal) ⟨0, ![]⟩ .f32 0x00000000#32)) hs)
        (shapeCast ⟨2, ![1, C]⟩ g hs) (shapeCast ⟨2, ![1, C]⟩ be hs) (ix2 p q)
      = lnEluRow cnt (fun k => h (ix2 p k)) (fun k => g (ix1 k)) (fun k => be (ix1 k)) q := by
  rw [lnEluG_vec_rows]
  refine congrArg (fun z => lnEluRow cnt z _ _ q) (funext fun k => ?_)
  rw [broadcastInDim_scalar_apply]
  show _ + Ideal.ofBits .f32 0x00000000#32 = _
  rw [Ideal.ofBits_zero_f32, add_zero]

end Cert.GcnSpec

end
-- ==== Proof.Bridge.lean ====
/-
  The two programs compute one function of the twenty argument arrays.

  Layer by layer: each feature product is the same sum of products (the kernel's bfloat16 operands and zero bias row
  change nothing over the extended reals); the aggregation along the edges is the same composition of the same
  gathers, products and scatter-adds on both sides, applied to equal operands; each bias + LayerNorm + ELU is
  the same row function; and the two closing linear layers and the normalisation between them likewise.
-/
import proofs.«155585_j22110491640565_1_alg».proof.Proof.KStages
import proofs.«155585_j22110491640565_1_alg».proof.Proof.RefRunStages
import proofs.«155585_j22110491640565_1_alg».proof.Proof.BridgeOps

set_option maxRecDepth 16384

noncomputable section

namespace Cert.Bridge

open Cert.KernelIdeal Cert.ReferenceIdeal Cert.GcnSpec Idealize.ShloMosaic Idealize.ShloMosaic.ValueIdx

/-- The edge rows, the inverse root degrees and the aggregation are the same compositions of the same host
    operations in both programs. -/
theorem src_eq (a1 : IVec ⟨2, ![2, 1600000]⟩ 32) : RefRun.srcOf (F := Ideal) a1 = KVal.srcOf (F := Ideal) a1 := rfl
theorem dst_eq (a1 : IVec ⟨2, ![2, 1600000]⟩ 32) : RefRun.dstOf (F := Ideal) a1 = KVal.dstOf (F := Ideal) a1 := rfl
theorem dinv_eq (d : IVec ⟨1, ![1600000]⟩ 32) : RefRun.dinvOf (F := Ideal) d = KVal.dinvOf (F := Ideal) d := rfl
theorem agg64_eq (s d : IVec ⟨1, ![1600000]⟩ 32) (dinv : FVec Ideal ⟨1, ![100000]⟩ .f32) (xw : FVec Ideal ⟨2, ![100000, 64]⟩ .f32) :
    RefRun.agg64 (F := Ideal) s d dinv xw = KVal.agg64 (F := Ideal) s d dinv xw := rfl
theorem agg128_eq (s d : IVec ⟨1, ![1600000]⟩ 32) (dinv : FVec Ideal ⟨1, ![100000]⟩ .f32) (xw : FVec Ideal ⟨2, ![100000, 128]⟩ .f32) :
    RefRun.agg128 (F := Ideal) s d dinv xw = KVal.agg128 (F := Ideal) s d dinv xw := rfl

/-- The feature product of layer 1: the kernel's dense region with a zero bias row is the reference's dot_general. -/
theorem dot1_eq (x : (⟨2, ![100000, 128]⟩ : Shape).Idx → EReal) (w : (⟨2, ![128, 64]⟩ : Shape).Idx → EReal) :
    linG x w (shapeCast ⟨2, ![1, 64]⟩ (broadcastInDim ⟨1, ![64]⟩ ![] Cert.KernelIdeal.Gen.bcast_S_S64 (constant (F := Ideal) ⟨0, ![]⟩ .f32 0x00000000#32))
        Cert.KernelIdeal.Gen.shapeCasts_S64_S1x64)
      = RefRun.dot1 (F := Ideal) x w :=
  funext fun j => (linG_zero_row x w _ _ j).trans (hostDot_apply 100000 128 64 _ rfl x w j).symm

/-- The feature product of layer 2: the kernel's dense region with a zero bias row is the reference's dot_general. -/
theorem dot2_eq (x : (⟨2, ![100000, 64]⟩ : Shape).Idx → EReal) (w : (⟨2, ![64, 128]⟩ : Shape).Idx → EReal) :
    linG x w (shapeCast ⟨2, ![1, 128]⟩ (broadcastInDim ⟨1, ![128]⟩ ![] Cert.KernelIdeal.Gen.bcast_S_S128 (constant (F := Ideal) ⟨0, ![]⟩ .f32 0x00000000#32))
        Cert.KernelIdeal.Gen.shapeCasts_S128_S1x128)
      = RefRun.dot2 (F := Ideal) x w :=
  funext fun j => (linG_zero_row x w _ _ j).trans (hostDot_apply 100000 64 128 _ rfl x w j).symm

/-- The feature product of layer 3: the kernel's dense region with a zero bias row is the reference's dot_general. -/
theorem dot3_eq (x : (⟨2, ![100000, 128]⟩ : Shape).Idx → EReal) (w : (⟨2, ![128, 64]⟩ : Shape).Idx → EReal) :
    linG x w (shapeCast ⟨2, ![1, 64]⟩ (broadcastInDim ⟨1, ![64]⟩ ![] Cert.KernelIdeal.Gen.bcast_S_S64 (constant (F := Ideal) ⟨0, ![]⟩ .f32 0x00000000#32))
        Cert.KernelIdeal.Gen.shapeCasts_S64_S1x64)
      = RefRun.dot3 (F := Ideal) x w :=
  funext fun j => (linG_zero_row x w _ _ j).trans (hostDot_apply 100000 128 64 _ rfl x w j).symm

/-- The products of layers 1 and 3 have the same extents: the reference's two definitions are one function. -/
theorem dot3_dot1 (x : (⟨2, ![100000, 128]⟩ : Shape).Idx → EReal) (w : (⟨2, ![128, 64]⟩ : Shape).Idx → EReal) :
    RefRun.dot3 (F := Ideal) x w = RefRun.dot1 (F := Ideal) x w := rfl

/-- Linear layer 4: the kernel's dense region with the bias vector as its row is the reference's dot_general plus the broadcast bias. -/
theorem dot4b_eq (x : (⟨2, ![100000, 64]⟩ : Shape).Idx → EReal) (w : (⟨2, ![64, 32]⟩ : Shape).Idx → EReal) (b : (⟨1, ![32]⟩ : Shape).Idx → EReal) :
    linG x w (shapeCast ⟨2, ![1, 32]⟩ b Cert.KernelIdeal.Gen.shapeCasts_S32_S1x32) = RefRun.dot4b (F := Ideal) x w b :=
  funext fun j => (linG_vec_row x w b _ j).trans (hostDotBias_apply 100000 64 32 _ rfl x w b _ _ j).symm

/-- Linear layer 5: the kernel's dense region with the bias vector as its row is the reference's dot_general plus the broadcast bias. -/
theorem dot5b_eq (x : (⟨2, ![100000, 32]⟩ : Shape).Idx → EReal) (w : (⟨2, ![32, 32]⟩ : Shape).Idx → EReal) (b : (⟨1, ![32]⟩ : Shape).Idx → EReal) :
    linG x w (shapeCast ⟨2, ![1, 32]⟩ b Cert.KernelIdeal.Gen.shapeCasts_S32_S1x32) = RefRun.dot5b (F := Ideal) x w b :=
  funext fun j => (linG_vec_row x w b _ j).trans (hostDotBias_apply 100000 32 32 _ rfl x w b _ _ j).symm

/-! The reference's host chains at the three widths are the generic host chains at those extents, and a convolution is
    its aggregation plus the bias: each by unfolding the definitions, stated once so that no later step has to compare
    the full-size arrays' terms. -/

/-- The reference's ELU at width 64 is the host ELU chain at those extents: the same operations in the same order. -/
theorem refElu64_host (x : FVec Ideal ⟨2, ![100000, 64]⟩ .f32) :
    RefRun.elu64 (F := Ideal) x = hostElu 100000 64 Cert.ReferenceIdeal.Gen.bcast_S_S100000x64 x := rfl

/-- The reference's LayerNorm chain at width 64 is the host chain at those extents and that feature count. -/
theorem refLn64_host (x : FVec Ideal ⟨2, ![100000, 64]⟩ .f32) (g be : FVec Ideal ⟨1, ![64]⟩ .f32) :
    RefRun.ln64 (F := Ideal) x g be
      = hostLnHn 100000 64 0x42800000#32 Cert.ReferenceIdeal.Gen.reducesTo_S100000x64_S100000_d1 Cert.ReferenceIdeal.Gen.h_S_ Cert.ReferenceIdeal.Gen.bcast_S100000_S100000x1_0 Cert.ReferenceIdeal.Gen.bcast_S_S100000x1
          Cert.ReferenceIdeal.Gen.bcast_S100000x1_S100000x64_0_1 Cert.ReferenceIdeal.Gen.bcast_S64_S1x64_1 Cert.ReferenceIdeal.Gen.bcast_S1x64_S100000x64_0_1 x g be := rfl

/-- The reference's ELU at width 128 is the host ELU chain at those extents: the same operations in the same order. -/
theorem refElu128_host (x : FVec Ideal ⟨2, ![100000, 128]⟩ .f32) :
    RefRun.elu128 (F := Ideal) x = hostElu 100000 128 Cert.ReferenceIdeal.Gen.bcast_S_S100000x128 x := rfl

/-- The reference's LayerNorm chain at width 128 is the host chain at those extents and that feature count. -/
theorem refLn128_host (x : FVec Ideal ⟨2, ![100000, 128]⟩ .f32) (g be : FVec Ideal ⟨1, ![128]⟩ .f32) :
    RefRun.ln128 (F := Ideal) x g be
      = hostLnHn 100000 128 0x43000000#32 Cert.ReferenceIdeal.Gen.reducesTo_S100000x128_S100000_d1 Cert.ReferenceIdeal.Gen.h_S_ Cert.ReferenceIdeal.Gen.bcast_S100000_S100000x1_0 Cert.ReferenceIdeal.Gen.bcast_S_S100000x1
          Cert.ReferenceIdeal.Gen.bcast_S100000x1_S100000x128_0_1 Cert.ReferenceIdeal.Gen.bcast_S128_S1x128_1 Cert.ReferenceIdeal.Gen.bcast_S1x128_S100000x128_0_1 x g be := rfl

/-- The reference's ELU at width 32 is the host ELU chain at those extents: the same operations in the same order. -/
theorem refElu32_host (x : FVec Ideal ⟨2, ![100000, 32]⟩ .f32) :
    RefRun.elu32 (F := Ideal) x = hostElu 100000 32 Cert.ReferenceIdeal.Gen.bcast_S_S100000x32 x := rfl

/-- The reference's LayerNorm chain at width 32 is the host chain at those extents and that feature count. -/
theorem refLn32_host (x : FVec Ideal ⟨2, ![100000, 32]⟩ .f32) (g be : FVec Ideal ⟨1, ![32]⟩ .f32) :
    RefRun.ln32 (F := Ideal) x g be
      = hostLnHn 100000 32 0x42000000#32 Cert.ReferenceIdeal.Gen.reducesTo_S100000x32_S100000_d1 Cert.ReferenceIdeal.Gen.h_S_ Cert.ReferenceIdeal.Gen.bcast_S100000_S100000x1_0 Cert.ReferenceIdeal.Gen.bcast_S_S100000x1
          Cert.ReferenceIdeal.Gen.bcast_S100000x1_S100000x32_0_1 Cert.ReferenceIdeal.Gen.bcast_S32_S1x32_1 Cert.ReferenceIdeal.Gen.bcast_S1x32_S100000x32_0_1 x g be := rfl

/-- The convolution at width 64 is the aggregation plus the bias on every row: its definition, one step. -/
theorem conv64_unfold (s d : IVec ⟨1, ![1600000]⟩ 32) (xw : FVec Ideal ⟨2, ![100000, 64]⟩ .f32) (b : FVec Ideal ⟨1, ![64]⟩ .f32) :
    RefRun.conv64 (F := Ideal) s d xw b
      = addf (RefRun.agg64 (F := Ideal) s d (RefRun.dinvOf d) xw)
          (broadcastInDim ⟨2, ![100000, 64]⟩ ![0, 1] Cert.ReferenceIdeal.Gen.bcast_S1x64_S100000x64_0_1 (broadcastInDim ⟨2, ![1, 64]⟩ ![1] Cert.ReferenceIdeal.Gen.bcast_S64_S1x64_1 b)) := rfl

/-- The convolution at width 128 is the aggregation plus the bias on every row: its definition, one step. -/
theorem conv128_unfold (s d : IVec ⟨1, ![1600000]⟩ 32) (xw : FVec Ideal ⟨2, ![100000, 128]⟩ .f32) (b : FVec Ideal ⟨1, ![128]⟩ .f32) :
    RefRun.conv128 (F := Ideal) s d xw b
      = addf (RefRun.agg128 (F := Ideal) s d (RefRun.dinvOf d) xw)
          (broadcastInDim ⟨2, ![100000, 128]⟩ ![0, 1] Cert.ReferenceIdeal.Gen.bcast_S1x128_S100000x128_0_1 (broadcastInDim ⟨2, ![1, 128]⟩ ![1] Cert.ReferenceIdeal.Gen.bcast_S128_S1x128_1 b)) := rfl

/-- A graph-convolution layer at width 64 after the feature product: aggregation along the edges, bias, LayerNorm, ELU.
    The kernel's region normalises the aggregated array with the bias row added inside; the reference adds the bias
    to the aggregation and runs its LayerNorm chain and ELU on the host. Row by row they are one function. -/
theorem layer64_eq (s d : IVec ⟨1, ![1600000]⟩ 32) (xw : (⟨2, ![100000, 64]⟩ : Shape).Idx → EReal) (b g be : (⟨1, ![64]⟩ : Shape).Idx → EReal) :
    lnEluG (Ideal.ofBits .f32 0x42800000#32) (KVal.agg64 (F := Ideal) s d (KVal.dinvOf d) xw)
        (shapeCast ⟨2, ![1, 64]⟩ b Cert.KernelIdeal.Gen.shapeCasts_S64_S1x64) (shapeCast ⟨2, ![1, 64]⟩ g Cert.KernelIdeal.Gen.shapeCasts_S64_S1x64)
        (shapeCast ⟨2, ![1, 64]⟩ be Cert.KernelIdeal.Gen.shapeCasts_S64_S1x64)
      = RefRun.elu64 (F := Ideal) (RefRun.ln64 (RefRun.conv64 s d xw b) g be) := by
  funext i
  obtain ⟨p, q, rfl⟩ : ∃ (p : Fin 100000) (q : Fin 64), i = ix2 p q := ⟨i 0, i 1, eq_ix2 i⟩
  rw [lnEluG_vec_rows, refElu64_host, refLn64_host, hostLnElu_apply 100000 64 0x42800000#32 Cert.ReferenceIdeal.Gen.reducesTo_S100000x64_S100000_d1 (by decide) Cert.ReferenceIdeal.Gen.h_S_ Cert.ReferenceIdeal.Gen.bcast_S100000_S100000x1_0 Cert.ReferenceIdeal.Gen.bcast_S_S100000x1 Cert.ReferenceIdeal.Gen.bcast_S100000x1_S100000x64_0_1 Cert.ReferenceIdeal.Gen.bcast_S64_S1x64_1 Cert.ReferenceIdeal.Gen.bcast_S1x64_S100000x64_0_1 Cert.ReferenceIdeal.Gen.bcast_S_S100000x64]
  refine congrArg (fun z => lnEluRow _ z _ _ q) (funext fun k => ?_)
  rw [conv64_unfold, addf_apply, bcastInDim_1b_ab_apply, bcastInDim_b_1b_apply, dinv_eq, agg64_eq]

/-- A graph-convolution layer at width 128 after the feature product: aggregation along the edges, bias, LayerNorm, ELU.
    The kernel's region normalises the aggregated array with the bias row added inside; the reference adds the bias
    to the aggregation and runs its LayerNorm chain and ELU on the host. Row by row they are one function. -/
theorem layer128_eq (s d : IVec ⟨1, ![1600000]⟩ 32) (xw : (⟨2, ![100000, 128]⟩ : Shape).Idx → EReal) (b g be : (⟨1, ![128]⟩ : Shape).Idx → EReal) :
    lnEluG (Ideal.ofBits .f32 0x43000000#32) (KVal.agg128 (F := Ideal) s d (KVal.dinvOf d) xw)
        (shapeCast ⟨2, ![1, 128]⟩ b Cert.KernelIdeal.Gen.shapeCasts_S128_S1x128) (shapeCast ⟨2, ![1, 128]⟩ g Cert.KernelIdeal.Gen.shapeCasts_S128_S1x128)
        (shapeCast ⟨2, ![1, 128]⟩ be Cert.KernelIdeal.Gen.shapeCasts_S128_S1x128)
      = RefRun.elu128 (F := Ideal) (RefRun.ln128 (RefRun.conv128 s d xw b) g be) := by
  funext i
  obtain ⟨p, q, rfl⟩ : ∃ (p : Fin 100000) (q : Fin 128), i = ix2 p q := ⟨i 0, i 1, eq_ix2 i⟩
  rw [lnEluG_vec_rows, refElu128_host, refLn128_host, hostLnElu_apply 100000 128 0x43000000#32 Cert.ReferenceIdeal.Gen.reducesTo_S100000x128_S100000_d1 (by decide) Cert.ReferenceIdeal.Gen.h_S_ Cert.ReferenceIdeal.Gen.bcast_S100000_S100000x1_0 Cert.ReferenceIdeal.Gen.bcast_S_S100000x1 Cert.ReferenceIdeal.Gen.bcast_S100000x1_S100000x128_0_1 Cert.ReferenceIdeal.Gen.bcast_S128_S1x128_1 Cert.ReferenceIdeal.Gen.bcast_S1x128_S100000x128_0_1 Cert.ReferenceIdeal.Gen.bcast_S_S100000x128]
  refine congrArg (fun z => lnEluRow _ z _ _ q) (funext fun k => ?_)
  rw [conv128_unfold, addf_apply, bcastInDim_1b_ab_apply, bcastInDim_b_1b_apply, dinv_eq, agg128_eq]

/-- The normalisation between the two closing linear layers: the kernel's region has a zero bias row, the reference
    normalises the array itself. -/
theorem ln32_eq (t : (⟨2, ![100000, 32]⟩ : Shape).Idx → EReal) (g be : (⟨1, ![32]⟩ : Shape).Idx → EReal) :
    lnEluG (Ideal.ofBits .f32 0x42000000#32) t
        (shapeCast ⟨2, ![1, 32]⟩ (broadcastInDim ⟨1, ![32]⟩ ![] Cert.KernelIdeal.Gen.bcast_S_S32 (constant (F := Ideal) ⟨0, ![]⟩ .f32 0x00000000#32))
          Cert.KernelIdeal.Gen.shapeCasts_S32_S1x32)
        (shapeCast ⟨2, ![1, 32]⟩ g Cert.KernelIdeal.Gen.shapeCasts_S32_S1x32) (shapeCast ⟨2, ![1, 32]⟩ be Cert.KernelIdeal.Gen.shapeCasts_S32_S1x32)
      = RefRun.elu32 (F := Ideal) (RefRun.ln32 t g be) := by
  funext i
  obtain ⟨p, q, rfl⟩ : ∃ (p : Fin 100000) (q : Fin 32), i = ix2 p q := ⟨i 0, i 1, eq_ix2 i⟩
  rw [lnEluG_zero_vec_rows, refElu32_host, refLn32_host, hostLnElu_apply 100000 32 0x42000000#32 Cert.ReferenceIdeal.Gen.reducesTo_S100000x32_S100000_d1 (by decide) Cert.ReferenceIdeal.Gen.h_S_ Cert.ReferenceIdeal.Gen.bcast_S100000_S100000x1_0 Cert.ReferenceIdeal.Gen.bcast_S_S100000x1 Cert.ReferenceIdeal.Gen.bcast_S100000x1_S100000x32_0_1 Cert.ReferenceIdeal.Gen.bcast_S32_S1x32_1 Cert.ReferenceIdeal.Gen.bcast_S1x32_S100000x32_0_1 Cert.ReferenceIdeal.Gen.bcast_S_S100000x32]

end Cert.Bridge

end
-- ==== Proof.BridgeWhole.lean ====
/-
  The reference's composition of its stages is the kernel's composition of its regions and stages, on any twenty arrays.
-/
import proofs.«155585_j22110491640565_1_alg».proof.Proof.KChainValue
import proofs.«155585_j22110491640565_1_alg».proof.Proof.Bridge

set_option maxRecDepth 16384

noncomputable section

namespace Cert.Bridge

open Cert.KernelIdeal Cert.ReferenceIdeal Cert.GcnSpec Idealize.ShloMosaic Idealize.ShloMosaic.ValueIdx

/-- THE WHOLE PROGRAMS: the reference's composition of its stages is the kernel's composition of its regions and stages. -/
theorem whole_eq (a0 : (⟨2, ![100000, 128]⟩ : Shape).Idx → EReal) (a1 : IVec ⟨2, ![2, 1600000]⟩ 32)
    (a2 : (⟨2, ![128, 64]⟩ : Shape).Idx → EReal) (a3 a4 a5 : (⟨1, ![64]⟩ : Shape).Idx → EReal)
    (a6 : (⟨2, ![64, 128]⟩ : Shape).Idx → EReal) (a7 a8 a9 : (⟨1, ![128]⟩ : Shape).Idx → EReal)
    (a10 : (⟨2, ![128, 64]⟩ : Shape).Idx → EReal) (a11 a12 a13 : (⟨1, ![64]⟩ : Shape).Idx → EReal)
    (a14 : (⟨2, ![64, 32]⟩ : Shape).Idx → EReal) (a15 a16 a17 : (⟨1, ![32]⟩ : Shape).Idx → EReal)
    (a18 : (⟨2, ![32, 32]⟩ : Shape).Idx → EReal) (a19 : (⟨1, ![32]⟩ : Shape).Idx → EReal) :
    RefRun.out (F := Ideal) a0 a1 a2 a3 a4 a5 a6 a7 a8 a9 a10 a11 a12 a13 a14 a15 a16 a17 a18 a19
      = KVal.KWhole a0 a1 a2 a3 a4 a5 a6 a7 a8 a9 a10 a11 a12 a13 a14 a15 a16 a17 a18 a19 := by
  unfold RefRun.out KVal.KWhole
  rw [src_eq, dst_eq, dot1_eq, layer64_eq, dot2_eq, layer128_eq, dot3_eq, layer64_eq, dot4b_eq, ln32_eq, dot5b_eq]
  -- layers 1 and 3 share their product's extents, so the two rewrites above may have named either product by the other's definition
  simp only [dot3_dot1]

end Cert.Bridge

end
-- ==== Proof.lean ====
/-
  A three-layer graph convolutional network — per layer a feature product, a symmetric-normalised aggregation
  along the edges, and bias + LayerNorm + ELU — followed by a linear layer, a LayerNorm + ELU and a last linear
  layer. The kernel program runs the dense parts as nine tiled regions (20 blocks of 5000 rows each) and the
  gathers and scatter-adds on the host; the reference is plain array code. Over the extended reals both compute
  the same function of the twenty argument arrays:

  * the frames: the kernel's (at both instances) by its regions' frame, the reference's by its run;
  * nothing was rewritten by the idealisation, so that claim is trivial;
  * the value: the kernel's result buffer, read back through the nine regions and the host stretches between
    them, is `KWhole` of the arguments; the reference's result, read through its host operations, is `out` of
    the arguments; and `out = KWhole`: the feature products are the same sums of products, the aggregation is
    the same composition of gathers, products and scatter-adds, and the normalisation with its activation is
    the same function of a row.
-/
import proofs.«155585_j22110491640565_1_alg».proof.Defs
import proofs.«155585_j22110491640565_1_alg».proof.Proof.Gen.Kernel
import proofs.«155585_j22110491640565_1_alg».proof.Proof.Gen.Kernel.Skeleton
import proofs.«155585_j22110491640565_1_alg».proof.Proof.Gen.Kernel.Launch
import proofs.«155585_j22110491640565_1_alg».proof.Proof.Gen.Kernel.Points
import proofs.«155585_j22110491640565_1_alg».proof.Proof.Gen.Kernel.Frame
import proofs.«155585_j22110491640565_1_alg».proof.Proof.Gen.KernelIdeal
import proofs.«155585_j22110491640565_1_alg».proof.Proof.Gen.KernelIdeal.Skeleton
import proofs.«155585_j22110491640565_1_alg».proof.Proof.Gen.KernelIdeal.Launch
import proofs.«155585_j22110491640565_1_alg».proof.Proof.Gen.KernelIdeal.Points
import proofs.«155585_j22110491640565_1_alg».proof.Proof.Gen.KernelIdeal.Frame
import proofs.«155585_j22110491640565_1_alg».proof.Proof.Gen.ReferenceIdeal
import proofs.«155585_j22110491640565_1_alg».proof.Proof.Gen.Pre_finite_inputs
import proofs.«155585_j22110491640565_1_alg».proof.Proof.KRun
import proofs.«155585_j22110491640565_1_alg».proof.Proof.KChainValue
import proofs.«155585_j22110491640565_1_alg».proof.Proof.RefRun
import proofs.«155585_j22110491640565_1_alg».proof.Proof.RefRunRead
import proofs.«155585_j22110491640565_1_alg».proof.Proof.BridgeWhole
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem preserves : Cert.preserves_Kernel_KernelIdeal := trivial

/-- Both programs end with the whole-network function of the (agreeing) argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KVal.KWhole
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact Cert.KernelIdeal.KVal.run_value m ρ
  · refine (θ_run Cert.ReferenceIdeal.defs _ _).mono (fun r h c => ⟨(h c).1.trans ?_, (h c).2⟩)
      (Cert.ReferenceIdeal.RefRun.run_out (F := Ideal) m' ρ')
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e16, e17, e18, e19]
    exact Cert.Bridge.whole_eq _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
